-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg15 : FVec F S128 .f32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg12 : FVec F S128x128 .f32) (main_arg13 : FVec F S128 .f32) (main_arg14 : FVec F S128x128 .f32) (main_arg15 : FVec F S128 .f32) (main_arg16 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_v63 main_v67

def fn_part2 {F : FTy → Type} [FloatOps F] (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128x128 .f32) (main_arg13 : FVec F S128 .f32) (main_arg14 : FVec F S128x128 .f32) (main_arg15 : FVec F S128 .f32) (main_arg16 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S10000x128 : Shape := ⟨2, ![10000, 128]⟩

abbrev nBuf : Space → Nat
  | .hbm => 121
  | .vmem => 57
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .f32⟩
  | .hbm, ⟨22, _⟩ => ⟨S800000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S1x128, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S50000x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S1x128, .f32⟩
  | .hbm, ⟨79, _⟩ => ⟨S1x128, .f32⟩
  | .hbm, ⟨80, _⟩ => ⟨S_, .f32⟩
  | .hbm, ⟨81, _⟩ => ⟨S1x128, .f32⟩
  | .hbm, ⟨82, _⟩ => ⟨S1x128, .f32⟩
  | .hbm, ⟨83, _⟩ => ⟨S_, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S50000x128, .f32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000x128, .f32⟩
  | .hbm, ⟨100, _⟩ => ⟨S_, .f32⟩
  | .hbm, ⟨101, _⟩ => ⟨S50000x128, .f32⟩
  | .hbm, ⟨102, _⟩ => ⟨S800000x1, .i32⟩
  | .hbm, ⟨103, _⟩ => ⟨S50000x128, .f32⟩
  | .hbm, ⟨104, _⟩ => ⟨S50000x128, .f32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S1x128, .f32⟩
  | .hbm, ⟨109, _⟩ => ⟨S1x128, .f32⟩
  | .hbm, ⟨110, _⟩ => ⟨S_, .f32⟩
  | .hbm, ⟨111, _⟩ => ⟨S1x128, .f32⟩
  | .hbm, ⟨112, _⟩ => ⟨S1x128, .f32⟩
  | .hbm, ⟨113, _⟩ => ⟨S_, .f32⟩
  | .hbm, ⟨114, _⟩ => ⟨S1x128, .f32⟩
  | .hbm, ⟨115, _⟩ => ⟨S1x128, .f32⟩
  | .hbm, ⟨116, _⟩ => ⟨S1x128, .f32⟩
  | .hbm, ⟨117, _⟩ => ⟨S1x128, .f32⟩
  | .hbm, ⟨118, _⟩ => ⟨S1x128, .f32⟩
  | .hbm, ⟨119, _⟩ => ⟨S1x128, .f32⟩
  | .hbm, ⟨120, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S10000x128, .f32⟩
  | .local _ .vmem, ⟨8, _⟩ => ⟨S10000x128, .f32⟩
  | .local _ .vmem, ⟨9, _⟩ => ⟨S1x128, .f32⟩
  | .local _ .vmem, ⟨10, _⟩ => ⟨S1x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | .local _ .vmem, ⟨28, _⟩ => ⟨S1x128, .f32⟩
  | .local _ .vmem, ⟨29, _⟩ => ⟨S1x128, .f32⟩
  | .local _ .vmem, ⟨30, _⟩ => ⟨S10000x128, .f32⟩
  | .local _ .vmem, ⟨31, _⟩ => ⟨S10000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S10000x128, .f32⟩
  | .local _ .vmem, ⟨37, _⟩ => ⟨S10000x128, .f32⟩
  | .local _ .vmem, ⟨38, _⟩ => ⟨S10000x128, .f32⟩
  | .local _ .vmem, ⟨39, _⟩ => ⟨S10000x128, .f32⟩
  | .local _ .vmem, ⟨40, _⟩ => ⟨S10000x128, .f32⟩
  | .local _ .vmem, ⟨41, _⟩ => ⟨S10000x128, .f32⟩
  | .local _ .vmem, ⟨42, _⟩ => ⟨S128x128, .f32⟩
  | .local _ .vmem, ⟨43, _⟩ => ⟨S128x128, .f32⟩
  | .local _ .vmem, ⟨44, _⟩ => ⟨S1x128, .f32⟩
  | .local _ .vmem, ⟨45, _⟩ => ⟨S10000x128, .f32⟩
  | .local _ .vmem, ⟨46, _⟩ => ⟨S10000x128, .f32⟩
  | .local _ .vmem, ⟨47, _⟩ => ⟨S1x128, .f32⟩
  | .local _ .vmem, ⟨48, _⟩ => ⟨S1x128, .f32⟩
  | .local _ .vmem, ⟨49, _⟩ => ⟨S10000x128, .f32⟩
  | .local _ .vmem, ⟨50, _⟩ => ⟨S10000x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S10000x128, .f32⟩
  | .local _ .vmem, ⟨56, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24_0 : Ref sig .tc := ⟨.hbm, 47, rfl⟩
abbrev main_v24_1 : Ref sig .tc := ⟨.hbm, 48, rfl⟩
abbrev main_v24_2 : Ref sig .tc := ⟨.hbm, 49, rfl⟩
abbrev main_cst_4 : Ref sig .tc := ⟨.hbm, 50, rfl⟩
abbrev main_v25 : Ref sig .tc := ⟨.hbm, 51, rfl⟩
abbrev main_v26 : Ref sig .tc := ⟨.hbm, 52, rfl⟩
abbrev main_cst_5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_6 : Ref sig .tc := ⟨.hbm, 61, rfl⟩
abbrev main_v34 : Ref sig .tc := ⟨.hbm, 62, rfl⟩
abbrev main_v35 : Ref sig .tc := ⟨.hbm, 63, rfl⟩
abbrev main_c_7 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47_0 : Ref sig .tc := ⟨.hbm, 77, rfl⟩
abbrev main_v47_1 : Ref sig .tc := ⟨.hbm, 78, rfl⟩
abbrev main_v47_2 : Ref sig .tc := ⟨.hbm, 79, rfl⟩
abbrev main_cst_9 : Ref sig .tc := ⟨.hbm, 80, rfl⟩
abbrev main_v48 : Ref sig .tc := ⟨.hbm, 81, rfl⟩
abbrev main_v49 : Ref sig .tc := ⟨.hbm, 82, rfl⟩
abbrev main_cst_10 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_11 : Ref sig .tc := ⟨.hbm, 91, rfl⟩
abbrev main_v57 : Ref sig .tc := ⟨.hbm, 92, rfl⟩
abbrev main_v58 : Ref sig .tc := ⟨.hbm, 93, rfl⟩
abbrev main_c_12 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_13 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70_0 : Ref sig .tc := ⟨.hbm, 107, rfl⟩
abbrev main_v70_1 : Ref sig .tc := ⟨.hbm, 108, rfl⟩
abbrev main_v70_2 : Ref sig .tc := ⟨.hbm, 109, rfl⟩
abbrev main_cst_14 : Ref sig .tc := ⟨.hbm, 110, rfl⟩
abbrev main_v71 : Ref sig .tc := ⟨.hbm, 111, rfl⟩
abbrev main_v72 : Ref sig .tc := ⟨.hbm, 112, rfl⟩
abbrev main_cst_15 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg5_1 : Ref sig .tc := ⟨.vmem, 46, rfl⟩
abbrev cc4_stg6_0 : Ref sig .tc := ⟨.vmem, 47, rfl⟩
abbrev cc4_stg7_0 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg5_1 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem5_1 : DmaSem sig := 46
abbrev cc4_sem6_0 : DmaSem sig := 47
abbrev cc4_sem7_0 : DmaSem sig := 48
abbrev cc5_sem0_0 : DmaSem sig := 49
abbrev cc5_sem0_1 : DmaSem sig := 50
abbrev cc5_sem1_0 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem5_1 : DmaSem sig := 56

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v22 : BitVec 1 := Scalar.cmpi .eq arg0 c0_i32
  let v23 : BitVec 32 := Scalar.extui v22
  let c0_i32_14 : BitVec 32 := 0#32
  let v24 : BitVec 1 := Scalar.cmpi .ne v23 c0_i32_14
  v24

def k0_cond2 (i : grid0.Coords) : BitVec 1 :=
  let arg0 : BitVec 32 := BitVec.ofNat 32 (i 0).val
  let c0_i32_15 : BitVec 32 := 0#32
  let v25 : BitVec 1 := Scalar.cmpi .sgt arg0 c0_i32_15
  let v26 : BitVec 32 := Scalar.extui v25
  let c0_i32_16 : BitVec 32 := 0#32
  let v27 : BitVec 1 := Scalar.cmpi .ne v26 c0_i32_16
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def k2_cond1 (i : grid2.Coords) : BitVec 1 :=
  let arg0 : BitVec 32 := BitVec.ofNat 32 (i 0).val
  let c0_i32 : BitVec 32 := 0#32
  let v23 : BitVec 1 := Scalar.cmpi .eq arg0 c0_i32
  let v24 : BitVec 32 := Scalar.extui v23
  let c0_i32_14 : BitVec 32 := 0#32
  let v25 : BitVec 1 := Scalar.cmpi .ne v24 c0_i32_14
  v25

def k2_cond2 (i : grid2.Coords) : BitVec 1 :=
  let arg0 : BitVec 32 := BitVec.ofNat 32 (i 0).val
  let c0_i32_15 : BitVec 32 := 0#32
  let v26 : BitVec 1 := Scalar.cmpi .sgt arg0 c0_i32_15
  let v27 : BitVec 32 := Scalar.extui v26
  let c0_i32_16 : BitVec 32 := 0#32
  let v28 : BitVec 1 := Scalar.cmpi .ne v27 c0_i32_16
  v28

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![5], ![false]⟩

def k4_cond1 (i : grid4.Coords) : BitVec 1 :=
  let arg0 : BitVec 32 := BitVec.ofNat 32 (i 0).val
  let c0_i32 : BitVec 32 := 0#32
  let v23 : BitVec 1 := Scalar.cmpi .eq arg0 c0_i32
  let v24 : BitVec 32 := Scalar.extui v23
  let c0_i32_14 : BitVec 32 := 0#32
  let v25 : BitVec 1 := Scalar.cmpi .ne v24 c0_i32_14
  v25

def k4_cond2 (i : grid4.Coords) : BitVec 1 :=
  let arg0 : BitVec 32 := BitVec.ofNat 32 (i 0).val
  let c0_i32_15 : BitVec 32 := 0#32
  let v26 : BitVec 1 := Scalar.cmpi .sgt arg0 c0_i32_15
  let v27 : BitVec 32 := Scalar.extui v26
  let c0_i32_16 : BitVec 32 := 0#32
  let v28 : BitVec 1 := Scalar.cmpi .ne v27 c0_i32_16
  v28

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S128 : S10000x128.Reduces [0] S128
  bcast_S_S1x128 : S_.BroadcastsInDim S1x128 (![] : Fin 0 → Fin S1x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x128_S10000x128_1_1_0_0_n_n_wf : DotDims.WF S10000x128 S128x128 S10000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S50000x128.size a
  hwx0_1 : ∀ i : grid0.Coords, EltTy.bits .f32 = 32 ∨ (Rect.block (s := S50000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S50000x128.size a
  hwx0_5 : ∀ i : grid0.Coords, EltTy.bits .f32 = 32 ∨ (Rect.block (s := S50000x128) S10000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S50000x128.size a
  hwx1_5 : ∀ i : grid1.Coords, EltTy.bits .f32 = 32 ∨ (Rect.block (s := S50000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S50000x128.size a
  hwx2_1 : ∀ i : grid2.Coords, EltTy.bits .f32 = 32 ∨ (Rect.block (s := S50000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S50000x128.size a
  hwx2_5 : ∀ i : grid2.Coords, EltTy.bits .f32 = 32 ∨ (Rect.block (s := S50000x128) S10000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S50000x128.size a
  hwx3_5 : ∀ i : grid3.Coords, EltTy.bits .f32 = 32 ∨ (Rect.block (s := S50000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S50000x128.size a
  hwx4_1 : ∀ i : grid4.Coords, EltTy.bits .f32 = 32 ∨ (Rect.block (s := S50000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x128.size a ≤ S50000x128.size a
  hwx4_5 : ∀ i : grid4.Coords, EltTy.bits .f32 = 32 ∨ (Rect.block (s := S50000x128) S10000x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S50000x128.size a
  hwx5_5 : ∀ i : grid5.Coords, EltTy.bits .f32 = 32 ∨ (Rect.block (s := S50000x128) S10000x128.size (cc5_transform_5 i) (hinb5_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf

abbrev win0_0 : Pipeline.Window sig grid0 :=
  Pipeline.Window.ofSpec (Memref.whole main_v22) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24_0) S10000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v24_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond1 i == 1#1) && !(k0_cond2 i == 1#1) | 7 => fun i => !(k0_cond1 i == 1#1) && !(k0_cond2 i == 1#1) | ⟨_ + 8, h⟩ => absurd h (Nat.not_lt.2 (Nat.le_add_left _ _))

abbrev win1_0 : Pipeline.Window sig grid1 :=
  Pipeline.Window.ofSpec (Memref.whole main_v24_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47_0) S10000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v47_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v47_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond1 i == 1#1) && !(k2_cond2 i == 1#1) | 7 => fun i => !(k2_cond1 i == 1#1) && !(k2_cond2 i == 1#1) | ⟨_ + 8, h⟩ => absurd h (Nat.not_lt.2 (Nat.le_add_left _ _))

abbrev win3_0 : Pipeline.Window sig grid3 :=
  Pipeline.Window.ofSpec (Memref.whole main_v47_0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v68) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v69) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v70_0) S10000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v70_1) S1x128.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v70_2) S1x128.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev idle4 : Fin 8 → grid4.Coords → Bool := fun | 0 => fun _ => false | 1 => fun _ => false | 2 => fun _ => false | 3 => fun _ => false | 4 => fun _ => false | 5 => fun _ => false | 6 => fun i => !(k4_cond1 i == 1#1) && !(k4_cond2 i == 1#1) | 7 => fun i => !(k4_cond1 i == 1#1) && !(k4_cond2 i == 1#1) | ⟨_ + 8, h⟩ => absurd h (Nat.not_lt.2 (Nat.le_add_left _ _))

abbrev win5_0 : Pipeline.Window sig grid5 :=
  Pipeline.Window.ofSpec (Memref.whole main_v70_0) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v77) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v78) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v79) S10000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 216
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S_, .f32⟩
  | 35 => ⟨S800000, .f32⟩
  | 36 => ⟨S_, .f32⟩
  | 37 => ⟨S50000, .f32⟩
  | 38 => ⟨S800000x1, .i32⟩
  | 39 => ⟨S50000, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S128x128, .f32⟩
  | 47 => ⟨S50000x128, .f32⟩
  | 48 => ⟨S1x128, .f32⟩
  | 49 => ⟨S50000x128, .f32⟩
  | 50 => ⟨S50000x128, .f32⟩
  | 51 => ⟨S128x128, .f32⟩
  | 52 => ⟨S50000x128, .f32⟩
  | 53 => ⟨S50000x128, .f32⟩
  | 54 => ⟨S_, .f32⟩
  | 55 => ⟨S128, .f32⟩
  | 56 => ⟨S_, .f32⟩
  | 57 => ⟨S128, .f32⟩
  | 58 => ⟨S128, .f32⟩
  | 59 => ⟨S1x128, .f32⟩
  | 60 => ⟨S50000x128, .f32⟩
  | 61 => ⟨S50000x128, .f32⟩
  | 62 => ⟨S50000x128, .f32⟩
  | 63 => ⟨S_, .f32⟩
  | 64 => ⟨S128, .f32⟩
  | 65 => ⟨S_, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S_, .f32⟩
  | 72 => ⟨S128, .f32⟩
  | 73 => ⟨S128, .f32⟩
  | 74 => ⟨S128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .f32⟩
  | 96 => ⟨S_, .f32⟩
  | 97 => ⟨S50000x128, .f32⟩
  | 98 => ⟨S800000x1, .i32⟩
  | 99 => ⟨S50000x128, .f32⟩
  | 100 => ⟨S_, .f32⟩
  | 101 => ⟨S800000, .f32⟩
  | 102 => ⟨S_, .f32⟩
  | 103 => ⟨S50000, .f32⟩
  | 104 => ⟨S800000x1, .i32⟩
  | 105 => ⟨S50000, .f32⟩
  | 106 => ⟨S_, .f32⟩
  | 107 => ⟨S50000, .f32⟩
  | 108 => ⟨S50000, .f32⟩
  | 109 => ⟨S50000x1, .f32⟩
  | 110 => ⟨S50000x128, .f32⟩
  | 111 => ⟨S50000x128, .f32⟩
  | 112 => ⟨S128x128, .f32⟩
  | 113 => ⟨S50000x128, .f32⟩
  | 114 => ⟨S1x128, .f32⟩
  | 115 => ⟨S50000x128, .f32⟩
  | 116 => ⟨S50000x128, .f32⟩
  | 117 => ⟨S128x128, .f32⟩
  | 118 => ⟨S50000x128, .f32⟩
  | 119 => ⟨S50000x128, .f32⟩
  | 120 => ⟨S_, .f32⟩
  | 121 => ⟨S128, .f32⟩
  | 122 => ⟨S_, .f32⟩
  | 123 => ⟨S128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S128, .f32⟩
  | 3 => ⟨S_, .f32⟩
  | 4 => ⟨S128, .f32⟩
  | 5 => ⟨S128, .f32⟩
  | 6 => ⟨S1x128, .f32⟩
  | 7 => ⟨S50000x128, .f32⟩
  | 8 => ⟨S50000x128, .f32⟩
  | 9 => ⟨S_, .f32⟩
  | 10 => ⟨S128, .f32⟩
  | 11 => ⟨S128, .f32⟩
  | 12 => ⟨S128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S_, .f32⟩
  | 35 => ⟨S50000x128, .f32⟩
  | 36 => ⟨S800000x1, .i32⟩
  | 37 => ⟨S50000x128, .f32⟩
  | 38 => ⟨S_, .f32⟩
  | 39 => ⟨S800000, .f32⟩
  | 40 => ⟨S_, .f32⟩
  | 41 => ⟨S50000, .f32⟩
  | 42 => ⟨S800000x1, .i32⟩
  | 43 => ⟨S50000, .f32⟩
  | 44 => ⟨S_, .f32⟩
  | 45 => ⟨S50000, .f32⟩
  | 46 => ⟨S50000, .f32⟩
  | 47 => ⟨S50000x1, .f32⟩
  | 48 => ⟨S50000x128, .f32⟩
  | 49 => ⟨S50000x128, .f32⟩
  | 50 => ⟨S128x128, .f32⟩
  | 51 => ⟨S50000x128, .f32⟩
  | 52 => ⟨S1x128, .f32⟩
  | 53 => ⟨S50000x128, .f32⟩
  | 54 => ⟨S50000x128, .f32⟩
  | 55 => ⟨S128x128, .f32⟩
  | 56 => ⟨S50000x128, .f32⟩
  | 57 => ⟨S50000x128, .f32⟩
  | 58 => ⟨S_, .f32⟩
  | 59 => ⟨S128, .f32⟩
  | 60 => ⟨S_, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S50000x128, .f32⟩
  | 67 => ⟨S_, .f32⟩
  | 68 => ⟨S128, .f32⟩
  | 69 => ⟨S_, .f32⟩
  | 70 => ⟨S128, .f32⟩
  | 71 => ⟨S128, .f32⟩
  | 72 => ⟨S1x128, .f32⟩
  | 73 => ⟨S50000x128, .f32⟩
  | 74 => ⟨S50000x128, .f32⟩
  | 75 => ⟨S_, .f32⟩
  | 76 => ⟨S128, .f32⟩
  | 77 => ⟨S128, .f32⟩
  | 78 => ⟨S128, .f32⟩
  | 79 => ⟨S1x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call0_cst : Ref sig .tc := ⟨.hbm, 84, rfl⟩
abbrev main_call0_v0 : Ref sig .tc := ⟨.hbm, 85, rfl⟩
abbrev main_v56 : Ref sig .tc := ⟨.hbm, 86, rfl⟩
abbrev main_c_9 : Ref sig .tc := ⟨.hbm, 87, rfl⟩
abbrev main_v57 : Ref sig .tc := ⟨.hbm, 88, rfl⟩
abbrev main_v58 : Ref sig .tc := ⟨.hbm, 89, rfl⟩
abbrev main_c_10 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_11 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_12 : Ref sig .tc := ⟨.hbm, 100, rfl⟩
abbrev main_v67 : Ref sig .tc := ⟨.hbm, 101, rfl⟩
abbrev main_cst_13 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_14 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_cst_16 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_17 : Ref sig .tc := ⟨.hbm, 129, rfl⟩
abbrev main_v91 : Ref sig .tc := ⟨.hbm, 130, rfl⟩
abbrev main_cst_18 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_19 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_call1_cst : Ref sig .tc := ⟨.hbm, 150, rfl⟩
abbrev main_call1_v0 : Ref sig .tc := ⟨.hbm, 151, rfl⟩
abbrev main_v109 : Ref sig .tc := ⟨.hbm, 152, rfl⟩
abbrev main_c_20 : Ref sig .tc := ⟨.hbm, 153, rfl⟩
abbrev main_v110 : Ref sig .tc := ⟨.hbm, 154, rfl⟩
abbrev main_v111 : Ref sig .tc := ⟨.hbm, 155, rfl⟩
abbrev main_c_21 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_22 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_23 : Ref sig .tc := ⟨.hbm, 166, rfl⟩
abbrev main_v120 : Ref sig .tc := ⟨.hbm, 167, rfl⟩
abbrev main_cst_24 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_cst_25 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_cst_26 : Ref sig .tc := ⟨.hbm, 186, rfl⟩
abbrev main_v137 : Ref sig .tc := ⟨.hbm, 187, rfl⟩
abbrev main_cst_27 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_cst_28 : Ref sig .tc := ⟨.hbm, 195, rfl⟩
abbrev main_v144 : Ref sig .tc := ⟨.hbm, 196, rfl⟩
abbrev main_cst_29 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_cst_30 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KI.Stats0.lean ====
/-
  Region 0 of the idealized kernel's program: the kernel `cc0__linear_stats_kernel` on a grid of five row tiles.
  At a grid point the body reads one 10000×128 tile of the aggregated neighbour means and one of the node features, the two
  128×128 weight matrices and the 1×128 bias, stores the tile of the linear output  mean·Wlᵀ + h·Wrᵀ + b  whole, and
  keeps two running 1×128 rows: the column sums of the linear output and of its squares. At the first point (the
  coordinate is 0) the two rows are stored afresh; at every later point (the coordinate is positive) each is read back
  and stored again with the tile's column sums added. The two rows' block index never moves and they are written back
  after the last point only, so at a later point the staging buffer holds what the point before left there.
  The two conditions are decided over the grid in closed form; between them they hold at every point, so the two
  running rows are never idle. Stated at any float instance `F`, at a parameter `V`: the TensorCore's buffer contents
  when the region is entered.
-/
import proofs.«139727_j46445776339648_1_alg».proof.Proof.Gen.KernelIdeal.Launch
import proofs.«139727_j46445776339648_1_alg».proof.Proof.Gen.KernelIdeal.Skeleton
import proofs.«139727_j46445776339648_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or kept from an
    earlier point (its block index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, whether fetched there or kept from an
    earlier point (its block index has not moved since). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, whether fetched there or kept from an
    earlier point (its block index has not moved since). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, whether fetched there or kept from an
    earlier point (its block index has not moved since). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, whether fetched there or kept from an
    earlier point (its block index has not moved since). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions, over the grid -/

/-- The first condition (the coordinate is 0) holds at the first point only. -/
theorem first0_iff : ∀ t : Fin cfg0.N, k0_cond1 (grid0.coords t) = 1#1 ↔ t.val = 0 :=
  (by decide +kernel : ∀ t : Fin grid0.N, k0_cond1 (grid0.coords t) = 1#1 ↔ t.val = 0)
/-- The second condition (the coordinate is positive) holds at every later point. -/
theorem later0_iff : ∀ t : Fin cfg0.N, k0_cond2 (grid0.coords t) = 1#1 ↔ t.val ≠ 0 :=
  (by decide +kernel : ∀ t : Fin grid0.N, k0_cond2 (grid0.coords t) = 1#1 ↔ t.val ≠ 0)
/-- At every grid coordinate one of the two conditions holds: the running rows are stored at every point. -/
theorem live0_6 : ∀ i : cfg0.grid.Coords, cfg0.idle 6 i = false :=
  (by decide +kernel : ∀ i : grid0.Coords, idle0 6 i = false)
theorem live0_7 : ∀ i : cfg0.grid.Coords, cfg0.idle 7 i = false :=
  (by decide +kernel : ∀ i : grid0.Coords, idle0 7 i = false)

/-! ## The rectangles of the body's accesses: each is a whole buffer -/

abbrev tile0 : Rect S10000x128 := Rect.unit (s := S10000x128) ![0, 0] S10000x128.size inb_S10000x128_S10000x128_0_0
abbrev sq0 : Rect S128x128 := Rect.unit (s := S128x128) ![0, 0] S128x128.size inb_S128x128_S128x128_0_0
abbrev row0 : Rect S1x128 := Rect.unit (s := S1x128) ![0, 0] S1x128.size inb_S1x128_S1x128_0_0

/-! ## What the body leaves in each output's staging buffer -/

/-- The linear output's tile (the same at every point): its one store. -/
def lin0 (x0 x1 : Vec F S10000x128 .f32) (x2 x3 : Vec F S128x128 .f32) (x4 : Vec F S1x128 .f32) : Vec F S10000x128 .f32 :=
  View.canon [⟨tile0, k0_pay1 (View.ld x0 tile0) (View.ld x1 tile0) (View.ld x2 sq0) (View.ld x3 sq0) (View.ld x4 row0)⟩]
/-- The column sums' row at the first point: the tile's column sums. -/
def sumFirst0 (x0 x1 : Vec F S10000x128 .f32) (x2 x3 : Vec F S128x128 .f32) (x4 : Vec F S1x128 .f32) : Vec F S1x128 .f32 :=
  View.canon [⟨row0, k0_pay2 (View.ld x0 tile0) (View.ld x1 tile0) (View.ld x2 sq0) (View.ld x3 sq0) (View.ld x4 row0)⟩]
/-- The squares' column sums' row at the first point. -/
def sqFirst0 (x0 x1 : Vec F S10000x128 .f32) (x2 x3 : Vec F S128x128 .f32) (x4 : Vec F S1x128 .f32) : Vec F S1x128 .f32 :=
  View.canon [⟨row0, k0_pay3 (View.ld x0 tile0) (View.ld x1 tile0) (View.ld x2 sq0) (View.ld x3 sq0) (View.ld x4 row0)⟩]
/-- The column sums' row at a later point: what it held, plus the tile's column sums. -/
def sumLater0 (x0 x1 : Vec F S10000x128 .f32) (x2 x3 : Vec F S128x128 .f32) (x4 : Vec F S1x128 .f32) (s : Vec F S1x128 .f32) : Vec F S1x128 .f32 :=
  View.canon [⟨row0, k0_pay4 (View.ld x0 tile0) (View.ld x1 tile0) (View.ld x2 sq0) (View.ld x3 sq0) (View.ld x4 row0) (View.ld s row0)⟩]
/-- The squares' column sums' row at a later point. -/
def sqLater0 (x0 x1 : Vec F S10000x128 .f32) (x2 x3 : Vec F S128x128 .f32) (x4 : Vec F S1x128 .f32) (s : Vec F S1x128 .f32) : Vec F S1x128 .f32 :=
  View.canon [⟨row0, k0_pay5 (View.ld x0 tile0) (View.ld x1 tile0) (View.ld x2 sq0) (View.ld x3 sq0) (View.ld x4 row0) (View.ld s row0)⟩]

theorem coverTile0 (p0 : Vec F S10000x128 .f32) (y : S10000x128.Idx) :
    ∃ pc ∈ ([⟨tile0, p0⟩] : List (View.Piece (Elt F) S10000x128 .f32)), y ∈ pc.1.set :=
  View.cover_of_tiled [⟨tile0, p0⟩] S10000x128.size (by rfl) y
theorem coverRow0 (p0 : Vec F S1x128 .f32) (y : S1x128.Idx) :
    ∃ pc ∈ ([⟨row0, p0⟩] : List (View.Piece (Elt F) S1x128 .f32)), y ∈ pc.1.set :=
  View.cover_of_tiled [⟨row0, p0⟩] S1x128.size (by rfl) y

/-! ## The body's run, in each of the two cases -/

set_option maxHeartbeats 1000000 in
/-- At a coordinate where the first condition holds and the second does not: from the inputs' staging memrefs at their
    contents and the three outputs' at anything, the body runs to its return with the inputs' as they were, the linear
    tile stored and the two running rows stored afresh. -/
theorem sound_first0 (c : Dev nD) (E : Set ℕ) (i : grid0.Coords) (hc1 : k0_cond1 i = 1#1) (hc2 : ¬ k0_cond2 i = 1#1)
    (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S10000x128 .f32) (harg6 : arg6.IsWhole) (arg7 : Memref sig .tc .vmem S1x128 .f32) (harg7 : arg7.IsWhole) (arg8 : Memref sig .tc .vmem S1x128 .f32) (harg8 : arg8.IsWhole)
    (x0 x1 : Vec F S10000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (lin0 x0 x1 x2 x3 x4)
            ∗ owns (c : Thread nD τ) arg7 fullShare (sumFirst0 x0 x1 x2 x3 x4)
            ∗ owns (c : Thread nD τ) arg8 fullShare (sqFirst0 x0 x1 x2 x3 x4)) -∗ K ⟨⟩))
      ⊢ wp frame (wpE (defs₀ (F := F)) Variants.none c none) E (cc0__linear_stats_kernel i arg1 harg1 arg2 harg2 arg3 harg3 arg4 harg4 arg5 harg5 arg6 harg6 arg7 harg7 arg8 harg8) K := by
  simp only [cc0__linear_stats_kernel_eq_skeleton]; unfold cc0__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverTile0 _)
  isplitl [H6]
  · iexists _; isplitr
    swap; · iexact H6
    ipureintro
    exact View.read_writes_eq_canon _ _ _ (coverRow0 _)
  iexists _; isplitr
  swap; · iexact H7
  ipureintro
  exact View.read_writes_eq_canon _ _ _ (coverRow0 _)

set_option maxHeartbeats 1000000 in
/-- At a coordinate where the second condition holds and the first does not: from the inputs' staging memrefs at their
    contents, the linear output's at anything and the two running rows' at their running contents `s6`, `s7`, the body
    runs to its return with the inputs' as they were, the linear tile stored and each running row stored with the
    tile's column sums added to what it held. -/
theorem sound_later0 (c : Dev nD) (E : Set ℕ) (i : grid0.Coords) (hc1 : ¬ k0_cond1 i = 1#1) (hc2 : k0_cond2 i = 1#1)
    (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S10000x128 .f32) (harg6 : arg6.IsWhole) (arg7 : Memref sig .tc .vmem S1x128 .f32) (harg7 : arg7.IsWhole) (arg8 : Memref sig .tc .vmem S1x128 .f32) (harg8 : arg8.IsWhole)
    (x0 x1 : Vec F S10000x128 .f32) (x2 x3 : Vec F S128x128 .f32) (x4 : Vec F S1x128 .f32) (s6 s7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare s6 ∗ owns (c : Thread nD τ) arg8 fullShare s7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (lin0 x0 x1 x2 x3 x4)
            ∗ owns (c : Thread nD τ) arg7 fullShare (sumLater0 x0 x1 x2 x3 x4 s6)
            ∗ owns (c : Thread nD τ) arg8 fullShare (sqLater0 x0 x1 x2 x3 x4 s7)) -∗ K ⟨⟩))
      ⊢ wp frame (wpE (defs₀ (F := F)) Variants.none c none) E (cc0__linear_stats_kernel i arg1 harg1 arg2 harg2 arg3 harg3 arg4 harg4 arg5 harg5 arg6 harg6 arg7 harg7 arg8 harg8) K := by
  simp only [cc0__linear_stats_kernel_eq_skeleton]; unfold cc0__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0; subst hf1; subst hf2; subst hf3; subst hf4; subst hf6; subst hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverTile0 _)
  isplitl [H6]
  · iexists _; isplitr
    swap; · iexact H6
    ipureintro
    exact View.read_writes_eq_canon _ _ _ (coverRow0 _)
  iexists _; isplitr
  swap; · iexact H7
  ipureintro
  exact View.read_writes_eq_canon _ _ _ (coverRow0 _)

/-! ## The running rows, point by point -/

/-- The column sums' row after the body at position `n`: the first point's, then each later point's over the one before. -/
def sumAt0 (c : Dev nD) : (n : ℕ) → n < cfg0.N → Vec F S1x128 .f32
  | 0, hn => sumFirst0 (iblk0 V c 0 ⟨0, hn⟩) (iblk0 V c 1 ⟨0, hn⟩) (iblk0 V c 2 ⟨0, hn⟩) (iblk0 V c 3 ⟨0, hn⟩) (iblk0 V c 4 ⟨0, hn⟩)
  | n + 1, hn => sumLater0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (sumAt0 c n (Nat.lt_of_succ_lt hn))
/-- The squares' column sums' row after the body at position `n`. -/
def sqAt0 (c : Dev nD) : (n : ℕ) → n < cfg0.N → Vec F S1x128 .f32
  | 0, hn => sqFirst0 (iblk0 V c 0 ⟨0, hn⟩) (iblk0 V c 1 ⟨0, hn⟩) (iblk0 V c 2 ⟨0, hn⟩) (iblk0 V c 3 ⟨0, hn⟩) (iblk0 V c 4 ⟨0, hn⟩)
  | n + 1, hn => sqLater0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (sqAt0 c n (Nat.lt_of_succ_lt hn))

theorem sumAt0_first (c : Dev nD) (t : Fin cfg0.N) (h0 : t.val = 0) :
    sumAt0 V c t.val t.isLt = sumFirst0 (iblk0 V c 0 t) (iblk0 V c 1 t) (iblk0 V c 2 t) (iblk0 V c 3 t) (iblk0 V c 4 t) := by
  obtain ⟨n, hn⟩ := t
  cases n with
  | zero => rfl
  | succ n => exact absurd h0 (Nat.succ_ne_zero n)
theorem sumAt0_later (c : Dev nD) (t : Fin cfg0.N) (h0 : t.val ≠ 0) :
    sumAt0 V c t.val t.isLt = sumLater0 (iblk0 V c 0 t) (iblk0 V c 1 t) (iblk0 V c 2 t) (iblk0 V c 3 t) (iblk0 V c 4 t) (sumAt0 V c (t.val - 1) (Nat.lt_of_le_of_lt (Nat.sub_le _ _) t.isLt)) := by
  obtain ⟨n, hn⟩ := t
  cases n with
  | zero => exact absurd rfl h0
  | succ n => rfl
theorem sqAt0_first (c : Dev nD) (t : Fin cfg0.N) (h0 : t.val = 0) :
    sqAt0 V c t.val t.isLt = sqFirst0 (iblk0 V c 0 t) (iblk0 V c 1 t) (iblk0 V c 2 t) (iblk0 V c 3 t) (iblk0 V c 4 t) := by
  obtain ⟨n, hn⟩ := t
  cases n with
  | zero => rfl
  | succ n => exact absurd h0 (Nat.succ_ne_zero n)
theorem sqAt0_later (c : Dev nD) (t : Fin cfg0.N) (h0 : t.val ≠ 0) :
    sqAt0 V c t.val t.isLt = sqLater0 (iblk0 V c 0 t) (iblk0 V c 1 t) (iblk0 V c 2 t) (iblk0 V c 3 t) (iblk0 V c 4 t) (sqAt0 V c (t.val - 1) (Nat.lt_of_le_of_lt (Nat.sub_le _ _) t.isLt)) := by
  obtain ⟨n, hn⟩ := t
  cases n with
  | zero => exact absurd rfl h0
  | succ n => rfl

/-! ## The region's proof data -/

/-- On core `c`: the arrays as the region finds them; after the body at point `t` each input's buffer at its block, the
    linear output's at the point's tile, the two running rows' at their running contents; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => lin0 (iblk0 V c 0 t) (iblk0 V c 1 t) (iblk0 V c 2 t) (iblk0 V c 3 t) (iblk0 V c 4 t)
    | ⟨6, _⟩ => sumAt0 V c t.val t.isLt
    | ⟨7, _⟩ => sqAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = lin0 (iblk0 V c 0 t) (iblk0 V c 1 t) (iblk0 V c 2 t) (iblk0 V c 3 t) (iblk0 V c 4 t) := by dsimp only [dat0]
theorem after0_6 (c : Dev nD) (t : Fin cfg0.N) : (dat0 V c).after 6 t = sumAt0 V c t.val t.isLt := by dsimp only [dat0]
theorem after0_7 (c : Dev nD) (t : Fin cfg0.N) : (dat0 V c).after 7 t = sqAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- At a later point a running row's staging buffer holds what the body left at the point before: the point is not
    the first, the row is written back after the last point only, and it is stored at every point. -/
theorem before0_6_later (c : Dev nD) (t : Fin cfg0.N) (h0 : t.val ≠ 0) (d) :
    (dat0 V c).before 6 t d = sumAt0 V c (t.val - 1) (Nat.lt_of_le_of_lt (Nat.sub_le _ _) t.isLt) := by
  have hN : t.val < 5 := lt_of_lt_of_eq t.isLt (show cfg0.N = 5 from N_0)
  rw [Dat.before_out_kept _ 6 rfl t h0 (Bool.eq_false_iff.mpr fun h => by have := (flush0_6 _).mp h; dsimp only at this; omega)
    live0_6 (fun _ _ => rfl)]
  dsimp only [dat0]
theorem before0_7_later (c : Dev nD) (t : Fin cfg0.N) (h0 : t.val ≠ 0) (d) :
    (dat0 V c).before 7 t d = sqAt0 V c (t.val - 1) (Nat.lt_of_le_of_lt (Nat.sub_le _ _) t.isLt) := by
  have hN : t.val < 5 := lt_of_lt_of_eq t.isLt (show cfg0.N = 5 from N_0)
  rw [Dat.before_out_kept _ 7 rfl t h0 (Bool.eq_false_iff.mpr fun h => by have := (flush0_7 _).mp h; dsimp only at this; omega)
    live0_7 (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 800000 in
/-- The body at any point: the inputs' staging buffers hold their blocks; the closed forms say which of the two cases the
    point is in; at a later point each running row's buffer holds what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  by_cases h0 : t.val = 0
  · rw [sumAt0_first V c t h0, sqAt0_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_first0 c Set.univ (grid0.coords t) ((first0_iff t).mpr h0) (fun h => ((later0_iff t).mp h) h0)
      _ _ _ _ _ _ _ _ _ _ _ _ _ _ _ _ (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [sumAt0_later V c t h0, sqAt0_later V c t h0]
    simp only [before0_6_later V c t h0, before0_7_later V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_later0 c Set.univ (grid0.coords t) (fun h => h0 ((first0_iff t).mp h)) ((later0_iff t).mpr h0)
      _ _ _ _ _ _ _ _ _ _ _ _ _ _ _ _ (iblk0 V c 0 t) (iblk0 V c 1 t) (iblk0 V c 2 t) (iblk0 V c 3 t) (iblk0 V c 4 t) _ _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body obligation at every point. -/
theorem body_obligation0 (c : Dev nD) : BodyObligation (dat0 (F := F) V c) (defs₀ (F := F)) Variants.none () Set.univ := fun t => by
  rw [bigSep_W0, bigSep_W0]
  beta_reduce
  rw [live0_6 (cfg0.grid.coords t)]
  try rw [live0_7 (cfg0.grid.coords t)]
  exact sound_body0 V c t

end Cert.KernelIdeal.Frames

end
-- ==== Proof.KI.Norm1.lean ====
/-
  Region 1 of the idealized kernel's program: the batch-norm kernel `cc1__bn_relu_kernel` on a grid of five row tiles.
  At a grid point the body reads one 10000×128 tile of the linear output and four 1×128 rows (mean, variance, scale, shift),
  and stores the whole output tile in one store: (x − mean) · rsqrt(var + ε) · γ + β, clamped below at 0.
  Nothing is carried between grid points, so what the body leaves in the output's staging buffer is a function of the
  point's input blocks alone; the row operands have a constant block index and are fetched once.
  Stated at any float instance `F`, at a parameter `V`: the TensorCore's buffer contents when the region is entered.
-/
import proofs.«139727_j46445776339648_1_alg».proof.Proof.Gen.KernelIdeal.Launch
import proofs.«139727_j46445776339648_1_alg».proof.Proof.Gen.KernelIdeal.Skeleton
import proofs.«139727_j46445776339648_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether fetched there or kept from an
    earlier point (its block index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input window's current staging buffer holds its block at every point, whether fetched there or kept from an
    earlier point (its block index has not moved since). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- An input window's current staging buffer holds its block at every point, whether fetched there or kept from an
    earlier point (its block index has not moved since). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- An input window's current staging buffer holds its block at every point, whether fetched there or kept from an
    earlier point (its block index has not moved since). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- An input window's current staging buffer holds its block at every point, whether fetched there or kept from an
    earlier point (its block index has not moved since). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole tile, the rectangle of the body's one store and of its load of the tile. -/
abbrev tile1 : Rect S10000x128 := Rect.unit (s := S10000x128) ![0, 0] S10000x128.size inb_S10000x128_S10000x128_0_0
/-- The whole row, the rectangle of each load of a row operand. -/
abbrev row1 : Rect S1x128 := Rect.unit (s := S1x128) ![0, 0] S1x128.size inb_S1x128_S1x128_0_0

/-- What the body leaves in the output's staging buffer, from the input blocks: its one store, covering the tile. -/
def out1_5 (x0 : Vec F S10000x128 .f32) (x1 x2 x3 x4 : Vec F S1x128 .f32) : Vec F S10000x128 .f32 :=
  View.canon [⟨tile1, k1_pay1 (View.ld x0 tile1) (View.ld x2 row1) (View.ld x1 row1) (View.ld x3 row1) (View.ld x4 row1)⟩]

/-- The one store covers the buffer. -/
theorem cover1_5 (p0 : Vec F S10000x128 .f32) (y : S10000x128.Idx) :
    ∃ pc ∈ ([⟨tile1, p0⟩] : List (View.Piece (Elt F) S10000x128 .f32)), y ∈ pc.1.set :=
  View.cover_of_tiled [⟨tile1, p0⟩] S10000x128.size (by rfl) y

set_option maxHeartbeats 1000000 in
/-- The body on whole staging memrefs, the inputs' at their contents and the output's at anything, runs to its return
    with the inputs' as they were and the output's at `out1_5` of the inputs'. -/
theorem sound_kernel1 (c : Dev nD) (E : Set ℕ) (i : grid1.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The region's proof data on core `c`: the arrays as the region finds them; after the body at point `t` each input's
    buffer at its block and the output's at `out1_5` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' staging buffers hold their blocks, so the body's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frames

end
-- ==== Proof.KI.Stats2.lean ====
/-
  Region 2 of the idealized kernel's program: the kernel `cc2__linear_stats_kernel` on a grid of five row tiles.
  At a grid point the body reads one 10000×128 tile of the aggregated neighbour means and one of the node features, the two
  128×128 weight matrices and the 1×128 bias, stores the tile of the linear output  mean·Wlᵀ + h·Wrᵀ + b  whole, and
  keeps two running 1×128 rows: the column sums of the linear output and of its squares. At the first point (the
  coordinate is 0) the two rows are stored afresh; at every later point (the coordinate is positive) each is read back
  and stored again with the tile's column sums added. The two rows' block index never moves and they are written back
  after the last point only, so at a later point the staging buffer holds what the point before left there.
  The two conditions are decided over the grid in closed form; between them they hold at every point, so the two
  running rows are never idle. Stated at any float instance `F`, at a parameter `V`: the TensorCore's buffer contents
  when the region is entered.
-/
import proofs.«139727_j46445776339648_1_alg».proof.Proof.Gen.KernelIdeal.Launch
import proofs.«139727_j46445776339648_1_alg».proof.Proof.Gen.KernelIdeal.Skeleton
import proofs.«139727_j46445776339648_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether fetched there or kept from an
    earlier point (its block index has not moved since). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, whether fetched there or kept from an
    earlier point (its block index has not moved since). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, whether fetched there or kept from an
    earlier point (its block index has not moved since). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, whether fetched there or kept from an
    earlier point (its block index has not moved since). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, whether fetched there or kept from an
    earlier point (its block index has not moved since). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions, over the grid -/

/-- The first condition (the coordinate is 0) holds at the first point only. -/
theorem first2_iff : ∀ t : Fin cfg2.N, k2_cond1 (grid2.coords t) = 1#1 ↔ t.val = 0 :=
  (by decide +kernel : ∀ t : Fin grid2.N, k2_cond1 (grid2.coords t) = 1#1 ↔ t.val = 0)
/-- The second condition (the coordinate is positive) holds at every later point. -/
theorem later2_iff : ∀ t : Fin cfg2.N, k2_cond2 (grid2.coords t) = 1#1 ↔ t.val ≠ 0 :=
  (by decide +kernel : ∀ t : Fin grid2.N, k2_cond2 (grid2.coords t) = 1#1 ↔ t.val ≠ 0)
/-- At every grid coordinate one of the two conditions holds: the running rows are stored at every point. -/
theorem live2_6 : ∀ i : cfg2.grid.Coords, cfg2.idle 6 i = false :=
  (by decide +kernel : ∀ i : grid2.Coords, idle2 6 i = false)
theorem live2_7 : ∀ i : cfg2.grid.Coords, cfg2.idle 7 i = false :=
  (by decide +kernel : ∀ i : grid2.Coords, idle2 7 i = false)

/-! ## The rectangles of the body's accesses: each is a whole buffer -/

abbrev tile2 : Rect S10000x128 := Rect.unit (s := S10000x128) ![0, 0] S10000x128.size inb_S10000x128_S10000x128_0_0
abbrev sq2 : Rect S128x128 := Rect.unit (s := S128x128) ![0, 0] S128x128.size inb_S128x128_S128x128_0_0
abbrev row2 : Rect S1x128 := Rect.unit (s := S1x128) ![0, 0] S1x128.size inb_S1x128_S1x128_0_0

/-! ## What the body leaves in each output's staging buffer -/

/-- The linear output's tile (the same at every point): its one store. -/
def lin2 (x0 x1 : Vec F S10000x128 .f32) (x2 x3 : Vec F S128x128 .f32) (x4 : Vec F S1x128 .f32) : Vec F S10000x128 .f32 :=
  View.canon [⟨tile2, k2_pay1 (View.ld x0 tile2) (View.ld x1 tile2) (View.ld x2 sq2) (View.ld x3 sq2) (View.ld x4 row2)⟩]
/-- The column sums' row at the first point: the tile's column sums. -/
def sumFirst2 (x0 x1 : Vec F S10000x128 .f32) (x2 x3 : Vec F S128x128 .f32) (x4 : Vec F S1x128 .f32) : Vec F S1x128 .f32 :=
  View.canon [⟨row2, k2_pay2 (View.ld x0 tile2) (View.ld x1 tile2) (View.ld x2 sq2) (View.ld x3 sq2) (View.ld x4 row2)⟩]
/-- The squares' column sums' row at the first point. -/
def sqFirst2 (x0 x1 : Vec F S10000x128 .f32) (x2 x3 : Vec F S128x128 .f32) (x4 : Vec F S1x128 .f32) : Vec F S1x128 .f32 :=
  View.canon [⟨row2, k2_pay3 (View.ld x0 tile2) (View.ld x1 tile2) (View.ld x2 sq2) (View.ld x3 sq2) (View.ld x4 row2)⟩]
/-- The column sums' row at a later point: what it held, plus the tile's column sums. -/
def sumLater2 (x0 x1 : Vec F S10000x128 .f32) (x2 x3 : Vec F S128x128 .f32) (x4 : Vec F S1x128 .f32) (s : Vec F S1x128 .f32) : Vec F S1x128 .f32 :=
  View.canon [⟨row2, k2_pay4 (View.ld x0 tile2) (View.ld x1 tile2) (View.ld x2 sq2) (View.ld x3 sq2) (View.ld x4 row2) (View.ld s row2)⟩]
/-- The squares' column sums' row at a later point. -/
def sqLater2 (x0 x1 : Vec F S10000x128 .f32) (x2 x3 : Vec F S128x128 .f32) (x4 : Vec F S1x128 .f32) (s : Vec F S1x128 .f32) : Vec F S1x128 .f32 :=
  View.canon [⟨row2, k2_pay5 (View.ld x0 tile2) (View.ld x1 tile2) (View.ld x2 sq2) (View.ld x3 sq2) (View.ld x4 row2) (View.ld s row2)⟩]

theorem coverTile2 (p0 : Vec F S10000x128 .f32) (y : S10000x128.Idx) :
    ∃ pc ∈ ([⟨tile2, p0⟩] : List (View.Piece (Elt F) S10000x128 .f32)), y ∈ pc.1.set :=
  View.cover_of_tiled [⟨tile2, p0⟩] S10000x128.size (by rfl) y
theorem coverRow2 (p0 : Vec F S1x128 .f32) (y : S1x128.Idx) :
    ∃ pc ∈ ([⟨row2, p0⟩] : List (View.Piece (Elt F) S1x128 .f32)), y ∈ pc.1.set :=
  View.cover_of_tiled [⟨row2, p0⟩] S1x128.size (by rfl) y

/-! ## The body's run, in each of the two cases -/

set_option maxHeartbeats 1000000 in
/-- At a coordinate where the first condition holds and the second does not: from the inputs' staging memrefs at their
    contents and the three outputs' at anything, the body runs to its return with the inputs' as they were, the linear
    tile stored and the two running rows stored afresh. -/
theorem sound_first2 (c : Dev nD) (E : Set ℕ) (i : grid2.Coords) (hc1 : k2_cond1 i = 1#1) (hc2 : ¬ k2_cond2 i = 1#1)
    (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S10000x128 .f32) (harg6 : arg6.IsWhole) (arg7 : Memref sig .tc .vmem S1x128 .f32) (harg7 : arg7.IsWhole) (arg8 : Memref sig .tc .vmem S1x128 .f32) (harg8 : arg8.IsWhole)
    (x0 x1 : Vec F S10000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (lin2 x0 x1 x2 x3 x4)
            ∗ owns (c : Thread nD τ) arg7 fullShare (sumFirst2 x0 x1 x2 x3 x4)
            ∗ owns (c : Thread nD τ) arg8 fullShare (sqFirst2 x0 x1 x2 x3 x4)) -∗ K ⟨⟩))
      ⊢ wp frame (wpE (defs₀ (F := F)) Variants.none c none) E (cc2__linear_stats_kernel i arg1 harg1 arg2 harg2 arg3 harg3 arg4 harg4 arg5 harg5 arg6 harg6 arg7 harg7 arg8 harg8) K := by
  simp only [cc2__linear_stats_kernel_eq_skeleton]; unfold cc2__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverTile2 _)
  isplitl [H6]
  · iexists _; isplitr
    swap; · iexact H6
    ipureintro
    exact View.read_writes_eq_canon _ _ _ (coverRow2 _)
  iexists _; isplitr
  swap; · iexact H7
  ipureintro
  exact View.read_writes_eq_canon _ _ _ (coverRow2 _)

set_option maxHeartbeats 1000000 in
/-- At a coordinate where the second condition holds and the first does not: from the inputs' staging memrefs at their
    contents, the linear output's at anything and the two running rows' at their running contents `s6`, `s7`, the body
    runs to its return with the inputs' as they were, the linear tile stored and each running row stored with the
    tile's column sums added to what it held. -/
theorem sound_later2 (c : Dev nD) (E : Set ℕ) (i : grid2.Coords) (hc1 : ¬ k2_cond1 i = 1#1) (hc2 : k2_cond2 i = 1#1)
    (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S10000x128 .f32) (harg6 : arg6.IsWhole) (arg7 : Memref sig .tc .vmem S1x128 .f32) (harg7 : arg7.IsWhole) (arg8 : Memref sig .tc .vmem S1x128 .f32) (harg8 : arg8.IsWhole)
    (x0 x1 : Vec F S10000x128 .f32) (x2 x3 : Vec F S128x128 .f32) (x4 : Vec F S1x128 .f32) (s6 s7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare s6 ∗ owns (c : Thread nD τ) arg8 fullShare s7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (lin2 x0 x1 x2 x3 x4)
            ∗ owns (c : Thread nD τ) arg7 fullShare (sumLater2 x0 x1 x2 x3 x4 s6)
            ∗ owns (c : Thread nD τ) arg8 fullShare (sqLater2 x0 x1 x2 x3 x4 s7)) -∗ K ⟨⟩))
      ⊢ wp frame (wpE (defs₀ (F := F)) Variants.none c none) E (cc2__linear_stats_kernel i arg1 harg1 arg2 harg2 arg3 harg3 arg4 harg4 arg5 harg5 arg6 harg6 arg7 harg7 arg8 harg8) K := by
  simp only [cc2__linear_stats_kernel_eq_skeleton]; unfold cc2__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0; subst hf1; subst hf2; subst hf3; subst hf4; subst hf6; subst hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverTile2 _)
  isplitl [H6]
  · iexists _; isplitr
    swap; · iexact H6
    ipureintro
    exact View.read_writes_eq_canon _ _ _ (coverRow2 _)
  iexists _; isplitr
  swap; · iexact H7
  ipureintro
  exact View.read_writes_eq_canon _ _ _ (coverRow2 _)

/-! ## The running rows, point by point -/

/-- The column sums' row after the body at position `n`: the first point's, then each later point's over the one before. -/
def sumAt2 (c : Dev nD) : (n : ℕ) → n < cfg2.N → Vec F S1x128 .f32
  | 0, hn => sumFirst2 (iblk2 V c 0 ⟨0, hn⟩) (iblk2 V c 1 ⟨0, hn⟩) (iblk2 V c 2 ⟨0, hn⟩) (iblk2 V c 3 ⟨0, hn⟩) (iblk2 V c 4 ⟨0, hn⟩)
  | n + 1, hn => sumLater2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (sumAt2 c n (Nat.lt_of_succ_lt hn))
/-- The squares' column sums' row after the body at position `n`. -/
def sqAt2 (c : Dev nD) : (n : ℕ) → n < cfg2.N → Vec F S1x128 .f32
  | 0, hn => sqFirst2 (iblk2 V c 0 ⟨0, hn⟩) (iblk2 V c 1 ⟨0, hn⟩) (iblk2 V c 2 ⟨0, hn⟩) (iblk2 V c 3 ⟨0, hn⟩) (iblk2 V c 4 ⟨0, hn⟩)
  | n + 1, hn => sqLater2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (sqAt2 c n (Nat.lt_of_succ_lt hn))

theorem sumAt2_first (c : Dev nD) (t : Fin cfg2.N) (h0 : t.val = 0) :
    sumAt2 V c t.val t.isLt = sumFirst2 (iblk2 V c 0 t) (iblk2 V c 1 t) (iblk2 V c 2 t) (iblk2 V c 3 t) (iblk2 V c 4 t) := by
  obtain ⟨n, hn⟩ := t
  cases n with
  | zero => rfl
  | succ n => exact absurd h0 (Nat.succ_ne_zero n)
theorem sumAt2_later (c : Dev nD) (t : Fin cfg2.N) (h0 : t.val ≠ 0) :
    sumAt2 V c t.val t.isLt = sumLater2 (iblk2 V c 0 t) (iblk2 V c 1 t) (iblk2 V c 2 t) (iblk2 V c 3 t) (iblk2 V c 4 t) (sumAt2 V c (t.val - 1) (Nat.lt_of_le_of_lt (Nat.sub_le _ _) t.isLt)) := by
  obtain ⟨n, hn⟩ := t
  cases n with
  | zero => exact absurd rfl h0
  | succ n => rfl
theorem sqAt2_first (c : Dev nD) (t : Fin cfg2.N) (h0 : t.val = 0) :
    sqAt2 V c t.val t.isLt = sqFirst2 (iblk2 V c 0 t) (iblk2 V c 1 t) (iblk2 V c 2 t) (iblk2 V c 3 t) (iblk2 V c 4 t) := by
  obtain ⟨n, hn⟩ := t
  cases n with
  | zero => rfl
  | succ n => exact absurd h0 (Nat.succ_ne_zero n)
theorem sqAt2_later (c : Dev nD) (t : Fin cfg2.N) (h0 : t.val ≠ 0) :
    sqAt2 V c t.val t.isLt = sqLater2 (iblk2 V c 0 t) (iblk2 V c 1 t) (iblk2 V c 2 t) (iblk2 V c 3 t) (iblk2 V c 4 t) (sqAt2 V c (t.val - 1) (Nat.lt_of_le_of_lt (Nat.sub_le _ _) t.isLt)) := by
  obtain ⟨n, hn⟩ := t
  cases n with
  | zero => exact absurd rfl h0
  | succ n => rfl

/-! ## The region's proof data -/

/-- On core `c`: the arrays as the region finds them; after the body at point `t` each input's buffer at its block, the
    linear output's at the point's tile, the two running rows' at their running contents; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => lin2 (iblk2 V c 0 t) (iblk2 V c 1 t) (iblk2 V c 2 t) (iblk2 V c 3 t) (iblk2 V c 4 t)
    | ⟨6, _⟩ => sumAt2 V c t.val t.isLt
    | ⟨7, _⟩ => sqAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = lin2 (iblk2 V c 0 t) (iblk2 V c 1 t) (iblk2 V c 2 t) (iblk2 V c 3 t) (iblk2 V c 4 t) := by dsimp only [dat2]
theorem after2_6 (c : Dev nD) (t : Fin cfg2.N) : (dat2 V c).after 6 t = sumAt2 V c t.val t.isLt := by dsimp only [dat2]
theorem after2_7 (c : Dev nD) (t : Fin cfg2.N) : (dat2 V c).after 7 t = sqAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- At a later point a running row's staging buffer holds what the body left at the point before: the point is not
    the first, the row is written back after the last point only, and it is stored at every point. -/
theorem before2_6_later (c : Dev nD) (t : Fin cfg2.N) (h0 : t.val ≠ 0) (d) :
    (dat2 V c).before 6 t d = sumAt2 V c (t.val - 1) (Nat.lt_of_le_of_lt (Nat.sub_le _ _) t.isLt) := by
  have hN : t.val < 5 := lt_of_lt_of_eq t.isLt (show cfg2.N = 5 from N_2)
  rw [Dat.before_out_kept _ 6 rfl t h0 (Bool.eq_false_iff.mpr fun h => by have := (flush2_6 _).mp h; dsimp only at this; omega)
    live2_6 (fun _ _ => rfl)]
  dsimp only [dat2]
theorem before2_7_later (c : Dev nD) (t : Fin cfg2.N) (h0 : t.val ≠ 0) (d) :
    (dat2 V c).before 7 t d = sqAt2 V c (t.val - 1) (Nat.lt_of_le_of_lt (Nat.sub_le _ _) t.isLt) := by
  have hN : t.val < 5 := lt_of_lt_of_eq t.isLt (show cfg2.N = 5 from N_2)
  rw [Dat.before_out_kept _ 7 rfl t h0 (Bool.eq_false_iff.mpr fun h => by have := (flush2_7 _).mp h; dsimp only at this; omega)
    live2_7 (fun _ _ => rfl)]
  dsimp only [dat2]

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 800000 in
/-- The body at any point: the inputs' staging buffers hold their blocks; the closed forms say which of the two cases the
    point is in; at a later point each running row's buffer holds what the point before left. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  by_cases h0 : t.val = 0
  · rw [sumAt2_first V c t h0, sqAt2_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_first2 c Set.univ (grid2.coords t) ((first2_iff t).mpr h0) (fun h => ((later2_iff t).mp h) h0)
      _ _ _ _ _ _ _ _ _ _ _ _ _ _ _ _ (iblk2 V c 0 t) (iblk2 V c 1 t) (iblk2 V c 2 t) (iblk2 V c 3 t) (iblk2 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [sumAt2_later V c t h0, sqAt2_later V c t h0]
    simp only [before2_6_later V c t h0, before2_7_later V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_later2 c Set.univ (grid2.coords t) (fun h => h0 ((first2_iff t).mp h)) ((later2_iff t).mpr h0)
      _ _ _ _ _ _ _ _ _ _ _ _ _ _ _ _ (iblk2 V c 0 t) (iblk2 V c 1 t) (iblk2 V c 2 t) (iblk2 V c 3 t) (iblk2 V c 4 t) _ _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body obligation at every point. -/
theorem body_obligation2 (c : Dev nD) : BodyObligation (dat2 (F := F) V c) (defs₀ (F := F)) Variants.none () Set.univ := fun t => by
  rw [bigSep_W2, bigSep_W2]
  beta_reduce
  rw [live2_6 (cfg2.grid.coords t)]
  try rw [live2_7 (cfg2.grid.coords t)]
  exact sound_body2 V c t

end Cert.KernelIdeal.Frames

end
-- ==== Proof.KI.Norm3.lean ====
/-
  Region 3 of the idealized kernel's program: the batch-norm kernel `cc3__bn_relu_kernel` on a grid of five row tiles.
  At a grid point the body reads one 10000×128 tile of the linear output and four 1×128 rows (mean, variance, scale, shift),
  and stores the whole output tile in one store: (x − mean) · rsqrt(var + ε) · γ + β, clamped below at 0.
  Nothing is carried between grid points, so what the body leaves in the output's staging buffer is a function of the
  point's input blocks alone; the row operands have a constant block index and are fetched once.
  Stated at any float instance `F`, at a parameter `V`: the TensorCore's buffer contents when the region is entered.
-/
import proofs.«139727_j46445776339648_1_alg».proof.Proof.Gen.KernelIdeal.Launch
import proofs.«139727_j46445776339648_1_alg».proof.Proof.Gen.KernelIdeal.Skeleton
import proofs.«139727_j46445776339648_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether fetched there or kept from an
    earlier point (its block index has not moved since). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- An input window's current staging buffer holds its block at every point, whether fetched there or kept from an
    earlier point (its block index has not moved since). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- An input window's current staging buffer holds its block at every point, whether fetched there or kept from an
    earlier point (its block index has not moved since). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- An input window's current staging buffer holds its block at every point, whether fetched there or kept from an
    earlier point (its block index has not moved since). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- An input window's current staging buffer holds its block at every point, whether fetched there or kept from an
    earlier point (its block index has not moved since). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole tile, the rectangle of the body's one store and of its load of the tile. -/
abbrev tile3 : Rect S10000x128 := Rect.unit (s := S10000x128) ![0, 0] S10000x128.size inb_S10000x128_S10000x128_0_0
/-- The whole row, the rectangle of each load of a row operand. -/
abbrev row3 : Rect S1x128 := Rect.unit (s := S1x128) ![0, 0] S1x128.size inb_S1x128_S1x128_0_0

/-- What the body leaves in the output's staging buffer, from the input blocks: its one store, covering the tile. -/
def out3_5 (x0 : Vec F S10000x128 .f32) (x1 x2 x3 x4 : Vec F S1x128 .f32) : Vec F S10000x128 .f32 :=
  View.canon [⟨tile3, k3_pay1 (View.ld x0 tile3) (View.ld x2 row3) (View.ld x1 row3) (View.ld x3 row3) (View.ld x4 row3)⟩]

/-- The one store covers the buffer. -/
theorem cover3_5 (p0 : Vec F S10000x128 .f32) (y : S10000x128.Idx) :
    ∃ pc ∈ ([⟨tile3, p0⟩] : List (View.Piece (Elt F) S10000x128 .f32)), y ∈ pc.1.set :=
  View.cover_of_tiled [⟨tile3, p0⟩] S10000x128.size (by rfl) y

set_option maxHeartbeats 1000000 in
/-- The body on whole staging memrefs, the inputs' at their contents and the output's at anything, runs to its return
    with the inputs' as they were and the output's at `out3_5` of the inputs'. -/
theorem sound_kernel3 (c : Dev nD) (E : Set ℕ) (i : grid3.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The region's proof data on core `c`: the arrays as the region finds them; after the body at point `t` each input's
    buffer at its block and the output's at `out3_5` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' staging buffers hold their blocks, so the body's run applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frames

end
-- ==== Proof.KI.Stats4.lean ====
/-
  Region 4 of the idealized kernel's program: the kernel `cc4__linear_stats_kernel` on a grid of five row tiles.
  At a grid point the body reads one 10000×128 tile of the aggregated neighbour means and one of the node features, the two
  128×128 weight matrices and the 1×128 bias, stores the tile of the linear output  mean·Wlᵀ + h·Wrᵀ + b  whole, and
  keeps two running 1×128 rows: the column sums of the linear output and of its squares. At the first point (the
  coordinate is 0) the two rows are stored afresh; at every later point (the coordinate is positive) each is read back
  and stored again with the tile's column sums added. The two rows' block index never moves and they are written back
  after the last point only, so at a later point the staging buffer holds what the point before left there.
  The two conditions are decided over the grid in closed form; between them they hold at every point, so the two
  running rows are never idle. Stated at any float instance `F`, at a parameter `V`: the TensorCore's buffer contents
  when the region is entered.
-/
import proofs.«139727_j46445776339648_1_alg».proof.Proof.Gen.KernelIdeal.Launch
import proofs.«139727_j46445776339648_1_alg».proof.Proof.Gen.KernelIdeal.Skeleton
import proofs.«139727_j46445776339648_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether fetched there or kept from an
    earlier point (its block index has not moved since). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- An input window's current staging buffer holds its block at every point, whether fetched there or kept from an
    earlier point (its block index has not moved since). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- An input window's current staging buffer holds its block at every point, whether fetched there or kept from an
    earlier point (its block index has not moved since). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- An input window's current staging buffer holds its block at every point, whether fetched there or kept from an
    earlier point (its block index has not moved since). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- An input window's current staging buffer holds its block at every point, whether fetched there or kept from an
    earlier point (its block index has not moved since). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The two conditions, over the grid -/

/-- The first condition (the coordinate is 0) holds at the first point only. -/
theorem first4_iff : ∀ t : Fin cfg4.N, k4_cond1 (grid4.coords t) = 1#1 ↔ t.val = 0 :=
  (by decide +kernel : ∀ t : Fin grid4.N, k4_cond1 (grid4.coords t) = 1#1 ↔ t.val = 0)
/-- The second condition (the coordinate is positive) holds at every later point. -/
theorem later4_iff : ∀ t : Fin cfg4.N, k4_cond2 (grid4.coords t) = 1#1 ↔ t.val ≠ 0 :=
  (by decide +kernel : ∀ t : Fin grid4.N, k4_cond2 (grid4.coords t) = 1#1 ↔ t.val ≠ 0)
/-- At every grid coordinate one of the two conditions holds: the running rows are stored at every point. -/
theorem live4_6 : ∀ i : cfg4.grid.Coords, cfg4.idle 6 i = false :=
  (by decide +kernel : ∀ i : grid4.Coords, idle4 6 i = false)
theorem live4_7 : ∀ i : cfg4.grid.Coords, cfg4.idle 7 i = false :=
  (by decide +kernel : ∀ i : grid4.Coords, idle4 7 i = false)

/-! ## The rectangles of the body's accesses: each is a whole buffer -/

abbrev tile4 : Rect S10000x128 := Rect.unit (s := S10000x128) ![0, 0] S10000x128.size inb_S10000x128_S10000x128_0_0
abbrev sq4 : Rect S128x128 := Rect.unit (s := S128x128) ![0, 0] S128x128.size inb_S128x128_S128x128_0_0
abbrev row4 : Rect S1x128 := Rect.unit (s := S1x128) ![0, 0] S1x128.size inb_S1x128_S1x128_0_0

/-! ## What the body leaves in each output's staging buffer -/

/-- The linear output's tile (the same at every point): its one store. -/
def lin4 (x0 x1 : Vec F S10000x128 .f32) (x2 x3 : Vec F S128x128 .f32) (x4 : Vec F S1x128 .f32) : Vec F S10000x128 .f32 :=
  View.canon [⟨tile4, k4_pay1 (View.ld x0 tile4) (View.ld x1 tile4) (View.ld x2 sq4) (View.ld x3 sq4) (View.ld x4 row4)⟩]
/-- The column sums' row at the first point: the tile's column sums. -/
def sumFirst4 (x0 x1 : Vec F S10000x128 .f32) (x2 x3 : Vec F S128x128 .f32) (x4 : Vec F S1x128 .f32) : Vec F S1x128 .f32 :=
  View.canon [⟨row4, k4_pay2 (View.ld x0 tile4) (View.ld x1 tile4) (View.ld x2 sq4) (View.ld x3 sq4) (View.ld x4 row4)⟩]
/-- The squares' column sums' row at the first point. -/
def sqFirst4 (x0 x1 : Vec F S10000x128 .f32) (x2 x3 : Vec F S128x128 .f32) (x4 : Vec F S1x128 .f32) : Vec F S1x128 .f32 :=
  View.canon [⟨row4, k4_pay3 (View.ld x0 tile4) (View.ld x1 tile4) (View.ld x2 sq4) (View.ld x3 sq4) (View.ld x4 row4)⟩]
/-- The column sums' row at a later point: what it held, plus the tile's column sums. -/
def sumLater4 (x0 x1 : Vec F S10000x128 .f32) (x2 x3 : Vec F S128x128 .f32) (x4 : Vec F S1x128 .f32) (s : Vec F S1x128 .f32) : Vec F S1x128 .f32 :=
  View.canon [⟨row4, k4_pay4 (View.ld x0 tile4) (View.ld x1 tile4) (View.ld x2 sq4) (View.ld x3 sq4) (View.ld x4 row4) (View.ld s row4)⟩]
/-- The squares' column sums' row at a later point. -/
def sqLater4 (x0 x1 : Vec F S10000x128 .f32) (x2 x3 : Vec F S128x128 .f32) (x4 : Vec F S1x128 .f32) (s : Vec F S1x128 .f32) : Vec F S1x128 .f32 :=
  View.canon [⟨row4, k4_pay5 (View.ld x0 tile4) (View.ld x1 tile4) (View.ld x2 sq4) (View.ld x3 sq4) (View.ld x4 row4) (View.ld s row4)⟩]

theorem coverTile4 (p0 : Vec F S10000x128 .f32) (y : S10000x128.Idx) :
    ∃ pc ∈ ([⟨tile4, p0⟩] : List (View.Piece (Elt F) S10000x128 .f32)), y ∈ pc.1.set :=
  View.cover_of_tiled [⟨tile4, p0⟩] S10000x128.size (by rfl) y
theorem coverRow4 (p0 : Vec F S1x128 .f32) (y : S1x128.Idx) :
    ∃ pc ∈ ([⟨row4, p0⟩] : List (View.Piece (Elt F) S1x128 .f32)), y ∈ pc.1.set :=
  View.cover_of_tiled [⟨row4, p0⟩] S1x128.size (by rfl) y

/-! ## The body's run, in each of the two cases -/

set_option maxHeartbeats 1000000 in
/-- At a coordinate where the first condition holds and the second does not: from the inputs' staging memrefs at their
    contents and the three outputs' at anything, the body runs to its return with the inputs' as they were, the linear
    tile stored and the two running rows stored afresh. -/
theorem sound_first4 (c : Dev nD) (E : Set ℕ) (i : grid4.Coords) (hc1 : k4_cond1 i = 1#1) (hc2 : ¬ k4_cond2 i = 1#1)
    (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S10000x128 .f32) (harg6 : arg6.IsWhole) (arg7 : Memref sig .tc .vmem S1x128 .f32) (harg7 : arg7.IsWhole) (arg8 : Memref sig .tc .vmem S1x128 .f32) (harg8 : arg8.IsWhole)
    (x0 x1 : Vec F S10000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (lin4 x0 x1 x2 x3 x4)
            ∗ owns (c : Thread nD τ) arg7 fullShare (sumFirst4 x0 x1 x2 x3 x4)
            ∗ owns (c : Thread nD τ) arg8 fullShare (sqFirst4 x0 x1 x2 x3 x4)) -∗ K ⟨⟩))
      ⊢ wp frame (wpE (defs₀ (F := F)) Variants.none c none) E (cc4__linear_stats_kernel i arg1 harg1 arg2 harg2 arg3 harg3 arg4 harg4 arg5 harg5 arg6 harg6 arg7 harg7 arg8 harg8) K := by
  simp only [cc4__linear_stats_kernel_eq_skeleton]; unfold cc4__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverTile4 _)
  isplitl [H6]
  · iexists _; isplitr
    swap; · iexact H6
    ipureintro
    exact View.read_writes_eq_canon _ _ _ (coverRow4 _)
  iexists _; isplitr
  swap; · iexact H7
  ipureintro
  exact View.read_writes_eq_canon _ _ _ (coverRow4 _)

set_option maxHeartbeats 1000000 in
/-- At a coordinate where the second condition holds and the first does not: from the inputs' staging memrefs at their
    contents, the linear output's at anything and the two running rows' at their running contents `s6`, `s7`, the body
    runs to its return with the inputs' as they were, the linear tile stored and each running row stored with the
    tile's column sums added to what it held. -/
theorem sound_later4 (c : Dev nD) (E : Set ℕ) (i : grid4.Coords) (hc1 : ¬ k4_cond1 i = 1#1) (hc2 : k4_cond2 i = 1#1)
    (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S10000x128 .f32) (harg6 : arg6.IsWhole) (arg7 : Memref sig .tc .vmem S1x128 .f32) (harg7 : arg7.IsWhole) (arg8 : Memref sig .tc .vmem S1x128 .f32) (harg8 : arg8.IsWhole)
    (x0 x1 : Vec F S10000x128 .f32) (x2 x3 : Vec F S128x128 .f32) (x4 : Vec F S1x128 .f32) (s6 s7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare s6 ∗ owns (c : Thread nD τ) arg8 fullShare s7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (lin4 x0 x1 x2 x3 x4)
            ∗ owns (c : Thread nD τ) arg7 fullShare (sumLater4 x0 x1 x2 x3 x4 s6)
            ∗ owns (c : Thread nD τ) arg8 fullShare (sqLater4 x0 x1 x2 x3 x4 s7)) -∗ K ⟨⟩))
      ⊢ wp frame (wpE (defs₀ (F := F)) Variants.none c none) E (cc4__linear_stats_kernel i arg1 harg1 arg2 harg2 arg3 harg3 arg4 harg4 arg5 harg5 arg6 harg6 arg7 harg7 arg8 harg8) K := by
  simp only [cc4__linear_stats_kernel_eq_skeleton]; unfold cc4__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0; subst hf1; subst hf2; subst hf3; subst hf4; subst hf6; subst hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverTile4 _)
  isplitl [H6]
  · iexists _; isplitr
    swap; · iexact H6
    ipureintro
    exact View.read_writes_eq_canon _ _ _ (coverRow4 _)
  iexists _; isplitr
  swap; · iexact H7
  ipureintro
  exact View.read_writes_eq_canon _ _ _ (coverRow4 _)

/-! ## The running rows, point by point -/

/-- The column sums' row after the body at position `n`: the first point's, then each later point's over the one before. -/
def sumAt4 (c : Dev nD) : (n : ℕ) → n < cfg4.N → Vec F S1x128 .f32
  | 0, hn => sumFirst4 (iblk4 V c 0 ⟨0, hn⟩) (iblk4 V c 1 ⟨0, hn⟩) (iblk4 V c 2 ⟨0, hn⟩) (iblk4 V c 3 ⟨0, hn⟩) (iblk4 V c 4 ⟨0, hn⟩)
  | n + 1, hn => sumLater4 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (sumAt4 c n (Nat.lt_of_succ_lt hn))
/-- The squares' column sums' row after the body at position `n`. -/
def sqAt4 (c : Dev nD) : (n : ℕ) → n < cfg4.N → Vec F S1x128 .f32
  | 0, hn => sqFirst4 (iblk4 V c 0 ⟨0, hn⟩) (iblk4 V c 1 ⟨0, hn⟩) (iblk4 V c 2 ⟨0, hn⟩) (iblk4 V c 3 ⟨0, hn⟩) (iblk4 V c 4 ⟨0, hn⟩)
  | n + 1, hn => sqLater4 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (sqAt4 c n (Nat.lt_of_succ_lt hn))

theorem sumAt4_first (c : Dev nD) (t : Fin cfg4.N) (h0 : t.val = 0) :
    sumAt4 V c t.val t.isLt = sumFirst4 (iblk4 V c 0 t) (iblk4 V c 1 t) (iblk4 V c 2 t) (iblk4 V c 3 t) (iblk4 V c 4 t) := by
  obtain ⟨n, hn⟩ := t
  cases n with
  | zero => rfl
  | succ n => exact absurd h0 (Nat.succ_ne_zero n)
theorem sumAt4_later (c : Dev nD) (t : Fin cfg4.N) (h0 : t.val ≠ 0) :
    sumAt4 V c t.val t.isLt = sumLater4 (iblk4 V c 0 t) (iblk4 V c 1 t) (iblk4 V c 2 t) (iblk4 V c 3 t) (iblk4 V c 4 t) (sumAt4 V c (t.val - 1) (Nat.lt_of_le_of_lt (Nat.sub_le _ _) t.isLt)) := by
  obtain ⟨n, hn⟩ := t
  cases n with
  | zero => exact absurd rfl h0
  | succ n => rfl
theorem sqAt4_first (c : Dev nD) (t : Fin cfg4.N) (h0 : t.val = 0) :
    sqAt4 V c t.val t.isLt = sqFirst4 (iblk4 V c 0 t) (iblk4 V c 1 t) (iblk4 V c 2 t) (iblk4 V c 3 t) (iblk4 V c 4 t) := by
  obtain ⟨n, hn⟩ := t
  cases n with
  | zero => rfl
  | succ n => exact absurd h0 (Nat.succ_ne_zero n)
theorem sqAt4_later (c : Dev nD) (t : Fin cfg4.N) (h0 : t.val ≠ 0) :
    sqAt4 V c t.val t.isLt = sqLater4 (iblk4 V c 0 t) (iblk4 V c 1 t) (iblk4 V c 2 t) (iblk4 V c 3 t) (iblk4 V c 4 t) (sqAt4 V c (t.val - 1) (Nat.lt_of_le_of_lt (Nat.sub_le _ _) t.isLt)) := by
  obtain ⟨n, hn⟩ := t
  cases n with
  | zero => exact absurd rfl h0
  | succ n => rfl

/-! ## The region's proof data -/

/-- On core `c`: the arrays as the region finds them; after the body at point `t` each input's buffer at its block, the
    linear output's at the point's tile, the two running rows' at their running contents; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => lin4 (iblk4 V c 0 t) (iblk4 V c 1 t) (iblk4 V c 2 t) (iblk4 V c 3 t) (iblk4 V c 4 t)
    | ⟨6, _⟩ => sumAt4 V c t.val t.isLt
    | ⟨7, _⟩ => sqAt4 V c t.val t.isLt
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = lin4 (iblk4 V c 0 t) (iblk4 V c 1 t) (iblk4 V c 2 t) (iblk4 V c 3 t) (iblk4 V c 4 t) := by dsimp only [dat4]
theorem after4_6 (c : Dev nD) (t : Fin cfg4.N) : (dat4 V c).after 6 t = sumAt4 V c t.val t.isLt := by dsimp only [dat4]
theorem after4_7 (c : Dev nD) (t : Fin cfg4.N) : (dat4 V c).after 7 t = sqAt4 V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- At a later point a running row's staging buffer holds what the body left at the point before: the point is not
    the first, the row is written back after the last point only, and it is stored at every point. -/
theorem before4_6_later (c : Dev nD) (t : Fin cfg4.N) (h0 : t.val ≠ 0) (d) :
    (dat4 V c).before 6 t d = sumAt4 V c (t.val - 1) (Nat.lt_of_le_of_lt (Nat.sub_le _ _) t.isLt) := by
  have hN : t.val < 5 := lt_of_lt_of_eq t.isLt (show cfg4.N = 5 from N_4)
  rw [Dat.before_out_kept _ 6 rfl t h0 (Bool.eq_false_iff.mpr fun h => by have := (flush4_6 _).mp h; dsimp only at this; omega)
    live4_6 (fun _ _ => rfl)]
  dsimp only [dat4]
theorem before4_7_later (c : Dev nD) (t : Fin cfg4.N) (h0 : t.val ≠ 0) (d) :
    (dat4 V c).before 7 t d = sqAt4 V c (t.val - 1) (Nat.lt_of_le_of_lt (Nat.sub_le _ _) t.isLt) := by
  have hN : t.val < 5 := lt_of_lt_of_eq t.isLt (show cfg4.N = 5 from N_4)
  rw [Dat.before_out_kept _ 7 rfl t h0 (Bool.eq_false_iff.mpr fun h => by have := (flush4_7 _).mp h; dsimp only at this; omega)
    live4_7 (fun _ _ => rfl)]
  dsimp only [dat4]

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 800000 in
/-- The body at any point: the inputs' staging buffers hold their blocks; the closed forms say which of the two cases the
    point is in; at a later point each running row's buffer holds what the point before left. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  by_cases h0 : t.val = 0
  · rw [sumAt4_first V c t h0, sqAt4_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_first4 c Set.univ (grid4.coords t) ((first4_iff t).mpr h0) (fun h => ((later4_iff t).mp h) h0)
      _ _ _ _ _ _ _ _ _ _ _ _ _ _ _ _ (iblk4 V c 0 t) (iblk4 V c 1 t) (iblk4 V c 2 t) (iblk4 V c 3 t) (iblk4 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [sumAt4_later V c t h0, sqAt4_later V c t h0]
    simp only [before4_6_later V c t h0, before4_7_later V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_later4 c Set.univ (grid4.coords t) (fun h => h0 ((first4_iff t).mp h)) ((later4_iff t).mpr h0)
      _ _ _ _ _ _ _ _ _ _ _ _ _ _ _ _ (iblk4 V c 0 t) (iblk4 V c 1 t) (iblk4 V c 2 t) (iblk4 V c 3 t) (iblk4 V c 4 t) _ _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body obligation at every point. -/
theorem body_obligation4 (c : Dev nD) : BodyObligation (dat4 (F := F) V c) (defs₀ (F := F)) Variants.none () Set.univ := fun t => by
  rw [bigSep_W4, bigSep_W4]
  beta_reduce
  rw [live4_6 (cfg4.grid.coords t)]
  try rw [live4_7 (cfg4.grid.coords t)]
  exact sound_body4 V c t

end Cert.KernelIdeal.Frames

end
-- ==== Proof.KI.Norm5.lean ====
/-
  Region 5 of the idealized kernel's program: the batch-norm kernel `cc5__bn_relu_kernel` on a grid of five row tiles.
  At a grid point the body reads one 10000×128 tile of the linear output and four 1×128 rows (mean, variance, scale, shift),
  and stores the whole output tile in one store: (x − mean) · rsqrt(var + ε) · γ + β.
  Nothing is carried between grid points, so what the body leaves in the output's staging buffer is a function of the
  point's input blocks alone; the row operands have a constant block index and are fetched once.
  Stated at any float instance `F`, at a parameter `V`: the TensorCore's buffer contents when the region is entered.
-/
import proofs.«139727_j46445776339648_1_alg».proof.Proof.Gen.KernelIdeal.Launch
import proofs.«139727_j46445776339648_1_alg».proof.Proof.Gen.KernelIdeal.Skeleton
import proofs.«139727_j46445776339648_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, whether fetched there or kept from an
    earlier point (its block index has not moved since). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- An input window's current staging buffer holds its block at every point, whether fetched there or kept from an
    earlier point (its block index has not moved since). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- An input window's current staging buffer holds its block at every point, whether fetched there or kept from an
    earlier point (its block index has not moved since). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- An input window's current staging buffer holds its block at every point, whether fetched there or kept from an
    earlier point (its block index has not moved since). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- An input window's current staging buffer holds its block at every point, whether fetched there or kept from an
    earlier point (its block index has not moved since). -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole tile, the rectangle of the body's one store and of its load of the tile. -/
abbrev tile5 : Rect S10000x128 := Rect.unit (s := S10000x128) ![0, 0] S10000x128.size inb_S10000x128_S10000x128_0_0
/-- The whole row, the rectangle of each load of a row operand. -/
abbrev row5 : Rect S1x128 := Rect.unit (s := S1x128) ![0, 0] S1x128.size inb_S1x128_S1x128_0_0

/-- What the body leaves in the output's staging buffer, from the input blocks: its one store, covering the tile. -/
def out5_5 (x0 : Vec F S10000x128 .f32) (x1 x2 x3 x4 : Vec F S1x128 .f32) : Vec F S10000x128 .f32 :=
  View.canon [⟨tile5, k5_pay1 (View.ld x0 tile5) (View.ld x2 row5) (View.ld x1 row5) (View.ld x3 row5) (View.ld x4 row5)⟩]

/-- The one store covers the buffer. -/
theorem cover5_5 (p0 : Vec F S10000x128 .f32) (y : S10000x128.Idx) :
    ∃ pc ∈ ([⟨tile5, p0⟩] : List (View.Piece (Elt F) S10000x128 .f32)), y ∈ pc.1.set :=
  View.cover_of_tiled [⟨tile5, p0⟩] S10000x128.size (by rfl) y

set_option maxHeartbeats 1000000 in
/-- The body on whole staging memrefs, the inputs' at their contents and the output's at anything, runs to its return
    with the inputs' as they were and the output's at `out5_5` of the inputs'. -/
theorem sound_kernel5 (c : Dev nD) (E : Set ℕ) (i : grid5.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The region's proof data on core `c`: the arrays as the region finds them; after the body at point `t` each input's
    buffer at its block and the output's at `out5_5` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' staging buffers hold their blocks, so the body's run applies. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation5 (c : Dev nD) : BodyObligation (dat5 (F := F) V c) (defs₀ (F := F)) Variants.none () Set.univ := fun t => by
  rw [bigSep_W5, bigSep_W5]
  exact sound_body5 V c t

end Cert.KernelIdeal.Frames

end
-- ==== Proof.KI.Run.lean ====
/-
  The whole run of the idealized kernel's program: six kernel regions among six stretches of host operations.
  The buffer contents at each boundary are a fold from the launch memory: a host stretch applies its operations; a region
  leaves each of its windows' arrays at what its write-backs leave (the inputs as entered) and every other buffer as
  entered. Every weakly fair execution terminates without a fault, and in every final state each unscoped buffer of a
  TensorCore holds the last boundary's contents; no host operation and no region writes an argument, so the fold at an
  argument walks back to the launch memory. Stated at any float instance `F`.
-/
import proofs.«139727_j46445776339648_1_alg».proof.Proof.KI.Stats0
import proofs.«139727_j46445776339648_1_alg».proof.Proof.KI.Norm1
import proofs.«139727_j46445776339648_1_alg».proof.Proof.KI.Stats2
import proofs.«139727_j46445776339648_1_alg».proof.Proof.KI.Norm3
import proofs.«139727_j46445776339648_1_alg».proof.Proof.KI.Stats4
import proofs.«139727_j46445776339648_1_alg».proof.Proof.KI.Norm5
import proofs.«139727_j46445776339648_1_alg».proof.Proof.Gen.KernelIdeal.Regions

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After host stretch 0 (region 0's entry). -/
abbrev B1 : Dev nD → Valuation τ sig (Elt F) := fun c => StableHlo.after hostOps0 (B0 m ρ c)
/-- The same read at the TensorCore's references. -/
abbrev E1 : (c : Dev nD) → (b : Ref sig .tc) → Buf (Elt F) ((c : Thread nD τ).loc b) := fun c b => B1 m ρ c b
/-- At region 0's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After host stretch 1 (region 1's entry). -/
abbrev B3 : Dev nD → Valuation τ sig (Elt F) := fun c => StableHlo.after hostOps1 (B2 m ρ c)
/-- The same read at the TensorCore's references. -/
abbrev E3 : (c : Dev nD) → (b : Ref sig .tc) → Buf (Elt F) ((c : Thread nD τ).loc b) := fun c b => B3 m ρ c b
/-- At region 1's exit: its arrays at what the pipeline leaves, every other buffer as entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After host stretch 2 (region 2's entry). -/
abbrev B5 : Dev nD → Valuation τ sig (Elt F) := fun c => StableHlo.after hostOps2 (B4 m ρ c)
/-- The same read at the TensorCore's references. -/
abbrev E5 : (c : Dev nD) → (b : Ref sig .tc) → Buf (Elt F) ((c : Thread nD τ).loc b) := fun c b => B5 m ρ c b
/-- At region 2's exit: its arrays at what the pipeline leaves, every other buffer as entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)

/-- After host stretch 3 (region 3's entry). -/
abbrev B7 : Dev nD → Valuation τ sig (Elt F) := fun c => StableHlo.after hostOps3 (B6 m ρ c)
/-- The same read at the TensorCore's references. -/
abbrev E7 : (c : Dev nD) → (b : Ref sig .tc) → Buf (Elt F) ((c : Thread nD τ).loc b) := fun c b => B7 m ρ c b
/-- At region 3's exit: its arrays at what the pipeline leaves, every other buffer as entered. -/
def B8 (c : Dev nD) : Valuation τ sig (Elt F) :=
  Pipeline.withArrays spec3 c (B7 m ρ c) fun w => (dat3 (E7 m ρ) c).arrAt w cfg3.N
theorem B8_arr (c : Dev nD) (w : Fin cfg3.W) :
    B8 m ρ c (Proc.devRef .tc (Pipeline.arrRef spec3 w)) = (dat3 (E7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev E8 : (c : Dev nD) → (b : Ref sig .tc) → Buf (Elt F) ((c : Thread nD τ).loc b) := fun c b => B8 m ρ c b
theorem hF3 (c : Dev nD) (w : Fin cfg3.W) : (dat3 (E7 m ρ) c).arrAt w cfg3.N = E8 m ρ c (Pipeline.arrRef spec3 w) :=
  (B8_arr m ρ c w).symm
theorem hrest3 (c : Dev nD) : ∀ b, b ∉ Finset.univ.image (Pipeline.arrRef spec3) → E8 m ρ c b = E7 m ρ c b :=
  fun b hb => B8_of_ne m ρ c b fun w e => hb (Finset.mem_image.mpr ⟨w, Finset.mem_univ _, e⟩)

/-- After host stretch 4 (region 4's entry). -/
abbrev B9 : Dev nD → Valuation τ sig (Elt F) := fun c => StableHlo.after hostOps4 (B8 m ρ c)
/-- The same read at the TensorCore's references. -/
abbrev E9 : (c : Dev nD) → (b : Ref sig .tc) → Buf (Elt F) ((c : Thread nD τ).loc b) := fun c b => B9 m ρ c b
/-- At region 4's exit: its arrays at what the pipeline leaves, every other buffer as entered. -/
def B10 (c : Dev nD) : Valuation τ sig (Elt F) :=
  Pipeline.withArrays spec4 c (B9 m ρ c) fun w => (dat4 (E9 m ρ) c).arrAt w cfg4.N
theorem B10_arr (c : Dev nD) (w : Fin cfg4.W) :
    B10 m ρ c (Proc.devRef .tc (Pipeline.arrRef spec4 w)) = (dat4 (E9 m ρ) c).arrAt w cfg4.N := by
  unfold B10; exact Pipeline.withArrays_arr spec4 launch4.win.arr_inj c _ _ w
theorem B10_of_ne (c : Dev nD) (b : Ref sig .tc) (hb : ∀ w, Pipeline.arrRef spec4 w ≠ b) :
    B10 m ρ c (Proc.devRef .tc b) = B9 m ρ c (Proc.devRef .tc b) := by
  unfold B10; exact Pipeline.withArrays_of_ne spec4 c _ _ b hb
abbrev E10 : (c : Dev nD) → (b : Ref sig .tc) → Buf (Elt F) ((c : Thread nD τ).loc b) := fun c b => B10 m ρ c b
theorem hF4 (c : Dev nD) (w : Fin cfg4.W) : (dat4 (E9 m ρ) c).arrAt w cfg4.N = E10 m ρ c (Pipeline.arrRef spec4 w) :=
  (B10_arr m ρ c w).symm
theorem hrest4 (c : Dev nD) : ∀ b, b ∉ Finset.univ.image (Pipeline.arrRef spec4) → E10 m ρ c b = E9 m ρ c b :=
  fun b hb => B10_of_ne m ρ c b fun w e => hb (Finset.mem_image.mpr ⟨w, Finset.mem_univ _, e⟩)

/-- After host stretch 5 (region 5's entry). -/
abbrev B11 : Dev nD → Valuation τ sig (Elt F) := fun c => StableHlo.after hostOps5 (B10 m ρ c)
/-- The same read at the TensorCore's references. -/
abbrev E11 : (c : Dev nD) → (b : Ref sig .tc) → Buf (Elt F) ((c : Thread nD τ).loc b) := fun c b => B11 m ρ c b
/-- At region 5's exit: its arrays at what the pipeline leaves, every other buffer as entered. -/
def B12 (c : Dev nD) : Valuation τ sig (Elt F) :=
  Pipeline.withArrays spec5 c (B11 m ρ c) fun w => (dat5 (E11 m ρ) c).arrAt w cfg5.N
theorem B12_arr (c : Dev nD) (w : Fin cfg5.W) :
    B12 m ρ c (Proc.devRef .tc (Pipeline.arrRef spec5 w)) = (dat5 (E11 m ρ) c).arrAt w cfg5.N := by
  unfold B12; exact Pipeline.withArrays_arr spec5 launch5.win.arr_inj c _ _ w
theorem B12_of_ne (c : Dev nD) (b : Ref sig .tc) (hb : ∀ w, Pipeline.arrRef spec5 w ≠ b) :
    B12 m ρ c (Proc.devRef .tc b) = B11 m ρ c (Proc.devRef .tc b) := by
  unfold B12; exact Pipeline.withArrays_of_ne spec5 c _ _ b hb
abbrev E12 : (c : Dev nD) → (b : Ref sig .tc) → Buf (Elt F) ((c : Thread nD τ).loc b) := fun c b => B12 m ρ c b
theorem hF5 (c : Dev nD) (w : Fin cfg5.W) : (dat5 (E11 m ρ) c).arrAt w cfg5.N = E12 m ρ c (Pipeline.arrRef spec5 w) :=
  (B12_arr m ρ c w).symm
theorem hrest5 (c : Dev nD) : ∀ b, b ∉ Finset.univ.image (Pipeline.arrRef spec5) → E12 m ρ c b = E11 m ρ c b :=
  fun b hb => B12_of_ne m ρ c b fun w e => hb (Finset.mem_image.mpr ⟨w, Finset.mem_univ _, e⟩)

/-! ## The arguments end as launched -/

theorem B12_main_arg0 (c : Dev nD) : B12 m ρ c (Proc.devRef .tc main_arg0) = m ((c : Thread nD τ).loc main_arg0) :=
  calc B12 m ρ c (Proc.devRef .tc main_arg0)
    _ = B11 m ρ c (Proc.devRef .tc main_arg0) := B12_of_ne m ρ c main_arg0 (by decide)
    _ = B10 m ρ c (Proc.devRef .tc main_arg0) := StableHlo.after_of_writes_sub hostOps5 _ hostOps5_writes (by decide)
    _ = B9 m ρ c (Proc.devRef .tc main_arg0) := B10_of_ne m ρ c main_arg0 (by decide)
    _ = B8 m ρ c (Proc.devRef .tc main_arg0) := StableHlo.after_of_writes_sub hostOps4 _ hostOps4_writes (by decide)
    _ = B7 m ρ c (Proc.devRef .tc main_arg0) := B8_of_ne m ρ c main_arg0 (by decide)
    _ = B6 m ρ c (Proc.devRef .tc main_arg0) := StableHlo.after_of_writes_sub hostOps3 _ hostOps3_writes (by decide)
    _ = B5 m ρ c (Proc.devRef .tc main_arg0) := B6_of_ne m ρ c main_arg0 (by decide)
    _ = B4 m ρ c (Proc.devRef .tc main_arg0) := StableHlo.after_of_writes_sub hostOps2 _ hostOps2_writes (by decide)
    _ = B3 m ρ c (Proc.devRef .tc main_arg0) := B4_of_ne m ρ c main_arg0 (by decide)
    _ = B2 m ρ c (Proc.devRef .tc main_arg0) := StableHlo.after_of_writes_sub hostOps1 _ hostOps1_writes (by decide)
    _ = B1 m ρ c (Proc.devRef .tc main_arg0) := (B2_arr m ρ c 1).trans (((dat0 (E1 m ρ) c).arrAt_in 1 rfl _).trans (A_eq0 (E1 m ρ) c 1))
    _ = B0 m ρ c (Proc.devRef .tc main_arg0) := StableHlo.after_of_writes_sub hostOps0 _ hostOps0_writes (by decide)
    _ = m ((c : Thread nD τ).loc main_arg0) := rfl

theorem B12_main_arg1 (c : Dev nD) : B12 m ρ c (Proc.devRef .tc main_arg1) = m ((c : Thread nD τ).loc main_arg1) :=
  calc B12 m ρ c (Proc.devRef .tc main_arg1)
    _ = B11 m ρ c (Proc.devRef .tc main_arg1) := B12_of_ne m ρ c main_arg1 (by decide)
    _ = B10 m ρ c (Proc.devRef .tc main_arg1) := StableHlo.after_of_writes_sub hostOps5 _ hostOps5_writes (by decide)
    _ = B9 m ρ c (Proc.devRef .tc main_arg1) := B10_of_ne m ρ c main_arg1 (by decide)
    _ = B8 m ρ c (Proc.devRef .tc main_arg1) := StableHlo.after_of_writes_sub hostOps4 _ hostOps4_writes (by decide)
    _ = B7 m ρ c (Proc.devRef .tc main_arg1) := B8_of_ne m ρ c main_arg1 (by decide)
    _ = B6 m ρ c (Proc.devRef .tc main_arg1) := StableHlo.after_of_writes_sub hostOps3 _ hostOps3_writes (by decide)
    _ = B5 m ρ c (Proc.devRef .tc main_arg1) := B6_of_ne m ρ c main_arg1 (by decide)
    _ = B4 m ρ c (Proc.devRef .tc main_arg1) := StableHlo.after_of_writes_sub hostOps2 _ hostOps2_writes (by decide)
    _ = B3 m ρ c (Proc.devRef .tc main_arg1) := B4_of_ne m ρ c main_arg1 (by decide)
    _ = B2 m ρ c (Proc.devRef .tc main_arg1) := StableHlo.after_of_writes_sub hostOps1 _ hostOps1_writes (by decide)
    _ = B1 m ρ c (Proc.devRef .tc main_arg1) := B2_of_ne m ρ c main_arg1 (by decide)
    _ = B0 m ρ c (Proc.devRef .tc main_arg1) := StableHlo.after_of_writes_sub hostOps0 _ hostOps0_writes (by decide)
    _ = m ((c : Thread nD τ).loc main_arg1) := rfl

theorem B12_main_arg2 (c : Dev nD) : B12 m ρ c (Proc.devRef .tc main_arg2) = m ((c : Thread nD τ).loc main_arg2) :=
  calc B12 m ρ c (Proc.devRef .tc main_arg2)
    _ = B11 m ρ c (Proc.devRef .tc main_arg2) := B12_of_ne m ρ c main_arg2 (by decide)
    _ = B10 m ρ c (Proc.devRef .tc main_arg2) := StableHlo.after_of_writes_sub hostOps5 _ hostOps5_writes (by decide)
    _ = B9 m ρ c (Proc.devRef .tc main_arg2) := B10_of_ne m ρ c main_arg2 (by decide)
    _ = B8 m ρ c (Proc.devRef .tc main_arg2) := StableHlo.after_of_writes_sub hostOps4 _ hostOps4_writes (by decide)
    _ = B7 m ρ c (Proc.devRef .tc main_arg2) := B8_of_ne m ρ c main_arg2 (by decide)
    _ = B6 m ρ c (Proc.devRef .tc main_arg2) := StableHlo.after_of_writes_sub hostOps3 _ hostOps3_writes (by decide)
    _ = B5 m ρ c (Proc.devRef .tc main_arg2) := B6_of_ne m ρ c main_arg2 (by decide)
    _ = B4 m ρ c (Proc.devRef .tc main_arg2) := StableHlo.after_of_writes_sub hostOps2 _ hostOps2_writes (by decide)
    _ = B3 m ρ c (Proc.devRef .tc main_arg2) := B4_of_ne m ρ c main_arg2 (by decide)
    _ = B2 m ρ c (Proc.devRef .tc main_arg2) := StableHlo.after_of_writes_sub hostOps1 _ hostOps1_writes (by decide)
    _ = B1 m ρ c (Proc.devRef .tc main_arg2) := (B2_arr m ρ c 2).trans (((dat0 (E1 m ρ) c).arrAt_in 2 rfl _).trans (A_eq0 (E1 m ρ) c 2))
    _ = B0 m ρ c (Proc.devRef .tc main_arg2) := StableHlo.after_of_writes_sub hostOps0 _ hostOps0_writes (by decide)
    _ = m ((c : Thread nD τ).loc main_arg2) := rfl

theorem B12_main_arg3 (c : Dev nD) : B12 m ρ c (Proc.devRef .tc main_arg3) = m ((c : Thread nD τ).loc main_arg3) :=
  calc B12 m ρ c (Proc.devRef .tc main_arg3)
    _ = B11 m ρ c (Proc.devRef .tc main_arg3) := B12_of_ne m ρ c main_arg3 (by decide)
    _ = B10 m ρ c (Proc.devRef .tc main_arg3) := StableHlo.after_of_writes_sub hostOps5 _ hostOps5_writes (by decide)
    _ = B9 m ρ c (Proc.devRef .tc main_arg3) := B10_of_ne m ρ c main_arg3 (by decide)
    _ = B8 m ρ c (Proc.devRef .tc main_arg3) := StableHlo.after_of_writes_sub hostOps4 _ hostOps4_writes (by decide)
    _ = B7 m ρ c (Proc.devRef .tc main_arg3) := B8_of_ne m ρ c main_arg3 (by decide)
    _ = B6 m ρ c (Proc.devRef .tc main_arg3) := StableHlo.after_of_writes_sub hostOps3 _ hostOps3_writes (by decide)
    _ = B5 m ρ c (Proc.devRef .tc main_arg3) := B6_of_ne m ρ c main_arg3 (by decide)
    _ = B4 m ρ c (Proc.devRef .tc main_arg3) := StableHlo.after_of_writes_sub hostOps2 _ hostOps2_writes (by decide)
    _ = B3 m ρ c (Proc.devRef .tc main_arg3) := B4_of_ne m ρ c main_arg3 (by decide)
    _ = B2 m ρ c (Proc.devRef .tc main_arg3) := StableHlo.after_of_writes_sub hostOps1 _ hostOps1_writes (by decide)
    _ = B1 m ρ c (Proc.devRef .tc main_arg3) := B2_of_ne m ρ c main_arg3 (by decide)
    _ = B0 m ρ c (Proc.devRef .tc main_arg3) := StableHlo.after_of_writes_sub hostOps0 _ hostOps0_writes (by decide)
    _ = m ((c : Thread nD τ).loc main_arg3) := rfl

theorem B12_main_arg4 (c : Dev nD) : B12 m ρ c (Proc.devRef .tc main_arg4) = m ((c : Thread nD τ).loc main_arg4) :=
  calc B12 m ρ c (Proc.devRef .tc main_arg4)
    _ = B11 m ρ c (Proc.devRef .tc main_arg4) := B12_of_ne m ρ c main_arg4 (by decide)
    _ = B10 m ρ c (Proc.devRef .tc main_arg4) := StableHlo.after_of_writes_sub hostOps5 _ hostOps5_writes (by decide)
    _ = B9 m ρ c (Proc.devRef .tc main_arg4) := B10_of_ne m ρ c main_arg4 (by decide)
    _ = B8 m ρ c (Proc.devRef .tc main_arg4) := StableHlo.after_of_writes_sub hostOps4 _ hostOps4_writes (by decide)
    _ = B7 m ρ c (Proc.devRef .tc main_arg4) := B8_of_ne m ρ c main_arg4 (by decide)
    _ = B6 m ρ c (Proc.devRef .tc main_arg4) := StableHlo.after_of_writes_sub hostOps3 _ hostOps3_writes (by decide)
    _ = B5 m ρ c (Proc.devRef .tc main_arg4) := B6_of_ne m ρ c main_arg4 (by decide)
    _ = B4 m ρ c (Proc.devRef .tc main_arg4) := StableHlo.after_of_writes_sub hostOps2 _ hostOps2_writes (by decide)
    _ = B3 m ρ c (Proc.devRef .tc main_arg4) := B4_of_ne m ρ c main_arg4 (by decide)
    _ = B2 m ρ c (Proc.devRef .tc main_arg4) := StableHlo.after_of_writes_sub hostOps1 _ hostOps1_writes (by decide)
    _ = B1 m ρ c (Proc.devRef .tc main_arg4) := (B2_arr m ρ c 3).trans (((dat0 (E1 m ρ) c).arrAt_in 3 rfl _).trans (A_eq0 (E1 m ρ) c 3))
    _ = B0 m ρ c (Proc.devRef .tc main_arg4) := StableHlo.after_of_writes_sub hostOps0 _ hostOps0_writes (by decide)
    _ = m ((c : Thread nD τ).loc main_arg4) := rfl

theorem B12_main_arg5 (c : Dev nD) : B12 m ρ c (Proc.devRef .tc main_arg5) = m ((c : Thread nD τ).loc main_arg5) :=
  calc B12 m ρ c (Proc.devRef .tc main_arg5)
    _ = B11 m ρ c (Proc.devRef .tc main_arg5) := B12_of_ne m ρ c main_arg5 (by decide)
    _ = B10 m ρ c (Proc.devRef .tc main_arg5) := StableHlo.after_of_writes_sub hostOps5 _ hostOps5_writes (by decide)
    _ = B9 m ρ c (Proc.devRef .tc main_arg5) := B10_of_ne m ρ c main_arg5 (by decide)
    _ = B8 m ρ c (Proc.devRef .tc main_arg5) := StableHlo.after_of_writes_sub hostOps4 _ hostOps4_writes (by decide)
    _ = B7 m ρ c (Proc.devRef .tc main_arg5) := B8_of_ne m ρ c main_arg5 (by decide)
    _ = B6 m ρ c (Proc.devRef .tc main_arg5) := StableHlo.after_of_writes_sub hostOps3 _ hostOps3_writes (by decide)
    _ = B5 m ρ c (Proc.devRef .tc main_arg5) := B6_of_ne m ρ c main_arg5 (by decide)
    _ = B4 m ρ c (Proc.devRef .tc main_arg5) := StableHlo.after_of_writes_sub hostOps2 _ hostOps2_writes (by decide)
    _ = B3 m ρ c (Proc.devRef .tc main_arg5) := B4_of_ne m ρ c main_arg5 (by decide)
    _ = B2 m ρ c (Proc.devRef .tc main_arg5) := StableHlo.after_of_writes_sub hostOps1 _ hostOps1_writes (by decide)
    _ = B1 m ρ c (Proc.devRef .tc main_arg5) := B2_of_ne m ρ c main_arg5 (by decide)
    _ = B0 m ρ c (Proc.devRef .tc main_arg5) := StableHlo.after_of_writes_sub hostOps0 _ hostOps0_writes (by decide)
    _ = m ((c : Thread nD τ).loc main_arg5) := rfl

theorem B12_main_arg6 (c : Dev nD) : B12 m ρ c (Proc.devRef .tc main_arg6) = m ((c : Thread nD τ).loc main_arg6) :=
  calc B12 m ρ c (Proc.devRef .tc main_arg6)
    _ = B11 m ρ c (Proc.devRef .tc main_arg6) := B12_of_ne m ρ c main_arg6 (by decide)
    _ = B10 m ρ c (Proc.devRef .tc main_arg6) := StableHlo.after_of_writes_sub hostOps5 _ hostOps5_writes (by decide)
    _ = B9 m ρ c (Proc.devRef .tc main_arg6) := B10_of_ne m ρ c main_arg6 (by decide)
    _ = B8 m ρ c (Proc.devRef .tc main_arg6) := StableHlo.after_of_writes_sub hostOps4 _ hostOps4_writes (by decide)
    _ = B7 m ρ c (Proc.devRef .tc main_arg6) := B8_of_ne m ρ c main_arg6 (by decide)
    _ = B6 m ρ c (Proc.devRef .tc main_arg6) := StableHlo.after_of_writes_sub hostOps3 _ hostOps3_writes (by decide)
    _ = B5 m ρ c (Proc.devRef .tc main_arg6) := B6_of_ne m ρ c main_arg6 (by decide)
    _ = B4 m ρ c (Proc.devRef .tc main_arg6) := StableHlo.after_of_writes_sub hostOps2 _ hostOps2_writes (by decide)
    _ = B3 m ρ c (Proc.devRef .tc main_arg6) := B4_of_ne m ρ c main_arg6 (by decide)
    _ = B2 m ρ c (Proc.devRef .tc main_arg6) := StableHlo.after_of_writes_sub hostOps1 _ hostOps1_writes (by decide)
    _ = B1 m ρ c (Proc.devRef .tc main_arg6) := B2_of_ne m ρ c main_arg6 (by decide)
    _ = B0 m ρ c (Proc.devRef .tc main_arg6) := StableHlo.after_of_writes_sub hostOps0 _ hostOps0_writes (by decide)
    _ = m ((c : Thread nD τ).loc main_arg6) := rfl

theorem B12_main_arg7 (c : Dev nD) : B12 m ρ c (Proc.devRef .tc main_arg7) = m ((c : Thread nD τ).loc main_arg7) :=
  calc B12 m ρ c (Proc.devRef .tc main_arg7)
    _ = B11 m ρ c (Proc.devRef .tc main_arg7) := B12_of_ne m ρ c main_arg7 (by decide)
    _ = B10 m ρ c (Proc.devRef .tc main_arg7) := StableHlo.after_of_writes_sub hostOps5 _ hostOps5_writes (by decide)
    _ = B9 m ρ c (Proc.devRef .tc main_arg7) := B10_of_ne m ρ c main_arg7 (by decide)
    _ = B8 m ρ c (Proc.devRef .tc main_arg7) := StableHlo.after_of_writes_sub hostOps4 _ hostOps4_writes (by decide)
    _ = B7 m ρ c (Proc.devRef .tc main_arg7) := B8_of_ne m ρ c main_arg7 (by decide)
    _ = B6 m ρ c (Proc.devRef .tc main_arg7) := StableHlo.after_of_writes_sub hostOps3 _ hostOps3_writes (by decide)
    _ = B5 m ρ c (Proc.devRef .tc main_arg7) := (B6_arr m ρ c 2).trans (((dat2 (E5 m ρ) c).arrAt_in 2 rfl _).trans (A_eq2 (E5 m ρ) c 2))
    _ = B4 m ρ c (Proc.devRef .tc main_arg7) := StableHlo.after_of_writes_sub hostOps2 _ hostOps2_writes (by decide)
    _ = B3 m ρ c (Proc.devRef .tc main_arg7) := B4_of_ne m ρ c main_arg7 (by decide)
    _ = B2 m ρ c (Proc.devRef .tc main_arg7) := StableHlo.after_of_writes_sub hostOps1 _ hostOps1_writes (by decide)
    _ = B1 m ρ c (Proc.devRef .tc main_arg7) := B2_of_ne m ρ c main_arg7 (by decide)
    _ = B0 m ρ c (Proc.devRef .tc main_arg7) := StableHlo.after_of_writes_sub hostOps0 _ hostOps0_writes (by decide)
    _ = m ((c : Thread nD τ).loc main_arg7) := rfl

theorem B12_main_arg8 (c : Dev nD) : B12 m ρ c (Proc.devRef .tc main_arg8) = m ((c : Thread nD τ).loc main_arg8) :=
  calc B12 m ρ c (Proc.devRef .tc main_arg8)
    _ = B11 m ρ c (Proc.devRef .tc main_arg8) := B12_of_ne m ρ c main_arg8 (by decide)
    _ = B10 m ρ c (Proc.devRef .tc main_arg8) := StableHlo.after_of_writes_sub hostOps5 _ hostOps5_writes (by decide)
    _ = B9 m ρ c (Proc.devRef .tc main_arg8) := B10_of_ne m ρ c main_arg8 (by decide)
    _ = B8 m ρ c (Proc.devRef .tc main_arg8) := StableHlo.after_of_writes_sub hostOps4 _ hostOps4_writes (by decide)
    _ = B7 m ρ c (Proc.devRef .tc main_arg8) := B8_of_ne m ρ c main_arg8 (by decide)
    _ = B6 m ρ c (Proc.devRef .tc main_arg8) := StableHlo.after_of_writes_sub hostOps3 _ hostOps3_writes (by decide)
    _ = B5 m ρ c (Proc.devRef .tc main_arg8) := B6_of_ne m ρ c main_arg8 (by decide)
    _ = B4 m ρ c (Proc.devRef .tc main_arg8) := StableHlo.after_of_writes_sub hostOps2 _ hostOps2_writes (by decide)
    _ = B3 m ρ c (Proc.devRef .tc main_arg8) := B4_of_ne m ρ c main_arg8 (by decide)
    _ = B2 m ρ c (Proc.devRef .tc main_arg8) := StableHlo.after_of_writes_sub hostOps1 _ hostOps1_writes (by decide)
    _ = B1 m ρ c (Proc.devRef .tc main_arg8) := B2_of_ne m ρ c main_arg8 (by decide)
    _ = B0 m ρ c (Proc.devRef .tc main_arg8) := StableHlo.after_of_writes_sub hostOps0 _ hostOps0_writes (by decide)
    _ = m ((c : Thread nD τ).loc main_arg8) := rfl

theorem B12_main_arg9 (c : Dev nD) : B12 m ρ c (Proc.devRef .tc main_arg9) = m ((c : Thread nD τ).loc main_arg9) :=
  calc B12 m ρ c (Proc.devRef .tc main_arg9)
    _ = B11 m ρ c (Proc.devRef .tc main_arg9) := B12_of_ne m ρ c main_arg9 (by decide)
    _ = B10 m ρ c (Proc.devRef .tc main_arg9) := StableHlo.after_of_writes_sub hostOps5 _ hostOps5_writes (by decide)
    _ = B9 m ρ c (Proc.devRef .tc main_arg9) := B10_of_ne m ρ c main_arg9 (by decide)
    _ = B8 m ρ c (Proc.devRef .tc main_arg9) := StableHlo.after_of_writes_sub hostOps4 _ hostOps4_writes (by decide)
    _ = B7 m ρ c (Proc.devRef .tc main_arg9) := B8_of_ne m ρ c main_arg9 (by decide)
    _ = B6 m ρ c (Proc.devRef .tc main_arg9) := StableHlo.after_of_writes_sub hostOps3 _ hostOps3_writes (by decide)
    _ = B5 m ρ c (Proc.devRef .tc main_arg9) := (B6_arr m ρ c 3).trans (((dat2 (E5 m ρ) c).arrAt_in 3 rfl _).trans (A_eq2 (E5 m ρ) c 3))
    _ = B4 m ρ c (Proc.devRef .tc main_arg9) := StableHlo.after_of_writes_sub hostOps2 _ hostOps2_writes (by decide)
    _ = B3 m ρ c (Proc.devRef .tc main_arg9) := B4_of_ne m ρ c main_arg9 (by decide)
    _ = B2 m ρ c (Proc.devRef .tc main_arg9) := StableHlo.after_of_writes_sub hostOps1 _ hostOps1_writes (by decide)
    _ = B1 m ρ c (Proc.devRef .tc main_arg9) := B2_of_ne m ρ c main_arg9 (by decide)
    _ = B0 m ρ c (Proc.devRef .tc main_arg9) := StableHlo.after_of_writes_sub hostOps0 _ hostOps0_writes (by decide)
    _ = m ((c : Thread nD τ).loc main_arg9) := rfl

theorem B12_main_arg10 (c : Dev nD) : B12 m ρ c (Proc.devRef .tc main_arg10) = m ((c : Thread nD τ).loc main_arg10) :=
  calc B12 m ρ c (Proc.devRef .tc main_arg10)
    _ = B11 m ρ c (Proc.devRef .tc main_arg10) := B12_of_ne m ρ c main_arg10 (by decide)
    _ = B10 m ρ c (Proc.devRef .tc main_arg10) := StableHlo.after_of_writes_sub hostOps5 _ hostOps5_writes (by decide)
    _ = B9 m ρ c (Proc.devRef .tc main_arg10) := B10_of_ne m ρ c main_arg10 (by decide)
    _ = B8 m ρ c (Proc.devRef .tc main_arg10) := StableHlo.after_of_writes_sub hostOps4 _ hostOps4_writes (by decide)
    _ = B7 m ρ c (Proc.devRef .tc main_arg10) := B8_of_ne m ρ c main_arg10 (by decide)
    _ = B6 m ρ c (Proc.devRef .tc main_arg10) := StableHlo.after_of_writes_sub hostOps3 _ hostOps3_writes (by decide)
    _ = B5 m ρ c (Proc.devRef .tc main_arg10) := B6_of_ne m ρ c main_arg10 (by decide)
    _ = B4 m ρ c (Proc.devRef .tc main_arg10) := StableHlo.after_of_writes_sub hostOps2 _ hostOps2_writes (by decide)
    _ = B3 m ρ c (Proc.devRef .tc main_arg10) := B4_of_ne m ρ c main_arg10 (by decide)
    _ = B2 m ρ c (Proc.devRef .tc main_arg10) := StableHlo.after_of_writes_sub hostOps1 _ hostOps1_writes (by decide)
    _ = B1 m ρ c (Proc.devRef .tc main_arg10) := B2_of_ne m ρ c main_arg10 (by decide)
    _ = B0 m ρ c (Proc.devRef .tc main_arg10) := StableHlo.after_of_writes_sub hostOps0 _ hostOps0_writes (by decide)
    _ = m ((c : Thread nD τ).loc main_arg10) := rfl

theorem B12_main_arg11 (c : Dev nD) : B12 m ρ c (Proc.devRef .tc main_arg11) = m ((c : Thread nD τ).loc main_arg11) :=
  calc B12 m ρ c (Proc.devRef .tc main_arg11)
    _ = B11 m ρ c (Proc.devRef .tc main_arg11) := B12_of_ne m ρ c main_arg11 (by decide)
    _ = B10 m ρ c (Proc.devRef .tc main_arg11) := StableHlo.after_of_writes_sub hostOps5 _ hostOps5_writes (by decide)
    _ = B9 m ρ c (Proc.devRef .tc main_arg11) := B10_of_ne m ρ c main_arg11 (by decide)
    _ = B8 m ρ c (Proc.devRef .tc main_arg11) := StableHlo.after_of_writes_sub hostOps4 _ hostOps4_writes (by decide)
    _ = B7 m ρ c (Proc.devRef .tc main_arg11) := B8_of_ne m ρ c main_arg11 (by decide)
    _ = B6 m ρ c (Proc.devRef .tc main_arg11) := StableHlo.after_of_writes_sub hostOps3 _ hostOps3_writes (by decide)
    _ = B5 m ρ c (Proc.devRef .tc main_arg11) := B6_of_ne m ρ c main_arg11 (by decide)
    _ = B4 m ρ c (Proc.devRef .tc main_arg11) := StableHlo.after_of_writes_sub hostOps2 _ hostOps2_writes (by decide)
    _ = B3 m ρ c (Proc.devRef .tc main_arg11) := B4_of_ne m ρ c main_arg11 (by decide)
    _ = B2 m ρ c (Proc.devRef .tc main_arg11) := StableHlo.after_of_writes_sub hostOps1 _ hostOps1_writes (by decide)
    _ = B1 m ρ c (Proc.devRef .tc main_arg11) := B2_of_ne m ρ c main_arg11 (by decide)
    _ = B0 m ρ c (Proc.devRef .tc main_arg11) := StableHlo.after_of_writes_sub hostOps0 _ hostOps0_writes (by decide)
    _ = m ((c : Thread nD τ).loc main_arg11) := rfl

theorem B12_main_arg12 (c : Dev nD) : B12 m ρ c (Proc.devRef .tc main_arg12) = m ((c : Thread nD τ).loc main_arg12) :=
  calc B12 m ρ c (Proc.devRef .tc main_arg12)
    _ = B11 m ρ c (Proc.devRef .tc main_arg12) := B12_of_ne m ρ c main_arg12 (by decide)
    _ = B10 m ρ c (Proc.devRef .tc main_arg12) := StableHlo.after_of_writes_sub hostOps5 _ hostOps5_writes (by decide)
    _ = B9 m ρ c (Proc.devRef .tc main_arg12) := (B10_arr m ρ c 2).trans (((dat4 (E9 m ρ) c).arrAt_in 2 rfl _).trans (A_eq4 (E9 m ρ) c 2))
    _ = B8 m ρ c (Proc.devRef .tc main_arg12) := StableHlo.after_of_writes_sub hostOps4 _ hostOps4_writes (by decide)
    _ = B7 m ρ c (Proc.devRef .tc main_arg12) := B8_of_ne m ρ c main_arg12 (by decide)
    _ = B6 m ρ c (Proc.devRef .tc main_arg12) := StableHlo.after_of_writes_sub hostOps3 _ hostOps3_writes (by decide)
    _ = B5 m ρ c (Proc.devRef .tc main_arg12) := B6_of_ne m ρ c main_arg12 (by decide)
    _ = B4 m ρ c (Proc.devRef .tc main_arg12) := StableHlo.after_of_writes_sub hostOps2 _ hostOps2_writes (by decide)
    _ = B3 m ρ c (Proc.devRef .tc main_arg12) := B4_of_ne m ρ c main_arg12 (by decide)
    _ = B2 m ρ c (Proc.devRef .tc main_arg12) := StableHlo.after_of_writes_sub hostOps1 _ hostOps1_writes (by decide)
    _ = B1 m ρ c (Proc.devRef .tc main_arg12) := B2_of_ne m ρ c main_arg12 (by decide)
    _ = B0 m ρ c (Proc.devRef .tc main_arg12) := StableHlo.after_of_writes_sub hostOps0 _ hostOps0_writes (by decide)
    _ = m ((c : Thread nD τ).loc main_arg12) := rfl

theorem B12_main_arg13 (c : Dev nD) : B12 m ρ c (Proc.devRef .tc main_arg13) = m ((c : Thread nD τ).loc main_arg13) :=
  calc B12 m ρ c (Proc.devRef .tc main_arg13)
    _ = B11 m ρ c (Proc.devRef .tc main_arg13) := B12_of_ne m ρ c main_arg13 (by decide)
    _ = B10 m ρ c (Proc.devRef .tc main_arg13) := StableHlo.after_of_writes_sub hostOps5 _ hostOps5_writes (by decide)
    _ = B9 m ρ c (Proc.devRef .tc main_arg13) := B10_of_ne m ρ c main_arg13 (by decide)
    _ = B8 m ρ c (Proc.devRef .tc main_arg13) := StableHlo.after_of_writes_sub hostOps4 _ hostOps4_writes (by decide)
    _ = B7 m ρ c (Proc.devRef .tc main_arg13) := B8_of_ne m ρ c main_arg13 (by decide)
    _ = B6 m ρ c (Proc.devRef .tc main_arg13) := StableHlo.after_of_writes_sub hostOps3 _ hostOps3_writes (by decide)
    _ = B5 m ρ c (Proc.devRef .tc main_arg13) := B6_of_ne m ρ c main_arg13 (by decide)
    _ = B4 m ρ c (Proc.devRef .tc main_arg13) := StableHlo.after_of_writes_sub hostOps2 _ hostOps2_writes (by decide)
    _ = B3 m ρ c (Proc.devRef .tc main_arg13) := B4_of_ne m ρ c main_arg13 (by decide)
    _ = B2 m ρ c (Proc.devRef .tc main_arg13) := StableHlo.after_of_writes_sub hostOps1 _ hostOps1_writes (by decide)
    _ = B1 m ρ c (Proc.devRef .tc main_arg13) := B2_of_ne m ρ c main_arg13 (by decide)
    _ = B0 m ρ c (Proc.devRef .tc main_arg13) := StableHlo.after_of_writes_sub hostOps0 _ hostOps0_writes (by decide)
    _ = m ((c : Thread nD τ).loc main_arg13) := rfl

theorem B12_main_arg14 (c : Dev nD) : B12 m ρ c (Proc.devRef .tc main_arg14) = m ((c : Thread nD τ).loc main_arg14) :=
  calc B12 m ρ c (Proc.devRef .tc main_arg14)
    _ = B11 m ρ c (Proc.devRef .tc main_arg14) := B12_of_ne m ρ c main_arg14 (by decide)
    _ = B10 m ρ c (Proc.devRef .tc main_arg14) := StableHlo.after_of_writes_sub hostOps5 _ hostOps5_writes (by decide)
    _ = B9 m ρ c (Proc.devRef .tc main_arg14) := (B10_arr m ρ c 3).trans (((dat4 (E9 m ρ) c).arrAt_in 3 rfl _).trans (A_eq4 (E9 m ρ) c 3))
    _ = B8 m ρ c (Proc.devRef .tc main_arg14) := StableHlo.after_of_writes_sub hostOps4 _ hostOps4_writes (by decide)
    _ = B7 m ρ c (Proc.devRef .tc main_arg14) := B8_of_ne m ρ c main_arg14 (by decide)
    _ = B6 m ρ c (Proc.devRef .tc main_arg14) := StableHlo.after_of_writes_sub hostOps3 _ hostOps3_writes (by decide)
    _ = B5 m ρ c (Proc.devRef .tc main_arg14) := B6_of_ne m ρ c main_arg14 (by decide)
    _ = B4 m ρ c (Proc.devRef .tc main_arg14) := StableHlo.after_of_writes_sub hostOps2 _ hostOps2_writes (by decide)
    _ = B3 m ρ c (Proc.devRef .tc main_arg14) := B4_of_ne m ρ c main_arg14 (by decide)
    _ = B2 m ρ c (Proc.devRef .tc main_arg14) := StableHlo.after_of_writes_sub hostOps1 _ hostOps1_writes (by decide)
    _ = B1 m ρ c (Proc.devRef .tc main_arg14) := B2_of_ne m ρ c main_arg14 (by decide)
    _ = B0 m ρ c (Proc.devRef .tc main_arg14) := StableHlo.after_of_writes_sub hostOps0 _ hostOps0_writes (by decide)
    _ = m ((c : Thread nD τ).loc main_arg14) := rfl

theorem B12_main_arg15 (c : Dev nD) : B12 m ρ c (Proc.devRef .tc main_arg15) = m ((c : Thread nD τ).loc main_arg15) :=
  calc B12 m ρ c (Proc.devRef .tc main_arg15)
    _ = B11 m ρ c (Proc.devRef .tc main_arg15) := B12_of_ne m ρ c main_arg15 (by decide)
    _ = B10 m ρ c (Proc.devRef .tc main_arg15) := StableHlo.after_of_writes_sub hostOps5 _ hostOps5_writes (by decide)
    _ = B9 m ρ c (Proc.devRef .tc main_arg15) := B10_of_ne m ρ c main_arg15 (by decide)
    _ = B8 m ρ c (Proc.devRef .tc main_arg15) := StableHlo.after_of_writes_sub hostOps4 _ hostOps4_writes (by decide)
    _ = B7 m ρ c (Proc.devRef .tc main_arg15) := B8_of_ne m ρ c main_arg15 (by decide)
    _ = B6 m ρ c (Proc.devRef .tc main_arg15) := StableHlo.after_of_writes_sub hostOps3 _ hostOps3_writes (by decide)
    _ = B5 m ρ c (Proc.devRef .tc main_arg15) := B6_of_ne m ρ c main_arg15 (by decide)
    _ = B4 m ρ c (Proc.devRef .tc main_arg15) := StableHlo.after_of_writes_sub hostOps2 _ hostOps2_writes (by decide)
    _ = B3 m ρ c (Proc.devRef .tc main_arg15) := B4_of_ne m ρ c main_arg15 (by decide)
    _ = B2 m ρ c (Proc.devRef .tc main_arg15) := StableHlo.after_of_writes_sub hostOps1 _ hostOps1_writes (by decide)
    _ = B1 m ρ c (Proc.devRef .tc main_arg15) := B2_of_ne m ρ c main_arg15 (by decide)
    _ = B0 m ρ c (Proc.devRef .tc main_arg15) := StableHlo.after_of_writes_sub hostOps0 _ hostOps0_writes (by decide)
    _ = m ((c : Thread nD τ).loc main_arg15) := rfl

theorem B12_main_arg16 (c : Dev nD) : B12 m ρ c (Proc.devRef .tc main_arg16) = m ((c : Thread nD τ).loc main_arg16) :=
  calc B12 m ρ c (Proc.devRef .tc main_arg16)
    _ = B11 m ρ c (Proc.devRef .tc main_arg16) := B12_of_ne m ρ c main_arg16 (by decide)
    _ = B10 m ρ c (Proc.devRef .tc main_arg16) := StableHlo.after_of_writes_sub hostOps5 _ hostOps5_writes (by decide)
    _ = B9 m ρ c (Proc.devRef .tc main_arg16) := B10_of_ne m ρ c main_arg16 (by decide)
    _ = B8 m ρ c (Proc.devRef .tc main_arg16) := StableHlo.after_of_writes_sub hostOps4 _ hostOps4_writes (by decide)
    _ = B7 m ρ c (Proc.devRef .tc main_arg16) := B8_of_ne m ρ c main_arg16 (by decide)
    _ = B6 m ρ c (Proc.devRef .tc main_arg16) := StableHlo.after_of_writes_sub hostOps3 _ hostOps3_writes (by decide)
    _ = B5 m ρ c (Proc.devRef .tc main_arg16) := B6_of_ne m ρ c main_arg16 (by decide)
    _ = B4 m ρ c (Proc.devRef .tc main_arg16) := StableHlo.after_of_writes_sub hostOps2 _ hostOps2_writes (by decide)
    _ = B3 m ρ c (Proc.devRef .tc main_arg16) := B4_of_ne m ρ c main_arg16 (by decide)
    _ = B2 m ρ c (Proc.devRef .tc main_arg16) := StableHlo.after_of_writes_sub hostOps1 _ hostOps1_writes (by decide)
    _ = B1 m ρ c (Proc.devRef .tc main_arg16) := B2_of_ne m ρ c main_arg16 (by decide)
    _ = B0 m ρ c (Proc.devRef .tc main_arg16) := StableHlo.after_of_writes_sub hostOps0 _ hostOps0_writes (by decide)
    _ = m ((c : Thread nD τ).loc main_arg16) := rfl

/-! ## The proof data family and the thread state -/

/-- No region has a prefetched table. -/
abbrev admAll : (p : Fin 6) → (pcfgs (F := F) p).Adm := fun p => (cfgs p).toPCfg_adm
/-- Every region's proof data, each at its region's entry contents. -/
def pdat : (p : Fin 6) → (c : Dev nD) → Dat τ (Elt F) Unit ℕ (UR sig nD τ) ℕ (Pipeline.pin (pcfgs (F := F)) admAll p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
  | ⟨4, _⟩ => fun c => dat4 (E9 m ρ) c
  | ⟨5, _⟩ => fun c => dat5 (E11 m ρ) c
abbrev vars0 : Variants := Variants.none
/-- No core owes another anything. -/
abbrev Lnone : GSem nD τ sig → Finset Unit := fun _ => ∅
abbrev lvl0 : GSem nD τ sig → Unit → ℕ := fun _ _ => 0
/-- What rides beside the buffers through every item: the core's generator register at some state, and nothing owed. -/
abbrev Rest (c : Dev nD) : sProp 𝕄 := iprop((∃ r, prngReg c r) ∗ ∃ W, owes (c : Thread nD τ) (0 : CellTallies nD τ sig Unit) W)
/-- A host stretch as an item of the run, from the contents `W`. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vars0 Lnone lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tlast (c : Dev nD) : sProp 𝕄 := iprop(StableHlo.held (c : Thread nD τ) (Pipeline.ucRefs τ sig) (B12 m ρ c) ∗ ∃ r, prngReg c r)

/-! ## The regions as items -/

set_option backward.isDefEq.respectTransparency.types false in
/-- Region 0: entered from every unscoped buffer at `B1`, left at `B2`. Its arrays are split out of the unscoped buffers
    and put back at the exit contents; the generator register goes into the region's invariant and comes out; nothing is owed. -/
def region0 : Pipeline.RegionSeg (pcfgs (F := F)) admAll (pdat m ρ) () defs₀ vars0 Lnone lvl0 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lnone lvl0 0 fun _ _ => rfl
  pre c := iprop(StableHlo.held (c : Thread nD τ) (Pipeline.ucRefs τ sig) (B1 m ρ c) ∗ Rest c)
  post c := iprop(StableHlo.held (c : Thread nD τ) (Pipeline.ucRefs τ sig) (B2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admAll (pdat m ρ) launch0.win launch0.arr_whole c
      ((pdat m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admAll (Ix := Unit) (Name := ℕ) (U := UR sig nD τ) (Lvl := ℕ)
      launch0.win launch0.arr_whole c (pdat m ρ) ((pdat m ρ 0 c).share_full fun _ => rfl)
      (E1 m ρ c) (E2 m ρ c) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `B3`, left at `B4`. Its arrays are split out of the unscoped buffers
    and put back at the exit contents; the generator register goes into the region's invariant and comes out; nothing is owed. -/
def region1 : Pipeline.RegionSeg (pcfgs (F := F)) admAll (pdat m ρ) () defs₀ vars0 Lnone lvl0 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Lnone lvl0 1 fun _ _ => rfl
  pre c := iprop(StableHlo.held (c : Thread nD τ) (Pipeline.ucRefs τ sig) (B3 m ρ c) ∗ Rest c)
  post c := iprop(StableHlo.held (c : Thread nD τ) (Pipeline.ucRefs τ sig) (B4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) admAll (pdat m ρ) launch1.win launch1.arr_whole c
      ((pdat m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admAll (Ix := Unit) (Name := ℕ) (U := UR sig nD τ) (Lvl := ℕ)
      launch1.win launch1.arr_whole c (pdat m ρ) ((pdat m ρ 1 c).share_full fun _ => rfl)
      (E3 m ρ c) (E4 m ρ c) ((pdat m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `B5`, left at `B6`. Its arrays are split out of the unscoped buffers
    and put back at the exit contents; the generator register goes into the region's invariant and comes out; nothing is owed. -/
def region2 : Pipeline.RegionSeg (pcfgs (F := F)) admAll (pdat m ρ) () defs₀ vars0 Lnone lvl0 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ Lnone lvl0 2 fun _ _ => rfl
  pre c := iprop(StableHlo.held (c : Thread nD τ) (Pipeline.ucRefs τ sig) (B5 m ρ c) ∗ Rest c)
  post c := iprop(StableHlo.held (c : Thread nD τ) (Pipeline.ucRefs τ sig) (B6 m ρ c) ∗ Rest c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) admAll (pdat m ρ) launch2.win launch2.arr_whole c
      ((pdat m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdat m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admAll (Ix := Unit) (Name := ℕ) (U := UR sig nD τ) (Lvl := ℕ)
      launch2.win launch2.arr_whole c (pdat m ρ) ((pdat m ρ 2 c).share_full fun _ => rfl)
      (E5 m ρ c) (E6 m ρ c) ((pdat m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `B7`, left at `B8`. Its arrays are split out of the unscoped buffers
    and put back at the exit contents; the generator register goes into the region's invariant and comes out; nothing is owed. -/
def region3 : Pipeline.RegionSeg (pcfgs (F := F)) admAll (pdat m ρ) () defs₀ vars0 Lnone lvl0 3 where
  win := launch3.win.to₀
  block_pos := launch3.block_pos
  stage_whole := launch3.stage_whole
  K := PEmpty
  osem k := k.elim
  ho := Pipeline.OwnSemFacts.none _
  hbody c := (body_obligation3 (E7 m ρ) c).loose
  hwaits := Pipeline.hwaits_of_owed_zero _ _ _ _ Lnone lvl0 3 fun _ _ => rfl
  pre c := iprop(StableHlo.held (c : Thread nD τ) (Pipeline.ucRefs τ sig) (B7 m ρ c) ∗ Rest c)
  post c := iprop(StableHlo.held (c : Thread nD τ) (Pipeline.ucRefs τ sig) (B8 m ρ c) ∗ Rest c)
  X c := iprop(∃ r, prngReg c r)
  Y c := iprop(∃ r, prngReg c r)
  Z c := Pipeline.unscopedRest (Ix := Unit) (Name := ℕ) (U := UR sig nD τ) (Lvl := ℕ) spec3 c (E7 m ρ c)
  hentry c := by
    rw [Pipeline.ownSems0_none]
    have hsplit := Pipeline.arrays_of_unscopedBufs (p := 3) (pcfgs (F := F)) admAll (pdat m ρ) launch3.win launch3.arr_whole c
      ((pdat m ρ 3 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdat m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admAll (Ix := Unit) (Name := ℕ) (U := UR sig nD τ) (Lvl := ℕ)
      launch3.win launch3.arr_whole c (pdat m ρ) ((pdat m ρ 3 c).share_full fun _ => rfl)
      (E7 m ρ c) (E8 m ρ c) ((pdat m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `B9`, left at `B10`. Its arrays are split out of the unscoped buffers
    and put back at the exit contents; the generator register goes into the region's invariant and comes out; nothing is owed. -/
def region4 : Pipeline.RegionSeg (pcfgs (F := F)) admAll (pdat m ρ) () defs₀ vars0 Lnone lvl0 4 where
  win := launch4.win.to₀
  block_pos := launch4.block_pos
  stage_whole := launch4.stage_whole
  K := PEmpty
  osem k := k.elim
  ho := Pipeline.OwnSemFacts.none _
  hbody c := (body_obligation4 (E9 m ρ) c).loose
  hwaits := Pipeline.hwaits_of_owed_zero _ _ _ _ Lnone lvl0 4 fun _ _ => rfl
  pre c := iprop(StableHlo.held (c : Thread nD τ) (Pipeline.ucRefs τ sig) (B9 m ρ c) ∗ Rest c)
  post c := iprop(StableHlo.held (c : Thread nD τ) (Pipeline.ucRefs τ sig) (B10 m ρ c) ∗ Rest c)
  X c := iprop(∃ r, prngReg c r)
  Y c := iprop(∃ r, prngReg c r)
  Z c := Pipeline.unscopedRest (Ix := Unit) (Name := ℕ) (U := UR sig nD τ) (Lvl := ℕ) spec4 c (E9 m ρ c)
  hentry c := by
    rw [Pipeline.ownSems0_none]
    have hsplit := Pipeline.arrays_of_unscopedBufs (p := 4) (pcfgs (F := F)) admAll (pdat m ρ) launch4.win launch4.arr_whole c
      ((pdat m ρ 4 c).share_full fun _ => rfl) (E9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdat m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admAll (Ix := Unit) (Name := ℕ) (U := UR sig nD τ) (Lvl := ℕ)
      launch4.win launch4.arr_whole c (pdat m ρ) ((pdat m ρ 4 c).share_full fun _ => rfl)
      (E9 m ρ c) (E10 m ρ c) ((pdat m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `B11`, left at `B12`. Its arrays are split out of the unscoped buffers
    and put back at the exit contents; the generator register goes into the region's invariant and comes out; nothing is owed. -/
def region5 : Pipeline.RegionSeg (pcfgs (F := F)) admAll (pdat m ρ) () defs₀ vars0 Lnone lvl0 5 where
  win := launch5.win.to₀
  block_pos := launch5.block_pos
  stage_whole := launch5.stage_whole
  K := PEmpty
  osem k := k.elim
  ho := Pipeline.OwnSemFacts.none _
  hbody c := (body_obligation5 (E11 m ρ) c).loose
  hwaits := Pipeline.hwaits_of_owed_zero _ _ _ _ Lnone lvl0 5 fun _ _ => rfl
  pre c := iprop(StableHlo.held (c : Thread nD τ) (Pipeline.ucRefs τ sig) (B11 m ρ c) ∗ Rest c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (E11 m ρ c)
  hentry c := by
    rw [Pipeline.ownSems0_none]
    have hsplit := Pipeline.arrays_of_unscopedBufs (p := 5) (pcfgs (F := F)) admAll (pdat m ρ) launch5.win launch5.arr_whole c
      ((pdat m ρ 5 c).share_full fun _ => rfl) (E11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdat m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admAll (Ix := Unit) (Name := ℕ) (U := UR sig nD τ) (Lvl := ℕ)
      launch5.win launch5.arr_whole c (pdat m ρ) ((pdat m ρ 5 c).share_full fun _ => rfl)
      (E11 m ρ c) (E12 m ρ c) ((pdat m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the run -/

/-- The program's twelve items in order: a host stretch from its boundary's contents, then the region it leads to. -/
abbrev items : List (Pipeline.Seg (pcfgs (F := F)) admAll (pdat m ρ) () defs₀ vars0 Lnone lvl0) :=
  [ .host (hostItem hostOps0 hostOps0_sub hostOps0_fresh (B0 m ρ)),
    .region (region0 m ρ),
    .host (hostItem hostOps1 hostOps1_sub hostOps1_fresh (B2 m ρ)),
    .region (region1 m ρ),
    .host (hostItem hostOps2 hostOps2_sub hostOps2_fresh (B4 m ρ)),
    .region (region2 m ρ),
    .host (hostItem hostOps3 hostOps3_sub hostOps3_fresh (B6 m ρ)),
    .region (region3 m ρ),
    .host (hostItem hostOps4 hostOps4_sub hostOps4_fresh (B8 m ρ)),
    .region (region4 m ρ),
    .host (hostItem hostOps5 hostOps5_sub hostOps5_fresh (B10 m ρ)),
    .region (region5 m ρ) ]

set_option backward.isDefEq.respectTransparency.types false in
/-- Every weakly fair execution of the program from memory `m` with zero counters terminates, nothing faulting, and in every
    final state each unscoped TensorCore buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B12 m ρ c b) :=
  Pipeline.θ_run_regions_kit (pcfgs (F := F)) admAll (pdat m ρ) () cellOf_inj emb₁ defs₀ vars0 Lnone lvl0 m ρ main (items m ρ)
    (fun c Q => by
      rewrite [main_chain c, Pipeline.Seg.run_eq_chain,
        show (items m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c)) (Tₙ := Tlast m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Lnone lvl0 fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B12 m ρ c b)
    (hfin := fun c s' => by
      iintro ⟨⟨Hh, -⟩, HSI⟩
      unfold StableHlo.held
      imodintro
      iapply (pointsTo_read_all (Pipeline.ucRefs τ sig) (fun b => (((c : Thread nD τ)).1, b)) (B12 m ρ c) s')
      isplitl [Hh] <;> iassumption)
    (hQ := fun s h => h)

end Cert.KernelIdeal.Frames

end
-- ==== Proof.KB.Stats0.lean ====
/-
  Region 0 of the kernel's program as printed: the kernel `cc0__linear_stats_kernel` on a grid of five row tiles.
  At a grid point the body reads one 10000×128 tile of the aggregated neighbour means and one of the node features, the two
  128×128 weight matrices and the 1×128 bias, stores the tile of the linear output  mean·Wlᵀ + h·Wrᵀ + b  whole, and
  keeps two running 1×128 rows: the column sums of the linear output and of its squares. At the first point (the
  coordinate is 0) the two rows are stored afresh; at every later point (the coordinate is positive) each is read back
  and stored again with the tile's column sums added. The two rows' block index never moves and they are written back
  after the last point only, so at a later point the staging buffer holds what the point before left there.
  The two conditions are decided over the grid in closed form; between them they hold at every point, so the two
  running rows are never idle. Stated at any float instance `F`, at a parameter `V`: the TensorCore's buffer contents
  when the region is entered.
-/
import proofs.«139727_j46445776339648_1_alg».proof.Proof.Gen.Kernel.Launch
import proofs.«139727_j46445776339648_1_alg».proof.Proof.Gen.Kernel.Skeleton
import proofs.«139727_j46445776339648_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or kept from an
    earlier point (its block index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, whether fetched there or kept from an
    earlier point (its block index has not moved since). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, whether fetched there or kept from an
    earlier point (its block index has not moved since). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, whether fetched there or kept from an
    earlier point (its block index has not moved since). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- An input window's current staging buffer holds its block at every point, whether fetched there or kept from an
    earlier point (its block index has not moved since). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions, over the grid -/

/-- The first condition (the coordinate is 0) holds at the first point only. -/
theorem first0_iff : ∀ t : Fin cfg0.N, k0_cond1 (grid0.coords t) = 1#1 ↔ t.val = 0 :=
  (by decide +kernel : ∀ t : Fin grid0.N, k0_cond1 (grid0.coords t) = 1#1 ↔ t.val = 0)
/-- The second condition (the coordinate is positive) holds at every later point. -/
theorem later0_iff : ∀ t : Fin cfg0.N, k0_cond2 (grid0.coords t) = 1#1 ↔ t.val ≠ 0 :=
  (by decide +kernel : ∀ t : Fin grid0.N, k0_cond2 (grid0.coords t) = 1#1 ↔ t.val ≠ 0)
/-- At every grid coordinate one of the two conditions holds: the running rows are stored at every point. -/
theorem live0_6 : ∀ i : cfg0.grid.Coords, cfg0.idle 6 i = false :=
  (by decide +kernel : ∀ i : grid0.Coords, idle0 6 i = false)
theorem live0_7 : ∀ i : cfg0.grid.Coords, cfg0.idle 7 i = false :=
  (by decide +kernel : ∀ i : grid0.Coords, idle0 7 i = false)

/-! ## The rectangles of the body's accesses: each is a whole buffer -/

abbrev tile0 : Rect S10000x128 := Rect.unit (s := S10000x128) ![0, 0] S10000x128.size inb_S10000x128_S10000x128_0_0
abbrev sq0 : Rect S128x128 := Rect.unit (s := S128x128) ![0, 0] S128x128.size inb_S128x128_S128x128_0_0
abbrev row0 : Rect S1x128 := Rect.unit (s := S1x128) ![0, 0] S1x128.size inb_S1x128_S1x128_0_0

/-! ## What the body leaves in each output's staging buffer -/

/-- The linear output's tile (the same at every point): its one store. -/
def lin0 (x0 x1 : Vec F S10000x128 .f32) (x2 x3 : Vec F S128x128 .f32) (x4 : Vec F S1x128 .f32) : Vec F S10000x128 .f32 :=
  View.canon [⟨tile0, k0_pay1 (View.ld x0 tile0) (View.ld x1 tile0) (View.ld x2 sq0) (View.ld x3 sq0) (View.ld x4 row0)⟩]
/-- The column sums' row at the first point: the tile's column sums. -/
def sumFirst0 (x0 x1 : Vec F S10000x128 .f32) (x2 x3 : Vec F S128x128 .f32) (x4 : Vec F S1x128 .f32) : Vec F S1x128 .f32 :=
  View.canon [⟨row0, k0_pay2 (View.ld x0 tile0) (View.ld x1 tile0) (View.ld x2 sq0) (View.ld x3 sq0) (View.ld x4 row0)⟩]
/-- The squares' column sums' row at the first point. -/
def sqFirst0 (x0 x1 : Vec F S10000x128 .f32) (x2 x3 : Vec F S128x128 .f32) (x4 : Vec F S1x128 .f32) : Vec F S1x128 .f32 :=
  View.canon [⟨row0, k0_pay3 (View.ld x0 tile0) (View.ld x1 tile0) (View.ld x2 sq0) (View.ld x3 sq0) (View.ld x4 row0)⟩]
/-- The column sums' row at a later point: what it held, plus the tile's column sums. -/
def sumLater0 (x0 x1 : Vec F S10000x128 .f32) (x2 x3 : Vec F S128x128 .f32) (x4 : Vec F S1x128 .f32) (s : Vec F S1x128 .f32) : Vec F S1x128 .f32 :=
  View.canon [⟨row0, k0_pay4 (View.ld x0 tile0) (View.ld x1 tile0) (View.ld x2 sq0) (View.ld x3 sq0) (View.ld x4 row0) (View.ld s row0)⟩]
/-- The squares' column sums' row at a later point. -/
def sqLater0 (x0 x1 : Vec F S10000x128 .f32) (x2 x3 : Vec F S128x128 .f32) (x4 : Vec F S1x128 .f32) (s : Vec F S1x128 .f32) : Vec F S1x128 .f32 :=
  View.canon [⟨row0, k0_pay5 (View.ld x0 tile0) (View.ld x1 tile0) (View.ld x2 sq0) (View.ld x3 sq0) (View.ld x4 row0) (View.ld s row0)⟩]

theorem coverTile0 (p0 : Vec F S10000x128 .f32) (y : S10000x128.Idx) :
    ∃ pc ∈ ([⟨tile0, p0⟩] : List (View.Piece (Elt F) S10000x128 .f32)), y ∈ pc.1.set :=
  View.cover_of_tiled [⟨tile0, p0⟩] S10000x128.size (by rfl) y
theorem coverRow0 (p0 : Vec F S1x128 .f32) (y : S1x128.Idx) :
    ∃ pc ∈ ([⟨row0, p0⟩] : List (View.Piece (Elt F) S1x128 .f32)), y ∈ pc.1.set :=
  View.cover_of_tiled [⟨row0, p0⟩] S1x128.size (by rfl) y

/-! ## The body's run, in each of the two cases -/

set_option maxHeartbeats 1000000 in
/-- At a coordinate where the first condition holds and the second does not: from the inputs' staging memrefs at their
    contents and the three outputs' at anything, the body runs to its return with the inputs' as they were, the linear
    tile stored and the two running rows stored afresh. -/
theorem sound_first0 (c : Dev nD) (E : Set ℕ) (i : grid0.Coords) (hc1 : k0_cond1 i = 1#1) (hc2 : ¬ k0_cond2 i = 1#1)
    (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S10000x128 .f32) (harg6 : arg6.IsWhole) (arg7 : Memref sig .tc .vmem S1x128 .f32) (harg7 : arg7.IsWhole) (arg8 : Memref sig .tc .vmem S1x128 .f32) (harg8 : arg8.IsWhole)
    (x0 x1 : Vec F S10000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (lin0 x0 x1 x2 x3 x4)
            ∗ owns (c : Thread nD τ) arg7 fullShare (sumFirst0 x0 x1 x2 x3 x4)
            ∗ owns (c : Thread nD τ) arg8 fullShare (sqFirst0 x0 x1 x2 x3 x4)) -∗ K ⟨⟩))
      ⊢ wp frame (wpE (defs₀ (F := F)) Variants.none c none) E (cc0__linear_stats_kernel i arg1 harg1 arg2 harg2 arg3 harg3 arg4 harg4 arg5 harg5 arg6 harg6 arg7 harg7 arg8 harg8) K := by
  simp only [cc0__linear_stats_kernel_eq_skeleton]; unfold cc0__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverTile0 _)
  isplitl [H6]
  · iexists _; isplitr
    swap; · iexact H6
    ipureintro
    exact View.read_writes_eq_canon _ _ _ (coverRow0 _)
  iexists _; isplitr
  swap; · iexact H7
  ipureintro
  exact View.read_writes_eq_canon _ _ _ (coverRow0 _)

set_option maxHeartbeats 1000000 in
/-- At a coordinate where the second condition holds and the first does not: from the inputs' staging memrefs at their
    contents, the linear output's at anything and the two running rows' at their running contents `s6`, `s7`, the body
    runs to its return with the inputs' as they were, the linear tile stored and each running row stored with the
    tile's column sums added to what it held. -/
theorem sound_later0 (c : Dev nD) (E : Set ℕ) (i : grid0.Coords) (hc1 : ¬ k0_cond1 i = 1#1) (hc2 : k0_cond2 i = 1#1)
    (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S10000x128 .f32) (harg6 : arg6.IsWhole) (arg7 : Memref sig .tc .vmem S1x128 .f32) (harg7 : arg7.IsWhole) (arg8 : Memref sig .tc .vmem S1x128 .f32) (harg8 : arg8.IsWhole)
    (x0 x1 : Vec F S10000x128 .f32) (x2 x3 : Vec F S128x128 .f32) (x4 : Vec F S1x128 .f32) (s6 s7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare s6 ∗ owns (c : Thread nD τ) arg8 fullShare s7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (lin0 x0 x1 x2 x3 x4)
            ∗ owns (c : Thread nD τ) arg7 fullShare (sumLater0 x0 x1 x2 x3 x4 s6)
            ∗ owns (c : Thread nD τ) arg8 fullShare (sqLater0 x0 x1 x2 x3 x4 s7)) -∗ K ⟨⟩))
      ⊢ wp frame (wpE (defs₀ (F := F)) Variants.none c none) E (cc0__linear_stats_kernel i arg1 harg1 arg2 harg2 arg3 harg3 arg4 harg4 arg5 harg5 arg6 harg6 arg7 harg7 arg8 harg8) K := by
  simp only [cc0__linear_stats_kernel_eq_skeleton]; unfold cc0__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0; subst hf1; subst hf2; subst hf3; subst hf4; subst hf6; subst hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverTile0 _)
  isplitl [H6]
  · iexists _; isplitr
    swap; · iexact H6
    ipureintro
    exact View.read_writes_eq_canon _ _ _ (coverRow0 _)
  iexists _; isplitr
  swap; · iexact H7
  ipureintro
  exact View.read_writes_eq_canon _ _ _ (coverRow0 _)

/-! ## The running rows, point by point -/

/-- The column sums' row after the body at position `n`: the first point's, then each later point's over the one before. -/
def sumAt0 (c : Dev nD) : (n : ℕ) → n < cfg0.N → Vec F S1x128 .f32
  | 0, hn => sumFirst0 (iblk0 V c 0 ⟨0, hn⟩) (iblk0 V c 1 ⟨0, hn⟩) (iblk0 V c 2 ⟨0, hn⟩) (iblk0 V c 3 ⟨0, hn⟩) (iblk0 V c 4 ⟨0, hn⟩)
  | n + 1, hn => sumLater0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (sumAt0 c n (Nat.lt_of_succ_lt hn))
/-- The squares' column sums' row after the body at position `n`. -/
def sqAt0 (c : Dev nD) : (n : ℕ) → n < cfg0.N → Vec F S1x128 .f32
  | 0, hn => sqFirst0 (iblk0 V c 0 ⟨0, hn⟩) (iblk0 V c 1 ⟨0, hn⟩) (iblk0 V c 2 ⟨0, hn⟩) (iblk0 V c 3 ⟨0, hn⟩) (iblk0 V c 4 ⟨0, hn⟩)
  | n + 1, hn => sqLater0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (sqAt0 c n (Nat.lt_of_succ_lt hn))

theorem sumAt0_first (c : Dev nD) (t : Fin cfg0.N) (h0 : t.val = 0) :
    sumAt0 V c t.val t.isLt = sumFirst0 (iblk0 V c 0 t) (iblk0 V c 1 t) (iblk0 V c 2 t) (iblk0 V c 3 t) (iblk0 V c 4 t) := by
  obtain ⟨n, hn⟩ := t
  cases n with
  | zero => rfl
  | succ n => exact absurd h0 (Nat.succ_ne_zero n)
theorem sumAt0_later (c : Dev nD) (t : Fin cfg0.N) (h0 : t.val ≠ 0) :
    sumAt0 V c t.val t.isLt = sumLater0 (iblk0 V c 0 t) (iblk0 V c 1 t) (iblk0 V c 2 t) (iblk0 V c 3 t) (iblk0 V c 4 t) (sumAt0 V c (t.val - 1) (Nat.lt_of_le_of_lt (Nat.sub_le _ _) t.isLt)) := by
  obtain ⟨n, hn⟩ := t
  cases n with
  | zero => exact absurd rfl h0
  | succ n => rfl
theorem sqAt0_first (c : Dev nD) (t : Fin cfg0.N) (h0 : t.val = 0) :
    sqAt0 V c t.val t.isLt = sqFirst0 (iblk0 V c 0 t) (iblk0 V c 1 t) (iblk0 V c 2 t) (iblk0 V c 3 t) (iblk0 V c 4 t) := by
  obtain ⟨n, hn⟩ := t
  cases n with
  | zero => rfl
  | succ n => exact absurd h0 (Nat.succ_ne_zero n)
theorem sqAt0_later (c : Dev nD) (t : Fin cfg0.N) (h0 : t.val ≠ 0) :
    sqAt0 V c t.val t.isLt = sqLater0 (iblk0 V c 0 t) (iblk0 V c 1 t) (iblk0 V c 2 t) (iblk0 V c 3 t) (iblk0 V c 4 t) (sqAt0 V c (t.val - 1) (Nat.lt_of_le_of_lt (Nat.sub_le _ _) t.isLt)) := by
  obtain ⟨n, hn⟩ := t
  cases n with
  | zero => exact absurd rfl h0
  | succ n => rfl

/-! ## The region's proof data -/

/-- On core `c`: the arrays as the region finds them; after the body at point `t` each input's buffer at its block, the
    linear output's at the point's tile, the two running rows' at their running contents; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => lin0 (iblk0 V c 0 t) (iblk0 V c 1 t) (iblk0 V c 2 t) (iblk0 V c 3 t) (iblk0 V c 4 t)
    | ⟨6, _⟩ => sumAt0 V c t.val t.isLt
    | ⟨7, _⟩ => sqAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = lin0 (iblk0 V c 0 t) (iblk0 V c 1 t) (iblk0 V c 2 t) (iblk0 V c 3 t) (iblk0 V c 4 t) := by dsimp only [dat0]
theorem after0_6 (c : Dev nD) (t : Fin cfg0.N) : (dat0 V c).after 6 t = sumAt0 V c t.val t.isLt := by dsimp only [dat0]
theorem after0_7 (c : Dev nD) (t : Fin cfg0.N) : (dat0 V c).after 7 t = sqAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- At a later point a running row's staging buffer holds what the body left at the point before: the point is not
    the first, the row is written back after the last point only, and it is stored at every point. -/
theorem before0_6_later (c : Dev nD) (t : Fin cfg0.N) (h0 : t.val ≠ 0) (d) :
    (dat0 V c).before 6 t d = sumAt0 V c (t.val - 1) (Nat.lt_of_le_of_lt (Nat.sub_le _ _) t.isLt) := by
  have hN : t.val < 5 := lt_of_lt_of_eq t.isLt (show cfg0.N = 5 from N_0)
  rw [Dat.before_out_kept _ 6 rfl t h0 (Bool.eq_false_iff.mpr fun h => by have := (flush0_6 _).mp h; dsimp only at this; omega)
    live0_6 (fun _ _ => rfl)]
  dsimp only [dat0]
theorem before0_7_later (c : Dev nD) (t : Fin cfg0.N) (h0 : t.val ≠ 0) (d) :
    (dat0 V c).before 7 t d = sqAt0 V c (t.val - 1) (Nat.lt_of_le_of_lt (Nat.sub_le _ _) t.isLt) := by
  have hN : t.val < 5 := lt_of_lt_of_eq t.isLt (show cfg0.N = 5 from N_0)
  rw [Dat.before_out_kept _ 7 rfl t h0 (Bool.eq_false_iff.mpr fun h => by have := (flush0_7 _).mp h; dsimp only at this; omega)
    live0_7 (fun _ _ => rfl)]
  dsimp only [dat0]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 800000 in
/-- The body at any point: the inputs' staging buffers hold their blocks; the closed forms say which of the two cases the
    point is in; at a later point each running row's buffer holds what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  by_cases h0 : t.val = 0
  · rw [sumAt0_first V c t h0, sqAt0_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_first0 c Set.univ (grid0.coords t) ((first0_iff t).mpr h0) (fun h => ((later0_iff t).mp h) h0)
      _ _ _ _ _ _ _ _ _ _ _ _ _ _ _ _ (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [sumAt0_later V c t h0, sqAt0_later V c t h0]
    simp only [before0_6_later V c t h0, before0_7_later V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_later0 c Set.univ (grid0.coords t) (fun h => h0 ((first0_iff t).mp h)) ((later0_iff t).mpr h0)
      _ _ _ _ _ _ _ _ _ _ _ _ _ _ _ _ (iblk0 V c 0 t) (iblk0 V c 1 t) (iblk0 V c 2 t) (iblk0 V c 3 t) (iblk0 V c 4 t) _ _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body obligation at every point. -/
theorem body_obligation0 (c : Dev nD) : BodyObligation (dat0 (F := F) V c) (defs₀ (F := F)) Variants.none () Set.univ := fun t => by
  rw [bigSep_W0, bigSep_W0]
  beta_reduce
  rw [live0_6 (cfg0.grid.coords t)]
  try rw [live0_7 (cfg0.grid.coords t)]
  exact sound_body0 V c t

end Cert.Kernel.Frames

end
-- ==== Proof.KB.Norm1.lean ====
/-
  Region 1 of the kernel's program as printed: the batch-norm kernel `cc1__bn_relu_kernel` on a grid of five row tiles.
  At a grid point the body reads one 10000×128 tile of the linear output and four 1×128 rows (mean, variance, scale, shift),
  and stores the whole output tile in one store: (x − mean) · rsqrt(var + ε) · γ + β, clamped below at 0.
  Nothing is carried between grid points, so what the body leaves in the output's staging buffer is a function of the
  point's input blocks alone; the row operands have a constant block index and are fetched once.
  Stated at any float instance `F`, at a parameter `V`: the TensorCore's buffer contents when the region is entered.
-/
import proofs.«139727_j46445776339648_1_alg».proof.Proof.Gen.Kernel.Launch
import proofs.«139727_j46445776339648_1_alg».proof.Proof.Gen.Kernel.Skeleton
import proofs.«139727_j46445776339648_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether fetched there or kept from an
    earlier point (its block index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input window's current staging buffer holds its block at every point, whether fetched there or kept from an
    earlier point (its block index has not moved since). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- An input window's current staging buffer holds its block at every point, whether fetched there or kept from an
    earlier point (its block index has not moved since). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- An input window's current staging buffer holds its block at every point, whether fetched there or kept from an
    earlier point (its block index has not moved since). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- An input window's current staging buffer holds its block at every point, whether fetched there or kept from an
    earlier point (its block index has not moved since). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole tile, the rectangle of the body's one store and of its load of the tile. -/
abbrev tile1 : Rect S10000x128 := Rect.unit (s := S10000x128) ![0, 0] S10000x128.size inb_S10000x128_S10000x128_0_0
/-- The whole row, the rectangle of each load of a row operand. -/
abbrev row1 : Rect S1x128 := Rect.unit (s := S1x128) ![0, 0] S1x128.size inb_S1x128_S1x128_0_0

/-- What the body leaves in the output's staging buffer, from the input blocks: its one store, covering the tile. -/
def out1_5 (x0 : Vec F S10000x128 .f32) (x1 x2 x3 x4 : Vec F S1x128 .f32) : Vec F S10000x128 .f32 :=
  View.canon [⟨tile1, k1_pay1 (View.ld x0 tile1) (View.ld x2 row1) (View.ld x1 row1) (View.ld x3 row1) (View.ld x4 row1)⟩]

/-- The one store covers the buffer. -/
theorem cover1_5 (p0 : Vec F S10000x128 .f32) (y : S10000x128.Idx) :
    ∃ pc ∈ ([⟨tile1, p0⟩] : List (View.Piece (Elt F) S10000x128 .f32)), y ∈ pc.1.set :=
  View.cover_of_tiled [⟨tile1, p0⟩] S10000x128.size (by rfl) y

set_option maxHeartbeats 1000000 in
/-- The body on whole staging memrefs, the inputs' at their contents and the output's at anything, runs to its return
    with the inputs' as they were and the output's at `out1_5` of the inputs'. -/
theorem sound_kernel1 (c : Dev nD) (E : Set ℕ) (i : grid1.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The region's proof data on core `c`: the arrays as the region finds them; after the body at point `t` each input's
    buffer at its block and the output's at `out1_5` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' staging buffers hold their blocks, so the body's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Frames

end
-- ==== Proof.KB.Stats2.lean ====
/-
  Region 2 of the kernel's program as printed: the kernel `cc2__linear_stats_kernel` on a grid of five row tiles.
  At a grid point the body reads one 10000×128 tile of the aggregated neighbour means and one of the node features, the two
  128×128 weight matrices and the 1×128 bias, stores the tile of the linear output  mean·Wlᵀ + h·Wrᵀ + b  whole, and
  keeps two running 1×128 rows: the column sums of the linear output and of its squares. At the first point (the
  coordinate is 0) the two rows are stored afresh; at every later point (the coordinate is positive) each is read back
  and stored again with the tile's column sums added. The two rows' block index never moves and they are written back
  after the last point only, so at a later point the staging buffer holds what the point before left there.
  The two conditions are decided over the grid in closed form; between them they hold at every point, so the two
  running rows are never idle. Stated at any float instance `F`, at a parameter `V`: the TensorCore's buffer contents
  when the region is entered.
-/
import proofs.«139727_j46445776339648_1_alg».proof.Proof.Gen.Kernel.Launch
import proofs.«139727_j46445776339648_1_alg».proof.Proof.Gen.Kernel.Skeleton
import proofs.«139727_j46445776339648_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether fetched there or kept from an
    earlier point (its block index has not moved since). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, whether fetched there or kept from an
    earlier point (its block index has not moved since). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, whether fetched there or kept from an
    earlier point (its block index has not moved since). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, whether fetched there or kept from an
    earlier point (its block index has not moved since). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- An input window's current staging buffer holds its block at every point, whether fetched there or kept from an
    earlier point (its block index has not moved since). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The two conditions, over the grid -/

/-- The first condition (the coordinate is 0) holds at the first point only. -/
theorem first2_iff : ∀ t : Fin cfg2.N, k2_cond1 (grid2.coords t) = 1#1 ↔ t.val = 0 :=
  (by decide +kernel : ∀ t : Fin grid2.N, k2_cond1 (grid2.coords t) = 1#1 ↔ t.val = 0)
/-- The second condition (the coordinate is positive) holds at every later point. -/
theorem later2_iff : ∀ t : Fin cfg2.N, k2_cond2 (grid2.coords t) = 1#1 ↔ t.val ≠ 0 :=
  (by decide +kernel : ∀ t : Fin grid2.N, k2_cond2 (grid2.coords t) = 1#1 ↔ t.val ≠ 0)
/-- At every grid coordinate one of the two conditions holds: the running rows are stored at every point. -/
theorem live2_6 : ∀ i : cfg2.grid.Coords, cfg2.idle 6 i = false :=
  (by decide +kernel : ∀ i : grid2.Coords, idle2 6 i = false)
theorem live2_7 : ∀ i : cfg2.grid.Coords, cfg2.idle 7 i = false :=
  (by decide +kernel : ∀ i : grid2.Coords, idle2 7 i = false)

/-! ## The rectangles of the body's accesses: each is a whole buffer -/

abbrev tile2 : Rect S10000x128 := Rect.unit (s := S10000x128) ![0, 0] S10000x128.size inb_S10000x128_S10000x128_0_0
abbrev sq2 : Rect S128x128 := Rect.unit (s := S128x128) ![0, 0] S128x128.size inb_S128x128_S128x128_0_0
abbrev row2 : Rect S1x128 := Rect.unit (s := S1x128) ![0, 0] S1x128.size inb_S1x128_S1x128_0_0

/-! ## What the body leaves in each output's staging buffer -/

/-- The linear output's tile (the same at every point): its one store. -/
def lin2 (x0 x1 : Vec F S10000x128 .f32) (x2 x3 : Vec F S128x128 .f32) (x4 : Vec F S1x128 .f32) : Vec F S10000x128 .f32 :=
  View.canon [⟨tile2, k2_pay1 (View.ld x0 tile2) (View.ld x1 tile2) (View.ld x2 sq2) (View.ld x3 sq2) (View.ld x4 row2)⟩]
/-- The column sums' row at the first point: the tile's column sums. -/
def sumFirst2 (x0 x1 : Vec F S10000x128 .f32) (x2 x3 : Vec F S128x128 .f32) (x4 : Vec F S1x128 .f32) : Vec F S1x128 .f32 :=
  View.canon [⟨row2, k2_pay2 (View.ld x0 tile2) (View.ld x1 tile2) (View.ld x2 sq2) (View.ld x3 sq2) (View.ld x4 row2)⟩]
/-- The squares' column sums' row at the first point. -/
def sqFirst2 (x0 x1 : Vec F S10000x128 .f32) (x2 x3 : Vec F S128x128 .f32) (x4 : Vec F S1x128 .f32) : Vec F S1x128 .f32 :=
  View.canon [⟨row2, k2_pay3 (View.ld x0 tile2) (View.ld x1 tile2) (View.ld x2 sq2) (View.ld x3 sq2) (View.ld x4 row2)⟩]
/-- The column sums' row at a later point: what it held, plus the tile's column sums. -/
def sumLater2 (x0 x1 : Vec F S10000x128 .f32) (x2 x3 : Vec F S128x128 .f32) (x4 : Vec F S1x128 .f32) (s : Vec F S1x128 .f32) : Vec F S1x128 .f32 :=
  View.canon [⟨row2, k2_pay4 (View.ld x0 tile2) (View.ld x1 tile2) (View.ld x2 sq2) (View.ld x3 sq2) (View.ld x4 row2) (View.ld s row2)⟩]
/-- The squares' column sums' row at a later point. -/
def sqLater2 (x0 x1 : Vec F S10000x128 .f32) (x2 x3 : Vec F S128x128 .f32) (x4 : Vec F S1x128 .f32) (s : Vec F S1x128 .f32) : Vec F S1x128 .f32 :=
  View.canon [⟨row2, k2_pay5 (View.ld x0 tile2) (View.ld x1 tile2) (View.ld x2 sq2) (View.ld x3 sq2) (View.ld x4 row2) (View.ld s row2)⟩]

theorem coverTile2 (p0 : Vec F S10000x128 .f32) (y : S10000x128.Idx) :
    ∃ pc ∈ ([⟨tile2, p0⟩] : List (View.Piece (Elt F) S10000x128 .f32)), y ∈ pc.1.set :=
  View.cover_of_tiled [⟨tile2, p0⟩] S10000x128.size (by rfl) y
theorem coverRow2 (p0 : Vec F S1x128 .f32) (y : S1x128.Idx) :
    ∃ pc ∈ ([⟨row2, p0⟩] : List (View.Piece (Elt F) S1x128 .f32)), y ∈ pc.1.set :=
  View.cover_of_tiled [⟨row2, p0⟩] S1x128.size (by rfl) y

/-! ## The body's run, in each of the two cases -/

set_option maxHeartbeats 1000000 in
/-- At a coordinate where the first condition holds and the second does not: from the inputs' staging memrefs at their
    contents and the three outputs' at anything, the body runs to its return with the inputs' as they were, the linear
    tile stored and the two running rows stored afresh. -/
theorem sound_first2 (c : Dev nD) (E : Set ℕ) (i : grid2.Coords) (hc1 : k2_cond1 i = 1#1) (hc2 : ¬ k2_cond2 i = 1#1)
    (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S10000x128 .f32) (harg6 : arg6.IsWhole) (arg7 : Memref sig .tc .vmem S1x128 .f32) (harg7 : arg7.IsWhole) (arg8 : Memref sig .tc .vmem S1x128 .f32) (harg8 : arg8.IsWhole)
    (x0 x1 : Vec F S10000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (lin2 x0 x1 x2 x3 x4)
            ∗ owns (c : Thread nD τ) arg7 fullShare (sumFirst2 x0 x1 x2 x3 x4)
            ∗ owns (c : Thread nD τ) arg8 fullShare (sqFirst2 x0 x1 x2 x3 x4)) -∗ K ⟨⟩))
      ⊢ wp frame (wpE (defs₀ (F := F)) Variants.none c none) E (cc2__linear_stats_kernel i arg1 harg1 arg2 harg2 arg3 harg3 arg4 harg4 arg5 harg5 arg6 harg6 arg7 harg7 arg8 harg8) K := by
  simp only [cc2__linear_stats_kernel_eq_skeleton]; unfold cc2__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverTile2 _)
  isplitl [H6]
  · iexists _; isplitr
    swap; · iexact H6
    ipureintro
    exact View.read_writes_eq_canon _ _ _ (coverRow2 _)
  iexists _; isplitr
  swap; · iexact H7
  ipureintro
  exact View.read_writes_eq_canon _ _ _ (coverRow2 _)

set_option maxHeartbeats 1000000 in
/-- At a coordinate where the second condition holds and the first does not: from the inputs' staging memrefs at their
    contents, the linear output's at anything and the two running rows' at their running contents `s6`, `s7`, the body
    runs to its return with the inputs' as they were, the linear tile stored and each running row stored with the
    tile's column sums added to what it held. -/
theorem sound_later2 (c : Dev nD) (E : Set ℕ) (i : grid2.Coords) (hc1 : ¬ k2_cond1 i = 1#1) (hc2 : k2_cond2 i = 1#1)
    (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S10000x128 .f32) (harg6 : arg6.IsWhole) (arg7 : Memref sig .tc .vmem S1x128 .f32) (harg7 : arg7.IsWhole) (arg8 : Memref sig .tc .vmem S1x128 .f32) (harg8 : arg8.IsWhole)
    (x0 x1 : Vec F S10000x128 .f32) (x2 x3 : Vec F S128x128 .f32) (x4 : Vec F S1x128 .f32) (s6 s7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare s6 ∗ owns (c : Thread nD τ) arg8 fullShare s7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (lin2 x0 x1 x2 x3 x4)
            ∗ owns (c : Thread nD τ) arg7 fullShare (sumLater2 x0 x1 x2 x3 x4 s6)
            ∗ owns (c : Thread nD τ) arg8 fullShare (sqLater2 x0 x1 x2 x3 x4 s7)) -∗ K ⟨⟩))
      ⊢ wp frame (wpE (defs₀ (F := F)) Variants.none c none) E (cc2__linear_stats_kernel i arg1 harg1 arg2 harg2 arg3 harg3 arg4 harg4 arg5 harg5 arg6 harg6 arg7 harg7 arg8 harg8) K := by
  simp only [cc2__linear_stats_kernel_eq_skeleton]; unfold cc2__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0; subst hf1; subst hf2; subst hf3; subst hf4; subst hf6; subst hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverTile2 _)
  isplitl [H6]
  · iexists _; isplitr
    swap; · iexact H6
    ipureintro
    exact View.read_writes_eq_canon _ _ _ (coverRow2 _)
  iexists _; isplitr
  swap; · iexact H7
  ipureintro
  exact View.read_writes_eq_canon _ _ _ (coverRow2 _)

/-! ## The running rows, point by point -/

/-- The column sums' row after the body at position `n`: the first point's, then each later point's over the one before. -/
def sumAt2 (c : Dev nD) : (n : ℕ) → n < cfg2.N → Vec F S1x128 .f32
  | 0, hn => sumFirst2 (iblk2 V c 0 ⟨0, hn⟩) (iblk2 V c 1 ⟨0, hn⟩) (iblk2 V c 2 ⟨0, hn⟩) (iblk2 V c 3 ⟨0, hn⟩) (iblk2 V c 4 ⟨0, hn⟩)
  | n + 1, hn => sumLater2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (sumAt2 c n (Nat.lt_of_succ_lt hn))
/-- The squares' column sums' row after the body at position `n`. -/
def sqAt2 (c : Dev nD) : (n : ℕ) → n < cfg2.N → Vec F S1x128 .f32
  | 0, hn => sqFirst2 (iblk2 V c 0 ⟨0, hn⟩) (iblk2 V c 1 ⟨0, hn⟩) (iblk2 V c 2 ⟨0, hn⟩) (iblk2 V c 3 ⟨0, hn⟩) (iblk2 V c 4 ⟨0, hn⟩)
  | n + 1, hn => sqLater2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (sqAt2 c n (Nat.lt_of_succ_lt hn))

theorem sumAt2_first (c : Dev nD) (t : Fin cfg2.N) (h0 : t.val = 0) :
    sumAt2 V c t.val t.isLt = sumFirst2 (iblk2 V c 0 t) (iblk2 V c 1 t) (iblk2 V c 2 t) (iblk2 V c 3 t) (iblk2 V c 4 t) := by
  obtain ⟨n, hn⟩ := t
  cases n with
  | zero => rfl
  | succ n => exact absurd h0 (Nat.succ_ne_zero n)
theorem sumAt2_later (c : Dev nD) (t : Fin cfg2.N) (h0 : t.val ≠ 0) :
    sumAt2 V c t.val t.isLt = sumLater2 (iblk2 V c 0 t) (iblk2 V c 1 t) (iblk2 V c 2 t) (iblk2 V c 3 t) (iblk2 V c 4 t) (sumAt2 V c (t.val - 1) (Nat.lt_of_le_of_lt (Nat.sub_le _ _) t.isLt)) := by
  obtain ⟨n, hn⟩ := t
  cases n with
  | zero => exact absurd rfl h0
  | succ n => rfl
theorem sqAt2_first (c : Dev nD) (t : Fin cfg2.N) (h0 : t.val = 0) :
    sqAt2 V c t.val t.isLt = sqFirst2 (iblk2 V c 0 t) (iblk2 V c 1 t) (iblk2 V c 2 t) (iblk2 V c 3 t) (iblk2 V c 4 t) := by
  obtain ⟨n, hn⟩ := t
  cases n with
  | zero => rfl
  | succ n => exact absurd h0 (Nat.succ_ne_zero n)
theorem sqAt2_later (c : Dev nD) (t : Fin cfg2.N) (h0 : t.val ≠ 0) :
    sqAt2 V c t.val t.isLt = sqLater2 (iblk2 V c 0 t) (iblk2 V c 1 t) (iblk2 V c 2 t) (iblk2 V c 3 t) (iblk2 V c 4 t) (sqAt2 V c (t.val - 1) (Nat.lt_of_le_of_lt (Nat.sub_le _ _) t.isLt)) := by
  obtain ⟨n, hn⟩ := t
  cases n with
  | zero => exact absurd rfl h0
  | succ n => rfl

/-! ## The region's proof data -/

/-- On core `c`: the arrays as the region finds them; after the body at point `t` each input's buffer at its block, the
    linear output's at the point's tile, the two running rows' at their running contents; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => lin2 (iblk2 V c 0 t) (iblk2 V c 1 t) (iblk2 V c 2 t) (iblk2 V c 3 t) (iblk2 V c 4 t)
    | ⟨6, _⟩ => sumAt2 V c t.val t.isLt
    | ⟨7, _⟩ => sqAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = lin2 (iblk2 V c 0 t) (iblk2 V c 1 t) (iblk2 V c 2 t) (iblk2 V c 3 t) (iblk2 V c 4 t) := by dsimp only [dat2]
theorem after2_6 (c : Dev nD) (t : Fin cfg2.N) : (dat2 V c).after 6 t = sumAt2 V c t.val t.isLt := by dsimp only [dat2]
theorem after2_7 (c : Dev nD) (t : Fin cfg2.N) : (dat2 V c).after 7 t = sqAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- At a later point a running row's staging buffer holds what the body left at the point before: the point is not
    the first, the row is written back after the last point only, and it is stored at every point. -/
theorem before2_6_later (c : Dev nD) (t : Fin cfg2.N) (h0 : t.val ≠ 0) (d) :
    (dat2 V c).before 6 t d = sumAt2 V c (t.val - 1) (Nat.lt_of_le_of_lt (Nat.sub_le _ _) t.isLt) := by
  have hN : t.val < 5 := lt_of_lt_of_eq t.isLt (show cfg2.N = 5 from N_2)
  rw [Dat.before_out_kept _ 6 rfl t h0 (Bool.eq_false_iff.mpr fun h => by have := (flush2_6 _).mp h; dsimp only at this; omega)
    live2_6 (fun _ _ => rfl)]
  dsimp only [dat2]
theorem before2_7_later (c : Dev nD) (t : Fin cfg2.N) (h0 : t.val ≠ 0) (d) :
    (dat2 V c).before 7 t d = sqAt2 V c (t.val - 1) (Nat.lt_of_le_of_lt (Nat.sub_le _ _) t.isLt) := by
  have hN : t.val < 5 := lt_of_lt_of_eq t.isLt (show cfg2.N = 5 from N_2)
  rw [Dat.before_out_kept _ 7 rfl t h0 (Bool.eq_false_iff.mpr fun h => by have := (flush2_7 _).mp h; dsimp only at this; omega)
    live2_7 (fun _ _ => rfl)]
  dsimp only [dat2]

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 800000 in
/-- The body at any point: the inputs' staging buffers hold their blocks; the closed forms say which of the two cases the
    point is in; at a later point each running row's buffer holds what the point before left. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  by_cases h0 : t.val = 0
  · rw [sumAt2_first V c t h0, sqAt2_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_first2 c Set.univ (grid2.coords t) ((first2_iff t).mpr h0) (fun h => ((later2_iff t).mp h) h0)
      _ _ _ _ _ _ _ _ _ _ _ _ _ _ _ _ (iblk2 V c 0 t) (iblk2 V c 1 t) (iblk2 V c 2 t) (iblk2 V c 3 t) (iblk2 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [sumAt2_later V c t h0, sqAt2_later V c t h0]
    simp only [before2_6_later V c t h0, before2_7_later V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_later2 c Set.univ (grid2.coords t) (fun h => h0 ((first2_iff t).mp h)) ((later2_iff t).mpr h0)
      _ _ _ _ _ _ _ _ _ _ _ _ _ _ _ _ (iblk2 V c 0 t) (iblk2 V c 1 t) (iblk2 V c 2 t) (iblk2 V c 3 t) (iblk2 V c 4 t) _ _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body obligation at every point. -/
theorem body_obligation2 (c : Dev nD) : BodyObligation (dat2 (F := F) V c) (defs₀ (F := F)) Variants.none () Set.univ := fun t => by
  rw [bigSep_W2, bigSep_W2]
  beta_reduce
  rw [live2_6 (cfg2.grid.coords t)]
  try rw [live2_7 (cfg2.grid.coords t)]
  exact sound_body2 V c t

end Cert.Kernel.Frames

end
-- ==== Proof.KB.Norm3.lean ====
/-
  Region 3 of the kernel's program as printed: the batch-norm kernel `cc3__bn_relu_kernel` on a grid of five row tiles.
  At a grid point the body reads one 10000×128 tile of the linear output and four 1×128 rows (mean, variance, scale, shift),
  and stores the whole output tile in one store: (x − mean) · rsqrt(var + ε) · γ + β, clamped below at 0.
  Nothing is carried between grid points, so what the body leaves in the output's staging buffer is a function of the
  point's input blocks alone; the row operands have a constant block index and are fetched once.
  Stated at any float instance `F`, at a parameter `V`: the TensorCore's buffer contents when the region is entered.
-/
import proofs.«139727_j46445776339648_1_alg».proof.Proof.Gen.Kernel.Launch
import proofs.«139727_j46445776339648_1_alg».proof.Proof.Gen.Kernel.Skeleton
import proofs.«139727_j46445776339648_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether fetched there or kept from an
    earlier point (its block index has not moved since). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- An input window's current staging buffer holds its block at every point, whether fetched there or kept from an
    earlier point (its block index has not moved since). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- An input window's current staging buffer holds its block at every point, whether fetched there or kept from an
    earlier point (its block index has not moved since). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- An input window's current staging buffer holds its block at every point, whether fetched there or kept from an
    earlier point (its block index has not moved since). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- An input window's current staging buffer holds its block at every point, whether fetched there or kept from an
    earlier point (its block index has not moved since). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole tile, the rectangle of the body's one store and of its load of the tile. -/
abbrev tile3 : Rect S10000x128 := Rect.unit (s := S10000x128) ![0, 0] S10000x128.size inb_S10000x128_S10000x128_0_0
/-- The whole row, the rectangle of each load of a row operand. -/
abbrev row3 : Rect S1x128 := Rect.unit (s := S1x128) ![0, 0] S1x128.size inb_S1x128_S1x128_0_0

/-- What the body leaves in the output's staging buffer, from the input blocks: its one store, covering the tile. -/
def out3_5 (x0 : Vec F S10000x128 .f32) (x1 x2 x3 x4 : Vec F S1x128 .f32) : Vec F S10000x128 .f32 :=
  View.canon [⟨tile3, k3_pay1 (View.ld x0 tile3) (View.ld x2 row3) (View.ld x1 row3) (View.ld x3 row3) (View.ld x4 row3)⟩]

/-- The one store covers the buffer. -/
theorem cover3_5 (p0 : Vec F S10000x128 .f32) (y : S10000x128.Idx) :
    ∃ pc ∈ ([⟨tile3, p0⟩] : List (View.Piece (Elt F) S10000x128 .f32)), y ∈ pc.1.set :=
  View.cover_of_tiled [⟨tile3, p0⟩] S10000x128.size (by rfl) y

set_option maxHeartbeats 1000000 in
/-- The body on whole staging memrefs, the inputs' at their contents and the output's at anything, runs to its return
    with the inputs' as they were and the output's at `out3_5` of the inputs'. -/
theorem sound_kernel3 (c : Dev nD) (E : Set ℕ) (i : grid3.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The region's proof data on core `c`: the arrays as the region finds them; after the body at point `t` each input's
    buffer at its block and the output's at `out3_5` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' staging buffers hold their blocks, so the body's run applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation3 (c : Dev nD) : BodyObligation (dat3 (F := F) V c) (defs₀ (F := F)) Variants.none () Set.univ := fun t => by
  rw [bigSep_W3, bigSep_W3]
  exact sound_body3 V c t

end Cert.Kernel.Frames

end
-- ==== Proof.KB.Stats4.lean ====
/-
  Region 4 of the kernel's program as printed: the kernel `cc4__linear_stats_kernel` on a grid of five row tiles.
  At a grid point the body reads one 10000×128 tile of the aggregated neighbour means and one of the node features, the two
  128×128 weight matrices and the 1×128 bias, stores the tile of the linear output  mean·Wlᵀ + h·Wrᵀ + b  whole, and
  keeps two running 1×128 rows: the column sums of the linear output and of its squares. At the first point (the
  coordinate is 0) the two rows are stored afresh; at every later point (the coordinate is positive) each is read back
  and stored again with the tile's column sums added. The two rows' block index never moves and they are written back
  after the last point only, so at a later point the staging buffer holds what the point before left there.
  The two conditions are decided over the grid in closed form; between them they hold at every point, so the two
  running rows are never idle. Stated at any float instance `F`, at a parameter `V`: the TensorCore's buffer contents
  when the region is entered.
-/
import proofs.«139727_j46445776339648_1_alg».proof.Proof.Gen.Kernel.Launch
import proofs.«139727_j46445776339648_1_alg».proof.Proof.Gen.Kernel.Skeleton
import proofs.«139727_j46445776339648_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, whether fetched there or kept from an
    earlier point (its block index has not moved since). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- An input window's current staging buffer holds its block at every point, whether fetched there or kept from an
    earlier point (its block index has not moved since). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- An input window's current staging buffer holds its block at every point, whether fetched there or kept from an
    earlier point (its block index has not moved since). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- An input window's current staging buffer holds its block at every point, whether fetched there or kept from an
    earlier point (its block index has not moved since). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- An input window's current staging buffer holds its block at every point, whether fetched there or kept from an
    earlier point (its block index has not moved since). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The two conditions, over the grid -/

/-- The first condition (the coordinate is 0) holds at the first point only. -/
theorem first4_iff : ∀ t : Fin cfg4.N, k4_cond1 (grid4.coords t) = 1#1 ↔ t.val = 0 :=
  (by decide +kernel : ∀ t : Fin grid4.N, k4_cond1 (grid4.coords t) = 1#1 ↔ t.val = 0)
/-- The second condition (the coordinate is positive) holds at every later point. -/
theorem later4_iff : ∀ t : Fin cfg4.N, k4_cond2 (grid4.coords t) = 1#1 ↔ t.val ≠ 0 :=
  (by decide +kernel : ∀ t : Fin grid4.N, k4_cond2 (grid4.coords t) = 1#1 ↔ t.val ≠ 0)
/-- At every grid coordinate one of the two conditions holds: the running rows are stored at every point. -/
theorem live4_6 : ∀ i : cfg4.grid.Coords, cfg4.idle 6 i = false :=
  (by decide +kernel : ∀ i : grid4.Coords, idle4 6 i = false)
theorem live4_7 : ∀ i : cfg4.grid.Coords, cfg4.idle 7 i = false :=
  (by decide +kernel : ∀ i : grid4.Coords, idle4 7 i = false)

/-! ## The rectangles of the body's accesses: each is a whole buffer -/

abbrev tile4 : Rect S10000x128 := Rect.unit (s := S10000x128) ![0, 0] S10000x128.size inb_S10000x128_S10000x128_0_0
abbrev sq4 : Rect S128x128 := Rect.unit (s := S128x128) ![0, 0] S128x128.size inb_S128x128_S128x128_0_0
abbrev row4 : Rect S1x128 := Rect.unit (s := S1x128) ![0, 0] S1x128.size inb_S1x128_S1x128_0_0

/-! ## What the body leaves in each output's staging buffer -/

/-- The linear output's tile (the same at every point): its one store. -/
def lin4 (x0 x1 : Vec F S10000x128 .f32) (x2 x3 : Vec F S128x128 .f32) (x4 : Vec F S1x128 .f32) : Vec F S10000x128 .f32 :=
  View.canon [⟨tile4, k4_pay1 (View.ld x0 tile4) (View.ld x1 tile4) (View.ld x2 sq4) (View.ld x3 sq4) (View.ld x4 row4)⟩]
/-- The column sums' row at the first point: the tile's column sums. -/
def sumFirst4 (x0 x1 : Vec F S10000x128 .f32) (x2 x3 : Vec F S128x128 .f32) (x4 : Vec F S1x128 .f32) : Vec F S1x128 .f32 :=
  View.canon [⟨row4, k4_pay2 (View.ld x0 tile4) (View.ld x1 tile4) (View.ld x2 sq4) (View.ld x3 sq4) (View.ld x4 row4)⟩]
/-- The squares' column sums' row at the first point. -/
def sqFirst4 (x0 x1 : Vec F S10000x128 .f32) (x2 x3 : Vec F S128x128 .f32) (x4 : Vec F S1x128 .f32) : Vec F S1x128 .f32 :=
  View.canon [⟨row4, k4_pay3 (View.ld x0 tile4) (View.ld x1 tile4) (View.ld x2 sq4) (View.ld x3 sq4) (View.ld x4 row4)⟩]
/-- The column sums' row at a later point: what it held, plus the tile's column sums. -/
def sumLater4 (x0 x1 : Vec F S10000x128 .f32) (x2 x3 : Vec F S128x128 .f32) (x4 : Vec F S1x128 .f32) (s : Vec F S1x128 .f32) : Vec F S1x128 .f32 :=
  View.canon [⟨row4, k4_pay4 (View.ld x0 tile4) (View.ld x1 tile4) (View.ld x2 sq4) (View.ld x3 sq4) (View.ld x4 row4) (View.ld s row4)⟩]
/-- The squares' column sums' row at a later point. -/
def sqLater4 (x0 x1 : Vec F S10000x128 .f32) (x2 x3 : Vec F S128x128 .f32) (x4 : Vec F S1x128 .f32) (s : Vec F S1x128 .f32) : Vec F S1x128 .f32 :=
  View.canon [⟨row4, k4_pay5 (View.ld x0 tile4) (View.ld x1 tile4) (View.ld x2 sq4) (View.ld x3 sq4) (View.ld x4 row4) (View.ld s row4)⟩]

theorem coverTile4 (p0 : Vec F S10000x128 .f32) (y : S10000x128.Idx) :
    ∃ pc ∈ ([⟨tile4, p0⟩] : List (View.Piece (Elt F) S10000x128 .f32)), y ∈ pc.1.set :=
  View.cover_of_tiled [⟨tile4, p0⟩] S10000x128.size (by rfl) y
theorem coverRow4 (p0 : Vec F S1x128 .f32) (y : S1x128.Idx) :
    ∃ pc ∈ ([⟨row4, p0⟩] : List (View.Piece (Elt F) S1x128 .f32)), y ∈ pc.1.set :=
  View.cover_of_tiled [⟨row4, p0⟩] S1x128.size (by rfl) y

/-! ## The body's run, in each of the two cases -/

set_option maxHeartbeats 1000000 in
/-- At a coordinate where the first condition holds and the second does not: from the inputs' staging memrefs at their
    contents and the three outputs' at anything, the body runs to its return with the inputs' as they were, the linear
    tile stored and the two running rows stored afresh. -/
theorem sound_first4 (c : Dev nD) (E : Set ℕ) (i : grid4.Coords) (hc1 : k4_cond1 i = 1#1) (hc2 : ¬ k4_cond2 i = 1#1)
    (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S10000x128 .f32) (harg6 : arg6.IsWhole) (arg7 : Memref sig .tc .vmem S1x128 .f32) (harg7 : arg7.IsWhole) (arg8 : Memref sig .tc .vmem S1x128 .f32) (harg8 : arg8.IsWhole)
    (x0 x1 : Vec F S10000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (lin4 x0 x1 x2 x3 x4)
            ∗ owns (c : Thread nD τ) arg7 fullShare (sumFirst4 x0 x1 x2 x3 x4)
            ∗ owns (c : Thread nD τ) arg8 fullShare (sqFirst4 x0 x1 x2 x3 x4)) -∗ K ⟨⟩))
      ⊢ wp frame (wpE (defs₀ (F := F)) Variants.none c none) E (cc4__linear_stats_kernel i arg1 harg1 arg2 harg2 arg3 harg3 arg4 harg4 arg5 harg5 arg6 harg6 arg7 harg7 arg8 harg8) K := by
  simp only [cc4__linear_stats_kernel_eq_skeleton]; unfold cc4__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverTile4 _)
  isplitl [H6]
  · iexists _; isplitr
    swap; · iexact H6
    ipureintro
    exact View.read_writes_eq_canon _ _ _ (coverRow4 _)
  iexists _; isplitr
  swap; · iexact H7
  ipureintro
  exact View.read_writes_eq_canon _ _ _ (coverRow4 _)

set_option maxHeartbeats 1000000 in
/-- At a coordinate where the second condition holds and the first does not: from the inputs' staging memrefs at their
    contents, the linear output's at anything and the two running rows' at their running contents `s6`, `s7`, the body
    runs to its return with the inputs' as they were, the linear tile stored and each running row stored with the
    tile's column sums added to what it held. -/
theorem sound_later4 (c : Dev nD) (E : Set ℕ) (i : grid4.Coords) (hc1 : ¬ k4_cond1 i = 1#1) (hc2 : k4_cond2 i = 1#1)
    (arg1 : Memref sig .tc .vmem S10000x128 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S10000x128 .f32) (harg6 : arg6.IsWhole) (arg7 : Memref sig .tc .vmem S1x128 .f32) (harg7 : arg7.IsWhole) (arg8 : Memref sig .tc .vmem S1x128 .f32) (harg8 : arg8.IsWhole)
    (x0 x1 : Vec F S10000x128 .f32) (x2 x3 : Vec F S128x128 .f32) (x4 : Vec F S1x128 .f32) (s6 s7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare s6 ∗ owns (c : Thread nD τ) arg8 fullShare s7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (lin4 x0 x1 x2 x3 x4)
            ∗ owns (c : Thread nD τ) arg7 fullShare (sumLater4 x0 x1 x2 x3 x4 s6)
            ∗ owns (c : Thread nD τ) arg8 fullShare (sqLater4 x0 x1 x2 x3 x4 s7)) -∗ K ⟨⟩))
      ⊢ wp frame (wpE (defs₀ (F := F)) Variants.none c none) E (cc4__linear_stats_kernel i arg1 harg1 arg2 harg2 arg3 harg3 arg4 harg4 arg5 harg5 arg6 harg6 arg7 harg7 arg8 harg8) K := by
  simp only [cc4__linear_stats_kernel_eq_skeleton]; unfold cc4__linear_stats_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0; subst hf1; subst hf2; subst hf3; subst hf4; subst hf6; subst hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverTile4 _)
  isplitl [H6]
  · iexists _; isplitr
    swap; · iexact H6
    ipureintro
    exact View.read_writes_eq_canon _ _ _ (coverRow4 _)
  iexists _; isplitr
  swap; · iexact H7
  ipureintro
  exact View.read_writes_eq_canon _ _ _ (coverRow4 _)

/-! ## The running rows, point by point -/

/-- The column sums' row after the body at position `n`: the first point's, then each later point's over the one before. -/
def sumAt4 (c : Dev nD) : (n : ℕ) → n < cfg4.N → Vec F S1x128 .f32
  | 0, hn => sumFirst4 (iblk4 V c 0 ⟨0, hn⟩) (iblk4 V c 1 ⟨0, hn⟩) (iblk4 V c 2 ⟨0, hn⟩) (iblk4 V c 3 ⟨0, hn⟩) (iblk4 V c 4 ⟨0, hn⟩)
  | n + 1, hn => sumLater4 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (sumAt4 c n (Nat.lt_of_succ_lt hn))
/-- The squares' column sums' row after the body at position `n`. -/
def sqAt4 (c : Dev nD) : (n : ℕ) → n < cfg4.N → Vec F S1x128 .f32
  | 0, hn => sqFirst4 (iblk4 V c 0 ⟨0, hn⟩) (iblk4 V c 1 ⟨0, hn⟩) (iblk4 V c 2 ⟨0, hn⟩) (iblk4 V c 3 ⟨0, hn⟩) (iblk4 V c 4 ⟨0, hn⟩)
  | n + 1, hn => sqLater4 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (sqAt4 c n (Nat.lt_of_succ_lt hn))

theorem sumAt4_first (c : Dev nD) (t : Fin cfg4.N) (h0 : t.val = 0) :
    sumAt4 V c t.val t.isLt = sumFirst4 (iblk4 V c 0 t) (iblk4 V c 1 t) (iblk4 V c 2 t) (iblk4 V c 3 t) (iblk4 V c 4 t) := by
  obtain ⟨n, hn⟩ := t
  cases n with
  | zero => rfl
  | succ n => exact absurd h0 (Nat.succ_ne_zero n)
theorem sumAt4_later (c : Dev nD) (t : Fin cfg4.N) (h0 : t.val ≠ 0) :
    sumAt4 V c t.val t.isLt = sumLater4 (iblk4 V c 0 t) (iblk4 V c 1 t) (iblk4 V c 2 t) (iblk4 V c 3 t) (iblk4 V c 4 t) (sumAt4 V c (t.val - 1) (Nat.lt_of_le_of_lt (Nat.sub_le _ _) t.isLt)) := by
  obtain ⟨n, hn⟩ := t
  cases n with
  | zero => exact absurd rfl h0
  | succ n => rfl
theorem sqAt4_first (c : Dev nD) (t : Fin cfg4.N) (h0 : t.val = 0) :
    sqAt4 V c t.val t.isLt = sqFirst4 (iblk4 V c 0 t) (iblk4 V c 1 t) (iblk4 V c 2 t) (iblk4 V c 3 t) (iblk4 V c 4 t) := by
  obtain ⟨n, hn⟩ := t
  cases n with
  | zero => rfl
  | succ n => exact absurd h0 (Nat.succ_ne_zero n)
theorem sqAt4_later (c : Dev nD) (t : Fin cfg4.N) (h0 : t.val ≠ 0) :
    sqAt4 V c t.val t.isLt = sqLater4 (iblk4 V c 0 t) (iblk4 V c 1 t) (iblk4 V c 2 t) (iblk4 V c 3 t) (iblk4 V c 4 t) (sqAt4 V c (t.val - 1) (Nat.lt_of_le_of_lt (Nat.sub_le _ _) t.isLt)) := by
  obtain ⟨n, hn⟩ := t
  cases n with
  | zero => exact absurd rfl h0
  | succ n => rfl

/-! ## The region's proof data -/

/-- On core `c`: the arrays as the region finds them; after the body at point `t` each input's buffer at its block, the
    linear output's at the point's tile, the two running rows' at their running contents; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => lin4 (iblk4 V c 0 t) (iblk4 V c 1 t) (iblk4 V c 2 t) (iblk4 V c 3 t) (iblk4 V c 4 t)
    | ⟨6, _⟩ => sumAt4 V c t.val t.isLt
    | ⟨7, _⟩ => sqAt4 V c t.val t.isLt
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = lin4 (iblk4 V c 0 t) (iblk4 V c 1 t) (iblk4 V c 2 t) (iblk4 V c 3 t) (iblk4 V c 4 t) := by dsimp only [dat4]
theorem after4_6 (c : Dev nD) (t : Fin cfg4.N) : (dat4 V c).after 6 t = sumAt4 V c t.val t.isLt := by dsimp only [dat4]
theorem after4_7 (c : Dev nD) (t : Fin cfg4.N) : (dat4 V c).after 7 t = sqAt4 V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- At a later point a running row's staging buffer holds what the body left at the point before: the point is not
    the first, the row is written back after the last point only, and it is stored at every point. -/
theorem before4_6_later (c : Dev nD) (t : Fin cfg4.N) (h0 : t.val ≠ 0) (d) :
    (dat4 V c).before 6 t d = sumAt4 V c (t.val - 1) (Nat.lt_of_le_of_lt (Nat.sub_le _ _) t.isLt) := by
  have hN : t.val < 5 := lt_of_lt_of_eq t.isLt (show cfg4.N = 5 from N_4)
  rw [Dat.before_out_kept _ 6 rfl t h0 (Bool.eq_false_iff.mpr fun h => by have := (flush4_6 _).mp h; dsimp only at this; omega)
    live4_6 (fun _ _ => rfl)]
  dsimp only [dat4]
theorem before4_7_later (c : Dev nD) (t : Fin cfg4.N) (h0 : t.val ≠ 0) (d) :
    (dat4 V c).before 7 t d = sqAt4 V c (t.val - 1) (Nat.lt_of_le_of_lt (Nat.sub_le _ _) t.isLt) := by
  have hN : t.val < 5 := lt_of_lt_of_eq t.isLt (show cfg4.N = 5 from N_4)
  rw [Dat.before_out_kept _ 7 rfl t h0 (Bool.eq_false_iff.mpr fun h => by have := (flush4_7 _).mp h; dsimp only at this; omega)
    live4_7 (fun _ _ => rfl)]
  dsimp only [dat4]

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t))

set_option maxHeartbeats 800000 in
/-- The body at any point: the inputs' staging buffers hold their blocks; the closed forms say which of the two cases the
    point is in; at a later point each running row's buffer holds what the point before left. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  by_cases h0 : t.val = 0
  · rw [sumAt4_first V c t h0, sqAt4_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_first4 c Set.univ (grid4.coords t) ((first4_iff t).mpr h0) (fun h => ((later4_iff t).mp h) h0)
      _ _ _ _ _ _ _ _ _ _ _ _ _ _ _ _ (iblk4 V c 0 t) (iblk4 V c 1 t) (iblk4 V c 2 t) (iblk4 V c 3 t) (iblk4 V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [sumAt4_later V c t h0, sqAt4_later V c t h0]
    simp only [before4_6_later V c t h0, before4_7_later V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_later4 c Set.univ (grid4.coords t) (fun h => h0 ((first4_iff t).mp h)) ((later4_iff t).mpr h0)
      _ _ _ _ _ _ _ _ _ _ _ _ _ _ _ _ (iblk4 V c 0 t) (iblk4 V c 1 t) (iblk4 V c 2 t) (iblk4 V c 3 t) (iblk4 V c 4 t) _ _ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body obligation at every point. -/
theorem body_obligation4 (c : Dev nD) : BodyObligation (dat4 (F := F) V c) (defs₀ (F := F)) Variants.none () Set.univ := fun t => by
  rw [bigSep_W4, bigSep_W4]
  beta_reduce
  rw [live4_6 (cfg4.grid.coords t)]
  try rw [live4_7 (cfg4.grid.coords t)]
  exact sound_body4 V c t

end Cert.Kernel.Frames

end
-- ==== Proof.KB.Norm5.lean ====
/-
  Region 5 of the kernel's program as printed: the batch-norm kernel `cc5__bn_relu_kernel` on a grid of five row tiles.
  At a grid point the body reads one 10000×128 tile of the linear output and four 1×128 rows (mean, variance, scale, shift),
  and stores the whole output tile in one store: (x − mean) · rsqrt(var + ε) · γ + β.
  Nothing is carried between grid points, so what the body leaves in the output's staging buffer is a function of the
  point's input blocks alone; the row operands have a constant block index and are fetched once.
  Stated at any float instance `F`, at a parameter `V`: the TensorCore's buffer contents when the region is entered.
-/
import proofs.«139727_j46445776339648_1_alg».proof.Proof.Gen.Kernel.Launch
import proofs.«139727_j46445776339648_1_alg».proof.Proof.Gen.Kernel.Skeleton
import proofs.«139727_j46445776339648_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, whether fetched there or kept from an
    earlier point (its block index has not moved since). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- An input window's current staging buffer holds its block at every point, whether fetched there or kept from an
    earlier point (its block index has not moved since). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- An input window's current staging buffer holds its block at every point, whether fetched there or kept from an
    earlier point (its block index has not moved since). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- An input window's current staging buffer holds its block at every point, whether fetched there or kept from an
    earlier point (its block index has not moved since). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- An input window's current staging buffer holds its block at every point, whether fetched there or kept from an
    earlier point (its block index has not moved since). -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole tile, the rectangle of the body's one store and of its load of the tile. -/
abbrev tile5 : Rect S10000x128 := Rect.unit (s := S10000x128) ![0, 0] S10000x128.size inb_S10000x128_S10000x128_0_0
/-- The whole row, the rectangle of each load of a row operand. -/
abbrev row5 : Rect S1x128 := Rect.unit (s := S1x128) ![0, 0] S1x128.size inb_S1x128_S1x128_0_0

/-- What the body leaves in the output's staging buffer, from the input blocks: its one store, covering the tile. -/
def out5_5 (x0 : Vec F S10000x128 .f32) (x1 x2 x3 x4 : Vec F S1x128 .f32) : Vec F S10000x128 .f32 :=
  View.canon [⟨tile5, k5_pay1 (View.ld x0 tile5) (View.ld x2 row5) (View.ld x1 row5) (View.ld x3 row5) (View.ld x4 row5)⟩]

/-- The one store covers the buffer. -/
theorem cover5_5 (p0 : Vec F S10000x128 .f32) (y : S10000x128.Idx) :
    ∃ pc ∈ ([⟨tile5, p0⟩] : List (View.Piece (Elt F) S10000x128 .f32)), y ∈ pc.1.set :=
  View.cover_of_tiled [⟨tile5, p0⟩] S10000x128.size (by rfl) y

set_option maxHeartbeats 1000000 in
/-- The body on whole staging memrefs, the inputs' at their contents and the output's at anything, runs to its return
    with the inputs' as they were and the output's at `out5_5` of the inputs'. -/
theorem sound_kernel5 (c : Dev nD) (E : Set ℕ) (i : grid5.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The region's proof data on core `c`: the arrays as the region finds them; after the body at point `t` each input's
    buffer at its block and the output's at `out5_5` of the input blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' staging buffers hold their blocks, so the body's run applies. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at every point. -/
theorem body_obligation5 (c : Dev nD) : BodyObligation (dat5 (F := F) V c) (defs₀ (F := F)) Variants.none () Set.univ := fun t => by
  rw [bigSep_W5, bigSep_W5]
  exact sound_body5 V c t

end Cert.Kernel.Frames

end
-- ==== Proof.KB.Run.lean ====
/-
  The whole run of the kernel's program as printed: six kernel regions among six stretches of host operations.
  The buffer contents at each boundary are a fold from the launch memory: a host stretch applies its operations; a region
  leaves each of its windows' arrays at what its write-backs leave (the inputs as entered) and every other buffer as
  entered. Every weakly fair execution terminates without a fault, and in every final state each unscoped buffer of a
  TensorCore holds the last boundary's contents; no host operation and no region writes an argument, so the fold at an
  argument walks back to the launch memory. Stated at any float instance `F`.
-/
import proofs.«139727_j46445776339648_1_alg».proof.Proof.KB.Stats0
import proofs.«139727_j46445776339648_1_alg».proof.Proof.KB.Norm1
import proofs.«139727_j46445776339648_1_alg».proof.Proof.KB.Stats2
import proofs.«139727_j46445776339648_1_alg».proof.Proof.KB.Norm3
import proofs.«139727_j46445776339648_1_alg».proof.Proof.KB.Stats4
import proofs.«139727_j46445776339648_1_alg».proof.Proof.KB.Norm5
import proofs.«139727_j46445776339648_1_alg».proof.Proof.Gen.Kernel.Regions

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After host stretch 0 (region 0's entry). -/
abbrev B1 : Dev nD → Valuation τ sig (Elt F) := fun c => StableHlo.after hostOps0 (B0 m ρ c)
/-- The same read at the TensorCore's references. -/
abbrev E1 : (c : Dev nD) → (b : Ref sig .tc) → Buf (Elt F) ((c : Thread nD τ).loc b) := fun c b => B1 m ρ c b
/-- At region 0's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After host stretch 1 (region 1's entry). -/
abbrev B3 : Dev nD → Valuation τ sig (Elt F) := fun c => StableHlo.after hostOps1 (B2 m ρ c)
/-- The same read at the TensorCore's references. -/
abbrev E3 : (c : Dev nD) → (b : Ref sig .tc) → Buf (Elt F) ((c : Thread nD τ).loc b) := fun c b => B3 m ρ c b
/-- At region 1's exit: its arrays at what the pipeline leaves, every other buffer as entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After host stretch 2 (region 2's entry). -/
abbrev B5 : Dev nD → Valuation τ sig (Elt F) := fun c => StableHlo.after hostOps2 (B4 m ρ c)
/-- The same read at the TensorCore's references. -/
abbrev E5 : (c : Dev nD) → (b : Ref sig .tc) → Buf (Elt F) ((c : Thread nD τ).loc b) := fun c b => B5 m ρ c b
/-- At region 2's exit: its arrays at what the pipeline leaves, every other buffer as entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)

/-- After host stretch 3 (region 3's entry). -/
abbrev B7 : Dev nD → Valuation τ sig (Elt F) := fun c => StableHlo.after hostOps3 (B6 m ρ c)
/-- The same read at the TensorCore's references. -/
abbrev E7 : (c : Dev nD) → (b : Ref sig .tc) → Buf (Elt F) ((c : Thread nD τ).loc b) := fun c b => B7 m ρ c b
/-- At region 3's exit: its arrays at what the pipeline leaves, every other buffer as entered. -/
def B8 (c : Dev nD) : Valuation τ sig (Elt F) :=
  Pipeline.withArrays spec3 c (B7 m ρ c) fun w => (dat3 (E7 m ρ) c).arrAt w cfg3.N
theorem B8_arr (c : Dev nD) (w : Fin cfg3.W) :
    B8 m ρ c (Proc.devRef .tc (Pipeline.arrRef spec3 w)) = (dat3 (E7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev E8 : (c : Dev nD) → (b : Ref sig .tc) → Buf (Elt F) ((c : Thread nD τ).loc b) := fun c b => B8 m ρ c b
theorem hF3 (c : Dev nD) (w : Fin cfg3.W) : (dat3 (E7 m ρ) c).arrAt w cfg3.N = E8 m ρ c (Pipeline.arrRef spec3 w) :=
  (B8_arr m ρ c w).symm
theorem hrest3 (c : Dev nD) : ∀ b, b ∉ Finset.univ.image (Pipeline.arrRef spec3) → E8 m ρ c b = E7 m ρ c b :=
  fun b hb => B8_of_ne m ρ c b fun w e => hb (Finset.mem_image.mpr ⟨w, Finset.mem_univ _, e⟩)

/-- After host stretch 4 (region 4's entry). -/
abbrev B9 : Dev nD → Valuation τ sig (Elt F) := fun c => StableHlo.after hostOps4 (B8 m ρ c)
/-- The same read at the TensorCore's references. -/
abbrev E9 : (c : Dev nD) → (b : Ref sig .tc) → Buf (Elt F) ((c : Thread nD τ).loc b) := fun c b => B9 m ρ c b
/-- At region 4's exit: its arrays at what the pipeline leaves, every other buffer as entered. -/
def B10 (c : Dev nD) : Valuation τ sig (Elt F) :=
  Pipeline.withArrays spec4 c (B9 m ρ c) fun w => (dat4 (E9 m ρ) c).arrAt w cfg4.N
theorem B10_arr (c : Dev nD) (w : Fin cfg4.W) :
    B10 m ρ c (Proc.devRef .tc (Pipeline.arrRef spec4 w)) = (dat4 (E9 m ρ) c).arrAt w cfg4.N := by
  unfold B10; exact Pipeline.withArrays_arr spec4 launch4.win.arr_inj c _ _ w
theorem B10_of_ne (c : Dev nD) (b : Ref sig .tc) (hb : ∀ w, Pipeline.arrRef spec4 w ≠ b) :
    B10 m ρ c (Proc.devRef .tc b) = B9 m ρ c (Proc.devRef .tc b) := by
  unfold B10; exact Pipeline.withArrays_of_ne spec4 c _ _ b hb
abbrev E10 : (c : Dev nD) → (b : Ref sig .tc) → Buf (Elt F) ((c : Thread nD τ).loc b) := fun c b => B10 m ρ c b
theorem hF4 (c : Dev nD) (w : Fin cfg4.W) : (dat4 (E9 m ρ) c).arrAt w cfg4.N = E10 m ρ c (Pipeline.arrRef spec4 w) :=
  (B10_arr m ρ c w).symm
theorem hrest4 (c : Dev nD) : ∀ b, b ∉ Finset.univ.image (Pipeline.arrRef spec4) → E10 m ρ c b = E9 m ρ c b :=
  fun b hb => B10_of_ne m ρ c b fun w e => hb (Finset.mem_image.mpr ⟨w, Finset.mem_univ _, e⟩)

/-- After host stretch 5 (region 5's entry). -/
abbrev B11 : Dev nD → Valuation τ sig (Elt F) := fun c => StableHlo.after hostOps5 (B10 m ρ c)
/-- The same read at the TensorCore's references. -/
abbrev E11 : (c : Dev nD) → (b : Ref sig .tc) → Buf (Elt F) ((c : Thread nD τ).loc b) := fun c b => B11 m ρ c b
/-- At region 5's exit: its arrays at what the pipeline leaves, every other buffer as entered. -/
def B12 (c : Dev nD) : Valuation τ sig (Elt F) :=
  Pipeline.withArrays spec5 c (B11 m ρ c) fun w => (dat5 (E11 m ρ) c).arrAt w cfg5.N
theorem B12_arr (c : Dev nD) (w : Fin cfg5.W) :
    B12 m ρ c (Proc.devRef .tc (Pipeline.arrRef spec5 w)) = (dat5 (E11 m ρ) c).arrAt w cfg5.N := by
  unfold B12; exact Pipeline.withArrays_arr spec5 launch5.win.arr_inj c _ _ w
theorem B12_of_ne (c : Dev nD) (b : Ref sig .tc) (hb : ∀ w, Pipeline.arrRef spec5 w ≠ b) :
    B12 m ρ c (Proc.devRef .tc b) = B11 m ρ c (Proc.devRef .tc b) := by
  unfold B12; exact Pipeline.withArrays_of_ne spec5 c _ _ b hb
abbrev E12 : (c : Dev nD) → (b : Ref sig .tc) → Buf (Elt F) ((c : Thread nD τ).loc b) := fun c b => B12 m ρ c b
theorem hF5 (c : Dev nD) (w : Fin cfg5.W) : (dat5 (E11 m ρ) c).arrAt w cfg5.N = E12 m ρ c (Pipeline.arrRef spec5 w) :=
  (B12_arr m ρ c w).symm
theorem hrest5 (c : Dev nD) : ∀ b, b ∉ Finset.univ.image (Pipeline.arrRef spec5) → E12 m ρ c b = E11 m ρ c b :=
  fun b hb => B12_of_ne m ρ c b fun w e => hb (Finset.mem_image.mpr ⟨w, Finset.mem_univ _, e⟩)

/-! ## The arguments end as launched -/

theorem B12_main_arg0 (c : Dev nD) : B12 m ρ c (Proc.devRef .tc main_arg0) = m ((c : Thread nD τ).loc main_arg0) :=
  calc B12 m ρ c (Proc.devRef .tc main_arg0)
    _ = B11 m ρ c (Proc.devRef .tc main_arg0) := B12_of_ne m ρ c main_arg0 (by decide)
    _ = B10 m ρ c (Proc.devRef .tc main_arg0) := StableHlo.after_of_writes_sub hostOps5 _ hostOps5_writes (by decide)
    _ = B9 m ρ c (Proc.devRef .tc main_arg0) := B10_of_ne m ρ c main_arg0 (by decide)
    _ = B8 m ρ c (Proc.devRef .tc main_arg0) := StableHlo.after_of_writes_sub hostOps4 _ hostOps4_writes (by decide)
    _ = B7 m ρ c (Proc.devRef .tc main_arg0) := B8_of_ne m ρ c main_arg0 (by decide)
    _ = B6 m ρ c (Proc.devRef .tc main_arg0) := StableHlo.after_of_writes_sub hostOps3 _ hostOps3_writes (by decide)
    _ = B5 m ρ c (Proc.devRef .tc main_arg0) := B6_of_ne m ρ c main_arg0 (by decide)
    _ = B4 m ρ c (Proc.devRef .tc main_arg0) := StableHlo.after_of_writes_sub hostOps2 _ hostOps2_writes (by decide)
    _ = B3 m ρ c (Proc.devRef .tc main_arg0) := B4_of_ne m ρ c main_arg0 (by decide)
    _ = B2 m ρ c (Proc.devRef .tc main_arg0) := StableHlo.after_of_writes_sub hostOps1 _ hostOps1_writes (by decide)
    _ = B1 m ρ c (Proc.devRef .tc main_arg0) := (B2_arr m ρ c 1).trans (((dat0 (E1 m ρ) c).arrAt_in 1 rfl _).trans (A_eq0 (E1 m ρ) c 1))
    _ = B0 m ρ c (Proc.devRef .tc main_arg0) := StableHlo.after_of_writes_sub hostOps0 _ hostOps0_writes (by decide)
    _ = m ((c : Thread nD τ).loc main_arg0) := rfl

theorem B12_main_arg1 (c : Dev nD) : B12 m ρ c (Proc.devRef .tc main_arg1) = m ((c : Thread nD τ).loc main_arg1) :=
  calc B12 m ρ c (Proc.devRef .tc main_arg1)
    _ = B11 m ρ c (Proc.devRef .tc main_arg1) := B12_of_ne m ρ c main_arg1 (by decide)
    _ = B10 m ρ c (Proc.devRef .tc main_arg1) := StableHlo.after_of_writes_sub hostOps5 _ hostOps5_writes (by decide)
    _ = B9 m ρ c (Proc.devRef .tc main_arg1) := B10_of_ne m ρ c main_arg1 (by decide)
    _ = B8 m ρ c (Proc.devRef .tc main_arg1) := StableHlo.after_of_writes_sub hostOps4 _ hostOps4_writes (by decide)
    _ = B7 m ρ c (Proc.devRef .tc main_arg1) := B8_of_ne m ρ c main_arg1 (by decide)
    _ = B6 m ρ c (Proc.devRef .tc main_arg1) := StableHlo.after_of_writes_sub hostOps3 _ hostOps3_writes (by decide)
    _ = B5 m ρ c (Proc.devRef .tc main_arg1) := B6_of_ne m ρ c main_arg1 (by decide)
    _ = B4 m ρ c (Proc.devRef .tc main_arg1) := StableHlo.after_of_writes_sub hostOps2 _ hostOps2_writes (by decide)
    _ = B3 m ρ c (Proc.devRef .tc main_arg1) := B4_of_ne m ρ c main_arg1 (by decide)
    _ = B2 m ρ c (Proc.devRef .tc main_arg1) := StableHlo.after_of_writes_sub hostOps1 _ hostOps1_writes (by decide)
    _ = B1 m ρ c (Proc.devRef .tc main_arg1) := B2_of_ne m ρ c main_arg1 (by decide)
    _ = B0 m ρ c (Proc.devRef .tc main_arg1) := StableHlo.after_of_writes_sub hostOps0 _ hostOps0_writes (by decide)
    _ = m ((c : Thread nD τ).loc main_arg1) := rfl

theorem B12_main_arg2 (c : Dev nD) : B12 m ρ c (Proc.devRef .tc main_arg2) = m ((c : Thread nD τ).loc main_arg2) :=
  calc B12 m ρ c (Proc.devRef .tc main_arg2)
    _ = B11 m ρ c (Proc.devRef .tc main_arg2) := B12_of_ne m ρ c main_arg2 (by decide)
    _ = B10 m ρ c (Proc.devRef .tc main_arg2) := StableHlo.after_of_writes_sub hostOps5 _ hostOps5_writes (by decide)
    _ = B9 m ρ c (Proc.devRef .tc main_arg2) := B10_of_ne m ρ c main_arg2 (by decide)
    _ = B8 m ρ c (Proc.devRef .tc main_arg2) := StableHlo.after_of_writes_sub hostOps4 _ hostOps4_writes (by decide)
    _ = B7 m ρ c (Proc.devRef .tc main_arg2) := B8_of_ne m ρ c main_arg2 (by decide)
    _ = B6 m ρ c (Proc.devRef .tc main_arg2) := StableHlo.after_of_writes_sub hostOps3 _ hostOps3_writes (by decide)
    _ = B5 m ρ c (Proc.devRef .tc main_arg2) := B6_of_ne m ρ c main_arg2 (by decide)
    _ = B4 m ρ c (Proc.devRef .tc main_arg2) := StableHlo.after_of_writes_sub hostOps2 _ hostOps2_writes (by decide)
    _ = B3 m ρ c (Proc.devRef .tc main_arg2) := B4_of_ne m ρ c main_arg2 (by decide)
    _ = B2 m ρ c (Proc.devRef .tc main_arg2) := StableHlo.after_of_writes_sub hostOps1 _ hostOps1_writes (by decide)
    _ = B1 m ρ c (Proc.devRef .tc main_arg2) := (B2_arr m ρ c 2).trans (((dat0 (E1 m ρ) c).arrAt_in 2 rfl _).trans (A_eq0 (E1 m ρ) c 2))
    _ = B0 m ρ c (Proc.devRef .tc main_arg2) := StableHlo.after_of_writes_sub hostOps0 _ hostOps0_writes (by decide)
    _ = m ((c : Thread nD τ).loc main_arg2) := rfl

theorem B12_main_arg3 (c : Dev nD) : B12 m ρ c (Proc.devRef .tc main_arg3) = m ((c : Thread nD τ).loc main_arg3) :=
  calc B12 m ρ c (Proc.devRef .tc main_arg3)
    _ = B11 m ρ c (Proc.devRef .tc main_arg3) := B12_of_ne m ρ c main_arg3 (by decide)
    _ = B10 m ρ c (Proc.devRef .tc main_arg3) := StableHlo.after_of_writes_sub hostOps5 _ hostOps5_writes (by decide)
    _ = B9 m ρ c (Proc.devRef .tc main_arg3) := B10_of_ne m ρ c main_arg3 (by decide)
    _ = B8 m ρ c (Proc.devRef .tc main_arg3) := StableHlo.after_of_writes_sub hostOps4 _ hostOps4_writes (by decide)
    _ = B7 m ρ c (Proc.devRef .tc main_arg3) := B8_of_ne m ρ c main_arg3 (by decide)
    _ = B6 m ρ c (Proc.devRef .tc main_arg3) := StableHlo.after_of_writes_sub hostOps3 _ hostOps3_writes (by decide)
    _ = B5 m ρ c (Proc.devRef .tc main_arg3) := B6_of_ne m ρ c main_arg3 (by decide)
    _ = B4 m ρ c (Proc.devRef .tc main_arg3) := StableHlo.after_of_writes_sub hostOps2 _ hostOps2_writes (by decide)
    _ = B3 m ρ c (Proc.devRef .tc main_arg3) := B4_of_ne m ρ c main_arg3 (by decide)
    _ = B2 m ρ c (Proc.devRef .tc main_arg3) := StableHlo.after_of_writes_sub hostOps1 _ hostOps1_writes (by decide)
    _ = B1 m ρ c (Proc.devRef .tc main_arg3) := B2_of_ne m ρ c main_arg3 (by decide)
    _ = B0 m ρ c (Proc.devRef .tc main_arg3) := StableHlo.after_of_writes_sub hostOps0 _ hostOps0_writes (by decide)
    _ = m ((c : Thread nD τ).loc main_arg3) := rfl

theorem B12_main_arg4 (c : Dev nD) : B12 m ρ c (Proc.devRef .tc main_arg4) = m ((c : Thread nD τ).loc main_arg4) :=
  calc B12 m ρ c (Proc.devRef .tc main_arg4)
    _ = B11 m ρ c (Proc.devRef .tc main_arg4) := B12_of_ne m ρ c main_arg4 (by decide)
    _ = B10 m ρ c (Proc.devRef .tc main_arg4) := StableHlo.after_of_writes_sub hostOps5 _ hostOps5_writes (by decide)
    _ = B9 m ρ c (Proc.devRef .tc main_arg4) := B10_of_ne m ρ c main_arg4 (by decide)
    _ = B8 m ρ c (Proc.devRef .tc main_arg4) := StableHlo.after_of_writes_sub hostOps4 _ hostOps4_writes (by decide)
    _ = B7 m ρ c (Proc.devRef .tc main_arg4) := B8_of_ne m ρ c main_arg4 (by decide)
    _ = B6 m ρ c (Proc.devRef .tc main_arg4) := StableHlo.after_of_writes_sub hostOps3 _ hostOps3_writes (by decide)
    _ = B5 m ρ c (Proc.devRef .tc main_arg4) := B6_of_ne m ρ c main_arg4 (by decide)
    _ = B4 m ρ c (Proc.devRef .tc main_arg4) := StableHlo.after_of_writes_sub hostOps2 _ hostOps2_writes (by decide)
    _ = B3 m ρ c (Proc.devRef .tc main_arg4) := B4_of_ne m ρ c main_arg4 (by decide)
    _ = B2 m ρ c (Proc.devRef .tc main_arg4) := StableHlo.after_of_writes_sub hostOps1 _ hostOps1_writes (by decide)
    _ = B1 m ρ c (Proc.devRef .tc main_arg4) := (B2_arr m ρ c 3).trans (((dat0 (E1 m ρ) c).arrAt_in 3 rfl _).trans (A_eq0 (E1 m ρ) c 3))
    _ = B0 m ρ c (Proc.devRef .tc main_arg4) := StableHlo.after_of_writes_sub hostOps0 _ hostOps0_writes (by decide)
    _ = m ((c : Thread nD τ).loc main_arg4) := rfl

theorem B12_main_arg5 (c : Dev nD) : B12 m ρ c (Proc.devRef .tc main_arg5) = m ((c : Thread nD τ).loc main_arg5) :=
  calc B12 m ρ c (Proc.devRef .tc main_arg5)
    _ = B11 m ρ c (Proc.devRef .tc main_arg5) := B12_of_ne m ρ c main_arg5 (by decide)
    _ = B10 m ρ c (Proc.devRef .tc main_arg5) := StableHlo.after_of_writes_sub hostOps5 _ hostOps5_writes (by decide)
    _ = B9 m ρ c (Proc.devRef .tc main_arg5) := B10_of_ne m ρ c main_arg5 (by decide)
    _ = B8 m ρ c (Proc.devRef .tc main_arg5) := StableHlo.after_of_writes_sub hostOps4 _ hostOps4_writes (by decide)
    _ = B7 m ρ c (Proc.devRef .tc main_arg5) := B8_of_ne m ρ c main_arg5 (by decide)
    _ = B6 m ρ c (Proc.devRef .tc main_arg5) := StableHlo.after_of_writes_sub hostOps3 _ hostOps3_writes (by decide)
    _ = B5 m ρ c (Proc.devRef .tc main_arg5) := B6_of_ne m ρ c main_arg5 (by decide)
    _ = B4 m ρ c (Proc.devRef .tc main_arg5) := StableHlo.after_of_writes_sub hostOps2 _ hostOps2_writes (by decide)
    _ = B3 m ρ c (Proc.devRef .tc main_arg5) := B4_of_ne m ρ c main_arg5 (by decide)
    _ = B2 m ρ c (Proc.devRef .tc main_arg5) := StableHlo.after_of_writes_sub hostOps1 _ hostOps1_writes (by decide)
    _ = B1 m ρ c (Proc.devRef .tc main_arg5) := B2_of_ne m ρ c main_arg5 (by decide)
    _ = B0 m ρ c (Proc.devRef .tc main_arg5) := StableHlo.after_of_writes_sub hostOps0 _ hostOps0_writes (by decide)
    _ = m ((c : Thread nD τ).loc main_arg5) := rfl

theorem B12_main_arg6 (c : Dev nD) : B12 m ρ c (Proc.devRef .tc main_arg6) = m ((c : Thread nD τ).loc main_arg6) :=
  calc B12 m ρ c (Proc.devRef .tc main_arg6)
    _ = B11 m ρ c (Proc.devRef .tc main_arg6) := B12_of_ne m ρ c main_arg6 (by decide)
    _ = B10 m ρ c (Proc.devRef .tc main_arg6) := StableHlo.after_of_writes_sub hostOps5 _ hostOps5_writes (by decide)
    _ = B9 m ρ c (Proc.devRef .tc main_arg6) := B10_of_ne m ρ c main_arg6 (by decide)
    _ = B8 m ρ c (Proc.devRef .tc main_arg6) := StableHlo.after_of_writes_sub hostOps4 _ hostOps4_writes (by decide)
    _ = B7 m ρ c (Proc.devRef .tc main_arg6) := B8_of_ne m ρ c main_arg6 (by decide)
    _ = B6 m ρ c (Proc.devRef .tc main_arg6) := StableHlo.after_of_writes_sub hostOps3 _ hostOps3_writes (by decide)
    _ = B5 m ρ c (Proc.devRef .tc main_arg6) := B6_of_ne m ρ c main_arg6 (by decide)
    _ = B4 m ρ c (Proc.devRef .tc main_arg6) := StableHlo.after_of_writes_sub hostOps2 _ hostOps2_writes (by decide)
    _ = B3 m ρ c (Proc.devRef .tc main_arg6) := B4_of_ne m ρ c main_arg6 (by decide)
    _ = B2 m ρ c (Proc.devRef .tc main_arg6) := StableHlo.after_of_writes_sub hostOps1 _ hostOps1_writes (by decide)
    _ = B1 m ρ c (Proc.devRef .tc main_arg6) := B2_of_ne m ρ c main_arg6 (by decide)
    _ = B0 m ρ c (Proc.devRef .tc main_arg6) := StableHlo.after_of_writes_sub hostOps0 _ hostOps0_writes (by decide)
    _ = m ((c : Thread nD τ).loc main_arg6) := rfl

theorem B12_main_arg7 (c : Dev nD) : B12 m ρ c (Proc.devRef .tc main_arg7) = m ((c : Thread nD τ).loc main_arg7) :=
  calc B12 m ρ c (Proc.devRef .tc main_arg7)
    _ = B11 m ρ c (Proc.devRef .tc main_arg7) := B12_of_ne m ρ c main_arg7 (by decide)
    _ = B10 m ρ c (Proc.devRef .tc main_arg7) := StableHlo.after_of_writes_sub hostOps5 _ hostOps5_writes (by decide)
    _ = B9 m ρ c (Proc.devRef .tc main_arg7) := B10_of_ne m ρ c main_arg7 (by decide)
    _ = B8 m ρ c (Proc.devRef .tc main_arg7) := StableHlo.after_of_writes_sub hostOps4 _ hostOps4_writes (by decide)
    _ = B7 m ρ c (Proc.devRef .tc main_arg7) := B8_of_ne m ρ c main_arg7 (by decide)
    _ = B6 m ρ c (Proc.devRef .tc main_arg7) := StableHlo.after_of_writes_sub hostOps3 _ hostOps3_writes (by decide)
    _ = B5 m ρ c (Proc.devRef .tc main_arg7) := (B6_arr m ρ c 2).trans (((dat2 (E5 m ρ) c).arrAt_in 2 rfl _).trans (A_eq2 (E5 m ρ) c 2))
    _ = B4 m ρ c (Proc.devRef .tc main_arg7) := StableHlo.after_of_writes_sub hostOps2 _ hostOps2_writes (by decide)
    _ = B3 m ρ c (Proc.devRef .tc main_arg7) := B4_of_ne m ρ c main_arg7 (by decide)
    _ = B2 m ρ c (Proc.devRef .tc main_arg7) := StableHlo.after_of_writes_sub hostOps1 _ hostOps1_writes (by decide)
    _ = B1 m ρ c (Proc.devRef .tc main_arg7) := B2_of_ne m ρ c main_arg7 (by decide)
    _ = B0 m ρ c (Proc.devRef .tc main_arg7) := StableHlo.after_of_writes_sub hostOps0 _ hostOps0_writes (by decide)
    _ = m ((c : Thread nD τ).loc main_arg7) := rfl

theorem B12_main_arg8 (c : Dev nD) : B12 m ρ c (Proc.devRef .tc main_arg8) = m ((c : Thread nD τ).loc main_arg8) :=
  calc B12 m ρ c (Proc.devRef .tc main_arg8)
    _ = B11 m ρ c (Proc.devRef .tc main_arg8) := B12_of_ne m ρ c main_arg8 (by decide)
    _ = B10 m ρ c (Proc.devRef .tc main_arg8) := StableHlo.after_of_writes_sub hostOps5 _ hostOps5_writes (by decide)
    _ = B9 m ρ c (Proc.devRef .tc main_arg8) := B10_of_ne m ρ c main_arg8 (by decide)
    _ = B8 m ρ c (Proc.devRef .tc main_arg8) := StableHlo.after_of_writes_sub hostOps4 _ hostOps4_writes (by decide)
    _ = B7 m ρ c (Proc.devRef .tc main_arg8) := B8_of_ne m ρ c main_arg8 (by decide)
    _ = B6 m ρ c (Proc.devRef .tc main_arg8) := StableHlo.after_of_writes_sub hostOps3 _ hostOps3_writes (by decide)
    _ = B5 m ρ c (Proc.devRef .tc main_arg8) := B6_of_ne m ρ c main_arg8 (by decide)
    _ = B4 m ρ c (Proc.devRef .tc main_arg8) := StableHlo.after_of_writes_sub hostOps2 _ hostOps2_writes (by decide)
    _ = B3 m ρ c (Proc.devRef .tc main_arg8) := B4_of_ne m ρ c main_arg8 (by decide)
    _ = B2 m ρ c (Proc.devRef .tc main_arg8) := StableHlo.after_of_writes_sub hostOps1 _ hostOps1_writes (by decide)
    _ = B1 m ρ c (Proc.devRef .tc main_arg8) := B2_of_ne m ρ c main_arg8 (by decide)
    _ = B0 m ρ c (Proc.devRef .tc main_arg8) := StableHlo.after_of_writes_sub hostOps0 _ hostOps0_writes (by decide)
    _ = m ((c : Thread nD τ).loc main_arg8) := rfl

theorem B12_main_arg9 (c : Dev nD) : B12 m ρ c (Proc.devRef .tc main_arg9) = m ((c : Thread nD τ).loc main_arg9) :=
  calc B12 m ρ c (Proc.devRef .tc main_arg9)
    _ = B11 m ρ c (Proc.devRef .tc main_arg9) := B12_of_ne m ρ c main_arg9 (by decide)
    _ = B10 m ρ c (Proc.devRef .tc main_arg9) := StableHlo.after_of_writes_sub hostOps5 _ hostOps5_writes (by decide)
    _ = B9 m ρ c (Proc.devRef .tc main_arg9) := B10_of_ne m ρ c main_arg9 (by decide)
    _ = B8 m ρ c (Proc.devRef .tc main_arg9) := StableHlo.after_of_writes_sub hostOps4 _ hostOps4_writes (by decide)
    _ = B7 m ρ c (Proc.devRef .tc main_arg9) := B8_of_ne m ρ c main_arg9 (by decide)
    _ = B6 m ρ c (Proc.devRef .tc main_arg9) := StableHlo.after_of_writes_sub hostOps3 _ hostOps3_writes (by decide)
    _ = B5 m ρ c (Proc.devRef .tc main_arg9) := (B6_arr m ρ c 3).trans (((dat2 (E5 m ρ) c).arrAt_in 3 rfl _).trans (A_eq2 (E5 m ρ) c 3))
    _ = B4 m ρ c (Proc.devRef .tc main_arg9) := StableHlo.after_of_writes_sub hostOps2 _ hostOps2_writes (by decide)
    _ = B3 m ρ c (Proc.devRef .tc main_arg9) := B4_of_ne m ρ c main_arg9 (by decide)
    _ = B2 m ρ c (Proc.devRef .tc main_arg9) := StableHlo.after_of_writes_sub hostOps1 _ hostOps1_writes (by decide)
    _ = B1 m ρ c (Proc.devRef .tc main_arg9) := B2_of_ne m ρ c main_arg9 (by decide)
    _ = B0 m ρ c (Proc.devRef .tc main_arg9) := StableHlo.after_of_writes_sub hostOps0 _ hostOps0_writes (by decide)
    _ = m ((c : Thread nD τ).loc main_arg9) := rfl

theorem B12_main_arg10 (c : Dev nD) : B12 m ρ c (Proc.devRef .tc main_arg10) = m ((c : Thread nD τ).loc main_arg10) :=
  calc B12 m ρ c (Proc.devRef .tc main_arg10)
    _ = B11 m ρ c (Proc.devRef .tc main_arg10) := B12_of_ne m ρ c main_arg10 (by decide)
    _ = B10 m ρ c (Proc.devRef .tc main_arg10) := StableHlo.after_of_writes_sub hostOps5 _ hostOps5_writes (by decide)
    _ = B9 m ρ c (Proc.devRef .tc main_arg10) := B10_of_ne m ρ c main_arg10 (by decide)
    _ = B8 m ρ c (Proc.devRef .tc main_arg10) := StableHlo.after_of_writes_sub hostOps4 _ hostOps4_writes (by decide)
    _ = B7 m ρ c (Proc.devRef .tc main_arg10) := B8_of_ne m ρ c main_arg10 (by decide)
    _ = B6 m ρ c (Proc.devRef .tc main_arg10) := StableHlo.after_of_writes_sub hostOps3 _ hostOps3_writes (by decide)
    _ = B5 m ρ c (Proc.devRef .tc main_arg10) := B6_of_ne m ρ c main_arg10 (by decide)
    _ = B4 m ρ c (Proc.devRef .tc main_arg10) := StableHlo.after_of_writes_sub hostOps2 _ hostOps2_writes (by decide)
    _ = B3 m ρ c (Proc.devRef .tc main_arg10) := B4_of_ne m ρ c main_arg10 (by decide)
    _ = B2 m ρ c (Proc.devRef .tc main_arg10) := StableHlo.after_of_writes_sub hostOps1 _ hostOps1_writes (by decide)
    _ = B1 m ρ c (Proc.devRef .tc main_arg10) := B2_of_ne m ρ c main_arg10 (by decide)
    _ = B0 m ρ c (Proc.devRef .tc main_arg10) := StableHlo.after_of_writes_sub hostOps0 _ hostOps0_writes (by decide)
    _ = m ((c : Thread nD τ).loc main_arg10) := rfl

theorem B12_main_arg11 (c : Dev nD) : B12 m ρ c (Proc.devRef .tc main_arg11) = m ((c : Thread nD τ).loc main_arg11) :=
  calc B12 m ρ c (Proc.devRef .tc main_arg11)
    _ = B11 m ρ c (Proc.devRef .tc main_arg11) := B12_of_ne m ρ c main_arg11 (by decide)
    _ = B10 m ρ c (Proc.devRef .tc main_arg11) := StableHlo.after_of_writes_sub hostOps5 _ hostOps5_writes (by decide)
    _ = B9 m ρ c (Proc.devRef .tc main_arg11) := B10_of_ne m ρ c main_arg11 (by decide)
    _ = B8 m ρ c (Proc.devRef .tc main_arg11) := StableHlo.after_of_writes_sub hostOps4 _ hostOps4_writes (by decide)
    _ = B7 m ρ c (Proc.devRef .tc main_arg11) := B8_of_ne m ρ c main_arg11 (by decide)
    _ = B6 m ρ c (Proc.devRef .tc main_arg11) := StableHlo.after_of_writes_sub hostOps3 _ hostOps3_writes (by decide)
    _ = B5 m ρ c (Proc.devRef .tc main_arg11) := B6_of_ne m ρ c main_arg11 (by decide)
    _ = B4 m ρ c (Proc.devRef .tc main_arg11) := StableHlo.after_of_writes_sub hostOps2 _ hostOps2_writes (by decide)
    _ = B3 m ρ c (Proc.devRef .tc main_arg11) := B4_of_ne m ρ c main_arg11 (by decide)
    _ = B2 m ρ c (Proc.devRef .tc main_arg11) := StableHlo.after_of_writes_sub hostOps1 _ hostOps1_writes (by decide)
    _ = B1 m ρ c (Proc.devRef .tc main_arg11) := B2_of_ne m ρ c main_arg11 (by decide)
    _ = B0 m ρ c (Proc.devRef .tc main_arg11) := StableHlo.after_of_writes_sub hostOps0 _ hostOps0_writes (by decide)
    _ = m ((c : Thread nD τ).loc main_arg11) := rfl

theorem B12_main_arg12 (c : Dev nD) : B12 m ρ c (Proc.devRef .tc main_arg12) = m ((c : Thread nD τ).loc main_arg12) :=
  calc B12 m ρ c (Proc.devRef .tc main_arg12)
    _ = B11 m ρ c (Proc.devRef .tc main_arg12) := B12_of_ne m ρ c main_arg12 (by decide)
    _ = B10 m ρ c (Proc.devRef .tc main_arg12) := StableHlo.after_of_writes_sub hostOps5 _ hostOps5_writes (by decide)
    _ = B9 m ρ c (Proc.devRef .tc main_arg12) := (B10_arr m ρ c 2).trans (((dat4 (E9 m ρ) c).arrAt_in 2 rfl _).trans (A_eq4 (E9 m ρ) c 2))
    _ = B8 m ρ c (Proc.devRef .tc main_arg12) := StableHlo.after_of_writes_sub hostOps4 _ hostOps4_writes (by decide)
    _ = B7 m ρ c (Proc.devRef .tc main_arg12) := B8_of_ne m ρ c main_arg12 (by decide)
    _ = B6 m ρ c (Proc.devRef .tc main_arg12) := StableHlo.after_of_writes_sub hostOps3 _ hostOps3_writes (by decide)
    _ = B5 m ρ c (Proc.devRef .tc main_arg12) := B6_of_ne m ρ c main_arg12 (by decide)
    _ = B4 m ρ c (Proc.devRef .tc main_arg12) := StableHlo.after_of_writes_sub hostOps2 _ hostOps2_writes (by decide)
    _ = B3 m ρ c (Proc.devRef .tc main_arg12) := B4_of_ne m ρ c main_arg12 (by decide)
    _ = B2 m ρ c (Proc.devRef .tc main_arg12) := StableHlo.after_of_writes_sub hostOps1 _ hostOps1_writes (by decide)
    _ = B1 m ρ c (Proc.devRef .tc main_arg12) := B2_of_ne m ρ c main_arg12 (by decide)
    _ = B0 m ρ c (Proc.devRef .tc main_arg12) := StableHlo.after_of_writes_sub hostOps0 _ hostOps0_writes (by decide)
    _ = m ((c : Thread nD τ).loc main_arg12) := rfl

theorem B12_main_arg13 (c : Dev nD) : B12 m ρ c (Proc.devRef .tc main_arg13) = m ((c : Thread nD τ).loc main_arg13) :=
  calc B12 m ρ c (Proc.devRef .tc main_arg13)
    _ = B11 m ρ c (Proc.devRef .tc main_arg13) := B12_of_ne m ρ c main_arg13 (by decide)
    _ = B10 m ρ c (Proc.devRef .tc main_arg13) := StableHlo.after_of_writes_sub hostOps5 _ hostOps5_writes (by decide)
    _ = B9 m ρ c (Proc.devRef .tc main_arg13) := B10_of_ne m ρ c main_arg13 (by decide)
    _ = B8 m ρ c (Proc.devRef .tc main_arg13) := StableHlo.after_of_writes_sub hostOps4 _ hostOps4_writes (by decide)
    _ = B7 m ρ c (Proc.devRef .tc main_arg13) := B8_of_ne m ρ c main_arg13 (by decide)
    _ = B6 m ρ c (Proc.devRef .tc main_arg13) := StableHlo.after_of_writes_sub hostOps3 _ hostOps3_writes (by decide)
    _ = B5 m ρ c (Proc.devRef .tc main_arg13) := B6_of_ne m ρ c main_arg13 (by decide)
    _ = B4 m ρ c (Proc.devRef .tc main_arg13) := StableHlo.after_of_writes_sub hostOps2 _ hostOps2_writes (by decide)
    _ = B3 m ρ c (Proc.devRef .tc main_arg13) := B4_of_ne m ρ c main_arg13 (by decide)
    _ = B2 m ρ c (Proc.devRef .tc main_arg13) := StableHlo.after_of_writes_sub hostOps1 _ hostOps1_writes (by decide)
    _ = B1 m ρ c (Proc.devRef .tc main_arg13) := B2_of_ne m ρ c main_arg13 (by decide)
    _ = B0 m ρ c (Proc.devRef .tc main_arg13) := StableHlo.after_of_writes_sub hostOps0 _ hostOps0_writes (by decide)
    _ = m ((c : Thread nD τ).loc main_arg13) := rfl

theorem B12_main_arg14 (c : Dev nD) : B12 m ρ c (Proc.devRef .tc main_arg14) = m ((c : Thread nD τ).loc main_arg14) :=
  calc B12 m ρ c (Proc.devRef .tc main_arg14)
    _ = B11 m ρ c (Proc.devRef .tc main_arg14) := B12_of_ne m ρ c main_arg14 (by decide)
    _ = B10 m ρ c (Proc.devRef .tc main_arg14) := StableHlo.after_of_writes_sub hostOps5 _ hostOps5_writes (by decide)
    _ = B9 m ρ c (Proc.devRef .tc main_arg14) := (B10_arr m ρ c 3).trans (((dat4 (E9 m ρ) c).arrAt_in 3 rfl _).trans (A_eq4 (E9 m ρ) c 3))
    _ = B8 m ρ c (Proc.devRef .tc main_arg14) := StableHlo.after_of_writes_sub hostOps4 _ hostOps4_writes (by decide)
    _ = B7 m ρ c (Proc.devRef .tc main_arg14) := B8_of_ne m ρ c main_arg14 (by decide)
    _ = B6 m ρ c (Proc.devRef .tc main_arg14) := StableHlo.after_of_writes_sub hostOps3 _ hostOps3_writes (by decide)
    _ = B5 m ρ c (Proc.devRef .tc main_arg14) := B6_of_ne m ρ c main_arg14 (by decide)
    _ = B4 m ρ c (Proc.devRef .tc main_arg14) := StableHlo.after_of_writes_sub hostOps2 _ hostOps2_writes (by decide)
    _ = B3 m ρ c (Proc.devRef .tc main_arg14) := B4_of_ne m ρ c main_arg14 (by decide)
    _ = B2 m ρ c (Proc.devRef .tc main_arg14) := StableHlo.after_of_writes_sub hostOps1 _ hostOps1_writes (by decide)
    _ = B1 m ρ c (Proc.devRef .tc main_arg14) := B2_of_ne m ρ c main_arg14 (by decide)
    _ = B0 m ρ c (Proc.devRef .tc main_arg14) := StableHlo.after_of_writes_sub hostOps0 _ hostOps0_writes (by decide)
    _ = m ((c : Thread nD τ).loc main_arg14) := rfl

theorem B12_main_arg15 (c : Dev nD) : B12 m ρ c (Proc.devRef .tc main_arg15) = m ((c : Thread nD τ).loc main_arg15) :=
  calc B12 m ρ c (Proc.devRef .tc main_arg15)
    _ = B11 m ρ c (Proc.devRef .tc main_arg15) := B12_of_ne m ρ c main_arg15 (by decide)
    _ = B10 m ρ c (Proc.devRef .tc main_arg15) := StableHlo.after_of_writes_sub hostOps5 _ hostOps5_writes (by decide)
    _ = B9 m ρ c (Proc.devRef .tc main_arg15) := B10_of_ne m ρ c main_arg15 (by decide)
    _ = B8 m ρ c (Proc.devRef .tc main_arg15) := StableHlo.after_of_writes_sub hostOps4 _ hostOps4_writes (by decide)
    _ = B7 m ρ c (Proc.devRef .tc main_arg15) := B8_of_ne m ρ c main_arg15 (by decide)
    _ = B6 m ρ c (Proc.devRef .tc main_arg15) := StableHlo.after_of_writes_sub hostOps3 _ hostOps3_writes (by decide)
    _ = B5 m ρ c (Proc.devRef .tc main_arg15) := B6_of_ne m ρ c main_arg15 (by decide)
    _ = B4 m ρ c (Proc.devRef .tc main_arg15) := StableHlo.after_of_writes_sub hostOps2 _ hostOps2_writes (by decide)
    _ = B3 m ρ c (Proc.devRef .tc main_arg15) := B4_of_ne m ρ c main_arg15 (by decide)
    _ = B2 m ρ c (Proc.devRef .tc main_arg15) := StableHlo.after_of_writes_sub hostOps1 _ hostOps1_writes (by decide)
    _ = B1 m ρ c (Proc.devRef .tc main_arg15) := B2_of_ne m ρ c main_arg15 (by decide)
    _ = B0 m ρ c (Proc.devRef .tc main_arg15) := StableHlo.after_of_writes_sub hostOps0 _ hostOps0_writes (by decide)
    _ = m ((c : Thread nD τ).loc main_arg15) := rfl

theorem B12_main_arg16 (c : Dev nD) : B12 m ρ c (Proc.devRef .tc main_arg16) = m ((c : Thread nD τ).loc main_arg16) :=
  calc B12 m ρ c (Proc.devRef .tc main_arg16)
    _ = B11 m ρ c (Proc.devRef .tc main_arg16) := B12_of_ne m ρ c main_arg16 (by decide)
    _ = B10 m ρ c (Proc.devRef .tc main_arg16) := StableHlo.after_of_writes_sub hostOps5 _ hostOps5_writes (by decide)
    _ = B9 m ρ c (Proc.devRef .tc main_arg16) := B10_of_ne m ρ c main_arg16 (by decide)
    _ = B8 m ρ c (Proc.devRef .tc main_arg16) := StableHlo.after_of_writes_sub hostOps4 _ hostOps4_writes (by decide)
    _ = B7 m ρ c (Proc.devRef .tc main_arg16) := B8_of_ne m ρ c main_arg16 (by decide)
    _ = B6 m ρ c (Proc.devRef .tc main_arg16) := StableHlo.after_of_writes_sub hostOps3 _ hostOps3_writes (by decide)
    _ = B5 m ρ c (Proc.devRef .tc main_arg16) := B6_of_ne m ρ c main_arg16 (by decide)
    _ = B4 m ρ c (Proc.devRef .tc main_arg16) := StableHlo.after_of_writes_sub hostOps2 _ hostOps2_writes (by decide)
    _ = B3 m ρ c (Proc.devRef .tc main_arg16) := B4_of_ne m ρ c main_arg16 (by decide)
    _ = B2 m ρ c (Proc.devRef .tc main_arg16) := StableHlo.after_of_writes_sub hostOps1 _ hostOps1_writes (by decide)
    _ = B1 m ρ c (Proc.devRef .tc main_arg16) := B2_of_ne m ρ c main_arg16 (by decide)
    _ = B0 m ρ c (Proc.devRef .tc main_arg16) := StableHlo.after_of_writes_sub hostOps0 _ hostOps0_writes (by decide)
    _ = m ((c : Thread nD τ).loc main_arg16) := rfl

/-! ## The proof data family and the thread state -/

/-- No region has a prefetched table. -/
abbrev admAll : (p : Fin 6) → (pcfgs (F := F) p).Adm := fun p => (cfgs p).toPCfg_adm
/-- Every region's proof data, each at its region's entry contents. -/
def pdat : (p : Fin 6) → (c : Dev nD) → Dat τ (Elt F) Unit ℕ (UR sig nD τ) ℕ (Pipeline.pin (pcfgs (F := F)) admAll p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
  | ⟨4, _⟩ => fun c => dat4 (E9 m ρ) c
  | ⟨5, _⟩ => fun c => dat5 (E11 m ρ) c
abbrev vars0 : Variants := Variants.none
/-- No core owes another anything. -/
abbrev Lnone : GSem nD τ sig → Finset Unit := fun _ => ∅
abbrev lvl0 : GSem nD τ sig → Unit → ℕ := fun _ _ => 0
/-- What rides beside the buffers through every item: the core's generator register at some state, and nothing owed. -/
abbrev Rest (c : Dev nD) : sProp 𝕄 := iprop((∃ r, prngReg c r) ∗ ∃ W, owes (c : Thread nD τ) (0 : CellTallies nD τ sig Unit) W)
/-- A host stretch as an item of the run, from the contents `W`. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vars0 Lnone lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tlast (c : Dev nD) : sProp 𝕄 := iprop(StableHlo.held (c : Thread nD τ) (Pipeline.ucRefs τ sig) (B12 m ρ c) ∗ ∃ r, prngReg c r)

/-! ## The regions as items -/

set_option backward.isDefEq.respectTransparency.types false in
/-- Region 0: entered from every unscoped buffer at `B1`, left at `B2`. Its arrays are split out of the unscoped buffers
    and put back at the exit contents; the generator register goes into the region's invariant and comes out; nothing is owed. -/
def region0 : Pipeline.RegionSeg (pcfgs (F := F)) admAll (pdat m ρ) () defs₀ vars0 Lnone lvl0 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ Lnone lvl0 0 fun _ _ => rfl
  pre c := iprop(StableHlo.held (c : Thread nD τ) (Pipeline.ucRefs τ sig) (B1 m ρ c) ∗ Rest c)
  post c := iprop(StableHlo.held (c : Thread nD τ) (Pipeline.ucRefs τ sig) (B2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admAll (pdat m ρ) launch0.win launch0.arr_whole c
      ((pdat m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admAll (Ix := Unit) (Name := ℕ) (U := UR sig nD τ) (Lvl := ℕ)
      launch0.win launch0.arr_whole c (pdat m ρ) ((pdat m ρ 0 c).share_full fun _ => rfl)
      (E1 m ρ c) (E2 m ρ c) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `B3`, left at `B4`. Its arrays are split out of the unscoped buffers
    and put back at the exit contents; the generator register goes into the region's invariant and comes out; nothing is owed. -/
def region1 : Pipeline.RegionSeg (pcfgs (F := F)) admAll (pdat m ρ) () defs₀ vars0 Lnone lvl0 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ Lnone lvl0 1 fun _ _ => rfl
  pre c := iprop(StableHlo.held (c : Thread nD τ) (Pipeline.ucRefs τ sig) (B3 m ρ c) ∗ Rest c)
  post c := iprop(StableHlo.held (c : Thread nD τ) (Pipeline.ucRefs τ sig) (B4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) admAll (pdat m ρ) launch1.win launch1.arr_whole c
      ((pdat m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admAll (Ix := Unit) (Name := ℕ) (U := UR sig nD τ) (Lvl := ℕ)
      launch1.win launch1.arr_whole c (pdat m ρ) ((pdat m ρ 1 c).share_full fun _ => rfl)
      (E3 m ρ c) (E4 m ρ c) ((pdat m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `B5`, left at `B6`. Its arrays are split out of the unscoped buffers
    and put back at the exit contents; the generator register goes into the region's invariant and comes out; nothing is owed. -/
def region2 : Pipeline.RegionSeg (pcfgs (F := F)) admAll (pdat m ρ) () defs₀ vars0 Lnone lvl0 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ Lnone lvl0 2 fun _ _ => rfl
  pre c := iprop(StableHlo.held (c : Thread nD τ) (Pipeline.ucRefs τ sig) (B5 m ρ c) ∗ Rest c)
  post c := iprop(StableHlo.held (c : Thread nD τ) (Pipeline.ucRefs τ sig) (B6 m ρ c) ∗ Rest c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) admAll (pdat m ρ) launch2.win launch2.arr_whole c
      ((pdat m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdat m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admAll (Ix := Unit) (Name := ℕ) (U := UR sig nD τ) (Lvl := ℕ)
      launch2.win launch2.arr_whole c (pdat m ρ) ((pdat m ρ 2 c).share_full fun _ => rfl)
      (E5 m ρ c) (E6 m ρ c) ((pdat m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `B7`, left at `B8`. Its arrays are split out of the unscoped buffers
    and put back at the exit contents; the generator register goes into the region's invariant and comes out; nothing is owed. -/
def region3 : Pipeline.RegionSeg (pcfgs (F := F)) admAll (pdat m ρ) () defs₀ vars0 Lnone lvl0 3 where
  win := launch3.win.to₀
  block_pos := launch3.block_pos
  stage_whole := launch3.stage_whole
  K := PEmpty
  osem k := k.elim
  ho := Pipeline.OwnSemFacts.none _
  hbody c := (body_obligation3 (E7 m ρ) c).loose
  hwaits := Pipeline.hwaits_of_owed_zero _ _ _ _ Lnone lvl0 3 fun _ _ => rfl
  pre c := iprop(StableHlo.held (c : Thread nD τ) (Pipeline.ucRefs τ sig) (B7 m ρ c) ∗ Rest c)
  post c := iprop(StableHlo.held (c : Thread nD τ) (Pipeline.ucRefs τ sig) (B8 m ρ c) ∗ Rest c)
  X c := iprop(∃ r, prngReg c r)
  Y c := iprop(∃ r, prngReg c r)
  Z c := Pipeline.unscopedRest (Ix := Unit) (Name := ℕ) (U := UR sig nD τ) (Lvl := ℕ) spec3 c (E7 m ρ c)
  hentry c := by
    rw [Pipeline.ownSems0_none]
    have hsplit := Pipeline.arrays_of_unscopedBufs (p := 3) (pcfgs (F := F)) admAll (pdat m ρ) launch3.win launch3.arr_whole c
      ((pdat m ρ 3 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdat m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admAll (Ix := Unit) (Name := ℕ) (U := UR sig nD τ) (Lvl := ℕ)
      launch3.win launch3.arr_whole c (pdat m ρ) ((pdat m ρ 3 c).share_full fun _ => rfl)
      (E7 m ρ c) (E8 m ρ c) ((pdat m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `B9`, left at `B10`. Its arrays are split out of the unscoped buffers
    and put back at the exit contents; the generator register goes into the region's invariant and comes out; nothing is owed. -/
def region4 : Pipeline.RegionSeg (pcfgs (F := F)) admAll (pdat m ρ) () defs₀ vars0 Lnone lvl0 4 where
  win := launch4.win.to₀
  block_pos := launch4.block_pos
  stage_whole := launch4.stage_whole
  K := PEmpty
  osem k := k.elim
  ho := Pipeline.OwnSemFacts.none _
  hbody c := (body_obligation4 (E9 m ρ) c).loose
  hwaits := Pipeline.hwaits_of_owed_zero _ _ _ _ Lnone lvl0 4 fun _ _ => rfl
  pre c := iprop(StableHlo.held (c : Thread nD τ) (Pipeline.ucRefs τ sig) (B9 m ρ c) ∗ Rest c)
  post c := iprop(StableHlo.held (c : Thread nD τ) (Pipeline.ucRefs τ sig) (B10 m ρ c) ∗ Rest c)
  X c := iprop(∃ r, prngReg c r)
  Y c := iprop(∃ r, prngReg c r)
  Z c := Pipeline.unscopedRest (Ix := Unit) (Name := ℕ) (U := UR sig nD τ) (Lvl := ℕ) spec4 c (E9 m ρ c)
  hentry c := by
    rw [Pipeline.ownSems0_none]
    have hsplit := Pipeline.arrays_of_unscopedBufs (p := 4) (pcfgs (F := F)) admAll (pdat m ρ) launch4.win launch4.arr_whole c
      ((pdat m ρ 4 c).share_full fun _ => rfl) (E9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdat m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admAll (Ix := Unit) (Name := ℕ) (U := UR sig nD τ) (Lvl := ℕ)
      launch4.win launch4.arr_whole c (pdat m ρ) ((pdat m ρ 4 c).share_full fun _ => rfl)
      (E9 m ρ c) (E10 m ρ c) ((pdat m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `B11`, left at `B12`. Its arrays are split out of the unscoped buffers
    and put back at the exit contents; the generator register goes into the region's invariant and comes out; nothing is owed. -/
def region5 : Pipeline.RegionSeg (pcfgs (F := F)) admAll (pdat m ρ) () defs₀ vars0 Lnone lvl0 5 where
  win := launch5.win.to₀
  block_pos := launch5.block_pos
  stage_whole := launch5.stage_whole
  K := PEmpty
  osem k := k.elim
  ho := Pipeline.OwnSemFacts.none _
  hbody c := (body_obligation5 (E11 m ρ) c).loose
  hwaits := Pipeline.hwaits_of_owed_zero _ _ _ _ Lnone lvl0 5 fun _ _ => rfl
  pre c := iprop(StableHlo.held (c : Thread nD τ) (Pipeline.ucRefs τ sig) (B11 m ρ c) ∗ Rest c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (E11 m ρ c)
  hentry c := by
    rw [Pipeline.ownSems0_none]
    have hsplit := Pipeline.arrays_of_unscopedBufs (p := 5) (pcfgs (F := F)) admAll (pdat m ρ) launch5.win launch5.arr_whole c
      ((pdat m ρ 5 c).share_full fun _ => rfl) (E11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdat m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admAll (Ix := Unit) (Name := ℕ) (U := UR sig nD τ) (Lvl := ℕ)
      launch5.win launch5.arr_whole c (pdat m ρ) ((pdat m ρ 5 c).share_full fun _ => rfl)
      (E11 m ρ c) (E12 m ρ c) ((pdat m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the run -/

/-- The program's twelve items in order: a host stretch from its boundary's contents, then the region it leads to. -/
abbrev items : List (Pipeline.Seg (pcfgs (F := F)) admAll (pdat m ρ) () defs₀ vars0 Lnone lvl0) :=
  [ .host (hostItem hostOps0 hostOps0_sub hostOps0_fresh (B0 m ρ)),
    .region (region0 m ρ),
    .host (hostItem hostOps1 hostOps1_sub hostOps1_fresh (B2 m ρ)),
    .region (region1 m ρ),
    .host (hostItem hostOps2 hostOps2_sub hostOps2_fresh (B4 m ρ)),
    .region (region2 m ρ),
    .host (hostItem hostOps3 hostOps3_sub hostOps3_fresh (B6 m ρ)),
    .region (region3 m ρ),
    .host (hostItem hostOps4 hostOps4_sub hostOps4_fresh (B8 m ρ)),
    .region (region4 m ρ),
    .host (hostItem hostOps5 hostOps5_sub hostOps5_fresh (B10 m ρ)),
    .region (region5 m ρ) ]

set_option backward.isDefEq.respectTransparency.types false in
/-- Every weakly fair execution of the program from memory `m` with zero counters terminates, nothing faulting, and in every
    final state each unscoped TensorCore buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B12 m ρ c b) :=
  Pipeline.θ_run_regions_kit (pcfgs (F := F)) admAll (pdat m ρ) () cellOf_inj emb₁ defs₀ vars0 Lnone lvl0 m ρ main (items m ρ)
    (fun c Q => by
      rewrite [main_chain c, Pipeline.Seg.run_eq_chain,
        show (items m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c)) (Tₙ := Tlast m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Lnone lvl0 fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B12 m ρ c b)
    (hfin := fun c s' => by
      iintro ⟨⟨Hh, -⟩, HSI⟩
      unfold StableHlo.held
      imodintro
      iapply (pointsTo_read_all (Pipeline.ucRefs τ sig) (fun b => (((c : Thread nD τ)).1, b)) (B12 m ρ c) s')
      isplitl [Hh] <;> iassumption)
    (hQ := fun s h => h)

end Cert.Kernel.Frames

end
-- ==== Proof.Frames.lean ====
/-
  The two frames of the kernel's program, as printed and idealized: every weakly fair execution of the six regions among
  their host stretches terminates without a fault and leaves each argument array as launched (the whole-run theorem read
  at the arguments).
-/
import proofs.«139727_j46445776339648_1_alg».proof.Defs
import proofs.«139727_j46445776339648_1_alg».proof.Proof.Gen.Kernel
import proofs.«139727_j46445776339648_1_alg».proof.Proof.Gen.KernelIdeal
import proofs.«139727_j46445776339648_1_alg».proof.Proof.Gen.Pre_finite_inputs
import proofs.«139727_j46445776339648_1_alg».proof.Proof.KI.Run
import proofs.«139727_j46445776339648_1_alg».proof.Proof.KB.Run

set_option maxRecDepth 16384

noncomputable section

namespace Cert.Proof.Frames

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => (θ_run Cert.Kernel.defs _ _).mono (fun r h c => ⟨(h c _ (Cert.Kernel.Frames.mem_uc Cert.Kernel.main_arg0 (by decide))).trans (Cert.Kernel.Frames.B12_main_arg0 m ρ c),
      (h c _ (Cert.Kernel.Frames.mem_uc Cert.Kernel.main_arg1 (by decide))).trans (Cert.Kernel.Frames.B12_main_arg1 m ρ c),
      (h c _ (Cert.Kernel.Frames.mem_uc Cert.Kernel.main_arg2 (by decide))).trans (Cert.Kernel.Frames.B12_main_arg2 m ρ c),
      (h c _ (Cert.Kernel.Frames.mem_uc Cert.Kernel.main_arg3 (by decide))).trans (Cert.Kernel.Frames.B12_main_arg3 m ρ c),
      (h c _ (Cert.Kernel.Frames.mem_uc Cert.Kernel.main_arg4 (by decide))).trans (Cert.Kernel.Frames.B12_main_arg4 m ρ c),
      (h c _ (Cert.Kernel.Frames.mem_uc Cert.Kernel.main_arg5 (by decide))).trans (Cert.Kernel.Frames.B12_main_arg5 m ρ c),
      (h c _ (Cert.Kernel.Frames.mem_uc Cert.Kernel.main_arg6 (by decide))).trans (Cert.Kernel.Frames.B12_main_arg6 m ρ c),
      (h c _ (Cert.Kernel.Frames.mem_uc Cert.Kernel.main_arg7 (by decide))).trans (Cert.Kernel.Frames.B12_main_arg7 m ρ c),
      (h c _ (Cert.Kernel.Frames.mem_uc Cert.Kernel.main_arg8 (by decide))).trans (Cert.Kernel.Frames.B12_main_arg8 m ρ c),
      (h c _ (Cert.Kernel.Frames.mem_uc Cert.Kernel.main_arg9 (by decide))).trans (Cert.Kernel.Frames.B12_main_arg9 m ρ c),
      (h c _ (Cert.Kernel.Frames.mem_uc Cert.Kernel.main_arg10 (by decide))).trans (Cert.Kernel.Frames.B12_main_arg10 m ρ c),
      (h c _ (Cert.Kernel.Frames.mem_uc Cert.Kernel.main_arg11 (by decide))).trans (Cert.Kernel.Frames.B12_main_arg11 m ρ c),
      (h c _ (Cert.Kernel.Frames.mem_uc Cert.Kernel.main_arg12 (by decide))).trans (Cert.Kernel.Frames.B12_main_arg12 m ρ c),
      (h c _ (Cert.Kernel.Frames.mem_uc Cert.Kernel.main_arg13 (by decide))).trans (Cert.Kernel.Frames.B12_main_arg13 m ρ c),
      (h c _ (Cert.Kernel.Frames.mem_uc Cert.Kernel.main_arg14 (by decide))).trans (Cert.Kernel.Frames.B12_main_arg14 m ρ c),
      (h c _ (Cert.Kernel.Frames.mem_uc Cert.Kernel.main_arg15 (by decide))).trans (Cert.Kernel.Frames.B12_main_arg15 m ρ c),
      (h c _ (Cert.Kernel.Frames.mem_uc Cert.Kernel.main_arg16 (by decide))).trans (Cert.Kernel.Frames.B12_main_arg16 m ρ c)⟩) (Cert.Kernel.Frames.run_all m ρ)

theorem frame_kernelIdeal : Cert.frame_KernelIdeal (hKernelIdeal := Cert.KernelIdeal.Gen.facts) (hPre_finite_inputs := Cert.Pre_finite_inputs.Gen.facts) :=
  fun m ρ _ => (θ_run Cert.KernelIdeal.defs _ _).mono (fun r h c => ⟨(h c _ (Cert.KernelIdeal.Frames.mem_uc Cert.KernelIdeal.main_arg0 (by decide))).trans (Cert.KernelIdeal.Frames.B12_main_arg0 m ρ c),
      (h c _ (Cert.KernelIdeal.Frames.mem_uc Cert.KernelIdeal.main_arg1 (by decide))).trans (Cert.KernelIdeal.Frames.B12_main_arg1 m ρ c),
      (h c _ (Cert.KernelIdeal.Frames.mem_uc Cert.KernelIdeal.main_arg2 (by decide))).trans (Cert.KernelIdeal.Frames.B12_main_arg2 m ρ c),
      (h c _ (Cert.KernelIdeal.Frames.mem_uc Cert.KernelIdeal.main_arg3 (by decide))).trans (Cert.KernelIdeal.Frames.B12_main_arg3 m ρ c),
      (h c _ (Cert.KernelIdeal.Frames.mem_uc Cert.KernelIdeal.main_arg4 (by decide))).trans (Cert.KernelIdeal.Frames.B12_main_arg4 m ρ c),
      (h c _ (Cert.KernelIdeal.Frames.mem_uc Cert.KernelIdeal.main_arg5 (by decide))).trans (Cert.KernelIdeal.Frames.B12_main_arg5 m ρ c),
      (h c _ (Cert.KernelIdeal.Frames.mem_uc Cert.KernelIdeal.main_arg6 (by decide))).trans (Cert.KernelIdeal.Frames.B12_main_arg6 m ρ c),
      (h c _ (Cert.KernelIdeal.Frames.mem_uc Cert.KernelIdeal.main_arg7 (by decide))).trans (Cert.KernelIdeal.Frames.B12_main_arg7 m ρ c),
      (h c _ (Cert.KernelIdeal.Frames.mem_uc Cert.KernelIdeal.main_arg8 (by decide))).trans (Cert.KernelIdeal.Frames.B12_main_arg8 m ρ c),
      (h c _ (Cert.KernelIdeal.Frames.mem_uc Cert.KernelIdeal.main_arg9 (by decide))).trans (Cert.KernelIdeal.Frames.B12_main_arg9 m ρ c),
      (h c _ (Cert.KernelIdeal.Frames.mem_uc Cert.KernelIdeal.main_arg10 (by decide))).trans (Cert.KernelIdeal.Frames.B12_main_arg10 m ρ c),
      (h c _ (Cert.KernelIdeal.Frames.mem_uc Cert.KernelIdeal.main_arg11 (by decide))).trans (Cert.KernelIdeal.Frames.B12_main_arg11 m ρ c),
      (h c _ (Cert.KernelIdeal.Frames.mem_uc Cert.KernelIdeal.main_arg12 (by decide))).trans (Cert.KernelIdeal.Frames.B12_main_arg12 m ρ c),
      (h c _ (Cert.KernelIdeal.Frames.mem_uc Cert.KernelIdeal.main_arg13 (by decide))).trans (Cert.KernelIdeal.Frames.B12_main_arg13 m ρ c),
      (h c _ (Cert.KernelIdeal.Frames.mem_uc Cert.KernelIdeal.main_arg14 (by decide))).trans (Cert.KernelIdeal.Frames.B12_main_arg14 m ρ c),
      (h c _ (Cert.KernelIdeal.Frames.mem_uc Cert.KernelIdeal.main_arg15 (by decide))).trans (Cert.KernelIdeal.Frames.B12_main_arg15 m ρ c),
      (h c _ (Cert.KernelIdeal.Frames.mem_uc Cert.KernelIdeal.main_arg16 (by decide))).trans (Cert.KernelIdeal.Frames.B12_main_arg16 m ρ c)⟩) (Cert.KernelIdeal.Frames.run_all m ρ)

end Cert.Proof.Frames

end
-- ==== Proof.KI.AggK.lean ====
/-
  The neighbourhood mean, the one step both programs share: for each edge, the feature row of its source node (a negative
  source index counted from the end) is added into the row of its destination node, and each node's row is divided by the
  number of edges that end at it, or by 1 if none does. Written with the kernel program's own host operations, as a
  function of the edge array and of the features.
-/
import proofs.«139727_j46445776339648_1_alg».proof.KernelIdeal
import proofs.«139727_j46445776339648_1_alg».proof.Proof.Gen.KernelIdeal
import Idealize.ShloMosaic.PureOps.Ideal

noncomputable section

namespace Cert.KernelIdeal.AggK

open Cert.KernelIdeal Cert.KernelIdeal.Gen Idealize.ShloMosaic

/-- The source node of each edge, as read off the edge array's first row. -/
def srcRaw (e : IVec S2x800000 32) : IVec S800000 32 :=
  shapeCast _ (extractStridedSlice S1x800000 ![0, 0] e slices_S2x800000_S1x800000_0_0) shapeCasts_S1x800000_S800000
/-- The destination node of each edge: the edge array's second row. -/
def dst (e : IVec S2x800000 32) : IVec S800000 32 :=
  shapeCast _ (extractStridedSlice S1x800000 ![1, 0] e slices_S2x800000_S1x800000_1_0) shapeCasts_S1x800000_S800000
/-- The source node of each edge, a negative index counted from the end. -/
def src (e : IVec S2x800000 32) : IVec S800000 32 :=
  select (cmpi .slt (srcRaw e) (broadcastInDim S800000 ![] bcast_S_S800000 (constantI S_ 32 0#32)))
    (addi (srcRaw e) (broadcastInDim S800000 ![] bcast_S_S800000 (constantI S_ 32 50000#32))) (srcRaw e)
/-- The number of edges ending at each node, at least 1. -/
def count (e : IVec S2x800000 32) : FVec Ideal S50000 .f32 :=
  maximumf (Host.scatterAdd scatter_S50000_S800000x1_S800000_n_0_0_1 (broadcastInDim S50000 ![] bcast_S_S50000 (constant S_ .f32 0x00000000#32))
      (broadcastInDim S800000x1 ![0] bcast_S800000_S800000x1_0 (dst e)) (broadcastInDim S800000 ![] bcast_S_S800000 (constant S_ .f32 0x3F800000#32)))
    (broadcastInDim S50000 ![] bcast_S_S50000 (constant S_ .f32 0x3F800000#32))
/-- The sum over the edges ending at each node of the source's feature row. -/
def total (e : IVec S2x800000 32) (h : FVec Ideal S50000x128 .f32) : FVec Ideal S50000x128 .f32 :=
  Host.scatterAdd scatter_S50000x128_S800000x1_S800000x128_1_0_0_1 (broadcastInDim S50000x128 ![] bcast_S_S50000x128 (constant S_ .f32 0x00000000#32))
    (broadcastInDim S800000x1 ![0] bcast_S800000_S800000x1_0 (dst e))
    (Host.gather gather_S50000x128_S800000x1_S800000x128_1_0_n_n_0_1_1128 h (broadcastInDim S800000x1 ![0] bcast_S800000_S800000x1_0 (src e)))
/-- The neighbourhood mean. -/
def mean (e : IVec S2x800000 32) (h : FVec Ideal S50000x128 .f32) : FVec Ideal S50000x128 .f32 :=
  Host.divf (total e h) (broadcastInDim S50000x128 ![0, 1] bcast_S50000x1_S50000x128_0_1 (broadcastInDim S50000x1 ![0] bcast_S50000_S50000x1_0 (count e)))

end Cert.KernelIdeal.AggK

end
-- ==== Proof.KI.Payload.lean ====
/-
  The kernels' PAYLOADS read at an index, at the ideal values (floats are extended reals, every operation exact, a
  change of float format the identity). Each payload is the pure arithmetic of one kernel body as one term over the
  values the body reads; here each is brought to a closed form at one element.

  The three linear kernels (layers 0, 2, 4) compute, on a 10000×128 tile of rows,
      y (p, j) = ∑ k, a (p, k) · Wl (j, k) + ∑ k, h (p, k) · Wr (j, k) + bias (0, j)
  (both products contract the operands' SECOND axes, i.e. multiply by the transposed weights), the tile's column sums
  ∑ p, y (p, j) and the column sums of its squares ∑ p, y (p, j)², and add those two rows to running rows.
  The three normalisation kernels (layers 1, 3, 5) compute
      (x (p, j) − mean (0, j)) · rsqrt (var (0, j) + ε) · scale (0, j) + shift (0, j),
  clamped below at 0 in layers 1 and 3 and unclamped in the last.

  Road: unfold the payload, drop the casts to the same shape, push the index through the pointwise operations (all
  definitional at the ideal values), and read each non-pointwise operation by one lemma stated at `(p, j)`: a row
  broadcast, the matrix product into a zero accumulator (re-indexed from the contraction's index set to `Fin 128`), and
  the sum over the rows cast to a one-row array.
-/
import proofs.«139727_j46445776339648_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload
open Cert.KernelIdeal Cert.KernelIdeal.Gen Idealize.ShloMosaic Idealize.ShloMosaic.ValueIdx
open scoped BigOperators

/-! ## The matrix product read at an entry

The dimension numbers contract axis 1 of the left operand with axis 1 of the right one and have no batch axis: entry
`(p, j)` of the product is `∑ k, lhs (p, k) * rhs (j, k)`, the left operand times the TRANSPOSE of the right one. -/

/-- The left operand's row coordinate is the output's row coordinate. -/
theorem dot_lhs_0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide),
    dif_pos (show (0 : Fin S10000x128.rank) ∈ dot_S10000x128_S128x128_S10000x128_1_1_0_0_n_n.lhsNonContracting by decide)]
  rfl
/-- The left operand's column coordinate is the contraction position. -/
theorem dot_lhs_1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q
/-- The right operand's row coordinate is the output's column coordinate. -/
theorem dot_rhs_0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide),
    dif_pos (show (0 : Fin S128x128.rank) ∈ dot_S10000x128_S128x128_S10000x128_1_1_0_0_n_n.rhsNonContracting by decide)]
  rfl
/-- The right operand's column coordinate is the contraction position. -/
theorem dot_rhs_1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q

/-- A matrix product into the zero accumulator, at entry `(p, j)`: the sum over the 128 contraction positions of the
    left operand's row `p` times the right operand's row `j`. The contraction's index set has one axis of extent 128;
    the sum is re-indexed along its bijection with `Fin 128`. -/
theorem matmul_zero_at {φ₁ φ₂ : FTy} (a : FVec Ideal S10000x128 φ₁) (b : FVec Ideal S128x128 φ₂) (p : Fin 10000) (j : Fin 128) :
    matmul (F := Ideal) dot_S10000x128_S128x128_S10000x128_1_1_0_0_n_n none a b (constant (F := Ideal) S10000x128 .f32 0x00000000#32) (ix2 p j)
      = ∑ k : Fin 128, a (ix2 p k) * b (ix2 j k) := by
  refine (Ideal.matmul_constant_zero_apply dot_S10000x128_S128x128_S10000x128_1_1_0_0_n_n none a b (ix2 p j)).trans ?_
  rw [← Equiv.sum_comp (contrEquiv1 dot_S10000x128_S128x128_S10000x128_1_1_0_0_n_n 128 rfl rfl).symm]
  refine Finset.sum_congr rfl fun k _ => ?_
  have hk := contrEquiv1_symm_val dot_S10000x128_S128x128_S10000x128_1_1_0_0_n_n 128 rfl rfl k
  have el : dot_S10000x128_S128x128_S10000x128_1_1_0_0_n_n.lhsIdx (ix2 p j) ((contrEquiv1 dot_S10000x128_S128x128_S10000x128_1_1_0_0_n_n 128 rfl rfl).symm k) = ix2 p k :=
    funext fun c => Fin.ext (by
      match c with
      | ⟨0, _⟩ => exact dot_lhs_0 _ _
      | ⟨1, _⟩ => exact (dot_lhs_1 _ _).trans hk)
  have er : dot_S10000x128_S128x128_S10000x128_1_1_0_0_n_n.rhsIdx (ix2 p j) ((contrEquiv1 dot_S10000x128_S128x128_S10000x128_1_1_0_0_n_n 128 rfl rfl).symm k) = ix2 j k :=
    funext fun c => Fin.ext (by
      match c with
      | ⟨0, _⟩ => exact dot_rhs_0 _ _
      | ⟨1, _⟩ => exact (dot_rhs_1 _ _).trans hk)
  rw [el, er]

/-! ## A column sum read at a lane -/

/-- Over column `j` the source index with row coordinate `k` inserted is `(k, j)`. -/
theorem lift_col (j : Fin 128) (k : Fin 10000) : reduces_S10000x128_S128.lift (ix1 j) k = ix2 k j :=
  funext fun c => Fin.ext (by
    match c with
    | ⟨0, _⟩ => rfl
    | ⟨1, _⟩ => rfl)

/-- The sum over the rows (axis 0) from the zero accumulator, cast from `[128]` to `[1, 128]`, at lane `j`: the sum
    of the source's column `j` over the 10000 rows. -/
theorem colsum_at (src : FVec Ideal S10000x128 .f32) (hφ : FKind.Formats .f32)
    (hacc : (0x00000000#32 : BitVec FTy.f32.bits) = FKind.add.neutral .f32 hφ) (j : Fin 128) :
    shapeCast S1x128 (multiReduction (F := Ideal) .add [0] S128 src 0x00000000#32 reduces_S10000x128_S128 hφ hacc)
        shapeCasts_S128_S1x128 (ix2 (0 : Fin 1) j)
      = ∑ p : Fin 10000, src (ix2 p j) := by
  refine (shapeCast_a_1a_apply _ _ 0 j).trans ?_
  refine (Ideal.multiReduction_add_single src 0x00000000#32 reduces_S10000x128_S128 hφ hacc (ix1 j)).trans ?_
  exact Finset.sum_congr rfl fun k _ => congrArg src (lift_col j k)

/-! ## The linear kernel of layer 0 -/

/-- The stored tile at `(p, j)`: the two products' entries plus the bias row's entry. At the ideal values the
    operands' change of format is the identity, and a cast to the same shape changes nothing. -/
theorem pay1_0 (x0 x1 : Vec Ideal S10000x128 .f32) (x2 x3 : Vec Ideal S128x128 .f32) (x4 : Vec Ideal S1x128 .f32)
    (p : Fin 10000) (j : Fin 128) :
    k0_pay1 x0 x1 x2 x3 x4 (ix2 p j)
      = (∑ k : Fin 128, x0 (ix2 p k) * x2 (ix2 j k) + ∑ k : Fin 128, x1 (ix2 p k) * x3 (ix2 j k))
          + x4 (ix2 (0 : Fin 1) j) := by
  unfold k0_pay1
  simp only [shapeCast_self]
  refine (addf_apply _ _ _).trans ?_
  refine congrArg₂ (· + ·) ((addf_apply _ _ _).trans (congrArg₂ (· + ·) ?_ ?_)) ?_
  · exact matmul_zero_at _ _ p j
  · exact matmul_zero_at _ _ p j
  · exact broadcastTo_1b_ab_apply _ _ p j

/-- The tile's column sums: lane `j` is the sum of the tile's column `j` over its 10000 rows. -/
theorem pay2_0 (x0 x1 : Vec Ideal S10000x128 .f32) (x2 x3 : Vec Ideal S128x128 .f32) (x4 : Vec Ideal S1x128 .f32)
    (j : Fin 128) :
    k0_pay2 x0 x1 x2 x3 x4 (ix2 (0 : Fin 1) j) = ∑ p : Fin 10000, k0_pay1 x0 x1 x2 x3 x4 (ix2 p j) := by
  unfold k0_pay2
  exact colsum_at _ _ _ j

/-- The column sums of the tile's squares. -/
theorem pay3_0 (x0 x1 : Vec Ideal S10000x128 .f32) (x2 x3 : Vec Ideal S128x128 .f32) (x4 : Vec Ideal S1x128 .f32)
    (j : Fin 128) :
    k0_pay3 x0 x1 x2 x3 x4 (ix2 (0 : Fin 1) j)
      = ∑ p : Fin 10000, k0_pay1 x0 x1 x2 x3 x4 (ix2 p j) * k0_pay1 x0 x1 x2 x3 x4 (ix2 p j) := by
  unfold k0_pay3
  exact colsum_at _ _ _ j

/-- The running row of sums with the tile's column sums added. -/
theorem pay4_0 (x0 x1 : Vec Ideal S10000x128 .f32) (x2 x3 : Vec Ideal S128x128 .f32) (x4 : Vec Ideal S1x128 .f32)
    (s : Vec Ideal S1x128 .f32) (j : Fin 128) :
    k0_pay4 x0 x1 x2 x3 x4 s (ix2 (0 : Fin 1) j)
      = s (ix2 (0 : Fin 1) j) + k0_pay2 x0 x1 x2 x3 x4 (ix2 (0 : Fin 1) j) := by
  unfold k0_pay4
  simp only [shapeCast_self]
  rfl

/-- The running row of sums of squares with the tile's added. -/
theorem pay5_0 (x0 x1 : Vec Ideal S10000x128 .f32) (x2 x3 : Vec Ideal S128x128 .f32) (x4 : Vec Ideal S1x128 .f32)
    (s : Vec Ideal S1x128 .f32) (j : Fin 128) :
    k0_pay5 x0 x1 x2 x3 x4 s (ix2 (0 : Fin 1) j)
      = s (ix2 (0 : Fin 1) j) + k0_pay3 x0 x1 x2 x3 x4 (ix2 (0 : Fin 1) j) := by
  unfold k0_pay5
  simp only [shapeCast_self]
  rfl

/-! ## The linear kernel of layer 2 -/

/-- The stored tile at `(p, j)`: the two products' entries plus the bias row's entry. At the ideal values the
    operands' change of format is the identity, and a cast to the same shape changes nothing. -/
theorem pay1_2 (x0 x1 : Vec Ideal S10000x128 .f32) (x2 x3 : Vec Ideal S128x128 .f32) (x4 : Vec Ideal S1x128 .f32)
    (p : Fin 10000) (j : Fin 128) :
    k2_pay1 x0 x1 x2 x3 x4 (ix2 p j)
      = (∑ k : Fin 128, x0 (ix2 p k) * x2 (ix2 j k) + ∑ k : Fin 128, x1 (ix2 p k) * x3 (ix2 j k))
          + x4 (ix2 (0 : Fin 1) j) := by
  unfold k2_pay1
  simp only [shapeCast_self]
  refine (addf_apply _ _ _).trans ?_
  refine congrArg₂ (· + ·) ((addf_apply _ _ _).trans (congrArg₂ (· + ·) ?_ ?_)) ?_
  · exact matmul_zero_at _ _ p j
  · exact matmul_zero_at _ _ p j
  · exact broadcastTo_1b_ab_apply _ _ p j

/-- The tile's column sums: lane `j` is the sum of the tile's column `j` over its 10000 rows. -/
theorem pay2_2 (x0 x1 : Vec Ideal S10000x128 .f32) (x2 x3 : Vec Ideal S128x128 .f32) (x4 : Vec Ideal S1x128 .f32)
    (j : Fin 128) :
    k2_pay2 x0 x1 x2 x3 x4 (ix2 (0 : Fin 1) j) = ∑ p : Fin 10000, k2_pay1 x0 x1 x2 x3 x4 (ix2 p j) := by
  unfold k2_pay2
  exact colsum_at _ _ _ j

/-- The column sums of the tile's squares. -/
theorem pay3_2 (x0 x1 : Vec Ideal S10000x128 .f32) (x2 x3 : Vec Ideal S128x128 .f32) (x4 : Vec Ideal S1x128 .f32)
    (j : Fin 128) :
    k2_pay3 x0 x1 x2 x3 x4 (ix2 (0 : Fin 1) j)
      = ∑ p : Fin 10000, k2_pay1 x0 x1 x2 x3 x4 (ix2 p j) * k2_pay1 x0 x1 x2 x3 x4 (ix2 p j) := by
  unfold k2_pay3
  exact colsum_at _ _ _ j

/-- The running row of sums with the tile's column sums added. -/
theorem pay4_2 (x0 x1 : Vec Ideal S10000x128 .f32) (x2 x3 : Vec Ideal S128x128 .f32) (x4 : Vec Ideal S1x128 .f32)
    (s : Vec Ideal S1x128 .f32) (j : Fin 128) :
    k2_pay4 x0 x1 x2 x3 x4 s (ix2 (0 : Fin 1) j)
      = s (ix2 (0 : Fin 1) j) + k2_pay2 x0 x1 x2 x3 x4 (ix2 (0 : Fin 1) j) := by
  unfold k2_pay4
  simp only [shapeCast_self]
  rfl

/-- The running row of sums of squares with the tile's added. -/
theorem pay5_2 (x0 x1 : Vec Ideal S10000x128 .f32) (x2 x3 : Vec Ideal S128x128 .f32) (x4 : Vec Ideal S1x128 .f32)
    (s : Vec Ideal S1x128 .f32) (j : Fin 128) :
    k2_pay5 x0 x1 x2 x3 x4 s (ix2 (0 : Fin 1) j)
      = s (ix2 (0 : Fin 1) j) + k2_pay3 x0 x1 x2 x3 x4 (ix2 (0 : Fin 1) j) := by
  unfold k2_pay5
  simp only [shapeCast_self]
  rfl

/-! ## The linear kernel of layer 4 -/

/-- The stored tile at `(p, j)`: the two products' entries plus the bias row's entry. At the ideal values the
    operands' change of format is the identity, and a cast to the same shape changes nothing. -/
theorem pay1_4 (x0 x1 : Vec Ideal S10000x128 .f32) (x2 x3 : Vec Ideal S128x128 .f32) (x4 : Vec Ideal S1x128 .f32)
    (p : Fin 10000) (j : Fin 128) :
    k4_pay1 x0 x1 x2 x3 x4 (ix2 p j)
      = (∑ k : Fin 128, x0 (ix2 p k) * x2 (ix2 j k) + ∑ k : Fin 128, x1 (ix2 p k) * x3 (ix2 j k))
          + x4 (ix2 (0 : Fin 1) j) := by
  unfold k4_pay1
  simp only [shapeCast_self]
  refine (addf_apply _ _ _).trans ?_
  refine congrArg₂ (· + ·) ((addf_apply _ _ _).trans (congrArg₂ (· + ·) ?_ ?_)) ?_
  · exact matmul_zero_at _ _ p j
  · exact matmul_zero_at _ _ p j
  · exact broadcastTo_1b_ab_apply _ _ p j

/-- The tile's column sums: lane `j` is the sum of the tile's column `j` over its 10000 rows. -/
theorem pay2_4 (x0 x1 : Vec Ideal S10000x128 .f32) (x2 x3 : Vec Ideal S128x128 .f32) (x4 : Vec Ideal S1x128 .f32)
    (j : Fin 128) :
    k4_pay2 x0 x1 x2 x3 x4 (ix2 (0 : Fin 1) j) = ∑ p : Fin 10000, k4_pay1 x0 x1 x2 x3 x4 (ix2 p j) := by
  unfold k4_pay2
  exact colsum_at _ _ _ j

/-- The column sums of the tile's squares. -/
theorem pay3_4 (x0 x1 : Vec Ideal S10000x128 .f32) (x2 x3 : Vec Ideal S128x128 .f32) (x4 : Vec Ideal S1x128 .f32)
    (j : Fin 128) :
    k4_pay3 x0 x1 x2 x3 x4 (ix2 (0 : Fin 1) j)
      = ∑ p : Fin 10000, k4_pay1 x0 x1 x2 x3 x4 (ix2 p j) * k4_pay1 x0 x1 x2 x3 x4 (ix2 p j) := by
  unfold k4_pay3
  exact colsum_at _ _ _ j

/-- The running row of sums with the tile's column sums added. -/
theorem pay4_4 (x0 x1 : Vec Ideal S10000x128 .f32) (x2 x3 : Vec Ideal S128x128 .f32) (x4 : Vec Ideal S1x128 .f32)
    (s : Vec Ideal S1x128 .f32) (j : Fin 128) :
    k4_pay4 x0 x1 x2 x3 x4 s (ix2 (0 : Fin 1) j)
      = s (ix2 (0 : Fin 1) j) + k4_pay2 x0 x1 x2 x3 x4 (ix2 (0 : Fin 1) j) := by
  unfold k4_pay4
  simp only [shapeCast_self]
  rfl

/-- The running row of sums of squares with the tile's added. -/
theorem pay5_4 (x0 x1 : Vec Ideal S10000x128 .f32) (x2 x3 : Vec Ideal S128x128 .f32) (x4 : Vec Ideal S1x128 .f32)
    (s : Vec Ideal S1x128 .f32) (j : Fin 128) :
    k4_pay5 x0 x1 x2 x3 x4 s (ix2 (0 : Fin 1) j)
      = s (ix2 (0 : Fin 1) j) + k4_pay3 x0 x1 x2 x3 x4 (ix2 (0 : Fin 1) j) := by
  unfold k4_pay5
  simp only [shapeCast_self]
  rfl

/-! ## The normalisation kernels -/

/-- The normalised, scaled and shifted tile clamped below at zero, at `(p, j)`: every row operand is one row
    broadcast over the tile's rows, read at lane `j`; the reciprocal square root is taken of the variance row plus the
    constant `ε`. The arguments are the tile, the variance row, the mean row, the scale row and the shift row. -/
theorem norm_1 (x : Vec Ideal S10000x128 .f32) (v mu g b : Vec Ideal S1x128 .f32) (p : Fin 10000) (j : Fin 128) :
    k1_pay1 x v mu g b (ix2 p j)
      = max ((x (ix2 p j) - mu (ix2 (0 : Fin 1) j))
            * Ideal.rsqrt (v (ix2 (0 : Fin 1) j) + Ideal.ofBits .f32 0x3727C5AC#32)
          * g (ix2 (0 : Fin 1) j) + b (ix2 (0 : Fin 1) j)) 0 := by
  unfold k1_pay1
  simp only [shapeCast_self]
  refine (maximumf_apply _ _ _).trans (congrArg₂ max ?_ Ideal.ofBits_zero_f32)
  refine (addf_apply _ _ _).trans (congrArg₂ (· + ·) ?_ (broadcastTo_1b_ab_apply _ _ p j))
  refine (mulf_apply _ _ _).trans (congrArg₂ (· * ·) ?_ (broadcastTo_1b_ab_apply _ _ p j))
  refine (mulf_apply _ _ _).trans (congrArg₂ (· * ·) ?_ ?_)
  · exact (subf_apply _ _ _).trans (congrArg₂ (· - ·) rfl (broadcastTo_1b_ab_apply _ _ p j))
  · exact (broadcastTo_1b_ab_apply _ _ p j).trans rfl

/-- The normalised, scaled and shifted tile clamped below at zero, at `(p, j)`: every row operand is one row
    broadcast over the tile's rows, read at lane `j`; the reciprocal square root is taken of the variance row plus the
    constant `ε`. The arguments are the tile, the variance row, the mean row, the scale row and the shift row. -/
theorem norm_3 (x : Vec Ideal S10000x128 .f32) (v mu g b : Vec Ideal S1x128 .f32) (p : Fin 10000) (j : Fin 128) :
    k3_pay1 x v mu g b (ix2 p j)
      = max ((x (ix2 p j) - mu (ix2 (0 : Fin 1) j))
            * Ideal.rsqrt (v (ix2 (0 : Fin 1) j) + Ideal.ofBits .f32 0x3727C5AC#32)
          * g (ix2 (0 : Fin 1) j) + b (ix2 (0 : Fin 1) j)) 0 := by
  unfold k3_pay1
  simp only [shapeCast_self]
  refine (maximumf_apply _ _ _).trans (congrArg₂ max ?_ Ideal.ofBits_zero_f32)
  refine (addf_apply _ _ _).trans (congrArg₂ (· + ·) ?_ (broadcastTo_1b_ab_apply _ _ p j))
  refine (mulf_apply _ _ _).trans (congrArg₂ (· * ·) ?_ (broadcastTo_1b_ab_apply _ _ p j))
  refine (mulf_apply _ _ _).trans (congrArg₂ (· * ·) ?_ ?_)
  · exact (subf_apply _ _ _).trans (congrArg₂ (· - ·) rfl (broadcastTo_1b_ab_apply _ _ p j))
  · exact (broadcastTo_1b_ab_apply _ _ p j).trans rfl

/-- The normalised, scaled and shifted tile (no clamp in the last layer), at `(p, j)`: every row operand is one row
    broadcast over the tile's rows, read at lane `j`; the reciprocal square root is taken of the variance row plus the
    constant `ε`. The arguments are the tile, the variance row, the mean row, the scale row and the shift row. -/
theorem norm_5 (x : Vec Ideal S10000x128 .f32) (v mu g b : Vec Ideal S1x128 .f32) (p : Fin 10000) (j : Fin 128) :
    k5_pay1 x v mu g b (ix2 p j)
      = (x (ix2 p j) - mu (ix2 (0 : Fin 1) j))
            * Ideal.rsqrt (v (ix2 (0 : Fin 1) j) + Ideal.ofBits .f32 0x3727C5AC#32)
          * g (ix2 (0 : Fin 1) j) + b (ix2 (0 : Fin 1) j) := by
  unfold k5_pay1
  simp only [shapeCast_self]
  refine (addf_apply _ _ _).trans (congrArg₂ (· + ·) ?_ (broadcastTo_1b_ab_apply _ _ p j))
  refine (mulf_apply _ _ _).trans (congrArg₂ (· * ·) ?_ (broadcastTo_1b_ab_apply _ _ p j))
  refine (mulf_apply _ _ _).trans (congrArg₂ (· * ·) ?_ ?_)
  · exact (subf_apply _ _ _).trans (congrArg₂ (· - ·) rfl (broadcastTo_1b_ab_apply _ _ p j))
  · exact (broadcastTo_1b_ab_apply _ _ p j).trans rfl

end Cert.KernelIdeal.Payload
-- ==== Proof.Tiles.lean ====
import Mathlib.Algebra.BigOperators.Fin
import Mathlib.Data.Fintype.BigOperators

/-
  The 50000 rows as five tiles of 10000 rows each: row  r  is row  p = r mod 10000  of tile  t = r div 10000,
  r = t·10000 + p.  A sum over the rows is therefore the sum, over the five tiles, of the sums over each tile's rows,
  and a sum over the five tiles is the five terms added from the left.
-/

open scoped BigOperators

namespace Cert.Tiles

/-- Row `p` of tile `t` is one of the 50000 rows. -/
theorem tile_lt (t : Fin 5) (p : Fin 10000) : t.val * 10000 + p.val < 50000 := by
  have ht := t.isLt
  have hp := p.isLt
  omega

/-- The bijection between (tile, row within the tile) and rows: (t, p) ↦ t·10000 + p, with inverse
    r ↦ (r div 10000, r mod 10000). -/
def tileEquiv : Fin 5 × Fin 10000 ≃ Fin 50000 where
  toFun x := ⟨x.1.val * 10000 + x.2.val, tile_lt x.1 x.2⟩
  invFun r := (⟨r.val / 10000, by have := r.isLt; omega⟩, ⟨r.val % 10000, Nat.mod_lt _ (by omega)⟩)
  left_inv x := by
    rcases x with ⟨⟨t, ht⟩, ⟨p, hp⟩⟩
    simp only [Prod.mk.injEq, Fin.mk.injEq]
    constructor <;> omega
  right_inv r := by
    apply Fin.ext
    simp only
    omega

/-- A sum over the rows is the sum over the tiles of the sums over each tile's rows. -/
theorem sum_tiles {M : Type*} [AddCommMonoid M] (f : Fin 50000 → M) :
    ∑ r : Fin 50000, f r = ∑ t : Fin 5, ∑ p : Fin 10000, f ⟨t.val * 10000 + p.val, tile_lt t p⟩ := by
  calc ∑ r : Fin 50000, f r = ∑ x : Fin 5 × Fin 10000, f (tileEquiv x) := (Equiv.sum_comp tileEquiv f).symm
    _ = ∑ t : Fin 5, ∑ p : Fin 10000, f (tileEquiv (t, p)) := Fintype.sum_prod_type _
    _ = ∑ t : Fin 5, ∑ p : Fin 10000, f ⟨t.val * 10000 + p.val, tile_lt t p⟩ := rfl

/-- A sum over the five tiles, written out from the left. -/
theorem sum_five {M : Type*} [AddCommMonoid M] (g : Fin 5 → M) : ∑ t : Fin 5, g t = (((g 0 + g 1) + g 2) + g 3) + g 4 :=
  Fin.sum_univ_five g

end Cert.Tiles
-- ==== Proof.KI.LinVal0.lean ====
/-
  What region 0 leaves in its three output arrays, index by index, at the ideal instance (floats are extended reals).
  Row r of the linear output is computed at grid point r / 10000 from row r of the two feature arrays: its entry in
  column j is  Σₖ mean(r,k)·Wl(j,k) + Σₖ h(r,k)·Wr(j,k) + b(j). The five tiles cover the 50000 rows. The two running rows are
  written back once, after the last point: column j of the first is the sum over the five tiles of the tile's column
  sums, which is the sum of the whole column; the second likewise for the squares.
  The arithmetic of one tile (the body's stored values read at an index) is taken as hypotheses `hp1 … hp5`, proved
  elsewhere from the printed body.
-/
import proofs.«139727_j46445776339648_1_alg».proof.Proof.KI.Stats0
import Idealize.ShloMosaic.Lib.Pipeline.Value
import Idealize.ShloMosaic.Lib.ValueIdx
import proofs.«139727_j46445776339648_1_alg».proof.Proof.Tiles

set_option maxRecDepth 16384

noncomputable section

namespace Cert.KernelIdeal.Frames

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- One tile's linear output at an index, as a function of the tile's loads. -/
def TileLin0 : Prop := ∀ (x0 x1 : Vec Ideal S10000x128 .f32) (x2 x3 : Vec Ideal S128x128 .f32) (x4 : Vec Ideal S1x128 .f32) (p : Fin 10000) (j : Fin 128),
  k0_pay1 x0 x1 x2 x3 x4 (ix2 p j)
    = (∑ k : Fin 128, x0 (ix2 p k) * x2 (ix2 j k) + ∑ k : Fin 128, x1 (ix2 p k) * x3 (ix2 j k)) + x4 (ix2 (0 : Fin 1) j)
/-- One tile's column sums. -/
def TileSum0 : Prop := ∀ (x0 x1 : Vec Ideal S10000x128 .f32) (x2 x3 : Vec Ideal S128x128 .f32) (x4 : Vec Ideal S1x128 .f32) (j : Fin 128),
  k0_pay2 x0 x1 x2 x3 x4 (ix2 (0 : Fin 1) j) = ∑ p : Fin 10000, k0_pay1 x0 x1 x2 x3 x4 (ix2 p j)
/-- One tile's column sums of squares. -/
def TileSq0 : Prop := ∀ (x0 x1 : Vec Ideal S10000x128 .f32) (x2 x3 : Vec Ideal S128x128 .f32) (x4 : Vec Ideal S1x128 .f32) (j : Fin 128),
  k0_pay3 x0 x1 x2 x3 x4 (ix2 (0 : Fin 1) j) = ∑ p : Fin 10000, k0_pay1 x0 x1 x2 x3 x4 (ix2 p j) * k0_pay1 x0 x1 x2 x3 x4 (ix2 p j)
/-- A later point adds the tile's column sums to the running row. -/
def TileAcc0 : Prop := ∀ (x0 x1 : Vec Ideal S10000x128 .f32) (x2 x3 : Vec Ideal S128x128 .f32) (x4 : Vec Ideal S1x128 .f32) (s : Vec Ideal S1x128 .f32) (j : Fin 128),
  k0_pay4 x0 x1 x2 x3 x4 s (ix2 (0 : Fin 1) j) = s (ix2 (0 : Fin 1) j) + k0_pay2 x0 x1 x2 x3 x4 (ix2 (0 : Fin 1) j)
def TileAccSq0 : Prop := ∀ (x0 x1 : Vec Ideal S10000x128 .f32) (x2 x3 : Vec Ideal S128x128 .f32) (x4 : Vec Ideal S1x128 .f32) (s : Vec Ideal S1x128 .f32) (j : Fin 128),
  k0_pay5 x0 x1 x2 x3 x4 s (ix2 (0 : Fin 1) j) = s (ix2 (0 : Fin 1) j) + k0_pay3 x0 x1 x2 x3 x4 (ix2 (0 : Fin 1) j)

variable (V : (c : Dev nD) → (b : Ref sig .tc) → Buf (Elt Ideal) ((c : Thread nD τ).loc b))

theorem zeros2_0 : (![0, 0] : Fin 2 → Nat) = fun _ => 0 := funext fun a => by fin_cases a <;> rfl

/-- The linear output as one function of the region's five input arrays. -/
def linOf0 (mean h : S50000x128.Idx → Elt Ideal .f32) (Wl Wr : S128x128.Idx → Elt Ideal .f32) (b : S1x128.Idx → Elt Ideal .f32) :
    S50000x128.Idx → Elt Ideal .f32 := fun i =>
  (∑ k : Fin 128, mean (ix2 (i 0) k) * Wl (ix2 (i 1) k) + ∑ k : Fin 128, h (ix2 (i 0) k) * Wr (ix2 (i 1) k)) + b (ix2 (0 : Fin 1) (i 1))
theorem linOf0_apply (mean h : S50000x128.Idx → Elt Ideal .f32) (Wl Wr : S128x128.Idx → Elt Ideal .f32) (b : S1x128.Idx → Elt Ideal .f32) (r : Fin 50000) (j : Fin 128) :
    linOf0 mean h Wl Wr b (ix2 r j)
      = (∑ k : Fin 128, mean (ix2 r k) * Wl (ix2 j k) + ∑ k : Fin 128, h (ix2 r k) * Wr (ix2 j k)) + b (ix2 (0 : Fin 1) j) := rfl
/-- The region's linear output, of the arrays as the region finds them. -/
abbrev linArr0 (c : Dev nD) : S50000x128.Idx → Elt Ideal .f32 :=
  linOf0 (V c (Pipeline.arrRef spec0 0)) (V c (Pipeline.arrRef spec0 1)) (V c (Pipeline.arrRef spec0 2)) (V c (Pipeline.arrRef spec0 3)) (V c (Pipeline.arrRef spec0 4))

/-- The printed index maps over the grid: the two feature windows and the linear output move one tile of rows per point; the
    weights, the bias and the two running rows stay at block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The input blocks, read at an index -/

theorem tile_lt0 (t : Fin cfg0.N) (p : Fin 10000) : t.val * 10000 + p.val < 50000 := by
  have hN : t.val < 5 := lt_of_lt_of_eq t.isLt (show cfg0.N = 5 from N_0)
  have := p.isLt; omega

theorem blk0_0 (c : Dev nD) (t : Fin cfg0.N) (p : Fin 10000) (k : Fin 128) :
    iblk0 V c 0 t (ix2 p k) = V c (Pipeline.arrRef spec0 0) (ix2 ⟨t.val * 10000 + p.val, tile_lt0 t p⟩ k) := by
  obtain ⟨e0, e1, -⟩ := idx_facts0 t
  show V c (Pipeline.arrRef spec0 0) (((cfg0.win 0).blk t).view.emb (ix2 p k)) = _
  refine congrArg _ ?_
  funext a; apply Fin.ext
  match a with
  | ⟨0, _⟩ => show win0_0.index t (0 : Fin 2) * 10000 + 1 * p.val = t.val * 10000 + p.val; rw [e0]; omega
  | ⟨1, _⟩ => show win0_0.index t (1 : Fin 2) * 128 + 1 * k.val = k.val; rw [e1]; omega
theorem blk0_1 (c : Dev nD) (t : Fin cfg0.N) (p : Fin 10000) (k : Fin 128) :
    iblk0 V c 1 t (ix2 p k) = V c (Pipeline.arrRef spec0 1) (ix2 ⟨t.val * 10000 + p.val, tile_lt0 t p⟩ k) := by
  obtain ⟨-, -, e0, e1, -⟩ := idx_facts0 t
  show V c (Pipeline.arrRef spec0 1) (((cfg0.win 1).blk t).view.emb (ix2 p k)) = _
  refine congrArg _ ?_
  funext a; apply Fin.ext
  match a with
  | ⟨0, _⟩ => show win0_1.index t (0 : Fin 2) * 10000 + 1 * p.val = t.val * 10000 + p.val; rw [e0]; omega
  | ⟨1, _⟩ => show win0_1.index t (1 : Fin 2) * 128 + 1 * k.val = k.val; rw [e1]; omega
theorem blk0_2 (c : Dev nD) (t : Fin cfg0.N) (j k : Fin 128) :
    iblk0 V c 2 t (ix2 j k) = V c (Pipeline.arrRef spec0 2) (ix2 j k) := by
  obtain ⟨-, -, -, -, e0, e1, -⟩ := idx_facts0 t
  show V c (Pipeline.arrRef spec0 2) (((cfg0.win 2).blk t).view.emb (ix2 j k)) = _
  refine congrArg _ ?_
  funext a; apply Fin.ext
  match a with
  | ⟨0, _⟩ => show win0_2.index t (0 : Fin 2) * 128 + 1 * j.val = j.val; rw [e0]; omega
  | ⟨1, _⟩ => show win0_2.index t (1 : Fin 2) * 128 + 1 * k.val = k.val; rw [e1]; omega
theorem blk0_3 (c : Dev nD) (t : Fin cfg0.N) (j k : Fin 128) :
    iblk0 V c 3 t (ix2 j k) = V c (Pipeline.arrRef spec0 3) (ix2 j k) := by
  obtain ⟨-, -, -, -, -, -, e0, e1, -⟩ := idx_facts0 t
  show V c (Pipeline.arrRef spec0 3) (((cfg0.win 3).blk t).view.emb (ix2 j k)) = _
  refine congrArg _ ?_
  funext a; apply Fin.ext
  match a with
  | ⟨0, _⟩ => show win0_3.index t (0 : Fin 2) * 128 + 1 * j.val = j.val; rw [e0]; omega
  | ⟨1, _⟩ => show win0_3.index t (1 : Fin 2) * 128 + 1 * k.val = k.val; rw [e1]; omega
theorem blk0_4 (c : Dev nD) (t : Fin cfg0.N) (z : Fin 1) (j : Fin 128) :
    iblk0 V c 4 t (ix2 z j) = V c (Pipeline.arrRef spec0 4) (ix2 z j) := by
  obtain ⟨-, -, -, -, -, -, -, -, e0, e1, -⟩ := idx_facts0 t
  show V c (Pipeline.arrRef spec0 4) (((cfg0.win 4).blk t).view.emb (ix2 z j)) = _
  refine congrArg _ ?_
  funext a; apply Fin.ext
  match a with
  | ⟨0, _⟩ => show win0_4.index t (0 : Fin 2) * 1 + 1 * z.val = z.val; rw [e0]; omega
  | ⟨1, _⟩ => show win0_4.index t (1 : Fin 2) * 128 + 1 * j.val = j.val; rw [e1]; omega

/-- The tile's linear output at (p, j) is the whole array's at row t·10000 + p. -/
theorem tile_lin0 (hp1 : TileLin0) (c : Dev nD) (t : Fin cfg0.N) (p : Fin 10000) (j : Fin 128) :
    k0_pay1 (iblk0 V c 0 t) (iblk0 V c 1 t) (iblk0 V c 2 t) (iblk0 V c 3 t) (iblk0 V c 4 t) (ix2 p j)
      = linArr0 V c (ix2 ⟨t.val * 10000 + p.val, tile_lt0 t p⟩ j) := by
  refine (hp1 _ _ _ _ _ p j).trans ?_
  simp only [blk0_0, blk0_1, blk0_2, blk0_3, blk0_4]
  rfl

/-! ## The linear output: what each point writes back, the cover, the whole array -/

/-- Point `t` writes back block `t` of the whole-array function. -/
theorem flushed0_5 (hp1 : TileLin0) (c : Dev nD) (t : Fin cfg0.N) :
    (dat0 V c).flushed 5 t = ((cfg0.win 5).blk t).view.read (Elt Ideal) (linArr0 V c) := by
  show (cfg0.win 5).cut (grid0.coords t) ((dat0 V c).after 5 t) = _
  rw [after0_5]
  unfold lin0
  rw [View.canon_unit_zero zeros2_0]
  simp only [View.ld_unit_zero (S := S10000x128) zeros2_0, View.ld_unit_zero (S := S128x128) zeros2_0, View.ld_unit_zero (S := S1x128) zeros2_0]
  funext y
  obtain ⟨p, j, rfl⟩ : ∃ (p : Fin 10000) (j : Fin 128), y = ix2 p j := ⟨y 0, y 1, eq_ix2 y⟩
  show k0_pay1 (iblk0 V c 0 t) (iblk0 V c 1 t) (iblk0 V c 2 t) (iblk0 V c 3 t) (iblk0 V c 4 t) (ix2 p j)
    = linArr0 V c (((cfg0.win 5).blk t).view.emb (ix2 p j))
  refine (tile_lin0 V hp1 c t p j).trans ?_
  refine congrArg _ ?_
  obtain ⟨-, -, -, -, -, -, -, -, -, -, e0, e1, -⟩ := idx_facts0 t
  funext a; apply Fin.ext
  match a with
  | ⟨0, _⟩ => show t.val * 10000 + p.val = win0_5.index t (0 : Fin 2) * 10000 + 1 * p.val; rw [e0]; omega
  | ⟨1, _⟩ => show j.val = win0_5.index t (1 : Fin 2) * 128 + 1 * j.val; rw [e1]; omega

/-- An index of the array is in point `t`'s block iff each coordinate is in the block's range on its axis. -/
theorem mem_blk0_5 (t : Fin cfg0.N) (i : S50000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole (Pipeline.arrRef spec0 5)).slice (win0_5.rect t)).set ↔ _
  rw [View.set_slice_whole, Rect.mem_set_unit]
  exact Iff.rfl

/-- Every row lies in the tile of the point `row / 10000`. -/
theorem cover0_5 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 5 := N_0
  refine ⟨⟨(i 0).val / 10000, by rw [hN]; omega⟩, flush0_5 _, ?_⟩
  rw [mem_blk0_5]
  obtain ⟨-, -, -, -, -, -, -, -, -, -, e0, e1, -⟩ := idx_facts0 ⟨(i 0).val / 10000, by rw [hN]; omega⟩
  intro a
  match a with
  | ⟨0, _⟩ => show win0_5.index _ (0 : Fin 2) * 10000 ≤ (i 0).val ∧ (i 0).val < win0_5.index _ (0 : Fin 2) * 10000 + 10000; rw [e0]; dsimp only; omega
  | ⟨1, _⟩ => show win0_5.index _ (1 : Fin 2) * 128 ≤ (i 1).val ∧ (i 1).val < win0_5.index _ (1 : Fin 2) * 128 + 128; rw [e1]; omega

/-- The linear output's array after the region. -/
theorem final0_5 (hp1 : TileLin0) (c : Dev nD) : (dat0 V c).arrAt 5 cfg0.N = linArr0 V c :=
  (dat0 V c).arrAt_eq_of_cover 5 (linArr0 V c) (fun t _ => flushed0_5 V hp1 c t) cover0_5

/-! ## The two running rows -/

theorem sumFirst0_apply (hp2 : TileSum0) (x0 x1 : Vec Ideal S10000x128 .f32) (x2 x3 : Vec Ideal S128x128 .f32) (x4 : Vec Ideal S1x128 .f32) (j : Fin 128) :
    sumFirst0 x0 x1 x2 x3 x4 (ix2 (0 : Fin 1) j) = ∑ p : Fin 10000, k0_pay1 x0 x1 x2 x3 x4 (ix2 p j) := by
  unfold sumFirst0
  rw [View.canon_unit_zero zeros2_0]
  simp only [View.ld_unit_zero (S := S10000x128) zeros2_0, View.ld_unit_zero (S := S128x128) zeros2_0, View.ld_unit_zero (S := S1x128) zeros2_0]
  exact hp2 x0 x1 x2 x3 x4 j
theorem sumLater0_apply (hp2 : TileSum0) (hp4 : TileAcc0) (x0 x1 : Vec Ideal S10000x128 .f32) (x2 x3 : Vec Ideal S128x128 .f32) (x4 : Vec Ideal S1x128 .f32)
    (s : Vec Ideal S1x128 .f32) (j : Fin 128) :
    sumLater0 x0 x1 x2 x3 x4 s (ix2 (0 : Fin 1) j) = s (ix2 (0 : Fin 1) j) + ∑ p : Fin 10000, k0_pay1 x0 x1 x2 x3 x4 (ix2 p j) := by
  unfold sumLater0
  rw [View.canon_unit_zero zeros2_0]
  simp only [View.ld_unit_zero (S := S10000x128) zeros2_0, View.ld_unit_zero (S := S128x128) zeros2_0, View.ld_unit_zero (S := S1x128) zeros2_0]
  exact (hp4 x0 x1 x2 x3 x4 s j).trans (congrArg _ (hp2 x0 x1 x2 x3 x4 j))
theorem sqFirst0_apply (hp3 : TileSq0) (x0 x1 : Vec Ideal S10000x128 .f32) (x2 x3 : Vec Ideal S128x128 .f32) (x4 : Vec Ideal S1x128 .f32) (j : Fin 128) :
    sqFirst0 x0 x1 x2 x3 x4 (ix2 (0 : Fin 1) j) = ∑ p : Fin 10000, k0_pay1 x0 x1 x2 x3 x4 (ix2 p j) * k0_pay1 x0 x1 x2 x3 x4 (ix2 p j) := by
  unfold sqFirst0
  rw [View.canon_unit_zero zeros2_0]
  simp only [View.ld_unit_zero (S := S10000x128) zeros2_0, View.ld_unit_zero (S := S128x128) zeros2_0, View.ld_unit_zero (S := S1x128) zeros2_0]
  exact hp3 x0 x1 x2 x3 x4 j
theorem sqLater0_apply (hp3 : TileSq0) (hp5 : TileAccSq0) (x0 x1 : Vec Ideal S10000x128 .f32) (x2 x3 : Vec Ideal S128x128 .f32) (x4 : Vec Ideal S1x128 .f32)
    (s : Vec Ideal S1x128 .f32) (j : Fin 128) :
    sqLater0 x0 x1 x2 x3 x4 s (ix2 (0 : Fin 1) j) = s (ix2 (0 : Fin 1) j) + ∑ p : Fin 10000, k0_pay1 x0 x1 x2 x3 x4 (ix2 p j) * k0_pay1 x0 x1 x2 x3 x4 (ix2 p j) := by
  unfold sqLater0
  rw [View.canon_unit_zero zeros2_0]
  simp only [View.ld_unit_zero (S := S10000x128) zeros2_0, View.ld_unit_zero (S := S128x128) zeros2_0, View.ld_unit_zero (S := S1x128) zeros2_0]
  exact (hp5 x0 x1 x2 x3 x4 s j).trans (congrArg _ (hp3 x0 x1 x2 x3 x4 j))

/-- Column `j` of the linear output as a sequence of rows (0 past the last row). -/
def colOf0 (c : Dev nD) (j : Fin 128) (r : ℕ) : EReal := if h : r < 50000 then linArr0 V c (ix2 ⟨r, h⟩ j) else 0

theorem colOf0_tile (c : Dev nD) (j : Fin 128) (t : Fin cfg0.N) (p : Fin 10000) :
    colOf0 V c j (t.val * 10000 + p.val) = linArr0 V c (ix2 ⟨t.val * 10000 + p.val, tile_lt0 t p⟩ j) := by
  unfold colOf0; rw [dif_pos (tile_lt0 t p)]

/-- After the body at position `n` the running row holds, in column `j`, the sum of the first `n + 1` tiles' rows. -/
theorem sumAt0_apply (hp1 : TileLin0) (hp2 : TileSum0) (hp4 : TileAcc0) (c : Dev nD) (j : Fin 128) :
    ∀ (n : ℕ) (hn : n < cfg0.N), sumAt0 V c n hn (ix2 (0 : Fin 1) j)
      = ∑ t ∈ Finset.range (n + 1), ∑ p : Fin 10000, colOf0 V c j (t * 10000 + p.val)
  | 0, hn => by
    show sumFirst0 (iblk0 V c 0 ⟨0, hn⟩) (iblk0 V c 1 ⟨0, hn⟩) (iblk0 V c 2 ⟨0, hn⟩) (iblk0 V c 3 ⟨0, hn⟩) (iblk0 V c 4 ⟨0, hn⟩) (ix2 (0 : Fin 1) j) = _
    rw [sumFirst0_apply hp2, Finset.sum_range_one]
    refine Finset.sum_congr rfl fun p _ => ?_
    exact (tile_lin0 V hp1 c ⟨0, hn⟩ p j).trans (colOf0_tile V c j ⟨0, hn⟩ p).symm
  | n + 1, hn => by
    show sumLater0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (sumAt0 V c n (Nat.lt_of_succ_lt hn)) (ix2 (0 : Fin 1) j) = _
    rw [sumLater0_apply hp2 hp4, sumAt0_apply hp1 hp2 hp4 c j n (Nat.lt_of_succ_lt hn), Finset.sum_range_succ _ (n + 1)]
    refine congrArg _ (Finset.sum_congr rfl fun p _ => ?_)
    exact (tile_lin0 V hp1 c ⟨n + 1, hn⟩ p j).trans (colOf0_tile V c j ⟨n + 1, hn⟩ p).symm
theorem sqAt0_apply (hp1 : TileLin0) (hp3 : TileSq0) (hp5 : TileAccSq0) (c : Dev nD) (j : Fin 128) :
    ∀ (n : ℕ) (hn : n < cfg0.N), sqAt0 V c n hn (ix2 (0 : Fin 1) j)
      = ∑ t ∈ Finset.range (n + 1), ∑ p : Fin 10000, colOf0 V c j (t * 10000 + p.val) * colOf0 V c j (t * 10000 + p.val)
  | 0, hn => by
    show sqFirst0 (iblk0 V c 0 ⟨0, hn⟩) (iblk0 V c 1 ⟨0, hn⟩) (iblk0 V c 2 ⟨0, hn⟩) (iblk0 V c 3 ⟨0, hn⟩) (iblk0 V c 4 ⟨0, hn⟩) (ix2 (0 : Fin 1) j) = _
    rw [sqFirst0_apply hp3, Finset.sum_range_one]
    refine Finset.sum_congr rfl fun p _ => ?_
    rw [tile_lin0 V hp1 c ⟨0, hn⟩ p j, ← colOf0_tile V c j ⟨0, hn⟩ p]
  | n + 1, hn => by
    show sqLater0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (sqAt0 V c n (Nat.lt_of_succ_lt hn)) (ix2 (0 : Fin 1) j) = _
    rw [sqLater0_apply hp3 hp5, sqAt0_apply hp1 hp3 hp5 c j n (Nat.lt_of_succ_lt hn), Finset.sum_range_succ _ (n + 1)]
    refine congrArg _ (Finset.sum_congr rfl fun p _ => ?_)
    rw [tile_lin0 V hp1 c ⟨n + 1, hn⟩ p j, ← colOf0_tile V c j ⟨n + 1, hn⟩ p]

/-- The last point's position. -/
theorem last_lt0 : 4 < cfg0.N := by rw [show cfg0.N = 5 from N_0]; decide

/-- The first running row is written back once, after the last point: the array ends at what the last point left. -/
theorem final0_6 (c : Dev nD) : (dat0 V c).arrAt 6 cfg0.N = sumAt0 V c 4 last_lt0 := by
  refine (dat0 V c).arrAt_eq_of_cover 6 (sumAt0 V c 4 last_lt0) (fun t hf => ?_) (fun i => ?_)
  · have h4 : t.val = 4 := by
      have hN : t.val < 5 := lt_of_lt_of_eq t.isLt (show cfg0.N = 5 from N_0)
      have := (flush0_6 t).mp hf; omega
    obtain ⟨n, hn⟩ := t
    dsimp only at h4; subst h4
    show (cfg0.win 6).cut (grid0.coords ⟨4, hn⟩) ((dat0 V c).after 6 ⟨4, hn⟩) = _
    rw [after0_6]
    funext y
    show sumAt0 V c 4 hn y = sumAt0 V c 4 last_lt0 (((cfg0.win 6).blk ⟨4, hn⟩).view.emb y)
    refine congrArg _ ?_
    obtain ⟨-, -, -, -, -, -, -, -, -, -, -, -, e0, e1, -⟩ := idx_facts0 ⟨4, hn⟩
    funext a; apply Fin.ext
    match a with
    | ⟨0, _⟩ => show (y 0).val = win0_6.index ⟨4, hn⟩ (0 : Fin 2) * 1 + 1 * (y 0).val; rw [e0]; omega
    | ⟨1, _⟩ => show (y 1).val = win0_6.index ⟨4, hn⟩ (1 : Fin 2) * 128 + 1 * (y 1).val; rw [e1]; omega
  · refine ⟨⟨4, last_lt0⟩, (flush0_6 _).mpr rfl, ?_⟩
    show i ∈ ((View.whole (Pipeline.arrRef spec0 6)).slice (win0_6.rect ⟨4, last_lt0⟩)).set
    rw [View.set_slice_whole, Rect.mem_set_unit]
    obtain ⟨-, -, -, -, -, -, -, -, -, -, -, -, e0, e1, -⟩ := idx_facts0 ⟨4, last_lt0⟩
    intro a
    have hi0 : (i 0).val < 1 := (i 0).isLt
    have hi1 : (i 1).val < 128 := (i 1).isLt
    match a with
    | ⟨0, _⟩ => show win0_6.index _ (0 : Fin 2) * 1 ≤ (i 0).val ∧ (i 0).val < win0_6.index _ (0 : Fin 2) * 1 + 1; rw [e0]; omega
    | ⟨1, _⟩ => show win0_6.index _ (1 : Fin 2) * 128 ≤ (i 1).val ∧ (i 1).val < win0_6.index _ (1 : Fin 2) * 128 + 128; rw [e1]; omega
theorem final0_7 (c : Dev nD) : (dat0 V c).arrAt 7 cfg0.N = sqAt0 V c 4 last_lt0 := by
  refine (dat0 V c).arrAt_eq_of_cover 7 (sqAt0 V c 4 last_lt0) (fun t hf => ?_) (fun i => ?_)
  · have h4 : t.val = 4 := by
      have hN : t.val < 5 := lt_of_lt_of_eq t.isLt (show cfg0.N = 5 from N_0)
      have := (flush0_7 t).mp hf; omega
    obtain ⟨n, hn⟩ := t
    dsimp only at h4; subst h4
    show (cfg0.win 7).cut (grid0.coords ⟨4, hn⟩) ((dat0 V c).after 7 ⟨4, hn⟩) = _
    rw [after0_7]
    funext y
    show sqAt0 V c 4 hn y = sqAt0 V c 4 last_lt0 (((cfg0.win 7).blk ⟨4, hn⟩).view.emb y)
    refine congrArg _ ?_
    obtain ⟨-, -, -, -, -, -, -, -, -, -, -, -, -, -, e0, e1⟩ := idx_facts0 ⟨4, hn⟩
    funext a; apply Fin.ext
    match a with
    | ⟨0, _⟩ => show (y 0).val = win0_7.index ⟨4, hn⟩ (0 : Fin 2) * 1 + 1 * (y 0).val; rw [e0]; omega
    | ⟨1, _⟩ => show (y 1).val = win0_7.index ⟨4, hn⟩ (1 : Fin 2) * 128 + 1 * (y 1).val; rw [e1]; omega
  · refine ⟨⟨4, last_lt0⟩, (flush0_7 _).mpr rfl, ?_⟩
    show i ∈ ((View.whole (Pipeline.arrRef spec0 7)).slice (win0_7.rect ⟨4, last_lt0⟩)).set
    rw [View.set_slice_whole, Rect.mem_set_unit]
    obtain ⟨-, -, -, -, -, -, -, -, -, -, -, -, -, -, e0, e1⟩ := idx_facts0 ⟨4, last_lt0⟩
    intro a
    have hi0 : (i 0).val < 1 := (i 0).isLt
    have hi1 : (i 1).val < 128 := (i 1).isLt
    match a with
    | ⟨0, _⟩ => show win0_7.index _ (0 : Fin 2) * 1 ≤ (i 0).val ∧ (i 0).val < win0_7.index _ (0 : Fin 2) * 1 + 1; rw [e0]; omega
    | ⟨1, _⟩ => show win0_7.index _ (1 : Fin 2) * 128 ≤ (i 1).val ∧ (i 1).val < win0_7.index _ (1 : Fin 2) * 128 + 128; rw [e1]; omega

/-! ## The running rows' arrays, column by column -/

theorem rangeSum0 (c : Dev nD) (j : Fin 128) (g : EReal → EReal) :
    ∑ t ∈ Finset.range 5, ∑ p : Fin 10000, g (colOf0 V c j (t * 10000 + p.val)) = ∑ r : Fin 50000, g (linArr0 V c (ix2 r j)) := by
  rw [Finset.sum_range, Cert.Tiles.sum_tiles (fun r => g (linArr0 V c (ix2 r j)))]
  refine Finset.sum_congr rfl fun t _ => Finset.sum_congr rfl fun p _ => ?_
  unfold colOf0
  rw [dif_pos (Cert.Tiles.tile_lt t p)]

/-- Column `j` of the first running row's array is the sum of column `j` of the linear output. -/
theorem final0_6_apply (hp1 : TileLin0) (hp2 : TileSum0) (hp4 : TileAcc0) (c : Dev nD) (j : Fin 128) :
    (dat0 V c).arrAt 6 cfg0.N (ix2 (0 : Fin 1) j) = ∑ r : Fin 50000, linArr0 V c (ix2 r j) := by
  rw [final0_6]
  exact (sumAt0_apply V hp1 hp2 hp4 c j 4 last_lt0).trans (rangeSum0 V c j id)
/-- Column `j` of the second running row's array is the sum of the squares of column `j` of the linear output. -/
theorem final0_7_apply (hp1 : TileLin0) (hp3 : TileSq0) (hp5 : TileAccSq0) (c : Dev nD) (j : Fin 128) :
    (dat0 V c).arrAt 7 cfg0.N (ix2 (0 : Fin 1) j) = ∑ r : Fin 50000, linArr0 V c (ix2 r j) * linArr0 V c (ix2 r j) := by
  rw [final0_7]
  exact (sqAt0_apply V hp1 hp3 hp5 c j 4 last_lt0).trans (rangeSum0 V c j (fun x => x * x))

end Cert.KernelIdeal.Frames

end
-- ==== Proof.KI.LinVal2.lean ====
/-
  What region 2 leaves in its three output arrays, index by index, at the ideal instance (floats are extended reals).
  Row r of the linear output is computed at grid point r / 10000 from row r of the two feature arrays: its entry in
  column j is  Σₖ mean(r,k)·Wl(j,k) + Σₖ h(r,k)·Wr(j,k) + b(j). The five tiles cover the 50000 rows. The two running rows are
  written back once, after the last point: column j of the first is the sum over the five tiles of the tile's column
  sums, which is the sum of the whole column; the second likewise for the squares.
  The arithmetic of one tile (the body's stored values read at an index) is taken as hypotheses `hp1 … hp5`, proved
  elsewhere from the printed body.
-/
import proofs.«139727_j46445776339648_1_alg».proof.Proof.KI.Stats2
import Idealize.ShloMosaic.Lib.Pipeline.Value
import Idealize.ShloMosaic.Lib.ValueIdx
import proofs.«139727_j46445776339648_1_alg».proof.Proof.Tiles

set_option maxRecDepth 16384

noncomputable section

namespace Cert.KernelIdeal.Frames

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- One tile's linear output at an index, as a function of the tile's loads. -/
def TileLin2 : Prop := ∀ (x0 x1 : Vec Ideal S10000x128 .f32) (x2 x3 : Vec Ideal S128x128 .f32) (x4 : Vec Ideal S1x128 .f32) (p : Fin 10000) (j : Fin 128),
  k2_pay1 x0 x1 x2 x3 x4 (ix2 p j)
    = (∑ k : Fin 128, x0 (ix2 p k) * x2 (ix2 j k) + ∑ k : Fin 128, x1 (ix2 p k) * x3 (ix2 j k)) + x4 (ix2 (0 : Fin 1) j)
/-- One tile's column sums. -/
def TileSum2 : Prop := ∀ (x0 x1 : Vec Ideal S10000x128 .f32) (x2 x3 : Vec Ideal S128x128 .f32) (x4 : Vec Ideal S1x128 .f32) (j : Fin 128),
  k2_pay2 x0 x1 x2 x3 x4 (ix2 (0 : Fin 1) j) = ∑ p : Fin 10000, k2_pay1 x0 x1 x2 x3 x4 (ix2 p j)
/-- One tile's column sums of squares. -/
def TileSq2 : Prop := ∀ (x0 x1 : Vec Ideal S10000x128 .f32) (x2 x3 : Vec Ideal S128x128 .f32) (x4 : Vec Ideal S1x128 .f32) (j : Fin 128),
  k2_pay3 x0 x1 x2 x3 x4 (ix2 (0 : Fin 1) j) = ∑ p : Fin 10000, k2_pay1 x0 x1 x2 x3 x4 (ix2 p j) * k2_pay1 x0 x1 x2 x3 x4 (ix2 p j)
/-- A later point adds the tile's column sums to the running row. -/
def TileAcc2 : Prop := ∀ (x0 x1 : Vec Ideal S10000x128 .f32) (x2 x3 : Vec Ideal S128x128 .f32) (x4 : Vec Ideal S1x128 .f32) (s : Vec Ideal S1x128 .f32) (j : Fin 128),
  k2_pay4 x0 x1 x2 x3 x4 s (ix2 (0 : Fin 1) j) = s (ix2 (0 : Fin 1) j) + k2_pay2 x0 x1 x2 x3 x4 (ix2 (0 : Fin 1) j)
def TileAccSq2 : Prop := ∀ (x0 x1 : Vec Ideal S10000x128 .f32) (x2 x3 : Vec Ideal S128x128 .f32) (x4 : Vec Ideal S1x128 .f32) (s : Vec Ideal S1x128 .f32) (j : Fin 128),
  k2_pay5 x0 x1 x2 x3 x4 s (ix2 (0 : Fin 1) j) = s (ix2 (0 : Fin 1) j) + k2_pay3 x0 x1 x2 x3 x4 (ix2 (0 : Fin 1) j)

variable (V : (c : Dev nD) → (b : Ref sig .tc) → Buf (Elt Ideal) ((c : Thread nD τ).loc b))

theorem zeros2_2 : (![0, 0] : Fin 2 → Nat) = fun _ => 0 := funext fun a => by fin_cases a <;> rfl

/-- The linear output as one function of the region's five input arrays. -/
def linOf2 (mean h : S50000x128.Idx → Elt Ideal .f32) (Wl Wr : S128x128.Idx → Elt Ideal .f32) (b : S1x128.Idx → Elt Ideal .f32) :
    S50000x128.Idx → Elt Ideal .f32 := fun i =>
  (∑ k : Fin 128, mean (ix2 (i 0) k) * Wl (ix2 (i 1) k) + ∑ k : Fin 128, h (ix2 (i 0) k) * Wr (ix2 (i 1) k)) + b (ix2 (0 : Fin 1) (i 1))
theorem linOf2_apply (mean h : S50000x128.Idx → Elt Ideal .f32) (Wl Wr : S128x128.Idx → Elt Ideal .f32) (b : S1x128.Idx → Elt Ideal .f32) (r : Fin 50000) (j : Fin 128) :
    linOf2 mean h Wl Wr b (ix2 r j)
      = (∑ k : Fin 128, mean (ix2 r k) * Wl (ix2 j k) + ∑ k : Fin 128, h (ix2 r k) * Wr (ix2 j k)) + b (ix2 (0 : Fin 1) j) := rfl
/-- The region's linear output, of the arrays as the region finds them. -/
abbrev linArr2 (c : Dev nD) : S50000x128.Idx → Elt Ideal .f32 :=
  linOf2 (V c (Pipeline.arrRef spec2 0)) (V c (Pipeline.arrRef spec2 1)) (V c (Pipeline.arrRef spec2 2)) (V c (Pipeline.arrRef spec2 3)) (V c (Pipeline.arrRef spec2 4))

/-- The printed index maps over the grid: the two feature windows and the linear output move one tile of rows per point; the
    weights, the bias and the two running rows stay at block 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-! ## The input blocks, read at an index -/

theorem tile_lt2 (t : Fin cfg2.N) (p : Fin 10000) : t.val * 10000 + p.val < 50000 := by
  have hN : t.val < 5 := lt_of_lt_of_eq t.isLt (show cfg2.N = 5 from N_2)
  have := p.isLt; omega

theorem blk2_0 (c : Dev nD) (t : Fin cfg2.N) (p : Fin 10000) (k : Fin 128) :
    iblk2 V c 0 t (ix2 p k) = V c (Pipeline.arrRef spec2 0) (ix2 ⟨t.val * 10000 + p.val, tile_lt2 t p⟩ k) := by
  obtain ⟨e0, e1, -⟩ := idx_facts2 t
  show V c (Pipeline.arrRef spec2 0) (((cfg2.win 0).blk t).view.emb (ix2 p k)) = _
  refine congrArg _ ?_
  funext a; apply Fin.ext
  match a with
  | ⟨0, _⟩ => show win2_0.index t (0 : Fin 2) * 10000 + 1 * p.val = t.val * 10000 + p.val; rw [e0]; omega
  | ⟨1, _⟩ => show win2_0.index t (1 : Fin 2) * 128 + 1 * k.val = k.val; rw [e1]; omega
theorem blk2_1 (c : Dev nD) (t : Fin cfg2.N) (p : Fin 10000) (k : Fin 128) :
    iblk2 V c 1 t (ix2 p k) = V c (Pipeline.arrRef spec2 1) (ix2 ⟨t.val * 10000 + p.val, tile_lt2 t p⟩ k) := by
  obtain ⟨-, -, e0, e1, -⟩ := idx_facts2 t
  show V c (Pipeline.arrRef spec2 1) (((cfg2.win 1).blk t).view.emb (ix2 p k)) = _
  refine congrArg _ ?_
  funext a; apply Fin.ext
  match a with
  | ⟨0, _⟩ => show win2_1.index t (0 : Fin 2) * 10000 + 1 * p.val = t.val * 10000 + p.val; rw [e0]; omega
  | ⟨1, _⟩ => show win2_1.index t (1 : Fin 2) * 128 + 1 * k.val = k.val; rw [e1]; omega
theorem blk2_2 (c : Dev nD) (t : Fin cfg2.N) (j k : Fin 128) :
    iblk2 V c 2 t (ix2 j k) = V c (Pipeline.arrRef spec2 2) (ix2 j k) := by
  obtain ⟨-, -, -, -, e0, e1, -⟩ := idx_facts2 t
  show V c (Pipeline.arrRef spec2 2) (((cfg2.win 2).blk t).view.emb (ix2 j k)) = _
  refine congrArg _ ?_
  funext a; apply Fin.ext
  match a with
  | ⟨0, _⟩ => show win2_2.index t (0 : Fin 2) * 128 + 1 * j.val = j.val; rw [e0]; omega
  | ⟨1, _⟩ => show win2_2.index t (1 : Fin 2) * 128 + 1 * k.val = k.val; rw [e1]; omega
theorem blk2_3 (c : Dev nD) (t : Fin cfg2.N) (j k : Fin 128) :
    iblk2 V c 3 t (ix2 j k) = V c (Pipeline.arrRef spec2 3) (ix2 j k) := by
  obtain ⟨-, -, -, -, -, -, e0, e1, -⟩ := idx_facts2 t
  show V c (Pipeline.arrRef spec2 3) (((cfg2.win 3).blk t).view.emb (ix2 j k)) = _
  refine congrArg _ ?_
  funext a; apply Fin.ext
  match a with
  | ⟨0, _⟩ => show win2_3.index t (0 : Fin 2) * 128 + 1 * j.val = j.val; rw [e0]; omega
  | ⟨1, _⟩ => show win2_3.index t (1 : Fin 2) * 128 + 1 * k.val = k.val; rw [e1]; omega
theorem blk2_4 (c : Dev nD) (t : Fin cfg2.N) (z : Fin 1) (j : Fin 128) :
    iblk2 V c 4 t (ix2 z j) = V c (Pipeline.arrRef spec2 4) (ix2 z j) := by
  obtain ⟨-, -, -, -, -, -, -, -, e0, e1, -⟩ := idx_facts2 t
  show V c (Pipeline.arrRef spec2 4) (((cfg2.win 4).blk t).view.emb (ix2 z j)) = _
  refine congrArg _ ?_
  funext a; apply Fin.ext
  match a with
  | ⟨0, _⟩ => show win2_4.index t (0 : Fin 2) * 1 + 1 * z.val = z.val; rw [e0]; omega
  | ⟨1, _⟩ => show win2_4.index t (1 : Fin 2) * 128 + 1 * j.val = j.val; rw [e1]; omega

/-- The tile's linear output at (p, j) is the whole array's at row t·10000 + p. -/
theorem tile_lin2 (hp1 : TileLin2) (c : Dev nD) (t : Fin cfg2.N) (p : Fin 10000) (j : Fin 128) :
    k2_pay1 (iblk2 V c 0 t) (iblk2 V c 1 t) (iblk2 V c 2 t) (iblk2 V c 3 t) (iblk2 V c 4 t) (ix2 p j)
      = linArr2 V c (ix2 ⟨t.val * 10000 + p.val, tile_lt2 t p⟩ j) := by
  refine (hp1 _ _ _ _ _ p j).trans ?_
  simp only [blk2_0, blk2_1, blk2_2, blk2_3, blk2_4]
  rfl

/-! ## The linear output: what each point writes back, the cover, the whole array -/

/-- Point `t` writes back block `t` of the whole-array function. -/
theorem flushed2_5 (hp1 : TileLin2) (c : Dev nD) (t : Fin cfg2.N) :
    (dat2 V c).flushed 5 t = ((cfg2.win 5).blk t).view.read (Elt Ideal) (linArr2 V c) := by
  show (cfg2.win 5).cut (grid2.coords t) ((dat2 V c).after 5 t) = _
  rw [after2_5]
  unfold lin2
  rw [View.canon_unit_zero zeros2_2]
  simp only [View.ld_unit_zero (S := S10000x128) zeros2_2, View.ld_unit_zero (S := S128x128) zeros2_2, View.ld_unit_zero (S := S1x128) zeros2_2]
  funext y
  obtain ⟨p, j, rfl⟩ : ∃ (p : Fin 10000) (j : Fin 128), y = ix2 p j := ⟨y 0, y 1, eq_ix2 y⟩
  show k2_pay1 (iblk2 V c 0 t) (iblk2 V c 1 t) (iblk2 V c 2 t) (iblk2 V c 3 t) (iblk2 V c 4 t) (ix2 p j)
    = linArr2 V c (((cfg2.win 5).blk t).view.emb (ix2 p j))
  refine (tile_lin2 V hp1 c t p j).trans ?_
  refine congrArg _ ?_
  obtain ⟨-, -, -, -, -, -, -, -, -, -, e0, e1, -⟩ := idx_facts2 t
  funext a; apply Fin.ext
  match a with
  | ⟨0, _⟩ => show t.val * 10000 + p.val = win2_5.index t (0 : Fin 2) * 10000 + 1 * p.val; rw [e0]; omega
  | ⟨1, _⟩ => show j.val = win2_5.index t (1 : Fin 2) * 128 + 1 * j.val; rw [e1]; omega

/-- An index of the array is in point `t`'s block iff each coordinate is in the block's range on its axis. -/
theorem mem_blk2_5 (t : Fin cfg2.N) (i : S50000x128.Idx) :
    i ∈ ((cfg2.win 5).blk t).view.set ↔ ∀ a : Fin 2, win2_5.index t a * S10000x128.size a ≤ (i a).val ∧ (i a).val < win2_5.index t a * S10000x128.size a + S10000x128.size a := by
  show i ∈ ((View.whole (Pipeline.arrRef spec2 5)).slice (win2_5.rect t)).set ↔ _
  rw [View.set_slice_whole, Rect.mem_set_unit]
  exact Iff.rfl

/-- Every row lies in the tile of the point `row / 10000`. -/
theorem cover2_5 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 5 := N_2
  refine ⟨⟨(i 0).val / 10000, by rw [hN]; omega⟩, flush2_5 _, ?_⟩
  rw [mem_blk2_5]
  obtain ⟨-, -, -, -, -, -, -, -, -, -, e0, e1, -⟩ := idx_facts2 ⟨(i 0).val / 10000, by rw [hN]; omega⟩
  intro a
  match a with
  | ⟨0, _⟩ => show win2_5.index _ (0 : Fin 2) * 10000 ≤ (i 0).val ∧ (i 0).val < win2_5.index _ (0 : Fin 2) * 10000 + 10000; rw [e0]; dsimp only; omega
  | ⟨1, _⟩ => show win2_5.index _ (1 : Fin 2) * 128 ≤ (i 1).val ∧ (i 1).val < win2_5.index _ (1 : Fin 2) * 128 + 128; rw [e1]; omega

/-- The linear output's array after the region. -/
theorem final2_5 (hp1 : TileLin2) (c : Dev nD) : (dat2 V c).arrAt 5 cfg2.N = linArr2 V c :=
  (dat2 V c).arrAt_eq_of_cover 5 (linArr2 V c) (fun t _ => flushed2_5 V hp1 c t) cover2_5

/-! ## The two running rows -/

theorem sumFirst2_apply (hp2 : TileSum2) (x0 x1 : Vec Ideal S10000x128 .f32) (x2 x3 : Vec Ideal S128x128 .f32) (x4 : Vec Ideal S1x128 .f32) (j : Fin 128) :
    sumFirst2 x0 x1 x2 x3 x4 (ix2 (0 : Fin 1) j) = ∑ p : Fin 10000, k2_pay1 x0 x1 x2 x3 x4 (ix2 p j) := by
  unfold sumFirst2
  rw [View.canon_unit_zero zeros2_2]
  simp only [View.ld_unit_zero (S := S10000x128) zeros2_2, View.ld_unit_zero (S := S128x128) zeros2_2, View.ld_unit_zero (S := S1x128) zeros2_2]
  exact hp2 x0 x1 x2 x3 x4 j
theorem sumLater2_apply (hp2 : TileSum2) (hp4 : TileAcc2) (x0 x1 : Vec Ideal S10000x128 .f32) (x2 x3 : Vec Ideal S128x128 .f32) (x4 : Vec Ideal S1x128 .f32)
    (s : Vec Ideal S1x128 .f32) (j : Fin 128) :
    sumLater2 x0 x1 x2 x3 x4 s (ix2 (0 : Fin 1) j) = s (ix2 (0 : Fin 1) j) + ∑ p : Fin 10000, k2_pay1 x0 x1 x2 x3 x4 (ix2 p j) := by
  unfold sumLater2
  rw [View.canon_unit_zero zeros2_2]
  simp only [View.ld_unit_zero (S := S10000x128) zeros2_2, View.ld_unit_zero (S := S128x128) zeros2_2, View.ld_unit_zero (S := S1x128) zeros2_2]
  exact (hp4 x0 x1 x2 x3 x4 s j).trans (congrArg _ (hp2 x0 x1 x2 x3 x4 j))
theorem sqFirst2_apply (hp3 : TileSq2) (x0 x1 : Vec Ideal S10000x128 .f32) (x2 x3 : Vec Ideal S128x128 .f32) (x4 : Vec Ideal S1x128 .f32) (j : Fin 128) :
    sqFirst2 x0 x1 x2 x3 x4 (ix2 (0 : Fin 1) j) = ∑ p : Fin 10000, k2_pay1 x0 x1 x2 x3 x4 (ix2 p j) * k2_pay1 x0 x1 x2 x3 x4 (ix2 p j) := by
  unfold sqFirst2
  rw [View.canon_unit_zero zeros2_2]
  simp only [View.ld_unit_zero (S := S10000x128) zeros2_2, View.ld_unit_zero (S := S128x128) zeros2_2, View.ld_unit_zero (S := S1x128) zeros2_2]
  exact hp3 x0 x1 x2 x3 x4 j
theorem sqLater2_apply (hp3 : TileSq2) (hp5 : TileAccSq2) (x0 x1 : Vec Ideal S10000x128 .f32) (x2 x3 : Vec Ideal S128x128 .f32) (x4 : Vec Ideal S1x128 .f32)
    (s : Vec Ideal S1x128 .f32) (j : Fin 128) :
    sqLater2 x0 x1 x2 x3 x4 s (ix2 (0 : Fin 1) j) = s (ix2 (0 : Fin 1) j) + ∑ p : Fin 10000, k2_pay1 x0 x1 x2 x3 x4 (ix2 p j) * k2_pay1 x0 x1 x2 x3 x4 (ix2 p j) := by
  unfold sqLater2
  rw [View.canon_unit_zero zeros2_2]
  simp only [View.ld_unit_zero (S := S10000x128) zeros2_2, View.ld_unit_zero (S := S128x128) zeros2_2, View.ld_unit_zero (S := S1x128) zeros2_2]
  exact (hp5 x0 x1 x2 x3 x4 s j).trans (congrArg _ (hp3 x0 x1 x2 x3 x4 j))

/-- Column `j` of the linear output as a sequence of rows (0 past the last row). -/
def colOf2 (c : Dev nD) (j : Fin 128) (r : ℕ) : EReal := if h : r < 50000 then linArr2 V c (ix2 ⟨r, h⟩ j) else 0

theorem colOf2_tile (c : Dev nD) (j : Fin 128) (t : Fin cfg2.N) (p : Fin 10000) :
    colOf2 V c j (t.val * 10000 + p.val) = linArr2 V c (ix2 ⟨t.val * 10000 + p.val, tile_lt2 t p⟩ j) := by
  unfold colOf2; rw [dif_pos (tile_lt2 t p)]

/-- After the body at position `n` the running row holds, in column `j`, the sum of the first `n + 1` tiles' rows. -/
theorem sumAt2_apply (hp1 : TileLin2) (hp2 : TileSum2) (hp4 : TileAcc2) (c : Dev nD) (j : Fin 128) :
    ∀ (n : ℕ) (hn : n < cfg2.N), sumAt2 V c n hn (ix2 (0 : Fin 1) j)
      = ∑ t ∈ Finset.range (n + 1), ∑ p : Fin 10000, colOf2 V c j (t * 10000 + p.val)
  | 0, hn => by
    show sumFirst2 (iblk2 V c 0 ⟨0, hn⟩) (iblk2 V c 1 ⟨0, hn⟩) (iblk2 V c 2 ⟨0, hn⟩) (iblk2 V c 3 ⟨0, hn⟩) (iblk2 V c 4 ⟨0, hn⟩) (ix2 (0 : Fin 1) j) = _
    rw [sumFirst2_apply hp2, Finset.sum_range_one]
    refine Finset.sum_congr rfl fun p _ => ?_
    exact (tile_lin2 V hp1 c ⟨0, hn⟩ p j).trans (colOf2_tile V c j ⟨0, hn⟩ p).symm
  | n + 1, hn => by
    show sumLater2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (sumAt2 V c n (Nat.lt_of_succ_lt hn)) (ix2 (0 : Fin 1) j) = _
    rw [sumLater2_apply hp2 hp4, sumAt2_apply hp1 hp2 hp4 c j n (Nat.lt_of_succ_lt hn), Finset.sum_range_succ _ (n + 1)]
    refine congrArg _ (Finset.sum_congr rfl fun p _ => ?_)
    exact (tile_lin2 V hp1 c ⟨n + 1, hn⟩ p j).trans (colOf2_tile V c j ⟨n + 1, hn⟩ p).symm
theorem sqAt2_apply (hp1 : TileLin2) (hp3 : TileSq2) (hp5 : TileAccSq2) (c : Dev nD) (j : Fin 128) :
    ∀ (n : ℕ) (hn : n < cfg2.N), sqAt2 V c n hn (ix2 (0 : Fin 1) j)
      = ∑ t ∈ Finset.range (n + 1), ∑ p : Fin 10000, colOf2 V c j (t * 10000 + p.val) * colOf2 V c j (t * 10000 + p.val)
  | 0, hn => by
    show sqFirst2 (iblk2 V c 0 ⟨0, hn⟩) (iblk2 V c 1 ⟨0, hn⟩) (iblk2 V c 2 ⟨0, hn⟩) (iblk2 V c 3 ⟨0, hn⟩) (iblk2 V c 4 ⟨0, hn⟩) (ix2 (0 : Fin 1) j) = _
    rw [sqFirst2_apply hp3, Finset.sum_range_one]
    refine Finset.sum_congr rfl fun p _ => ?_
    rw [tile_lin2 V hp1 c ⟨0, hn⟩ p j, ← colOf2_tile V c j ⟨0, hn⟩ p]
  | n + 1, hn => by
    show sqLater2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (sqAt2 V c n (Nat.lt_of_succ_lt hn)) (ix2 (0 : Fin 1) j) = _
    rw [sqLater2_apply hp3 hp5, sqAt2_apply hp1 hp3 hp5 c j n (Nat.lt_of_succ_lt hn), Finset.sum_range_succ _ (n + 1)]
    refine congrArg _ (Finset.sum_congr rfl fun p _ => ?_)
    rw [tile_lin2 V hp1 c ⟨n + 1, hn⟩ p j, ← colOf2_tile V c j ⟨n + 1, hn⟩ p]

/-- The last point's position. -/
theorem last_lt2 : 4 < cfg2.N := by rw [show cfg2.N = 5 from N_2]; decide

/-- The first running row is written back once, after the last point: the array ends at what the last point left. -/
theorem final2_6 (c : Dev nD) : (dat2 V c).arrAt 6 cfg2.N = sumAt2 V c 4 last_lt2 := by
  refine (dat2 V c).arrAt_eq_of_cover 6 (sumAt2 V c 4 last_lt2) (fun t hf => ?_) (fun i => ?_)
  · have h4 : t.val = 4 := by
      have hN : t.val < 5 := lt_of_lt_of_eq t.isLt (show cfg2.N = 5 from N_2)
      have := (flush2_6 t).mp hf; omega
    obtain ⟨n, hn⟩ := t
    dsimp only at h4; subst h4
    show (cfg2.win 6).cut (grid2.coords ⟨4, hn⟩) ((dat2 V c).after 6 ⟨4, hn⟩) = _
    rw [after2_6]
    funext y
    show sumAt2 V c 4 hn y = sumAt2 V c 4 last_lt2 (((cfg2.win 6).blk ⟨4, hn⟩).view.emb y)
    refine congrArg _ ?_
    obtain ⟨-, -, -, -, -, -, -, -, -, -, -, -, e0, e1, -⟩ := idx_facts2 ⟨4, hn⟩
    funext a; apply Fin.ext
    match a with
    | ⟨0, _⟩ => show (y 0).val = win2_6.index ⟨4, hn⟩ (0 : Fin 2) * 1 + 1 * (y 0).val; rw [e0]; omega
    | ⟨1, _⟩ => show (y 1).val = win2_6.index ⟨4, hn⟩ (1 : Fin 2) * 128 + 1 * (y 1).val; rw [e1]; omega
  · refine ⟨⟨4, last_lt2⟩, (flush2_6 _).mpr rfl, ?_⟩
    show i ∈ ((View.whole (Pipeline.arrRef spec2 6)).slice (win2_6.rect ⟨4, last_lt2⟩)).set
    rw [View.set_slice_whole, Rect.mem_set_unit]
    obtain ⟨-, -, -, -, -, -, -, -, -, -, -, -, e0, e1, -⟩ := idx_facts2 ⟨4, last_lt2⟩
    intro a
    have hi0 : (i 0).val < 1 := (i 0).isLt
    have hi1 : (i 1).val < 128 := (i 1).isLt
    match a with
    | ⟨0, _⟩ => show win2_6.index _ (0 : Fin 2) * 1 ≤ (i 0).val ∧ (i 0).val < win2_6.index _ (0 : Fin 2) * 1 + 1; rw [e0]; omega
    | ⟨1, _⟩ => show win2_6.index _ (1 : Fin 2) * 128 ≤ (i 1).val ∧ (i 1).val < win2_6.index _ (1 : Fin 2) * 128 + 128; rw [e1]; omega
theorem final2_7 (c : Dev nD) : (dat2 V c).arrAt 7 cfg2.N = sqAt2 V c 4 last_lt2 := by
  refine (dat2 V c).arrAt_eq_of_cover 7 (sqAt2 V c 4 last_lt2) (fun t hf => ?_) (fun i => ?_)
  · have h4 : t.val = 4 := by
      have hN : t.val < 5 := lt_of_lt_of_eq t.isLt (show cfg2.N = 5 from N_2)
      have := (flush2_7 t).mp hf; omega
    obtain ⟨n, hn⟩ := t
    dsimp only at h4; subst h4
    show (cfg2.win 7).cut (grid2.coords ⟨4, hn⟩) ((dat2 V c).after 7 ⟨4, hn⟩) = _
    rw [after2_7]
    funext y
    show sqAt2 V c 4 hn y = sqAt2 V c 4 last_lt2 (((cfg2.win 7).blk ⟨4, hn⟩).view.emb y)
    refine congrArg _ ?_
    obtain ⟨-, -, -, -, -, -, -, -, -, -, -, -, -, -, e0, e1⟩ := idx_facts2 ⟨4, hn⟩
    funext a; apply Fin.ext
    match a with
    | ⟨0, _⟩ => show (y 0).val = win2_7.index ⟨4, hn⟩ (0 : Fin 2) * 1 + 1 * (y 0).val; rw [e0]; omega
    | ⟨1, _⟩ => show (y 1).val = win2_7.index ⟨4, hn⟩ (1 : Fin 2) * 128 + 1 * (y 1).val; rw [e1]; omega
  · refine ⟨⟨4, last_lt2⟩, (flush2_7 _).mpr rfl, ?_⟩
    show i ∈ ((View.whole (Pipeline.arrRef spec2 7)).slice (win2_7.rect ⟨4, last_lt2⟩)).set
    rw [View.set_slice_whole, Rect.mem_set_unit]
    obtain ⟨-, -, -, -, -, -, -, -, -, -, -, -, -, -, e0, e1⟩ := idx_facts2 ⟨4, last_lt2⟩
    intro a
    have hi0 : (i 0).val < 1 := (i 0).isLt
    have hi1 : (i 1).val < 128 := (i 1).isLt
    match a with
    | ⟨0, _⟩ => show win2_7.index _ (0 : Fin 2) * 1 ≤ (i 0).val ∧ (i 0).val < win2_7.index _ (0 : Fin 2) * 1 + 1; rw [e0]; omega
    | ⟨1, _⟩ => show win2_7.index _ (1 : Fin 2) * 128 ≤ (i 1).val ∧ (i 1).val < win2_7.index _ (1 : Fin 2) * 128 + 128; rw [e1]; omega

/-! ## The running rows' arrays, column by column -/

theorem rangeSum2 (c : Dev nD) (j : Fin 128) (g : EReal → EReal) :
    ∑ t ∈ Finset.range 5, ∑ p : Fin 10000, g (colOf2 V c j (t * 10000 + p.val)) = ∑ r : Fin 50000, g (linArr2 V c (ix2 r j)) := by
  rw [Finset.sum_range, Cert.Tiles.sum_tiles (fun r => g (linArr2 V c (ix2 r j)))]
  refine Finset.sum_congr rfl fun t _ => Finset.sum_congr rfl fun p _ => ?_
  unfold colOf2
  rw [dif_pos (Cert.Tiles.tile_lt t p)]

/-- Column `j` of the first running row's array is the sum of column `j` of the linear output. -/
theorem final2_6_apply (hp1 : TileLin2) (hp2 : TileSum2) (hp4 : TileAcc2) (c : Dev nD) (j : Fin 128) :
    (dat2 V c).arrAt 6 cfg2.N (ix2 (0 : Fin 1) j) = ∑ r : Fin 50000, linArr2 V c (ix2 r j) := by
  rw [final2_6]
  exact (sumAt2_apply V hp1 hp2 hp4 c j 4 last_lt2).trans (rangeSum2 V c j id)
/-- Column `j` of the second running row's array is the sum of the squares of column `j` of the linear output. -/
theorem final2_7_apply (hp1 : TileLin2) (hp3 : TileSq2) (hp5 : TileAccSq2) (c : Dev nD) (j : Fin 128) :
    (dat2 V c).arrAt 7 cfg2.N (ix2 (0 : Fin 1) j) = ∑ r : Fin 50000, linArr2 V c (ix2 r j) * linArr2 V c (ix2 r j) := by
  rw [final2_7]
  exact (sqAt2_apply V hp1 hp3 hp5 c j 4 last_lt2).trans (rangeSum2 V c j (fun x => x * x))

end Cert.KernelIdeal.Frames

end
-- ==== Proof.KI.LinVal4.lean ====
/-
  What region 4 leaves in its three output arrays, index by index, at the ideal instance (floats are extended reals).
  Row r of the linear output is computed at grid point r / 10000 from row r of the two feature arrays: its entry in
  column j is  Σₖ mean(r,k)·Wl(j,k) + Σₖ h(r,k)·Wr(j,k) + b(j). The five tiles cover the 50000 rows. The two running rows are
  written back once, after the last point: column j of the first is the sum over the five tiles of the tile's column
  sums, which is the sum of the whole column; the second likewise for the squares.
  The arithmetic of one tile (the body's stored values read at an index) is taken as hypotheses `hp1 … hp5`, proved
  elsewhere from the printed body.
-/
import proofs.«139727_j46445776339648_1_alg».proof.Proof.KI.Stats4
import Idealize.ShloMosaic.Lib.Pipeline.Value
import Idealize.ShloMosaic.Lib.ValueIdx
import proofs.«139727_j46445776339648_1_alg».proof.Proof.Tiles

set_option maxRecDepth 16384

noncomputable section

namespace Cert.KernelIdeal.Frames

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- One tile's linear output at an index, as a function of the tile's loads. -/
def TileLin4 : Prop := ∀ (x0 x1 : Vec Ideal S10000x128 .f32) (x2 x3 : Vec Ideal S128x128 .f32) (x4 : Vec Ideal S1x128 .f32) (p : Fin 10000) (j : Fin 128),
  k4_pay1 x0 x1 x2 x3 x4 (ix2 p j)
    = (∑ k : Fin 128, x0 (ix2 p k) * x2 (ix2 j k) + ∑ k : Fin 128, x1 (ix2 p k) * x3 (ix2 j k)) + x4 (ix2 (0 : Fin 1) j)
/-- One tile's column sums. -/
def TileSum4 : Prop := ∀ (x0 x1 : Vec Ideal S10000x128 .f32) (x2 x3 : Vec Ideal S128x128 .f32) (x4 : Vec Ideal S1x128 .f32) (j : Fin 128),
  k4_pay2 x0 x1 x2 x3 x4 (ix2 (0 : Fin 1) j) = ∑ p : Fin 10000, k4_pay1 x0 x1 x2 x3 x4 (ix2 p j)
/-- One tile's column sums of squares. -/
def TileSq4 : Prop := ∀ (x0 x1 : Vec Ideal S10000x128 .f32) (x2 x3 : Vec Ideal S128x128 .f32) (x4 : Vec Ideal S1x128 .f32) (j : Fin 128),
  k4_pay3 x0 x1 x2 x3 x4 (ix2 (0 : Fin 1) j) = ∑ p : Fin 10000, k4_pay1 x0 x1 x2 x3 x4 (ix2 p j) * k4_pay1 x0 x1 x2 x3 x4 (ix2 p j)
/-- A later point adds the tile's column sums to the running row. -/
def TileAcc4 : Prop := ∀ (x0 x1 : Vec Ideal S10000x128 .f32) (x2 x3 : Vec Ideal S128x128 .f32) (x4 : Vec Ideal S1x128 .f32) (s : Vec Ideal S1x128 .f32) (j : Fin 128),
  k4_pay4 x0 x1 x2 x3 x4 s (ix2 (0 : Fin 1) j) = s (ix2 (0 : Fin 1) j) + k4_pay2 x0 x1 x2 x3 x4 (ix2 (0 : Fin 1) j)
def TileAccSq4 : Prop := ∀ (x0 x1 : Vec Ideal S10000x128 .f32) (x2 x3 : Vec Ideal S128x128 .f32) (x4 : Vec Ideal S1x128 .f32) (s : Vec Ideal S1x128 .f32) (j : Fin 128),
  k4_pay5 x0 x1 x2 x3 x4 s (ix2 (0 : Fin 1) j) = s (ix2 (0 : Fin 1) j) + k4_pay3 x0 x1 x2 x3 x4 (ix2 (0 : Fin 1) j)

variable (V : (c : Dev nD) → (b : Ref sig .tc) → Buf (Elt Ideal) ((c : Thread nD τ).loc b))

theorem zeros2_4 : (![0, 0] : Fin 2 → Nat) = fun _ => 0 := funext fun a => by fin_cases a <;> rfl

/-- The linear output as one function of the region's five input arrays. -/
def linOf4 (mean h : S50000x128.Idx → Elt Ideal .f32) (Wl Wr : S128x128.Idx → Elt Ideal .f32) (b : S1x128.Idx → Elt Ideal .f32) :
    S50000x128.Idx → Elt Ideal .f32 := fun i =>
  (∑ k : Fin 128, mean (ix2 (i 0) k) * Wl (ix2 (i 1) k) + ∑ k : Fin 128, h (ix2 (i 0) k) * Wr (ix2 (i 1) k)) + b (ix2 (0 : Fin 1) (i 1))
theorem linOf4_apply (mean h : S50000x128.Idx → Elt Ideal .f32) (Wl Wr : S128x128.Idx → Elt Ideal .f32) (b : S1x128.Idx → Elt Ideal .f32) (r : Fin 50000) (j : Fin 128) :
    linOf4 mean h Wl Wr b (ix2 r j)
      = (∑ k : Fin 128, mean (ix2 r k) * Wl (ix2 j k) + ∑ k : Fin 128, h (ix2 r k) * Wr (ix2 j k)) + b (ix2 (0 : Fin 1) j) := rfl
/-- The region's linear output, of the arrays as the region finds them. -/
abbrev linArr4 (c : Dev nD) : S50000x128.Idx → Elt Ideal .f32 :=
  linOf4 (V c (Pipeline.arrRef spec4 0)) (V c (Pipeline.arrRef spec4 1)) (V c (Pipeline.arrRef spec4 2)) (V c (Pipeline.arrRef spec4 3)) (V c (Pipeline.arrRef spec4 4))

/-- The printed index maps over the grid: the two feature windows and the linear output move one tile of rows per point; the
    weights, the bias and the two running rows stay at block 0. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-! ## The input blocks, read at an index -/

theorem tile_lt4 (t : Fin cfg4.N) (p : Fin 10000) : t.val * 10000 + p.val < 50000 := by
  have hN : t.val < 5 := lt_of_lt_of_eq t.isLt (show cfg4.N = 5 from N_4)
  have := p.isLt; omega

theorem blk4_0 (c : Dev nD) (t : Fin cfg4.N) (p : Fin 10000) (k : Fin 128) :
    iblk4 V c 0 t (ix2 p k) = V c (Pipeline.arrRef spec4 0) (ix2 ⟨t.val * 10000 + p.val, tile_lt4 t p⟩ k) := by
  obtain ⟨e0, e1, -⟩ := idx_facts4 t
  show V c (Pipeline.arrRef spec4 0) (((cfg4.win 0).blk t).view.emb (ix2 p k)) = _
  refine congrArg _ ?_
  funext a; apply Fin.ext
  match a with
  | ⟨0, _⟩ => show win4_0.index t (0 : Fin 2) * 10000 + 1 * p.val = t.val * 10000 + p.val; rw [e0]; omega
  | ⟨1, _⟩ => show win4_0.index t (1 : Fin 2) * 128 + 1 * k.val = k.val; rw [e1]; omega
theorem blk4_1 (c : Dev nD) (t : Fin cfg4.N) (p : Fin 10000) (k : Fin 128) :
    iblk4 V c 1 t (ix2 p k) = V c (Pipeline.arrRef spec4 1) (ix2 ⟨t.val * 10000 + p.val, tile_lt4 t p⟩ k) := by
  obtain ⟨-, -, e0, e1, -⟩ := idx_facts4 t
  show V c (Pipeline.arrRef spec4 1) (((cfg4.win 1).blk t).view.emb (ix2 p k)) = _
  refine congrArg _ ?_
  funext a; apply Fin.ext
  match a with
  | ⟨0, _⟩ => show win4_1.index t (0 : Fin 2) * 10000 + 1 * p.val = t.val * 10000 + p.val; rw [e0]; omega
  | ⟨1, _⟩ => show win4_1.index t (1 : Fin 2) * 128 + 1 * k.val = k.val; rw [e1]; omega
theorem blk4_2 (c : Dev nD) (t : Fin cfg4.N) (j k : Fin 128) :
    iblk4 V c 2 t (ix2 j k) = V c (Pipeline.arrRef spec4 2) (ix2 j k) := by
  obtain ⟨-, -, -, -, e0, e1, -⟩ := idx_facts4 t
  show V c (Pipeline.arrRef spec4 2) (((cfg4.win 2).blk t).view.emb (ix2 j k)) = _
  refine congrArg _ ?_
  funext a; apply Fin.ext
  match a with
  | ⟨0, _⟩ => show win4_2.index t (0 : Fin 2) * 128 + 1 * j.val = j.val; rw [e0]; omega
  | ⟨1, _⟩ => show win4_2.index t (1 : Fin 2) * 128 + 1 * k.val = k.val; rw [e1]; omega
theorem blk4_3 (c : Dev nD) (t : Fin cfg4.N) (j k : Fin 128) :
    iblk4 V c 3 t (ix2 j k) = V c (Pipeline.arrRef spec4 3) (ix2 j k) := by
  obtain ⟨-, -, -, -, -, -, e0, e1, -⟩ := idx_facts4 t
  show V c (Pipeline.arrRef spec4 3) (((cfg4.win 3).blk t).view.emb (ix2 j k)) = _
  refine congrArg _ ?_
  funext a; apply Fin.ext
  match a with
  | ⟨0, _⟩ => show win4_3.index t (0 : Fin 2) * 128 + 1 * j.val = j.val; rw [e0]; omega
  | ⟨1, _⟩ => show win4_3.index t (1 : Fin 2) * 128 + 1 * k.val = k.val; rw [e1]; omega
theorem blk4_4 (c : Dev nD) (t : Fin cfg4.N) (z : Fin 1) (j : Fin 128) :
    iblk4 V c 4 t (ix2 z j) = V c (Pipeline.arrRef spec4 4) (ix2 z j) := by
  obtain ⟨-, -, -, -, -, -, -, -, e0, e1, -⟩ := idx_facts4 t
  show V c (Pipeline.arrRef spec4 4) (((cfg4.win 4).blk t).view.emb (ix2 z j)) = _
  refine congrArg _ ?_
  funext a; apply Fin.ext
  match a with
  | ⟨0, _⟩ => show win4_4.index t (0 : Fin 2) * 1 + 1 * z.val = z.val; rw [e0]; omega
  | ⟨1, _⟩ => show win4_4.index t (1 : Fin 2) * 128 + 1 * j.val = j.val; rw [e1]; omega

/-- The tile's linear output at (p, j) is the whole array's at row t·10000 + p. -/
theorem tile_lin4 (hp1 : TileLin4) (c : Dev nD) (t : Fin cfg4.N) (p : Fin 10000) (j : Fin 128) :
    k4_pay1 (iblk4 V c 0 t) (iblk4 V c 1 t) (iblk4 V c 2 t) (iblk4 V c 3 t) (iblk4 V c 4 t) (ix2 p j)
      = linArr4 V c (ix2 ⟨t.val * 10000 + p.val, tile_lt4 t p⟩ j) := by
  refine (hp1 _ _ _ _ _ p j).trans ?_
  simp only [blk4_0, blk4_1, blk4_2, blk4_3, blk4_4]
  rfl

/-! ## The linear output: what each point writes back, the cover, the whole array -/

/-- Point `t` writes back block `t` of the whole-array function. -/
theorem flushed4_5 (hp1 : TileLin4) (c : Dev nD) (t : Fin cfg4.N) :
    (dat4 V c).flushed 5 t = ((cfg4.win 5).blk t).view.read (Elt Ideal) (linArr4 V c) := by
  show (cfg4.win 5).cut (grid4.coords t) ((dat4 V c).after 5 t) = _
  rw [after4_5]
  unfold lin4
  rw [View.canon_unit_zero zeros2_4]
  simp only [View.ld_unit_zero (S := S10000x128) zeros2_4, View.ld_unit_zero (S := S128x128) zeros2_4, View.ld_unit_zero (S := S1x128) zeros2_4]
  funext y
  obtain ⟨p, j, rfl⟩ : ∃ (p : Fin 10000) (j : Fin 128), y = ix2 p j := ⟨y 0, y 1, eq_ix2 y⟩
  show k4_pay1 (iblk4 V c 0 t) (iblk4 V c 1 t) (iblk4 V c 2 t) (iblk4 V c 3 t) (iblk4 V c 4 t) (ix2 p j)
    = linArr4 V c (((cfg4.win 5).blk t).view.emb (ix2 p j))
  refine (tile_lin4 V hp1 c t p j).trans ?_
  refine congrArg _ ?_
  obtain ⟨-, -, -, -, -, -, -, -, -, -, e0, e1, -⟩ := idx_facts4 t
  funext a; apply Fin.ext
  match a with
  | ⟨0, _⟩ => show t.val * 10000 + p.val = win4_5.index t (0 : Fin 2) * 10000 + 1 * p.val; rw [e0]; omega
  | ⟨1, _⟩ => show j.val = win4_5.index t (1 : Fin 2) * 128 + 1 * j.val; rw [e1]; omega

/-- An index of the array is in point `t`'s block iff each coordinate is in the block's range on its axis. -/
theorem mem_blk4_5 (t : Fin cfg4.N) (i : S50000x128.Idx) :
    i ∈ ((cfg4.win 5).blk t).view.set ↔ ∀ a : Fin 2, win4_5.index t a * S10000x128.size a ≤ (i a).val ∧ (i a).val < win4_5.index t a * S10000x128.size a + S10000x128.size a := by
  show i ∈ ((View.whole (Pipeline.arrRef spec4 5)).slice (win4_5.rect t)).set ↔ _
  rw [View.set_slice_whole, Rect.mem_set_unit]
  exact Iff.rfl

/-- Every row lies in the tile of the point `row / 10000`. -/
theorem cover4_5 (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  have hN : cfg4.N = 5 := N_4
  refine ⟨⟨(i 0).val / 10000, by rw [hN]; omega⟩, flush4_5 _, ?_⟩
  rw [mem_blk4_5]
  obtain ⟨-, -, -, -, -, -, -, -, -, -, e0, e1, -⟩ := idx_facts4 ⟨(i 0).val / 10000, by rw [hN]; omega⟩
  intro a
  match a with
  | ⟨0, _⟩ => show win4_5.index _ (0 : Fin 2) * 10000 ≤ (i 0).val ∧ (i 0).val < win4_5.index _ (0 : Fin 2) * 10000 + 10000; rw [e0]; dsimp only; omega
  | ⟨1, _⟩ => show win4_5.index _ (1 : Fin 2) * 128 ≤ (i 1).val ∧ (i 1).val < win4_5.index _ (1 : Fin 2) * 128 + 128; rw [e1]; omega

/-- The linear output's array after the region. -/
theorem final4_5 (hp1 : TileLin4) (c : Dev nD) : (dat4 V c).arrAt 5 cfg4.N = linArr4 V c :=
  (dat4 V c).arrAt_eq_of_cover 5 (linArr4 V c) (fun t _ => flushed4_5 V hp1 c t) cover4_5

/-! ## The two running rows -/

theorem sumFirst4_apply (hp2 : TileSum4) (x0 x1 : Vec Ideal S10000x128 .f32) (x2 x3 : Vec Ideal S128x128 .f32) (x4 : Vec Ideal S1x128 .f32) (j : Fin 128) :
    sumFirst4 x0 x1 x2 x3 x4 (ix2 (0 : Fin 1) j) = ∑ p : Fin 10000, k4_pay1 x0 x1 x2 x3 x4 (ix2 p j) := by
  unfold sumFirst4
  rw [View.canon_unit_zero zeros2_4]
  simp only [View.ld_unit_zero (S := S10000x128) zeros2_4, View.ld_unit_zero (S := S128x128) zeros2_4, View.ld_unit_zero (S := S1x128) zeros2_4]
  exact hp2 x0 x1 x2 x3 x4 j
theorem sumLater4_apply (hp2 : TileSum4) (hp4 : TileAcc4) (x0 x1 : Vec Ideal S10000x128 .f32) (x2 x3 : Vec Ideal S128x128 .f32) (x4 : Vec Ideal S1x128 .f32)
    (s : Vec Ideal S1x128 .f32) (j : Fin 128) :
    sumLater4 x0 x1 x2 x3 x4 s (ix2 (0 : Fin 1) j) = s (ix2 (0 : Fin 1) j) + ∑ p : Fin 10000, k4_pay1 x0 x1 x2 x3 x4 (ix2 p j) := by
  unfold sumLater4
  rw [View.canon_unit_zero zeros2_4]
  simp only [View.ld_unit_zero (S := S10000x128) zeros2_4, View.ld_unit_zero (S := S128x128) zeros2_4, View.ld_unit_zero (S := S1x128) zeros2_4]
  exact (hp4 x0 x1 x2 x3 x4 s j).trans (congrArg _ (hp2 x0 x1 x2 x3 x4 j))
theorem sqFirst4_apply (hp3 : TileSq4) (x0 x1 : Vec Ideal S10000x128 .f32) (x2 x3 : Vec Ideal S128x128 .f32) (x4 : Vec Ideal S1x128 .f32) (j : Fin 128) :
    sqFirst4 x0 x1 x2 x3 x4 (ix2 (0 : Fin 1) j) = ∑ p : Fin 10000, k4_pay1 x0 x1 x2 x3 x4 (ix2 p j) * k4_pay1 x0 x1 x2 x3 x4 (ix2 p j) := by
  unfold sqFirst4
  rw [View.canon_unit_zero zeros2_4]
  simp only [View.ld_unit_zero (S := S10000x128) zeros2_4, View.ld_unit_zero (S := S128x128) zeros2_4, View.ld_unit_zero (S := S1x128) zeros2_4]
  exact hp3 x0 x1 x2 x3 x4 j
theorem sqLater4_apply (hp3 : TileSq4) (hp5 : TileAccSq4) (x0 x1 : Vec Ideal S10000x128 .f32) (x2 x3 : Vec Ideal S128x128 .f32) (x4 : Vec Ideal S1x128 .f32)
    (s : Vec Ideal S1x128 .f32) (j : Fin 128) :
    sqLater4 x0 x1 x2 x3 x4 s (ix2 (0 : Fin 1) j) = s (ix2 (0 : Fin 1) j) + ∑ p : Fin 10000, k4_pay1 x0 x1 x2 x3 x4 (ix2 p j) * k4_pay1 x0 x1 x2 x3 x4 (ix2 p j) := by
  unfold sqLater4
  rw [View.canon_unit_zero zeros2_4]
  simp only [View.ld_unit_zero (S := S10000x128) zeros2_4, View.ld_unit_zero (S := S128x128) zeros2_4, View.ld_unit_zero (S := S1x128) zeros2_4]
  exact (hp5 x0 x1 x2 x3 x4 s j).trans (congrArg _ (hp3 x0 x1 x2 x3 x4 j))

/-- Column `j` of the linear output as a sequence of rows (0 past the last row). -/
def colOf4 (c : Dev nD) (j : Fin 128) (r : ℕ) : EReal := if h : r < 50000 then linArr4 V c (ix2 ⟨r, h⟩ j) else 0

theorem colOf4_tile (c : Dev nD) (j : Fin 128) (t : Fin cfg4.N) (p : Fin 10000) :
    colOf4 V c j (t.val * 10000 + p.val) = linArr4 V c (ix2 ⟨t.val * 10000 + p.val, tile_lt4 t p⟩ j) := by
  unfold colOf4; rw [dif_pos (tile_lt4 t p)]

/-- After the body at position `n` the running row holds, in column `j`, the sum of the first `n + 1` tiles' rows. -/
theorem sumAt4_apply (hp1 : TileLin4) (hp2 : TileSum4) (hp4 : TileAcc4) (c : Dev nD) (j : Fin 128) :
    ∀ (n : ℕ) (hn : n < cfg4.N), sumAt4 V c n hn (ix2 (0 : Fin 1) j)
      = ∑ t ∈ Finset.range (n + 1), ∑ p : Fin 10000, colOf4 V c j (t * 10000 + p.val)
  | 0, hn => by
    show sumFirst4 (iblk4 V c 0 ⟨0, hn⟩) (iblk4 V c 1 ⟨0, hn⟩) (iblk4 V c 2 ⟨0, hn⟩) (iblk4 V c 3 ⟨0, hn⟩) (iblk4 V c 4 ⟨0, hn⟩) (ix2 (0 : Fin 1) j) = _
    rw [sumFirst4_apply hp2, Finset.sum_range_one]
    refine Finset.sum_congr rfl fun p _ => ?_
    exact (tile_lin4 V hp1 c ⟨0, hn⟩ p j).trans (colOf4_tile V c j ⟨0, hn⟩ p).symm
  | n + 1, hn => by
    show sumLater4 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (sumAt4 V c n (Nat.lt_of_succ_lt hn)) (ix2 (0 : Fin 1) j) = _
    rw [sumLater4_apply hp2 hp4, sumAt4_apply hp1 hp2 hp4 c j n (Nat.lt_of_succ_lt hn), Finset.sum_range_succ _ (n + 1)]
    refine congrArg _ (Finset.sum_congr rfl fun p _ => ?_)
    exact (tile_lin4 V hp1 c ⟨n + 1, hn⟩ p j).trans (colOf4_tile V c j ⟨n + 1, hn⟩ p).symm
theorem sqAt4_apply (hp1 : TileLin4) (hp3 : TileSq4) (hp5 : TileAccSq4) (c : Dev nD) (j : Fin 128) :
    ∀ (n : ℕ) (hn : n < cfg4.N), sqAt4 V c n hn (ix2 (0 : Fin 1) j)
      = ∑ t ∈ Finset.range (n + 1), ∑ p : Fin 10000, colOf4 V c j (t * 10000 + p.val) * colOf4 V c j (t * 10000 + p.val)
  | 0, hn => by
    show sqFirst4 (iblk4 V c 0 ⟨0, hn⟩) (iblk4 V c 1 ⟨0, hn⟩) (iblk4 V c 2 ⟨0, hn⟩) (iblk4 V c 3 ⟨0, hn⟩) (iblk4 V c 4 ⟨0, hn⟩) (ix2 (0 : Fin 1) j) = _
    rw [sqFirst4_apply hp3, Finset.sum_range_one]
    refine Finset.sum_congr rfl fun p _ => ?_
    rw [tile_lin4 V hp1 c ⟨0, hn⟩ p j, ← colOf4_tile V c j ⟨0, hn⟩ p]
  | n + 1, hn => by
    show sqLater4 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (sqAt4 V c n (Nat.lt_of_succ_lt hn)) (ix2 (0 : Fin 1) j) = _
    rw [sqLater4_apply hp3 hp5, sqAt4_apply hp1 hp3 hp5 c j n (Nat.lt_of_succ_lt hn), Finset.sum_range_succ _ (n + 1)]
    refine congrArg _ (Finset.sum_congr rfl fun p _ => ?_)
    rw [tile_lin4 V hp1 c ⟨n + 1, hn⟩ p j, ← colOf4_tile V c j ⟨n + 1, hn⟩ p]

/-- The last point's position. -/
theorem last_lt4 : 4 < cfg4.N := by rw [show cfg4.N = 5 from N_4]; decide

/-- The first running row is written back once, after the last point: the array ends at what the last point left. -/
theorem final4_6 (c : Dev nD) : (dat4 V c).arrAt 6 cfg4.N = sumAt4 V c 4 last_lt4 := by
  refine (dat4 V c).arrAt_eq_of_cover 6 (sumAt4 V c 4 last_lt4) (fun t hf => ?_) (fun i => ?_)
  · have h4 : t.val = 4 := by
      have hN : t.val < 5 := lt_of_lt_of_eq t.isLt (show cfg4.N = 5 from N_4)
      have := (flush4_6 t).mp hf; omega
    obtain ⟨n, hn⟩ := t
    dsimp only at h4; subst h4
    show (cfg4.win 6).cut (grid4.coords ⟨4, hn⟩) ((dat4 V c).after 6 ⟨4, hn⟩) = _
    rw [after4_6]
    funext y
    show sumAt4 V c 4 hn y = sumAt4 V c 4 last_lt4 (((cfg4.win 6).blk ⟨4, hn⟩).view.emb y)
    refine congrArg _ ?_
    obtain ⟨-, -, -, -, -, -, -, -, -, -, -, -, e0, e1, -⟩ := idx_facts4 ⟨4, hn⟩
    funext a; apply Fin.ext
    match a with
    | ⟨0, _⟩ => show (y 0).val = win4_6.index ⟨4, hn⟩ (0 : Fin 2) * 1 + 1 * (y 0).val; rw [e0]; omega
    | ⟨1, _⟩ => show (y 1).val = win4_6.index ⟨4, hn⟩ (1 : Fin 2) * 128 + 1 * (y 1).val; rw [e1]; omega
  · refine ⟨⟨4, last_lt4⟩, (flush4_6 _).mpr rfl, ?_⟩
    show i ∈ ((View.whole (Pipeline.arrRef spec4 6)).slice (win4_6.rect ⟨4, last_lt4⟩)).set
    rw [View.set_slice_whole, Rect.mem_set_unit]
    obtain ⟨-, -, -, -, -, -, -, -, -, -, -, -, e0, e1, -⟩ := idx_facts4 ⟨4, last_lt4⟩
    intro a
    have hi0 : (i 0).val < 1 := (i 0).isLt
    have hi1 : (i 1).val < 128 := (i 1).isLt
    match a with
    | ⟨0, _⟩ => show win4_6.index _ (0 : Fin 2) * 1 ≤ (i 0).val ∧ (i 0).val < win4_6.index _ (0 : Fin 2) * 1 + 1; rw [e0]; omega
    | ⟨1, _⟩ => show win4_6.index _ (1 : Fin 2) * 128 ≤ (i 1).val ∧ (i 1).val < win4_6.index _ (1 : Fin 2) * 128 + 128; rw [e1]; omega
theorem final4_7 (c : Dev nD) : (dat4 V c).arrAt 7 cfg4.N = sqAt4 V c 4 last_lt4 := by
  refine (dat4 V c).arrAt_eq_of_cover 7 (sqAt4 V c 4 last_lt4) (fun t hf => ?_) (fun i => ?_)
  · have h4 : t.val = 4 := by
      have hN : t.val < 5 := lt_of_lt_of_eq t.isLt (show cfg4.N = 5 from N_4)
      have := (flush4_7 t).mp hf; omega
    obtain ⟨n, hn⟩ := t
    dsimp only at h4; subst h4
    show (cfg4.win 7).cut (grid4.coords ⟨4, hn⟩) ((dat4 V c).after 7 ⟨4, hn⟩) = _
    rw [after4_7]
    funext y
    show sqAt4 V c 4 hn y = sqAt4 V c 4 last_lt4 (((cfg4.win 7).blk ⟨4, hn⟩).view.emb y)
    refine congrArg _ ?_
    obtain ⟨-, -, -, -, -, -, -, -, -, -, -, -, -, -, e0, e1⟩ := idx_facts4 ⟨4, hn⟩
    funext a; apply Fin.ext
    match a with
    | ⟨0, _⟩ => show (y 0).val = win4_7.index ⟨4, hn⟩ (0 : Fin 2) * 1 + 1 * (y 0).val; rw [e0]; omega
    | ⟨1, _⟩ => show (y 1).val = win4_7.index ⟨4, hn⟩ (1 : Fin 2) * 128 + 1 * (y 1).val; rw [e1]; omega
  · refine ⟨⟨4, last_lt4⟩, (flush4_7 _).mpr rfl, ?_⟩
    show i ∈ ((View.whole (Pipeline.arrRef spec4 7)).slice (win4_7.rect ⟨4, last_lt4⟩)).set
    rw [View.set_slice_whole, Rect.mem_set_unit]
    obtain ⟨-, -, -, -, -, -, -, -, -, -, -, -, -, -, e0, e1⟩ := idx_facts4 ⟨4, last_lt4⟩
    intro a
    have hi0 : (i 0).val < 1 := (i 0).isLt
    have hi1 : (i 1).val < 128 := (i 1).isLt
    match a with
    | ⟨0, _⟩ => show win4_7.index _ (0 : Fin 2) * 1 ≤ (i 0).val ∧ (i 0).val < win4_7.index _ (0 : Fin 2) * 1 + 1; rw [e0]; omega
    | ⟨1, _⟩ => show win4_7.index _ (1 : Fin 2) * 128 ≤ (i 1).val ∧ (i 1).val < win4_7.index _ (1 : Fin 2) * 128 + 128; rw [e1]; omega

/-! ## The running rows' arrays, column by column -/

theorem rangeSum4 (c : Dev nD) (j : Fin 128) (g : EReal → EReal) :
    ∑ t ∈ Finset.range 5, ∑ p : Fin 10000, g (colOf4 V c j (t * 10000 + p.val)) = ∑ r : Fin 50000, g (linArr4 V c (ix2 r j)) := by
  rw [Finset.sum_range, Cert.Tiles.sum_tiles (fun r => g (linArr4 V c (ix2 r j)))]
  refine Finset.sum_congr rfl fun t _ => Finset.sum_congr rfl fun p _ => ?_
  unfold colOf4
  rw [dif_pos (Cert.Tiles.tile_lt t p)]

/-- Column `j` of the first running row's array is the sum of column `j` of the linear output. -/
theorem final4_6_apply (hp1 : TileLin4) (hp2 : TileSum4) (hp4 : TileAcc4) (c : Dev nD) (j : Fin 128) :
    (dat4 V c).arrAt 6 cfg4.N (ix2 (0 : Fin 1) j) = ∑ r : Fin 50000, linArr4 V c (ix2 r j) := by
  rw [final4_6]
  exact (sumAt4_apply V hp1 hp2 hp4 c j 4 last_lt4).trans (rangeSum4 V c j id)
/-- Column `j` of the second running row's array is the sum of the squares of column `j` of the linear output. -/
theorem final4_7_apply (hp1 : TileLin4) (hp3 : TileSq4) (hp5 : TileAccSq4) (c : Dev nD) (j : Fin 128) :
    (dat4 V c).arrAt 7 cfg4.N (ix2 (0 : Fin 1) j) = ∑ r : Fin 50000, linArr4 V c (ix2 r j) * linArr4 V c (ix2 r j) := by
  rw [final4_7]
  exact (sqAt4_apply V hp1 hp3 hp5 c j 4 last_lt4).trans (rangeSum4 V c j (fun x => x * x))

end Cert.KernelIdeal.Frames

end
-- ==== Proof.KI.NormVal1.lean ====
/-
  What region 1 leaves in its output array, index by index, at the ideal instance: row r is computed at grid point
  r / 10000 from row r of the input array and the four parameter rows:  (x − mean)·rsqrt(var + ε)·γ + β, clamped below at 0.
  The five tiles cover the 50000 rows. The body's stored value read at an index is taken as the hypothesis `hp`.
-/
import proofs.«139727_j46445776339648_1_alg».proof.Proof.KI.Norm1
import Idealize.ShloMosaic.Lib.Pipeline.Value
import Idealize.ShloMosaic.Lib.ValueIdx

set_option maxRecDepth 16384

noncomputable section

namespace Cert.KernelIdeal.Frames

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- One tile's normalised value at an index, as a function of the tile's loads (the tile, the variance row, the mean row,
    the scale row, the shift row). -/
def TileNorm1 : Prop := ∀ (x : Vec Ideal S10000x128 .f32) (v mu g b : Vec Ideal S1x128 .f32) (p : Fin 10000) (j : Fin 128),
  k1_pay1 x v mu g b (ix2 p j) = max ((x (ix2 p j) - mu (ix2 (0 : Fin 1) j)) * Ideal.rsqrt (v (ix2 (0 : Fin 1) j) + Ideal.ofBits .f32 0x3727C5AC#32) * g (ix2 (0 : Fin 1) j) + b (ix2 (0 : Fin 1) j)) 0

variable (V : (c : Dev nD) → (b : Ref sig .tc) → Buf (Elt Ideal) ((c : Thread nD τ).loc b))

theorem zeros2_1 : (![0, 0] : Fin 2 → Nat) = fun _ => 0 := funext fun a => by fin_cases a <;> rfl

/-- The normalised output as one function of the region's five input arrays. -/
def normOf1 (x : S50000x128.Idx → Elt Ideal .f32) (mu v g b : S1x128.Idx → Elt Ideal .f32) : S50000x128.Idx → Elt Ideal .f32 := fun i =>
  max ((x i - mu (ix2 (0 : Fin 1) (i 1))) * Ideal.rsqrt (v (ix2 (0 : Fin 1) (i 1)) + Ideal.ofBits .f32 0x3727C5AC#32) * g (ix2 (0 : Fin 1) (i 1)) + b (ix2 (0 : Fin 1) (i 1))) 0
theorem normOf1_apply (x : S50000x128.Idx → Elt Ideal .f32) (mu v g b : S1x128.Idx → Elt Ideal .f32) (r : Fin 50000) (j : Fin 128) :
    normOf1 x mu v g b (ix2 r j) = max ((x (ix2 r j) - mu (ix2 (0 : Fin 1) j)) * Ideal.rsqrt (v (ix2 (0 : Fin 1) j) + Ideal.ofBits .f32 0x3727C5AC#32) * g (ix2 (0 : Fin 1) j) + b (ix2 (0 : Fin 1) j)) 0 := rfl
abbrev normArr1 (c : Dev nD) : S50000x128.Idx → Elt Ideal .f32 :=
  normOf1 (V c (Pipeline.arrRef spec1 0)) (V c (Pipeline.arrRef spec1 1)) (V c (Pipeline.arrRef spec1 2)) (V c (Pipeline.arrRef spec1 3)) (V c (Pipeline.arrRef spec1 4))

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem tile_lt1 (t : Fin cfg1.N) (p : Fin 10000) : t.val * 10000 + p.val < 50000 := by
  have hN : t.val < 5 := lt_of_lt_of_eq t.isLt (show cfg1.N = 5 from N_1)
  have := p.isLt; omega

theorem blk1_0 (c : Dev nD) (t : Fin cfg1.N) (p : Fin 10000) (k : Fin 128) :
    iblk1 V c 0 t (ix2 p k) = V c (Pipeline.arrRef spec1 0) (ix2 ⟨t.val * 10000 + p.val, tile_lt1 t p⟩ k) := by
  obtain ⟨e0, e1, -⟩ := idx_facts1 t
  show V c (Pipeline.arrRef spec1 0) (((cfg1.win 0).blk t).view.emb (ix2 p k)) = _
  refine congrArg _ ?_
  funext a; apply Fin.ext
  match a with
  | ⟨0, _⟩ => show win1_0.index t (0 : Fin 2) * 10000 + 1 * p.val = t.val * 10000 + p.val; rw [e0]; omega
  | ⟨1, _⟩ => show win1_0.index t (1 : Fin 2) * 128 + 1 * k.val = k.val; rw [e1]; omega
theorem blk1_1 (c : Dev nD) (t : Fin cfg1.N) (z : Fin 1) (j : Fin 128) :
    iblk1 V c 1 t (ix2 z j) = V c (Pipeline.arrRef spec1 1) (ix2 z j) := by
  obtain ⟨-, -, e0, e1, -⟩ := idx_facts1 t
  show V c (Pipeline.arrRef spec1 1) (((cfg1.win 1).blk t).view.emb (ix2 z j)) = _
  refine congrArg _ ?_
  funext a; apply Fin.ext
  match a with
  | ⟨0, _⟩ => show win1_1.index t (0 : Fin 2) * 1 + 1 * z.val = z.val; rw [e0]; omega
  | ⟨1, _⟩ => show win1_1.index t (1 : Fin 2) * 128 + 1 * j.val = j.val; rw [e1]; omega
theorem blk1_2 (c : Dev nD) (t : Fin cfg1.N) (z : Fin 1) (j : Fin 128) :
    iblk1 V c 2 t (ix2 z j) = V c (Pipeline.arrRef spec1 2) (ix2 z j) := by
  obtain ⟨-, -, -, -, e0, e1, -⟩ := idx_facts1 t
  show V c (Pipeline.arrRef spec1 2) (((cfg1.win 2).blk t).view.emb (ix2 z j)) = _
  refine congrArg _ ?_
  funext a; apply Fin.ext
  match a with
  | ⟨0, _⟩ => show win1_2.index t (0 : Fin 2) * 1 + 1 * z.val = z.val; rw [e0]; omega
  | ⟨1, _⟩ => show win1_2.index t (1 : Fin 2) * 128 + 1 * j.val = j.val; rw [e1]; omega
theorem blk1_3 (c : Dev nD) (t : Fin cfg1.N) (z : Fin 1) (j : Fin 128) :
    iblk1 V c 3 t (ix2 z j) = V c (Pipeline.arrRef spec1 3) (ix2 z j) := by
  obtain ⟨-, -, -, -, -, -, e0, e1, -⟩ := idx_facts1 t
  show V c (Pipeline.arrRef spec1 3) (((cfg1.win 3).blk t).view.emb (ix2 z j)) = _
  refine congrArg _ ?_
  funext a; apply Fin.ext
  match a with
  | ⟨0, _⟩ => show win1_3.index t (0 : Fin 2) * 1 + 1 * z.val = z.val; rw [e0]; omega
  | ⟨1, _⟩ => show win1_3.index t (1 : Fin 2) * 128 + 1 * j.val = j.val; rw [e1]; omega
theorem blk1_4 (c : Dev nD) (t : Fin cfg1.N) (z : Fin 1) (j : Fin 128) :
    iblk1 V c 4 t (ix2 z j) = V c (Pipeline.arrRef spec1 4) (ix2 z j) := by
  obtain ⟨-, -, -, -, -, -, -, -, e0, e1, -⟩ := idx_facts1 t
  show V c (Pipeline.arrRef spec1 4) (((cfg1.win 4).blk t).view.emb (ix2 z j)) = _
  refine congrArg _ ?_
  funext a; apply Fin.ext
  match a with
  | ⟨0, _⟩ => show win1_4.index t (0 : Fin 2) * 1 + 1 * z.val = z.val; rw [e0]; omega
  | ⟨1, _⟩ => show win1_4.index t (1 : Fin 2) * 128 + 1 * j.val = j.val; rw [e1]; omega

/-- The tile's value at (p, j) is the whole array's at row t·10000 + p. -/
theorem tile_norm1 (hp : TileNorm1) (c : Dev nD) (t : Fin cfg1.N) (p : Fin 10000) (j : Fin 128) :
    k1_pay1 (iblk1 V c 0 t) (iblk1 V c 2 t) (iblk1 V c 1 t) (iblk1 V c 3 t) (iblk1 V c 4 t) (ix2 p j)
      = normArr1 V c (ix2 ⟨t.val * 10000 + p.val, tile_lt1 t p⟩ j) := by
  refine (hp _ _ _ _ _ p j).trans ?_
  simp only [blk1_0, blk1_1, blk1_2, blk1_3, blk1_4]
  rfl

theorem flushed1_5 (hp : TileNorm1) (c : Dev nD) (t : Fin cfg1.N) :
    (dat1 V c).flushed 5 t = ((cfg1.win 5).blk t).view.read (Elt Ideal) (normArr1 V c) := by
  show (cfg1.win 5).cut (grid1.coords t) ((dat1 V c).after 5 t) = _
  rw [after1_5]
  unfold out1_5
  rw [View.canon_unit_zero zeros2_1]
  simp only [View.ld_unit_zero (S := S10000x128) zeros2_1, View.ld_unit_zero (S := S1x128) zeros2_1]
  funext y
  obtain ⟨p, j, rfl⟩ : ∃ (p : Fin 10000) (j : Fin 128), y = ix2 p j := ⟨y 0, y 1, eq_ix2 y⟩
  show k1_pay1 (iblk1 V c 0 t) (iblk1 V c 2 t) (iblk1 V c 1 t) (iblk1 V c 3 t) (iblk1 V c 4 t) (ix2 p j)
    = normArr1 V c (((cfg1.win 5).blk t).view.emb (ix2 p j))
  refine (tile_norm1 V hp c t p j).trans ?_
  refine congrArg _ ?_
  obtain ⟨-, -, -, -, -, -, -, -, -, -, e0, e1⟩ := idx_facts1 t
  funext a; apply Fin.ext
  match a with
  | ⟨0, _⟩ => show t.val * 10000 + p.val = win1_5.index t (0 : Fin 2) * 10000 + 1 * p.val; rw [e0]; omega
  | ⟨1, _⟩ => show j.val = win1_5.index t (1 : Fin 2) * 128 + 1 * j.val; rw [e1]; omega

theorem mem_blk1_5 (t : Fin cfg1.N) (i : S50000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole (Pipeline.arrRef spec1 5)).slice (win1_5.rect t)).set ↔ _
  rw [View.set_slice_whole, Rect.mem_set_unit]
  exact Iff.rfl

theorem cover1_5v (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 5 := N_1
  refine ⟨⟨(i 0).val / 10000, by rw [hN]; omega⟩, flush1_5 _, ?_⟩
  rw [mem_blk1_5]
  obtain ⟨-, -, -, -, -, -, -, -, -, -, e0, e1⟩ := idx_facts1 ⟨(i 0).val / 10000, by rw [hN]; omega⟩
  intro a
  match a with
  | ⟨0, _⟩ => show win1_5.index _ (0 : Fin 2) * 10000 ≤ (i 0).val ∧ (i 0).val < win1_5.index _ (0 : Fin 2) * 10000 + 10000; rw [e0]; dsimp only; omega
  | ⟨1, _⟩ => show win1_5.index _ (1 : Fin 2) * 128 ≤ (i 1).val ∧ (i 1).val < win1_5.index _ (1 : Fin 2) * 128 + 128; rw [e1]; omega

/-- The output array after the region. -/
theorem final1_5 (hp : TileNorm1) (c : Dev nD) : (dat1 V c).arrAt 5 cfg1.N = normArr1 V c :=
  (dat1 V c).arrAt_eq_of_cover 5 (normArr1 V c) (fun t _ => flushed1_5 V hp c t) cover1_5v

end Cert.KernelIdeal.Frames

end
-- ==== Proof.KI.NormVal3.lean ====
/-
  What region 3 leaves in its output array, index by index, at the ideal instance: row r is computed at grid point
  r / 10000 from row r of the input array and the four parameter rows:  (x − mean)·rsqrt(var + ε)·γ + β, clamped below at 0.
  The five tiles cover the 50000 rows. The body's stored value read at an index is taken as the hypothesis `hp`.
-/
import proofs.«139727_j46445776339648_1_alg».proof.Proof.KI.Norm3
import Idealize.ShloMosaic.Lib.Pipeline.Value
import Idealize.ShloMosaic.Lib.ValueIdx

set_option maxRecDepth 16384

noncomputable section

namespace Cert.KernelIdeal.Frames

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- One tile's normalised value at an index, as a function of the tile's loads (the tile, the variance row, the mean row,
    the scale row, the shift row). -/
def TileNorm3 : Prop := ∀ (x : Vec Ideal S10000x128 .f32) (v mu g b : Vec Ideal S1x128 .f32) (p : Fin 10000) (j : Fin 128),
  k3_pay1 x v mu g b (ix2 p j) = max ((x (ix2 p j) - mu (ix2 (0 : Fin 1) j)) * Ideal.rsqrt (v (ix2 (0 : Fin 1) j) + Ideal.ofBits .f32 0x3727C5AC#32) * g (ix2 (0 : Fin 1) j) + b (ix2 (0 : Fin 1) j)) 0

variable (V : (c : Dev nD) → (b : Ref sig .tc) → Buf (Elt Ideal) ((c : Thread nD τ).loc b))

theorem zeros2_3 : (![0, 0] : Fin 2 → Nat) = fun _ => 0 := funext fun a => by fin_cases a <;> rfl

/-- The normalised output as one function of the region's five input arrays. -/
def normOf3 (x : S50000x128.Idx → Elt Ideal .f32) (mu v g b : S1x128.Idx → Elt Ideal .f32) : S50000x128.Idx → Elt Ideal .f32 := fun i =>
  max ((x i - mu (ix2 (0 : Fin 1) (i 1))) * Ideal.rsqrt (v (ix2 (0 : Fin 1) (i 1)) + Ideal.ofBits .f32 0x3727C5AC#32) * g (ix2 (0 : Fin 1) (i 1)) + b (ix2 (0 : Fin 1) (i 1))) 0
theorem normOf3_apply (x : S50000x128.Idx → Elt Ideal .f32) (mu v g b : S1x128.Idx → Elt Ideal .f32) (r : Fin 50000) (j : Fin 128) :
    normOf3 x mu v g b (ix2 r j) = max ((x (ix2 r j) - mu (ix2 (0 : Fin 1) j)) * Ideal.rsqrt (v (ix2 (0 : Fin 1) j) + Ideal.ofBits .f32 0x3727C5AC#32) * g (ix2 (0 : Fin 1) j) + b (ix2 (0 : Fin 1) j)) 0 := rfl
abbrev normArr3 (c : Dev nD) : S50000x128.Idx → Elt Ideal .f32 :=
  normOf3 (V c (Pipeline.arrRef spec3 0)) (V c (Pipeline.arrRef spec3 1)) (V c (Pipeline.arrRef spec3 2)) (V c (Pipeline.arrRef spec3 3)) (V c (Pipeline.arrRef spec3 4))

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem tile_lt3 (t : Fin cfg3.N) (p : Fin 10000) : t.val * 10000 + p.val < 50000 := by
  have hN : t.val < 5 := lt_of_lt_of_eq t.isLt (show cfg3.N = 5 from N_3)
  have := p.isLt; omega

theorem blk3_0 (c : Dev nD) (t : Fin cfg3.N) (p : Fin 10000) (k : Fin 128) :
    iblk3 V c 0 t (ix2 p k) = V c (Pipeline.arrRef spec3 0) (ix2 ⟨t.val * 10000 + p.val, tile_lt3 t p⟩ k) := by
  obtain ⟨e0, e1, -⟩ := idx_facts3 t
  show V c (Pipeline.arrRef spec3 0) (((cfg3.win 0).blk t).view.emb (ix2 p k)) = _
  refine congrArg _ ?_
  funext a; apply Fin.ext
  match a with
  | ⟨0, _⟩ => show win3_0.index t (0 : Fin 2) * 10000 + 1 * p.val = t.val * 10000 + p.val; rw [e0]; omega
  | ⟨1, _⟩ => show win3_0.index t (1 : Fin 2) * 128 + 1 * k.val = k.val; rw [e1]; omega
theorem blk3_1 (c : Dev nD) (t : Fin cfg3.N) (z : Fin 1) (j : Fin 128) :
    iblk3 V c 1 t (ix2 z j) = V c (Pipeline.arrRef spec3 1) (ix2 z j) := by
  obtain ⟨-, -, e0, e1, -⟩ := idx_facts3 t
  show V c (Pipeline.arrRef spec3 1) (((cfg3.win 1).blk t).view.emb (ix2 z j)) = _
  refine congrArg _ ?_
  funext a; apply Fin.ext
  match a with
  | ⟨0, _⟩ => show win3_1.index t (0 : Fin 2) * 1 + 1 * z.val = z.val; rw [e0]; omega
  | ⟨1, _⟩ => show win3_1.index t (1 : Fin 2) * 128 + 1 * j.val = j.val; rw [e1]; omega
theorem blk3_2 (c : Dev nD) (t : Fin cfg3.N) (z : Fin 1) (j : Fin 128) :
    iblk3 V c 2 t (ix2 z j) = V c (Pipeline.arrRef spec3 2) (ix2 z j) := by
  obtain ⟨-, -, -, -, e0, e1, -⟩ := idx_facts3 t
  show V c (Pipeline.arrRef spec3 2) (((cfg3.win 2).blk t).view.emb (ix2 z j)) = _
  refine congrArg _ ?_
  funext a; apply Fin.ext
  match a with
  | ⟨0, _⟩ => show win3_2.index t (0 : Fin 2) * 1 + 1 * z.val = z.val; rw [e0]; omega
  | ⟨1, _⟩ => show win3_2.index t (1 : Fin 2) * 128 + 1 * j.val = j.val; rw [e1]; omega
theorem blk3_3 (c : Dev nD) (t : Fin cfg3.N) (z : Fin 1) (j : Fin 128) :
    iblk3 V c 3 t (ix2 z j) = V c (Pipeline.arrRef spec3 3) (ix2 z j) := by
  obtain ⟨-, -, -, -, -, -, e0, e1, -⟩ := idx_facts3 t
  show V c (Pipeline.arrRef spec3 3) (((cfg3.win 3).blk t).view.emb (ix2 z j)) = _
  refine congrArg _ ?_
  funext a; apply Fin.ext
  match a with
  | ⟨0, _⟩ => show win3_3.index t (0 : Fin 2) * 1 + 1 * z.val = z.val; rw [e0]; omega
  | ⟨1, _⟩ => show win3_3.index t (1 : Fin 2) * 128 + 1 * j.val = j.val; rw [e1]; omega
theorem blk3_4 (c : Dev nD) (t : Fin cfg3.N) (z : Fin 1) (j : Fin 128) :
    iblk3 V c 4 t (ix2 z j) = V c (Pipeline.arrRef spec3 4) (ix2 z j) := by
  obtain ⟨-, -, -, -, -, -, -, -, e0, e1, -⟩ := idx_facts3 t
  show V c (Pipeline.arrRef spec3 4) (((cfg3.win 4).blk t).view.emb (ix2 z j)) = _
  refine congrArg _ ?_
  funext a; apply Fin.ext
  match a with
  | ⟨0, _⟩ => show win3_4.index t (0 : Fin 2) * 1 + 1 * z.val = z.val; rw [e0]; omega
  | ⟨1, _⟩ => show win3_4.index t (1 : Fin 2) * 128 + 1 * j.val = j.val; rw [e1]; omega

/-- The tile's value at (p, j) is the whole array's at row t·10000 + p. -/
theorem tile_norm3 (hp : TileNorm3) (c : Dev nD) (t : Fin cfg3.N) (p : Fin 10000) (j : Fin 128) :
    k3_pay1 (iblk3 V c 0 t) (iblk3 V c 2 t) (iblk3 V c 1 t) (iblk3 V c 3 t) (iblk3 V c 4 t) (ix2 p j)
      = normArr3 V c (ix2 ⟨t.val * 10000 + p.val, tile_lt3 t p⟩ j) := by
  refine (hp _ _ _ _ _ p j).trans ?_
  simp only [blk3_0, blk3_1, blk3_2, blk3_3, blk3_4]
  rfl

theorem flushed3_5 (hp : TileNorm3) (c : Dev nD) (t : Fin cfg3.N) :
    (dat3 V c).flushed 5 t = ((cfg3.win 5).blk t).view.read (Elt Ideal) (normArr3 V c) := by
  show (cfg3.win 5).cut (grid3.coords t) ((dat3 V c).after 5 t) = _
  rw [after3_5]
  unfold out3_5
  rw [View.canon_unit_zero zeros2_3]
  simp only [View.ld_unit_zero (S := S10000x128) zeros2_3, View.ld_unit_zero (S := S1x128) zeros2_3]
  funext y
  obtain ⟨p, j, rfl⟩ : ∃ (p : Fin 10000) (j : Fin 128), y = ix2 p j := ⟨y 0, y 1, eq_ix2 y⟩
  show k3_pay1 (iblk3 V c 0 t) (iblk3 V c 2 t) (iblk3 V c 1 t) (iblk3 V c 3 t) (iblk3 V c 4 t) (ix2 p j)
    = normArr3 V c (((cfg3.win 5).blk t).view.emb (ix2 p j))
  refine (tile_norm3 V hp c t p j).trans ?_
  refine congrArg _ ?_
  obtain ⟨-, -, -, -, -, -, -, -, -, -, e0, e1⟩ := idx_facts3 t
  funext a; apply Fin.ext
  match a with
  | ⟨0, _⟩ => show t.val * 10000 + p.val = win3_5.index t (0 : Fin 2) * 10000 + 1 * p.val; rw [e0]; omega
  | ⟨1, _⟩ => show j.val = win3_5.index t (1 : Fin 2) * 128 + 1 * j.val; rw [e1]; omega

theorem mem_blk3_5 (t : Fin cfg3.N) (i : S50000x128.Idx) :
    i ∈ ((cfg3.win 5).blk t).view.set ↔ ∀ a : Fin 2, win3_5.index t a * S10000x128.size a ≤ (i a).val ∧ (i a).val < win3_5.index t a * S10000x128.size a + S10000x128.size a := by
  show i ∈ ((View.whole (Pipeline.arrRef spec3 5)).slice (win3_5.rect t)).set ↔ _
  rw [View.set_slice_whole, Rect.mem_set_unit]
  exact Iff.rfl

theorem cover3_5v (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 5 := N_3
  refine ⟨⟨(i 0).val / 10000, by rw [hN]; omega⟩, flush3_5 _, ?_⟩
  rw [mem_blk3_5]
  obtain ⟨-, -, -, -, -, -, -, -, -, -, e0, e1⟩ := idx_facts3 ⟨(i 0).val / 10000, by rw [hN]; omega⟩
  intro a
  match a with
  | ⟨0, _⟩ => show win3_5.index _ (0 : Fin 2) * 10000 ≤ (i 0).val ∧ (i 0).val < win3_5.index _ (0 : Fin 2) * 10000 + 10000; rw [e0]; dsimp only; omega
  | ⟨1, _⟩ => show win3_5.index _ (1 : Fin 2) * 128 ≤ (i 1).val ∧ (i 1).val < win3_5.index _ (1 : Fin 2) * 128 + 128; rw [e1]; omega

/-- The output array after the region. -/
theorem final3_5 (hp : TileNorm3) (c : Dev nD) : (dat3 V c).arrAt 5 cfg3.N = normArr3 V c :=
  (dat3 V c).arrAt_eq_of_cover 5 (normArr3 V c) (fun t _ => flushed3_5 V hp c t) cover3_5v

end Cert.KernelIdeal.Frames

end
-- ==== Proof.KI.NormVal5.lean ====
/-
  What region 5 leaves in its output array, index by index, at the ideal instance: row r is computed at grid point
  r / 10000 from row r of the input array and the four parameter rows:  (x − mean)·rsqrt(var + ε)·γ + β.
  The five tiles cover the 50000 rows. The body's stored value read at an index is taken as the hypothesis `hp`.
-/
import proofs.«139727_j46445776339648_1_alg».proof.Proof.KI.Norm5
import Idealize.ShloMosaic.Lib.Pipeline.Value
import Idealize.ShloMosaic.Lib.ValueIdx

set_option maxRecDepth 16384

noncomputable section

namespace Cert.KernelIdeal.Frames

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- One tile's normalised value at an index, as a function of the tile's loads (the tile, the variance row, the mean row,
    the scale row, the shift row). -/
def TileNorm5 : Prop := ∀ (x : Vec Ideal S10000x128 .f32) (v mu g b : Vec Ideal S1x128 .f32) (p : Fin 10000) (j : Fin 128),
  k5_pay1 x v mu g b (ix2 p j) = (x (ix2 p j) - mu (ix2 (0 : Fin 1) j)) * Ideal.rsqrt (v (ix2 (0 : Fin 1) j) + Ideal.ofBits .f32 0x3727C5AC#32) * g (ix2 (0 : Fin 1) j) + b (ix2 (0 : Fin 1) j)

variable (V : (c : Dev nD) → (b : Ref sig .tc) → Buf (Elt Ideal) ((c : Thread nD τ).loc b))

theorem zeros2_5 : (![0, 0] : Fin 2 → Nat) = fun _ => 0 := funext fun a => by fin_cases a <;> rfl

/-- The normalised output as one function of the region's five input arrays. -/
def normOf5 (x : S50000x128.Idx → Elt Ideal .f32) (mu v g b : S1x128.Idx → Elt Ideal .f32) : S50000x128.Idx → Elt Ideal .f32 := fun i =>
  (x i - mu (ix2 (0 : Fin 1) (i 1))) * Ideal.rsqrt (v (ix2 (0 : Fin 1) (i 1)) + Ideal.ofBits .f32 0x3727C5AC#32) * g (ix2 (0 : Fin 1) (i 1)) + b (ix2 (0 : Fin 1) (i 1))
theorem normOf5_apply (x : S50000x128.Idx → Elt Ideal .f32) (mu v g b : S1x128.Idx → Elt Ideal .f32) (r : Fin 50000) (j : Fin 128) :
    normOf5 x mu v g b (ix2 r j) = (x (ix2 r j) - mu (ix2 (0 : Fin 1) j)) * Ideal.rsqrt (v (ix2 (0 : Fin 1) j) + Ideal.ofBits .f32 0x3727C5AC#32) * g (ix2 (0 : Fin 1) j) + b (ix2 (0 : Fin 1) j) := rfl
abbrev normArr5 (c : Dev nD) : S50000x128.Idx → Elt Ideal .f32 :=
  normOf5 (V c (Pipeline.arrRef spec5 0)) (V c (Pipeline.arrRef spec5 1)) (V c (Pipeline.arrRef spec5 2)) (V c (Pipeline.arrRef spec5 3)) (V c (Pipeline.arrRef spec5 4))

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem tile_lt5 (t : Fin cfg5.N) (p : Fin 10000) : t.val * 10000 + p.val < 50000 := by
  have hN : t.val < 5 := lt_of_lt_of_eq t.isLt (show cfg5.N = 5 from N_5)
  have := p.isLt; omega

theorem blk5_0 (c : Dev nD) (t : Fin cfg5.N) (p : Fin 10000) (k : Fin 128) :
    iblk5 V c 0 t (ix2 p k) = V c (Pipeline.arrRef spec5 0) (ix2 ⟨t.val * 10000 + p.val, tile_lt5 t p⟩ k) := by
  obtain ⟨e0, e1, -⟩ := idx_facts5 t
  show V c (Pipeline.arrRef spec5 0) (((cfg5.win 0).blk t).view.emb (ix2 p k)) = _
  refine congrArg _ ?_
  funext a; apply Fin.ext
  match a with
  | ⟨0, _⟩ => show win5_0.index t (0 : Fin 2) * 10000 + 1 * p.val = t.val * 10000 + p.val; rw [e0]; omega
  | ⟨1, _⟩ => show win5_0.index t (1 : Fin 2) * 128 + 1 * k.val = k.val; rw [e1]; omega
theorem blk5_1 (c : Dev nD) (t : Fin cfg5.N) (z : Fin 1) (j : Fin 128) :
    iblk5 V c 1 t (ix2 z j) = V c (Pipeline.arrRef spec5 1) (ix2 z j) := by
  obtain ⟨-, -, e0, e1, -⟩ := idx_facts5 t
  show V c (Pipeline.arrRef spec5 1) (((cfg5.win 1).blk t).view.emb (ix2 z j)) = _
  refine congrArg _ ?_
  funext a; apply Fin.ext
  match a with
  | ⟨0, _⟩ => show win5_1.index t (0 : Fin 2) * 1 + 1 * z.val = z.val; rw [e0]; omega
  | ⟨1, _⟩ => show win5_1.index t (1 : Fin 2) * 128 + 1 * j.val = j.val; rw [e1]; omega
theorem blk5_2 (c : Dev nD) (t : Fin cfg5.N) (z : Fin 1) (j : Fin 128) :
    iblk5 V c 2 t (ix2 z j) = V c (Pipeline.arrRef spec5 2) (ix2 z j) := by
  obtain ⟨-, -, -, -, e0, e1, -⟩ := idx_facts5 t
  show V c (Pipeline.arrRef spec5 2) (((cfg5.win 2).blk t).view.emb (ix2 z j)) = _
  refine congrArg _ ?_
  funext a; apply Fin.ext
  match a with
  | ⟨0, _⟩ => show win5_2.index t (0 : Fin 2) * 1 + 1 * z.val = z.val; rw [e0]; omega
  | ⟨1, _⟩ => show win5_2.index t (1 : Fin 2) * 128 + 1 * j.val = j.val; rw [e1]; omega
theorem blk5_3 (c : Dev nD) (t : Fin cfg5.N) (z : Fin 1) (j : Fin 128) :
    iblk5 V c 3 t (ix2 z j) = V c (Pipeline.arrRef spec5 3) (ix2 z j) := by
  obtain ⟨-, -, -, -, -, -, e0, e1, -⟩ := idx_facts5 t
  show V c (Pipeline.arrRef spec5 3) (((cfg5.win 3).blk t).view.emb (ix2 z j)) = _
  refine congrArg _ ?_
  funext a; apply Fin.ext
  match a with
  | ⟨0, _⟩ => show win5_3.index t (0 : Fin 2) * 1 + 1 * z.val = z.val; rw [e0]; omega
  | ⟨1, _⟩ => show win5_3.index t (1 : Fin 2) * 128 + 1 * j.val = j.val; rw [e1]; omega
theorem blk5_4 (c : Dev nD) (t : Fin cfg5.N) (z : Fin 1) (j : Fin 128) :
    iblk5 V c 4 t (ix2 z j) = V c (Pipeline.arrRef spec5 4) (ix2 z j) := by
  obtain ⟨-, -, -, -, -, -, -, -, e0, e1, -⟩ := idx_facts5 t
  show V c (Pipeline.arrRef spec5 4) (((cfg5.win 4).blk t).view.emb (ix2 z j)) = _
  refine congrArg _ ?_
  funext a; apply Fin.ext
  match a with
  | ⟨0, _⟩ => show win5_4.index t (0 : Fin 2) * 1 + 1 * z.val = z.val; rw [e0]; omega
  | ⟨1, _⟩ => show win5_4.index t (1 : Fin 2) * 128 + 1 * j.val = j.val; rw [e1]; omega

/-- The tile's value at (p, j) is the whole array's at row t·10000 + p. -/
theorem tile_norm5 (hp : TileNorm5) (c : Dev nD) (t : Fin cfg5.N) (p : Fin 10000) (j : Fin 128) :
    k5_pay1 (iblk5 V c 0 t) (iblk5 V c 2 t) (iblk5 V c 1 t) (iblk5 V c 3 t) (iblk5 V c 4 t) (ix2 p j)
      = normArr5 V c (ix2 ⟨t.val * 10000 + p.val, tile_lt5 t p⟩ j) := by
  refine (hp _ _ _ _ _ p j).trans ?_
  simp only [blk5_0, blk5_1, blk5_2, blk5_3, blk5_4]
  rfl

theorem flushed5_5 (hp : TileNorm5) (c : Dev nD) (t : Fin cfg5.N) :
    (dat5 V c).flushed 5 t = ((cfg5.win 5).blk t).view.read (Elt Ideal) (normArr5 V c) := by
  show (cfg5.win 5).cut (grid5.coords t) ((dat5 V c).after 5 t) = _
  rw [after5_5]
  unfold out5_5
  rw [View.canon_unit_zero zeros2_5]
  simp only [View.ld_unit_zero (S := S10000x128) zeros2_5, View.ld_unit_zero (S := S1x128) zeros2_5]
  funext y
  obtain ⟨p, j, rfl⟩ : ∃ (p : Fin 10000) (j : Fin 128), y = ix2 p j := ⟨y 0, y 1, eq_ix2 y⟩
  show k5_pay1 (iblk5 V c 0 t) (iblk5 V c 2 t) (iblk5 V c 1 t) (iblk5 V c 3 t) (iblk5 V c 4 t) (ix2 p j)
    = normArr5 V c (((cfg5.win 5).blk t).view.emb (ix2 p j))
  refine (tile_norm5 V hp c t p j).trans ?_
  refine congrArg _ ?_
  obtain ⟨-, -, -, -, -, -, -, -, -, -, e0, e1⟩ := idx_facts5 t
  funext a; apply Fin.ext
  match a with
  | ⟨0, _⟩ => show t.val * 10000 + p.val = win5_5.index t (0 : Fin 2) * 10000 + 1 * p.val; rw [e0]; omega
  | ⟨1, _⟩ => show j.val = win5_5.index t (1 : Fin 2) * 128 + 1 * j.val; rw [e1]; omega

theorem mem_blk5_5 (t : Fin cfg5.N) (i : S50000x128.Idx) :
    i ∈ ((cfg5.win 5).blk t).view.set ↔ ∀ a : Fin 2, win5_5.index t a * S10000x128.size a ≤ (i a).val ∧ (i a).val < win5_5.index t a * S10000x128.size a + S10000x128.size a := by
  show i ∈ ((View.whole (Pipeline.arrRef spec5 5)).slice (win5_5.rect t)).set ↔ _
  rw [View.set_slice_whole, Rect.mem_set_unit]
  exact Iff.rfl

theorem cover5_5v (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 5 := N_5
  refine ⟨⟨(i 0).val / 10000, by rw [hN]; omega⟩, flush5_5 _, ?_⟩
  rw [mem_blk5_5]
  obtain ⟨-, -, -, -, -, -, -, -, -, -, e0, e1⟩ := idx_facts5 ⟨(i 0).val / 10000, by rw [hN]; omega⟩
  intro a
  match a with
  | ⟨0, _⟩ => show win5_5.index _ (0 : Fin 2) * 10000 ≤ (i 0).val ∧ (i 0).val < win5_5.index _ (0 : Fin 2) * 10000 + 10000; rw [e0]; dsimp only; omega
  | ⟨1, _⟩ => show win5_5.index _ (1 : Fin 2) * 128 ≤ (i 1).val ∧ (i 1).val < win5_5.index _ (1 : Fin 2) * 128 + 128; rw [e1]; omega

/-- The output array after the region. -/
theorem final5_5 (hp : TileNorm5) (c : Dev nD) : (dat5 V c).arrAt 5 cfg5.N = normArr5 V c :=
  (dat5 V c).arrAt_eq_of_cover 5 (normArr5 V c) (fun t _ => flushed5_5 V hp c t) cover5_5v

end Cert.KernelIdeal.Frames

end
-- ==== Proof.Spec.lean ====
/-
  The mathematics of the two programs, index by index, over the extended reals.
  A node-feature array is a function of a row (a node, 50000 of them) and a column (a feature, 128 of them).
  One layer: from the features `h` and their neighbourhood means `a h` (the aggregation `a` is the same function in both
  programs and is left abstract here), the linear map  a(h)·Wlᵀ + h·Wrᵀ + b,  then batch normalisation over the rows of
  each column with scale γ and shift β, then (in the first two layers) clamping below at 0.
  The two programs differ in two places only: the order in which the three summands of the linear map are added, and
  the variance of a column —  the kernel's program takes  mean(x²) − mean(x)²,  the reference  mean((x − mean x)²).
  Over the reals these agree; over the extended reals they agree when every entry is a real number.
-/
import Idealize.ShloMosaic.PureOps.Ideal
import Idealize.ShloMosaic.Lib.ValueIdx

noncomputable section

open scoped BigOperators

namespace Cert.Spec

open Idealize.ShloMosaic Idealize.ShloMosaic.ValueIdx

/-- Node features: 50000 rows of 128 columns. -/
abbrev Feat : Type := (⟨2, ![50000, 128]⟩ : Shape).Idx → EReal
/-- A weight matrix, entry (out column `j`, in column `k`) at `ix2 j k`. -/
abbrev Wt : Type := (⟨2, ![128, 128]⟩ : Shape).Idx → EReal
/-- A row of 128 column parameters (bias, scale, shift). -/
abbrev Row : Type := (⟨1, ![128]⟩ : Shape).Idx → EReal

/-- The number of rows as the programs write it, the f32 word of 50000.0. -/
def nRows : EReal := Ideal.ofBits .f32 0x47435000#32
/-- The variance offset as the programs write it, the f32 word nearest 1e-5. -/
def eps : EReal := Ideal.ofBits .f32 0x3727C5AC#32

/-- Every entry is a real number. -/
def IsReal {α : Type} (x : α → EReal) : Prop := ∃ f : α → ℝ, x = fun i => ((f i : ℝ) : EReal)

/-! ## The linear map -/

/-- The kernel's order: (mean·Wlᵀ + h·Wrᵀ) + b. -/
def linK (mean h : Feat) (Wl Wr : Wt) (b : Row) : Feat := fun i =>
  (∑ k : Fin 128, mean (ix2 (i 0) k) * Wl (ix2 (i 1) k) + ∑ k : Fin 128, h (ix2 (i 0) k) * Wr (ix2 (i 1) k)) + b (ix1 (i 1))
/-- The reference's order: (mean·Wlᵀ + b) + h·Wrᵀ. -/
def linR (mean h : Feat) (Wl Wr : Wt) (b : Row) : Feat := fun i =>
  (∑ k : Fin 128, mean (ix2 (i 0) k) * Wl (ix2 (i 1) k) + b (ix1 (i 1))) + ∑ k : Fin 128, h (ix2 (i 0) k) * Wr (ix2 (i 1) k)

/-! ## Batch normalisation over the rows of each column -/

/-- The sum of column `j`. -/
def colSum (x : Feat) (j : Fin 128) : EReal := ∑ r : Fin 50000, x (ix2 r j)
/-- The mean of column `j`. -/
def colMean (x : Feat) (j : Fin 128) : EReal := Ideal.div (colSum x j) nRows
/-- The kernel's variance of column `j`: the mean of the squares less the square of the mean. -/
def varK (x : Feat) (j : Fin 128) : EReal := Ideal.div (colSum (fun i => x i * x i) j) nRows - colMean x j * colMean x j
/-- The reference's variance of column `j`: the mean of the squared deviations from the mean. -/
def varR (x : Feat) (j : Fin 128) : EReal :=
  Ideal.div (∑ r : Fin 50000, (x (ix2 r j) - colMean x j) * (x (ix2 r j) - colMean x j)) nRows
/-- Normalisation with a given variance: (x − mean)·rsqrt(var + ε)·γ + β. -/
def normWith (var : Feat → Fin 128 → EReal) (x : Feat) (γ β : Row) : Feat := fun i =>
  (x i - colMean x (i 1)) * Ideal.rsqrt (var x (i 1) + eps) * γ (ix1 (i 1)) + β (ix1 (i 1))
/-- Clamping below at 0. -/
def relu (x : Feat) : Feat := fun i => max (x i) 0

/-! ## A layer, and the three layers -/

/-- One layer of the kernel's program (`act`: whether it ends with the clamp). -/
def layerK (act : Bool) (a : Feat → Feat) (h : Feat) (Wl : Wt) (b : Row) (Wr : Wt) (γ β : Row) : Feat :=
  let y := normWith varK (linK (a h) h Wl Wr b) γ β
  if act then relu y else y
/-- One layer of the reference. -/
def layerR (act : Bool) (a : Feat → Feat) (h : Feat) (Wl : Wt) (b : Row) (Wr : Wt) (γ β : Row) : Feat :=
  let y := normWith varR (linR (a h) h Wl Wr b) γ β
  if act then relu y else y

/-- The kernel's program: three layers, the first two clamped. The parameters come in the programs' argument order. -/
def netK (a : Feat → Feat) (x : Feat) (Wl0 : Wt) (b0 : Row) (Wr0 : Wt) (g0 be0 : Row) (Wl1 : Wt) (b1 : Row) (Wr1 : Wt) (g1 be1 : Row)
    (Wl2 : Wt) (b2 : Row) (Wr2 : Wt) (g2 be2 : Row) : Feat :=
  layerK false a (layerK true a (layerK true a x Wl0 b0 Wr0 g0 be0) Wl1 b1 Wr1 g1 be1) Wl2 b2 Wr2 g2 be2
/-- The reference: three layers, the first two clamped. -/
def netR (a : Feat → Feat) (x : Feat) (Wl0 : Wt) (b0 : Row) (Wr0 : Wt) (g0 be0 : Row) (Wl1 : Wt) (b1 : Row) (Wr1 : Wt) (g1 be1 : Row)
    (Wl2 : Wt) (b2 : Row) (Wr2 : Wt) (g2 be2 : Row) : Feat :=
  layerR false a (layerR true a (layerR true a x Wl0 b0 Wr0 g0 be0) Wl1 b1 Wr1 g1 be1) Wl2 b2 Wr2 g2 be2

end Cert.Spec

end
-- ==== Proof.SpecAt.lean ====
/-
  The specification's definitions read at an index: each is the definition itself at a row r and a column j.
-/
import proofs.«139727_j46445776339648_1_alg».proof.Proof.Spec

noncomputable section

open scoped BigOperators

namespace Cert.Spec

open Idealize.ShloMosaic Idealize.ShloMosaic.ValueIdx

theorem linK_apply (mean h : Feat) (Wl Wr : Wt) (b : Row) (r : Fin 50000) (j : Fin 128) :
    linK mean h Wl Wr b (ix2 r j)
      = (∑ k : Fin 128, mean (ix2 r k) * Wl (ix2 j k) + ∑ k : Fin 128, h (ix2 r k) * Wr (ix2 j k)) + b (ix1 j) := rfl
theorem colMean_def (x : Feat) (j : Fin 128) : colMean x j = Ideal.div (∑ r : Fin 50000, x (ix2 r j)) nRows := rfl
theorem varK_def (x : Feat) (j : Fin 128) :
    varK x j = Ideal.div (∑ r : Fin 50000, x (ix2 r j) * x (ix2 r j)) nRows - colMean x j * colMean x j := rfl
theorem normWith_apply (var : Feat → Fin 128 → EReal) (x : Feat) (γ β : Row) (r : Fin 50000) (j : Fin 128) :
    normWith var x γ β (ix2 r j) = (x (ix2 r j) - colMean x j) * Ideal.rsqrt (var x j + eps) * γ (ix1 j) + β (ix1 j) := rfl
theorem relu_apply (x : Feat) (i : (⟨2, ![50000, 128]⟩ : Shape).Idx) : relu x i = max (x i) 0 := rfl
theorem layerK_true (a : Feat → Feat) (h : Feat) (Wl : Wt) (b : Row) (Wr : Wt) (γ β : Row) :
    layerK true a h Wl b Wr γ β = relu (normWith varK (linK (a h) h Wl Wr b) γ β) := rfl
theorem layerK_false (a : Feat → Feat) (h : Feat) (Wl : Wt) (b : Row) (Wr : Wt) (γ β : Row) :
    layerK false a h Wl b Wr γ β = normWith varK (linK (a h) h Wl Wr b) γ β := rfl
theorem eps_def : eps = Ideal.ofBits .f32 0x3727C5AC#32 := rfl
theorem nRows_def : nRows = Ideal.ofBits .f32 0x47435000#32 := rfl

end Cert.Spec

end
-- ==== Proof.KI.Chain.lean ====
/-
  The kernel's program read back as the specification, at the ideal instance: boundary by boundary, what each host
  stretch and each region leaves, and per layer that the array the layer ends with is the specification's layer of the array
  it starts from (the neighbourhood mean, the linear map tile by tile, the column sums accumulated over the five tiles, the
  batch normalisation with the kernel's variance  mean(x²) − mean(x)²). The three layers compose to the whole network.
-/
import proofs.«139727_j46445776339648_1_alg».proof.Proof.KI.Run
import proofs.«139727_j46445776339648_1_alg».proof.Proof.KI.AggK
import proofs.«139727_j46445776339648_1_alg».proof.Proof.KI.Payload
import proofs.«139727_j46445776339648_1_alg».proof.Proof.KI.LinVal0
import proofs.«139727_j46445776339648_1_alg».proof.Proof.KI.LinVal2
import proofs.«139727_j46445776339648_1_alg».proof.Proof.KI.LinVal4
import proofs.«139727_j46445776339648_1_alg».proof.Proof.KI.NormVal1
import proofs.«139727_j46445776339648_1_alg».proof.Proof.KI.NormVal3
import proofs.«139727_j46445776339648_1_alg».proof.Proof.KI.NormVal5
import proofs.«139727_j46445776339648_1_alg».proof.Proof.Spec
import proofs.«139727_j46445776339648_1_alg».proof.Proof.SpecAt
import Idealize.ShloMosaic.Lib.StableHlo.Run
import Idealize.ShloMosaic.Lib.ValueLayout

set_option maxRecDepth 16384

noncomputable section

namespace Cert.KernelIdeal.Frames

open Cert.KernelIdeal Cert.KernelIdeal.Gen
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ) (ρ : Dev nD → PrngReg)

/-! ## What the first host stretch computes once for all three layers: the edges' ends and the nodes' edge counts -/

set_option maxHeartbeats 4000000 in
theorem B1_src (c : Dev nD) : B1 m ρ c (Proc.devRef .tc main_v1) = AggK.srcRaw (m ((c : Thread nD τ).loc main_arg1)) := by
  show StableHlo.after hostOps0 (B0 m ρ c) (Proc.devRef .tc main_v1) = _
  after_results_simp
  rfl
set_option maxHeartbeats 4000000 in
theorem B1_dst (c : Dev nD) : B1 m ρ c (Proc.devRef .tc main_v3) = AggK.dst (m ((c : Thread nD τ).loc main_arg1)) := by
  show StableHlo.after hostOps0 (B0 m ρ c) (Proc.devRef .tc main_v3) = _
  after_results_simp
  rfl
set_option maxHeartbeats 4000000 in
theorem B1_cnt (c : Dev nD) : B1 m ρ c (Proc.devRef .tc main_v10)
    = broadcastInDim S50000x1 ![0] bcast_S50000_S50000x1_0 (AggK.count (m ((c : Thread nD τ).loc main_arg1))) := by
  show StableHlo.after hostOps0 (B0 m ρ c) (Proc.devRef .tc main_v10) = _
  after_results_simp
  rfl

/-! ## Layer 0: boundaries 0 to 4 -/

section Layer0

theorem B1_h (c : Dev nD) : (B1 m ρ c (Proc.devRef .tc main_arg0)) = (m ((c : Thread nD τ).loc main_arg0)) :=
  Eq.trans (StableHlo.after_of_writes_sub (r := main_arg0) hostOps0 _ hostOps0_writes (by decide)) rfl
theorem B1_Wl (c : Dev nD) : (B1 m ρ c (Proc.devRef .tc main_arg2)) = (m ((c : Thread nD τ).loc main_arg2)) := Eq.trans (StableHlo.after_of_writes_sub (r := main_arg2) hostOps0 _ hostOps0_writes (by decide)) rfl
theorem B1_Wr (c : Dev nD) : (B1 m ρ c (Proc.devRef .tc main_arg4)) = (m ((c : Thread nD τ).loc main_arg4)) := Eq.trans (StableHlo.after_of_writes_sub (r := main_arg4) hostOps0 _ hostOps0_writes (by decide)) rfl

set_option maxHeartbeats 4000000 in
/-- The neighbourhood mean the first region of the layer reads. -/
theorem B1_mean (c : Dev nD) : (B1 m ρ c (Proc.devRef .tc main_v22)) = AggK.mean (m ((c : Thread nD τ).loc main_arg1)) (m ((c : Thread nD τ).loc main_arg0)) := by
  show StableHlo.after hostOps0 (B0 m ρ c) (Proc.devRef .tc main_v22) = _
  after_results_simp
  rfl
set_option maxHeartbeats 4000000 in
/-- The bias as a one-row array. -/
theorem B1_bias (c : Dev nD) : (B1 m ρ c (Proc.devRef .tc main_v23)) = shapeCast S1x128 (m ((c : Thread nD τ).loc main_arg3)) shapeCasts_S128_S1x128 := by
  show StableHlo.after hostOps0 (B0 m ρ c) (Proc.devRef .tc main_v23) = _
  after_results_simp
  rfl

/-- The linear output's array after the layer's first region. -/
theorem B2_lin (c : Dev nD) : (B2 m ρ c (Proc.devRef .tc main_v24_0)) = (linOf0 (AggK.mean (m ((c : Thread nD τ).loc main_arg1)) (m ((c : Thread nD τ).loc main_arg0))) (m ((c : Thread nD τ).loc main_arg0)) (m ((c : Thread nD τ).loc main_arg2)) (m ((c : Thread nD τ).loc main_arg4)) (shapeCast S1x128 (m ((c : Thread nD τ).loc main_arg3)) shapeCasts_S128_S1x128)) := by
  refine ((B2_arr m ρ c 5).trans (final0_5 (E1 m ρ) Payload.pay1_0 c)).trans ?_
  show linOf0 (B1 m ρ c (Proc.devRef .tc main_v22)) (B1 m ρ c (Proc.devRef .tc main_arg0)) (B1 m ρ c (Proc.devRef .tc main_arg2)) (B1 m ρ c (Proc.devRef .tc main_arg4)) (B1 m ρ c (Proc.devRef .tc main_v23)) = _
  rw [B1_mean, B1_h, B1_Wl, B1_Wr, B1_bias]
/-- Its column sums. -/
theorem B2_sum (c : Dev nD) (j : Fin 128) : (B2 m ρ c (Proc.devRef .tc main_v24_1)) (ix2 (0 : Fin 1) j) = ∑ r : Fin 50000, (linOf0 (AggK.mean (m ((c : Thread nD τ).loc main_arg1)) (m ((c : Thread nD τ).loc main_arg0))) (m ((c : Thread nD τ).loc main_arg0)) (m ((c : Thread nD τ).loc main_arg2)) (m ((c : Thread nD τ).loc main_arg4)) (shapeCast S1x128 (m ((c : Thread nD τ).loc main_arg3)) shapeCasts_S128_S1x128)) (ix2 r j) := by
  refine (congrFun (B2_arr m ρ c 6) _).trans ((final0_6_apply (E1 m ρ) Payload.pay1_0 Payload.pay2_0 Payload.pay4_0 c j).trans ?_)
  show ∑ r : Fin 50000, linOf0 (B1 m ρ c (Proc.devRef .tc main_v22)) (B1 m ρ c (Proc.devRef .tc main_arg0)) (B1 m ρ c (Proc.devRef .tc main_arg2)) (B1 m ρ c (Proc.devRef .tc main_arg4)) (B1 m ρ c (Proc.devRef .tc main_v23)) (ix2 r j) = _
  rw [B1_mean, B1_h, B1_Wl, B1_Wr, B1_bias]
/-- The column sums of its squares. -/
theorem B2_sq (c : Dev nD) (j : Fin 128) : (B2 m ρ c (Proc.devRef .tc main_v24_2)) (ix2 (0 : Fin 1) j) = ∑ r : Fin 50000, (linOf0 (AggK.mean (m ((c : Thread nD τ).loc main_arg1)) (m ((c : Thread nD τ).loc main_arg0))) (m ((c : Thread nD τ).loc main_arg0)) (m ((c : Thread nD τ).loc main_arg2)) (m ((c : Thread nD τ).loc main_arg4)) (shapeCast S1x128 (m ((c : Thread nD τ).loc main_arg3)) shapeCasts_S128_S1x128)) (ix2 r j) * (linOf0 (AggK.mean (m ((c : Thread nD τ).loc main_arg1)) (m ((c : Thread nD τ).loc main_arg0))) (m ((c : Thread nD τ).loc main_arg0)) (m ((c : Thread nD τ).loc main_arg2)) (m ((c : Thread nD τ).loc main_arg4)) (shapeCast S1x128 (m ((c : Thread nD τ).loc main_arg3)) shapeCasts_S128_S1x128)) (ix2 r j) := by
  refine (congrFun (B2_arr m ρ c 7) _).trans ((final0_7_apply (E1 m ρ) Payload.pay1_0 Payload.pay3_0 Payload.pay5_0 c j).trans ?_)
  show ∑ r : Fin 50000, linOf0 (B1 m ρ c (Proc.devRef .tc main_v22)) (B1 m ρ c (Proc.devRef .tc main_arg0)) (B1 m ρ c (Proc.devRef .tc main_arg2)) (B1 m ρ c (Proc.devRef .tc main_arg4)) (B1 m ρ c (Proc.devRef .tc main_v23)) (ix2 r j) * linOf0 (B1 m ρ c (Proc.devRef .tc main_v22)) (B1 m ρ c (Proc.devRef .tc main_arg0)) (B1 m ρ c (Proc.devRef .tc main_arg2)) (B1 m ρ c (Proc.devRef .tc main_arg4)) (B1 m ρ c (Proc.devRef .tc main_v23)) (ix2 r j) = _
  rw [B1_mean, B1_h, B1_Wl, B1_Wr, B1_bias]

theorem B3_x (c : Dev nD) : (B3 m ρ c (Proc.devRef .tc main_v24_0)) = (B2 m ρ c (Proc.devRef .tc main_v24_0)) := (StableHlo.after_of_writes_sub (r := main_v24_0) hostOps1 _ hostOps1_writes (by decide))
theorem B2_g (c : Dev nD) : (B2 m ρ c (Proc.devRef .tc main_arg5)) = (m ((c : Thread nD τ).loc main_arg5)) := Eq.trans (Eq.trans (B2_of_ne m ρ c main_arg5 (by decide)) (StableHlo.after_of_writes_sub (r := main_arg5) hostOps0 _ hostOps0_writes (by decide))) rfl
theorem B2_be (c : Dev nD) : (B2 m ρ c (Proc.devRef .tc main_arg6)) = (m ((c : Thread nD τ).loc main_arg6)) := Eq.trans (Eq.trans (B2_of_ne m ρ c main_arg6 (by decide)) (StableHlo.after_of_writes_sub (r := main_arg6) hostOps0 _ hostOps0_writes (by decide))) rfl
/-- The column means' row. -/
theorem B3_mv (c : Dev nD) : (B3 m ρ c (Proc.devRef .tc main_v26)) = Host.divf (B2 m ρ c (Proc.devRef .tc main_v24_1)) (broadcastInDim S1x128 ![] bcast_S_S1x128 (constant (F := Ideal) S_ .f32 0x47435000#32)) := by
  show StableHlo.after hostOps1 (B2 m ρ c) (Proc.devRef .tc main_v26) = _
  after_results <;> rfl
/-- The column variances' row: the mean of the squares less the square of the mean. -/
theorem B3_vr (c : Dev nD) : (B3 m ρ c (Proc.devRef .tc main_v30))
    = subf (Host.divf (B2 m ρ c (Proc.devRef .tc main_v24_2)) (broadcastInDim S1x128 ![] bcast_S_S1x128 (constant (F := Ideal) S_ .f32 0x47435000#32))) (mulf (Host.divf (B2 m ρ c (Proc.devRef .tc main_v24_1)) (broadcastInDim S1x128 ![] bcast_S_S1x128 (constant (F := Ideal) S_ .f32 0x47435000#32))) (Host.divf (B2 m ρ c (Proc.devRef .tc main_v24_1)) (broadcastInDim S1x128 ![] bcast_S_S1x128 (constant (F := Ideal) S_ .f32 0x47435000#32)))) := by
  show StableHlo.after hostOps1 (B2 m ρ c) (Proc.devRef .tc main_v30) = _
  after_results <;> rfl
theorem B3_gr (c : Dev nD) : (B3 m ρ c (Proc.devRef .tc main_v31)) = shapeCast S1x128 (m ((c : Thread nD τ).loc main_arg5)) shapeCasts_S128_S1x128 := by
  show StableHlo.after hostOps1 (B2 m ρ c) (Proc.devRef .tc main_v31) = _
  after_results
  rw [B2_g]
  rfl
theorem B3_br (c : Dev nD) : (B3 m ρ c (Proc.devRef .tc main_v32)) = shapeCast S1x128 (m ((c : Thread nD τ).loc main_arg6)) shapeCasts_S128_S1x128 := by
  show StableHlo.after hostOps1 (B2 m ρ c) (Proc.devRef .tc main_v32) = _
  after_results
  rw [B2_be]
  rfl

/-- The layer's output array after its second region. -/
theorem B4_out (c : Dev nD) : B4 m ρ c (Proc.devRef .tc main_v33)
    = normOf1 (B2 m ρ c (Proc.devRef .tc main_v24_0)) (B3 m ρ c (Proc.devRef .tc main_v26)) (B3 m ρ c (Proc.devRef .tc main_v30))
        (shapeCast S1x128 (m ((c : Thread nD τ).loc main_arg5)) shapeCasts_S128_S1x128) (shapeCast S1x128 (m ((c : Thread nD τ).loc main_arg6)) shapeCasts_S128_S1x128) := by
  refine ((B4_arr m ρ c 5).trans (final1_5 (E3 m ρ) Payload.norm_1 c)).trans ?_
  show normOf1 (B3 m ρ c (Proc.devRef .tc main_v24_0)) (B3 m ρ c (Proc.devRef .tc main_v26)) (B3 m ρ c (Proc.devRef .tc main_v30)) (B3 m ρ c (Proc.devRef .tc main_v31)) (B3 m ρ c (Proc.devRef .tc main_v32)) = _
  rw [B3_x, B3_gr, B3_br]

/-- THE LAYER: the array the layer leaves is the specification's layer of its input features. -/
theorem layer0 (c : Dev nD) : B4 m ρ c (Proc.devRef .tc main_v33)
    = Cert.Spec.layerK true (AggK.mean (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  have hlin : (linOf0 (AggK.mean (m ((c : Thread nD τ).loc main_arg1)) (m ((c : Thread nD τ).loc main_arg0))) (m ((c : Thread nD τ).loc main_arg0)) (m ((c : Thread nD τ).loc main_arg2)) (m ((c : Thread nD τ).loc main_arg4)) (shapeCast S1x128 (m ((c : Thread nD τ).loc main_arg3)) shapeCasts_S128_S1x128)) = Cert.Spec.linK (AggK.mean (m ((c : Thread nD τ).loc main_arg1)) (m ((c : Thread nD τ).loc main_arg0))) (m ((c : Thread nD τ).loc main_arg0)) (m ((c : Thread nD τ).loc main_arg2)) (m ((c : Thread nD τ).loc main_arg4)) (m ((c : Thread nD τ).loc main_arg3)) := by
    funext i
    obtain ⟨r, j, rfl⟩ : ∃ (r : Fin 50000) (j : Fin 128), i = ix2 r j := ⟨i 0, i 1, eq_ix2 i⟩
    rw [Cert.Spec.linK_apply, linOf0_apply, shapeCast_a_1a_apply]
  rw [B4_out, Cert.Spec.layerK_true]
  funext i
  obtain ⟨r, j, rfl⟩ : ∃ (r : Fin 50000) (j : Fin 128), i = ix2 r j := ⟨i 0, i 1, eq_ix2 i⟩
  have hmv : (B3 m ρ c (Proc.devRef .tc main_v26)) (ix2 (0 : Fin 1) j) = Cert.Spec.colMean (linOf0 (AggK.mean (m ((c : Thread nD τ).loc main_arg1)) (m ((c : Thread nD τ).loc main_arg0))) (m ((c : Thread nD τ).loc main_arg0)) (m ((c : Thread nD τ).loc main_arg2)) (m ((c : Thread nD τ).loc main_arg4)) (shapeCast S1x128 (m ((c : Thread nD τ).loc main_arg3)) shapeCasts_S128_S1x128)) j := by
    rw [B3_mv, Cert.Spec.colMean_def, ← B2_sum]
    rfl
  have hvr : (B3 m ρ c (Proc.devRef .tc main_v30)) (ix2 (0 : Fin 1) j) = Cert.Spec.varK (linOf0 (AggK.mean (m ((c : Thread nD τ).loc main_arg1)) (m ((c : Thread nD τ).loc main_arg0))) (m ((c : Thread nD τ).loc main_arg0)) (m ((c : Thread nD τ).loc main_arg2)) (m ((c : Thread nD τ).loc main_arg4)) (shapeCast S1x128 (m ((c : Thread nD τ).loc main_arg3)) shapeCasts_S128_S1x128)) j := by
    rw [B3_vr, Cert.Spec.varK_def, Cert.Spec.colMean_def, ← B2_sq, ← B2_sum]
    rfl
  rw [Cert.Spec.relu_apply, Cert.Spec.normWith_apply, normOf1_apply, hmv, hvr, B2_lin, shapeCast_a_1a_apply, shapeCast_a_1a_apply, hlin, Cert.Spec.eps_def]

end Layer0

/-! ## Layer 1: boundaries 4 to 8 -/

section Layer1

theorem B5_h (c : Dev nD) : (B5 m ρ c (Proc.devRef .tc main_v33)) = (B4 m ρ c (Proc.devRef .tc main_v33)) :=
  (StableHlo.after_of_writes_sub (r := main_v33) hostOps2 _ hostOps2_writes (by decide))
theorem B5_Wl (c : Dev nD) : (B5 m ρ c (Proc.devRef .tc main_arg7)) = (m ((c : Thread nD τ).loc main_arg7)) := Eq.trans (Eq.trans (StableHlo.after_of_writes_sub (r := main_arg7) hostOps2 _ hostOps2_writes (by decide)) (Eq.trans (B4_of_ne m ρ c main_arg7 (by decide)) (Eq.trans (StableHlo.after_of_writes_sub (r := main_arg7) hostOps1 _ hostOps1_writes (by decide)) (Eq.trans (B2_of_ne m ρ c main_arg7 (by decide)) (StableHlo.after_of_writes_sub (r := main_arg7) hostOps0 _ hostOps0_writes (by decide)))))) rfl
theorem B5_Wr (c : Dev nD) : (B5 m ρ c (Proc.devRef .tc main_arg9)) = (m ((c : Thread nD τ).loc main_arg9)) := Eq.trans (Eq.trans (StableHlo.after_of_writes_sub (r := main_arg9) hostOps2 _ hostOps2_writes (by decide)) (Eq.trans (B4_of_ne m ρ c main_arg9 (by decide)) (Eq.trans (StableHlo.after_of_writes_sub (r := main_arg9) hostOps1 _ hostOps1_writes (by decide)) (Eq.trans (B2_of_ne m ρ c main_arg9 (by decide)) (StableHlo.after_of_writes_sub (r := main_arg9) hostOps0 _ hostOps0_writes (by decide)))))) rfl
theorem B4_src (c : Dev nD) : B4 m ρ c (Proc.devRef .tc main_v1) = B1 m ρ c (Proc.devRef .tc main_v1) := (Eq.trans (B4_of_ne m ρ c main_v1 (by decide)) (Eq.trans (StableHlo.after_of_writes_sub (r := main_v1) hostOps1 _ hostOps1_writes (by decide)) (B2_of_ne m ρ c main_v1 (by decide))))
theorem B4_dst (c : Dev nD) : B4 m ρ c (Proc.devRef .tc main_v3) = B1 m ρ c (Proc.devRef .tc main_v3) := (Eq.trans (B4_of_ne m ρ c main_v3 (by decide)) (Eq.trans (StableHlo.after_of_writes_sub (r := main_v3) hostOps1 _ hostOps1_writes (by decide)) (B2_of_ne m ρ c main_v3 (by decide))))
theorem B4_cnt (c : Dev nD) : B4 m ρ c (Proc.devRef .tc main_v10) = B1 m ρ c (Proc.devRef .tc main_v10) := (Eq.trans (B4_of_ne m ρ c main_v10 (by decide)) (Eq.trans (StableHlo.after_of_writes_sub (r := main_v10) hostOps1 _ hostOps1_writes (by decide)) (B2_of_ne m ρ c main_v10 (by decide))))
theorem B4_bl (c : Dev nD) : B4 m ρ c (Proc.devRef .tc main_arg8) = (m ((c : Thread nD τ).loc main_arg8)) := Eq.trans (Eq.trans (B4_of_ne m ρ c main_arg8 (by decide)) (Eq.trans (StableHlo.after_of_writes_sub (r := main_arg8) hostOps1 _ hostOps1_writes (by decide)) (Eq.trans (B2_of_ne m ρ c main_arg8 (by decide)) (StableHlo.after_of_writes_sub (r := main_arg8) hostOps0 _ hostOps0_writes (by decide))))) rfl

set_option maxHeartbeats 4000000 in
/-- The neighbourhood mean the first region of the layer reads. -/
theorem B5_mean (c : Dev nD) : (B5 m ρ c (Proc.devRef .tc main_v45)) = AggK.mean (m ((c : Thread nD τ).loc main_arg1)) (B4 m ρ c (Proc.devRef .tc main_v33)) := by
  show StableHlo.after hostOps2 (B4 m ρ c) (Proc.devRef .tc main_v45) = _
  after_results_simp
  rw [B4_src, B4_dst, B4_cnt, B1_src, B1_dst, B1_cnt]
  rfl
set_option maxHeartbeats 4000000 in
/-- The bias as a one-row array. -/
theorem B5_bias (c : Dev nD) : (B5 m ρ c (Proc.devRef .tc main_v46)) = shapeCast S1x128 (m ((c : Thread nD τ).loc main_arg8)) shapeCasts_S128_S1x128 := by
  show StableHlo.after hostOps2 (B4 m ρ c) (Proc.devRef .tc main_v46) = _
  after_results_simp
  rw [B4_bl]
  rfl

/-- The linear output's array after the layer's first region. -/
theorem B6_lin (c : Dev nD) : (B6 m ρ c (Proc.devRef .tc main_v47_0)) = (linOf2 (AggK.mean (m ((c : Thread nD τ).loc main_arg1)) (B4 m ρ c (Proc.devRef .tc main_v33))) (B4 m ρ c (Proc.devRef .tc main_v33)) (m ((c : Thread nD τ).loc main_arg7)) (m ((c : Thread nD τ).loc main_arg9)) (shapeCast S1x128 (m ((c : Thread nD τ).loc main_arg8)) shapeCasts_S128_S1x128)) := by
  refine ((B6_arr m ρ c 5).trans (final2_5 (E5 m ρ) Payload.pay1_2 c)).trans ?_
  show linOf2 (B5 m ρ c (Proc.devRef .tc main_v45)) (B5 m ρ c (Proc.devRef .tc main_v33)) (B5 m ρ c (Proc.devRef .tc main_arg7)) (B5 m ρ c (Proc.devRef .tc main_arg9)) (B5 m ρ c (Proc.devRef .tc main_v46)) = _
  rw [B5_mean, B5_h, B5_Wl, B5_Wr, B5_bias]
/-- Its column sums. -/
theorem B6_sum (c : Dev nD) (j : Fin 128) : (B6 m ρ c (Proc.devRef .tc main_v47_1)) (ix2 (0 : Fin 1) j) = ∑ r : Fin 50000, (linOf2 (AggK.mean (m ((c : Thread nD τ).loc main_arg1)) (B4 m ρ c (Proc.devRef .tc main_v33))) (B4 m ρ c (Proc.devRef .tc main_v33)) (m ((c : Thread nD τ).loc main_arg7)) (m ((c : Thread nD τ).loc main_arg9)) (shapeCast S1x128 (m ((c : Thread nD τ).loc main_arg8)) shapeCasts_S128_S1x128)) (ix2 r j) := by
  refine (congrFun (B6_arr m ρ c 6) _).trans ((final2_6_apply (E5 m ρ) Payload.pay1_2 Payload.pay2_2 Payload.pay4_2 c j).trans ?_)
  show ∑ r : Fin 50000, linOf2 (B5 m ρ c (Proc.devRef .tc main_v45)) (B5 m ρ c (Proc.devRef .tc main_v33)) (B5 m ρ c (Proc.devRef .tc main_arg7)) (B5 m ρ c (Proc.devRef .tc main_arg9)) (B5 m ρ c (Proc.devRef .tc main_v46)) (ix2 r j) = _
  rw [B5_mean, B5_h, B5_Wl, B5_Wr, B5_bias]
/-- The column sums of its squares. -/
theorem B6_sq (c : Dev nD) (j : Fin 128) : (B6 m ρ c (Proc.devRef .tc main_v47_2)) (ix2 (0 : Fin 1) j) = ∑ r : Fin 50000, (linOf2 (AggK.mean (m ((c : Thread nD τ).loc main_arg1)) (B4 m ρ c (Proc.devRef .tc main_v33))) (B4 m ρ c (Proc.devRef .tc main_v33)) (m ((c : Thread nD τ).loc main_arg7)) (m ((c : Thread nD τ).loc main_arg9)) (shapeCast S1x128 (m ((c : Thread nD τ).loc main_arg8)) shapeCasts_S128_S1x128)) (ix2 r j) * (linOf2 (AggK.mean (m ((c : Thread nD τ).loc main_arg1)) (B4 m ρ c (Proc.devRef .tc main_v33))) (B4 m ρ c (Proc.devRef .tc main_v33)) (m ((c : Thread nD τ).loc main_arg7)) (m ((c : Thread nD τ).loc main_arg9)) (shapeCast S1x128 (m ((c : Thread nD τ).loc main_arg8)) shapeCasts_S128_S1x128)) (ix2 r j) := by
  refine (congrFun (B6_arr m ρ c 7) _).trans ((final2_7_apply (E5 m ρ) Payload.pay1_2 Payload.pay3_2 Payload.pay5_2 c j).trans ?_)
  show ∑ r : Fin 50000, linOf2 (B5 m ρ c (Proc.devRef .tc main_v45)) (B5 m ρ c (Proc.devRef .tc main_v33)) (B5 m ρ c (Proc.devRef .tc main_arg7)) (B5 m ρ c (Proc.devRef .tc main_arg9)) (B5 m ρ c (Proc.devRef .tc main_v46)) (ix2 r j) * linOf2 (B5 m ρ c (Proc.devRef .tc main_v45)) (B5 m ρ c (Proc.devRef .tc main_v33)) (B5 m ρ c (Proc.devRef .tc main_arg7)) (B5 m ρ c (Proc.devRef .tc main_arg9)) (B5 m ρ c (Proc.devRef .tc main_v46)) (ix2 r j) = _
  rw [B5_mean, B5_h, B5_Wl, B5_Wr, B5_bias]

theorem B7_x (c : Dev nD) : (B7 m ρ c (Proc.devRef .tc main_v47_0)) = (B6 m ρ c (Proc.devRef .tc main_v47_0)) := (StableHlo.after_of_writes_sub (r := main_v47_0) hostOps3 _ hostOps3_writes (by decide))
theorem B6_g (c : Dev nD) : (B6 m ρ c (Proc.devRef .tc main_arg10)) = (m ((c : Thread nD τ).loc main_arg10)) := Eq.trans (Eq.trans (B6_of_ne m ρ c main_arg10 (by decide)) (Eq.trans (StableHlo.after_of_writes_sub (r := main_arg10) hostOps2 _ hostOps2_writes (by decide)) (Eq.trans (B4_of_ne m ρ c main_arg10 (by decide)) (Eq.trans (StableHlo.after_of_writes_sub (r := main_arg10) hostOps1 _ hostOps1_writes (by decide)) (Eq.trans (B2_of_ne m ρ c main_arg10 (by decide)) (StableHlo.after_of_writes_sub (r := main_arg10) hostOps0 _ hostOps0_writes (by decide))))))) rfl
theorem B6_be (c : Dev nD) : (B6 m ρ c (Proc.devRef .tc main_arg11)) = (m ((c : Thread nD τ).loc main_arg11)) := Eq.trans (Eq.trans (B6_of_ne m ρ c main_arg11 (by decide)) (Eq.trans (StableHlo.after_of_writes_sub (r := main_arg11) hostOps2 _ hostOps2_writes (by decide)) (Eq.trans (B4_of_ne m ρ c main_arg11 (by decide)) (Eq.trans (StableHlo.after_of_writes_sub (r := main_arg11) hostOps1 _ hostOps1_writes (by decide)) (Eq.trans (B2_of_ne m ρ c main_arg11 (by decide)) (StableHlo.after_of_writes_sub (r := main_arg11) hostOps0 _ hostOps0_writes (by decide))))))) rfl
/-- The column means' row. -/
theorem B7_mv (c : Dev nD) : (B7 m ρ c (Proc.devRef .tc main_v49)) = Host.divf (B6 m ρ c (Proc.devRef .tc main_v47_1)) (broadcastInDim S1x128 ![] bcast_S_S1x128 (constant (F := Ideal) S_ .f32 0x47435000#32)) := by
  show StableHlo.after hostOps3 (B6 m ρ c) (Proc.devRef .tc main_v49) = _
  after_results <;> rfl
/-- The column variances' row: the mean of the squares less the square of the mean. -/
theorem B7_vr (c : Dev nD) : (B7 m ρ c (Proc.devRef .tc main_v53))
    = subf (Host.divf (B6 m ρ c (Proc.devRef .tc main_v47_2)) (broadcastInDim S1x128 ![] bcast_S_S1x128 (constant (F := Ideal) S_ .f32 0x47435000#32))) (mulf (Host.divf (B6 m ρ c (Proc.devRef .tc main_v47_1)) (broadcastInDim S1x128 ![] bcast_S_S1x128 (constant (F := Ideal) S_ .f32 0x47435000#32))) (Host.divf (B6 m ρ c (Proc.devRef .tc main_v47_1)) (broadcastInDim S1x128 ![] bcast_S_S1x128 (constant (F := Ideal) S_ .f32 0x47435000#32)))) := by
  show StableHlo.after hostOps3 (B6 m ρ c) (Proc.devRef .tc main_v53) = _
  after_results <;> rfl
theorem B7_gr (c : Dev nD) : (B7 m ρ c (Proc.devRef .tc main_v54)) = shapeCast S1x128 (m ((c : Thread nD τ).loc main_arg10)) shapeCasts_S128_S1x128 := by
  show StableHlo.after hostOps3 (B6 m ρ c) (Proc.devRef .tc main_v54) = _
  after_results
  rw [B6_g]
  rfl
theorem B7_br (c : Dev nD) : (B7 m ρ c (Proc.devRef .tc main_v55)) = shapeCast S1x128 (m ((c : Thread nD τ).loc main_arg11)) shapeCasts_S128_S1x128 := by
  show StableHlo.after hostOps3 (B6 m ρ c) (Proc.devRef .tc main_v55) = _
  after_results
  rw [B6_be]
  rfl

/-- The layer's output array after its second region. -/
theorem B8_out (c : Dev nD) : B8 m ρ c (Proc.devRef .tc main_v56)
    = normOf3 (B6 m ρ c (Proc.devRef .tc main_v47_0)) (B7 m ρ c (Proc.devRef .tc main_v49)) (B7 m ρ c (Proc.devRef .tc main_v53))
        (shapeCast S1x128 (m ((c : Thread nD τ).loc main_arg10)) shapeCasts_S128_S1x128) (shapeCast S1x128 (m ((c : Thread nD τ).loc main_arg11)) shapeCasts_S128_S1x128) := by
  refine ((B8_arr m ρ c 5).trans (final3_5 (E7 m ρ) Payload.norm_3 c)).trans ?_
  show normOf3 (B7 m ρ c (Proc.devRef .tc main_v47_0)) (B7 m ρ c (Proc.devRef .tc main_v49)) (B7 m ρ c (Proc.devRef .tc main_v53)) (B7 m ρ c (Proc.devRef .tc main_v54)) (B7 m ρ c (Proc.devRef .tc main_v55)) = _
  rw [B7_x, B7_gr, B7_br]

/-- THE LAYER: the array the layer leaves is the specification's layer of its input features. -/
theorem layer1 (c : Dev nD) : B8 m ρ c (Proc.devRef .tc main_v56)
    = Cert.Spec.layerK true (AggK.mean (m ((c : Thread nD τ).loc main_arg1))) (B4 m ρ c (Proc.devRef .tc main_v33)) (m ((c : Thread nD τ).loc main_arg7)) (m ((c : Thread nD τ).loc main_arg8)) (m ((c : Thread nD τ).loc main_arg9)) (m ((c : Thread nD τ).loc main_arg10)) (m ((c : Thread nD τ).loc main_arg11)) := by
  have hlin : (linOf2 (AggK.mean (m ((c : Thread nD τ).loc main_arg1)) (B4 m ρ c (Proc.devRef .tc main_v33))) (B4 m ρ c (Proc.devRef .tc main_v33)) (m ((c : Thread nD τ).loc main_arg7)) (m ((c : Thread nD τ).loc main_arg9)) (shapeCast S1x128 (m ((c : Thread nD τ).loc main_arg8)) shapeCasts_S128_S1x128)) = Cert.Spec.linK (AggK.mean (m ((c : Thread nD τ).loc main_arg1)) (B4 m ρ c (Proc.devRef .tc main_v33))) (B4 m ρ c (Proc.devRef .tc main_v33)) (m ((c : Thread nD τ).loc main_arg7)) (m ((c : Thread nD τ).loc main_arg9)) (m ((c : Thread nD τ).loc main_arg8)) := by
    funext i
    obtain ⟨r, j, rfl⟩ : ∃ (r : Fin 50000) (j : Fin 128), i = ix2 r j := ⟨i 0, i 1, eq_ix2 i⟩
    rw [Cert.Spec.linK_apply, linOf2_apply, shapeCast_a_1a_apply]
  rw [B8_out, Cert.Spec.layerK_true]
  funext i
  obtain ⟨r, j, rfl⟩ : ∃ (r : Fin 50000) (j : Fin 128), i = ix2 r j := ⟨i 0, i 1, eq_ix2 i⟩
  have hmv : (B7 m ρ c (Proc.devRef .tc main_v49)) (ix2 (0 : Fin 1) j) = Cert.Spec.colMean (linOf2 (AggK.mean (m ((c : Thread nD τ).loc main_arg1)) (B4 m ρ c (Proc.devRef .tc main_v33))) (B4 m ρ c (Proc.devRef .tc main_v33)) (m ((c : Thread nD τ).loc main_arg7)) (m ((c : Thread nD τ).loc main_arg9)) (shapeCast S1x128 (m ((c : Thread nD τ).loc main_arg8)) shapeCasts_S128_S1x128)) j := by
    rw [B7_mv, Cert.Spec.colMean_def, ← B6_sum]
    rfl
  have hvr : (B7 m ρ c (Proc.devRef .tc main_v53)) (ix2 (0 : Fin 1) j) = Cert.Spec.varK (linOf2 (AggK.mean (m ((c : Thread nD τ).loc main_arg1)) (B4 m ρ c (Proc.devRef .tc main_v33))) (B4 m ρ c (Proc.devRef .tc main_v33)) (m ((c : Thread nD τ).loc main_arg7)) (m ((c : Thread nD τ).loc main_arg9)) (shapeCast S1x128 (m ((c : Thread nD τ).loc main_arg8)) shapeCasts_S128_S1x128)) j := by
    rw [B7_vr, Cert.Spec.varK_def, Cert.Spec.colMean_def, ← B6_sq, ← B6_sum]
    rfl
  rw [Cert.Spec.relu_apply, Cert.Spec.normWith_apply, normOf3_apply, hmv, hvr, B6_lin, shapeCast_a_1a_apply, shapeCast_a_1a_apply, hlin, Cert.Spec.eps_def]

end Layer1

/-! ## Layer 2: boundaries 8 to 12 -/

section Layer2

theorem B9_h (c : Dev nD) : (B9 m ρ c (Proc.devRef .tc main_v56)) = (B8 m ρ c (Proc.devRef .tc main_v56)) :=
  (StableHlo.after_of_writes_sub (r := main_v56) hostOps4 _ hostOps4_writes (by decide))
theorem B9_Wl (c : Dev nD) : (B9 m ρ c (Proc.devRef .tc main_arg12)) = (m ((c : Thread nD τ).loc main_arg12)) := Eq.trans (Eq.trans (StableHlo.after_of_writes_sub (r := main_arg12) hostOps4 _ hostOps4_writes (by decide)) (Eq.trans (B8_of_ne m ρ c main_arg12 (by decide)) (Eq.trans (StableHlo.after_of_writes_sub (r := main_arg12) hostOps3 _ hostOps3_writes (by decide)) (Eq.trans (B6_of_ne m ρ c main_arg12 (by decide)) (Eq.trans (StableHlo.after_of_writes_sub (r := main_arg12) hostOps2 _ hostOps2_writes (by decide)) (Eq.trans (B4_of_ne m ρ c main_arg12 (by decide)) (Eq.trans (StableHlo.after_of_writes_sub (r := main_arg12) hostOps1 _ hostOps1_writes (by decide)) (Eq.trans (B2_of_ne m ρ c main_arg12 (by decide)) (StableHlo.after_of_writes_sub (r := main_arg12) hostOps0 _ hostOps0_writes (by decide)))))))))) rfl
theorem B9_Wr (c : Dev nD) : (B9 m ρ c (Proc.devRef .tc main_arg14)) = (m ((c : Thread nD τ).loc main_arg14)) := Eq.trans (Eq.trans (StableHlo.after_of_writes_sub (r := main_arg14) hostOps4 _ hostOps4_writes (by decide)) (Eq.trans (B8_of_ne m ρ c main_arg14 (by decide)) (Eq.trans (StableHlo.after_of_writes_sub (r := main_arg14) hostOps3 _ hostOps3_writes (by decide)) (Eq.trans (B6_of_ne m ρ c main_arg14 (by decide)) (Eq.trans (StableHlo.after_of_writes_sub (r := main_arg14) hostOps2 _ hostOps2_writes (by decide)) (Eq.trans (B4_of_ne m ρ c main_arg14 (by decide)) (Eq.trans (StableHlo.after_of_writes_sub (r := main_arg14) hostOps1 _ hostOps1_writes (by decide)) (Eq.trans (B2_of_ne m ρ c main_arg14 (by decide)) (StableHlo.after_of_writes_sub (r := main_arg14) hostOps0 _ hostOps0_writes (by decide)))))))))) rfl
theorem B8_src (c : Dev nD) : B8 m ρ c (Proc.devRef .tc main_v1) = B1 m ρ c (Proc.devRef .tc main_v1) := (Eq.trans (B8_of_ne m ρ c main_v1 (by decide)) (Eq.trans (StableHlo.after_of_writes_sub (r := main_v1) hostOps3 _ hostOps3_writes (by decide)) (Eq.trans (B6_of_ne m ρ c main_v1 (by decide)) (Eq.trans (StableHlo.after_of_writes_sub (r := main_v1) hostOps2 _ hostOps2_writes (by decide)) (Eq.trans (B4_of_ne m ρ c main_v1 (by decide)) (Eq.trans (StableHlo.after_of_writes_sub (r := main_v1) hostOps1 _ hostOps1_writes (by decide)) (B2_of_ne m ρ c main_v1 (by decide))))))))
theorem B8_dst (c : Dev nD) : B8 m ρ c (Proc.devRef .tc main_v3) = B1 m ρ c (Proc.devRef .tc main_v3) := (Eq.trans (B8_of_ne m ρ c main_v3 (by decide)) (Eq.trans (StableHlo.after_of_writes_sub (r := main_v3) hostOps3 _ hostOps3_writes (by decide)) (Eq.trans (B6_of_ne m ρ c main_v3 (by decide)) (Eq.trans (StableHlo.after_of_writes_sub (r := main_v3) hostOps2 _ hostOps2_writes (by decide)) (Eq.trans (B4_of_ne m ρ c main_v3 (by decide)) (Eq.trans (StableHlo.after_of_writes_sub (r := main_v3) hostOps1 _ hostOps1_writes (by decide)) (B2_of_ne m ρ c main_v3 (by decide))))))))
theorem B8_cnt (c : Dev nD) : B8 m ρ c (Proc.devRef .tc main_v10) = B1 m ρ c (Proc.devRef .tc main_v10) := (Eq.trans (B8_of_ne m ρ c main_v10 (by decide)) (Eq.trans (StableHlo.after_of_writes_sub (r := main_v10) hostOps3 _ hostOps3_writes (by decide)) (Eq.trans (B6_of_ne m ρ c main_v10 (by decide)) (Eq.trans (StableHlo.after_of_writes_sub (r := main_v10) hostOps2 _ hostOps2_writes (by decide)) (Eq.trans (B4_of_ne m ρ c main_v10 (by decide)) (Eq.trans (StableHlo.after_of_writes_sub (r := main_v10) hostOps1 _ hostOps1_writes (by decide)) (B2_of_ne m ρ c main_v10 (by decide))))))))
theorem B8_bl (c : Dev nD) : B8 m ρ c (Proc.devRef .tc main_arg13) = (m ((c : Thread nD τ).loc main_arg13)) := Eq.trans (Eq.trans (B8_of_ne m ρ c main_arg13 (by decide)) (Eq.trans (StableHlo.after_of_writes_sub (r := main_arg13) hostOps3 _ hostOps3_writes (by decide)) (Eq.trans (B6_of_ne m ρ c main_arg13 (by decide)) (Eq.trans (StableHlo.after_of_writes_sub (r := main_arg13) hostOps2 _ hostOps2_writes (by decide)) (Eq.trans (B4_of_ne m ρ c main_arg13 (by decide)) (Eq.trans (StableHlo.after_of_writes_sub (r := main_arg13) hostOps1 _ hostOps1_writes (by decide)) (Eq.trans (B2_of_ne m ρ c main_arg13 (by decide)) (StableHlo.after_of_writes_sub (r := main_arg13) hostOps0 _ hostOps0_writes (by decide))))))))) rfl

set_option maxHeartbeats 4000000 in
/-- The neighbourhood mean the first region of the layer reads. -/
theorem B9_mean (c : Dev nD) : (B9 m ρ c (Proc.devRef .tc main_v68)) = AggK.mean (m ((c : Thread nD τ).loc main_arg1)) (B8 m ρ c (Proc.devRef .tc main_v56)) := by
  show StableHlo.after hostOps4 (B8 m ρ c) (Proc.devRef .tc main_v68) = _
  after_results_simp
  rw [B8_src, B8_dst, B8_cnt, B1_src, B1_dst, B1_cnt]
  rfl
set_option maxHeartbeats 4000000 in
/-- The bias as a one-row array. -/
theorem B9_bias (c : Dev nD) : (B9 m ρ c (Proc.devRef .tc main_v69)) = shapeCast S1x128 (m ((c : Thread nD τ).loc main_arg13)) shapeCasts_S128_S1x128 := by
  show StableHlo.after hostOps4 (B8 m ρ c) (Proc.devRef .tc main_v69) = _
  after_results_simp
  rw [B8_bl]
  rfl

/-- The linear output's array after the layer's first region. -/
theorem B10_lin (c : Dev nD) : (B10 m ρ c (Proc.devRef .tc main_v70_0)) = (linOf4 (AggK.mean (m ((c : Thread nD τ).loc main_arg1)) (B8 m ρ c (Proc.devRef .tc main_v56))) (B8 m ρ c (Proc.devRef .tc main_v56)) (m ((c : Thread nD τ).loc main_arg12)) (m ((c : Thread nD τ).loc main_arg14)) (shapeCast S1x128 (m ((c : Thread nD τ).loc main_arg13)) shapeCasts_S128_S1x128)) := by
  refine ((B10_arr m ρ c 5).trans (final4_5 (E9 m ρ) Payload.pay1_4 c)).trans ?_
  show linOf4 (B9 m ρ c (Proc.devRef .tc main_v68)) (B9 m ρ c (Proc.devRef .tc main_v56)) (B9 m ρ c (Proc.devRef .tc main_arg12)) (B9 m ρ c (Proc.devRef .tc main_arg14)) (B9 m ρ c (Proc.devRef .tc main_v69)) = _
  rw [B9_mean, B9_h, B9_Wl, B9_Wr, B9_bias]
/-- Its column sums. -/
theorem B10_sum (c : Dev nD) (j : Fin 128) : (B10 m ρ c (Proc.devRef .tc main_v70_1)) (ix2 (0 : Fin 1) j) = ∑ r : Fin 50000, (linOf4 (AggK.mean (m ((c : Thread nD τ).loc main_arg1)) (B8 m ρ c (Proc.devRef .tc main_v56))) (B8 m ρ c (Proc.devRef .tc main_v56)) (m ((c : Thread nD τ).loc main_arg12)) (m ((c : Thread nD τ).loc main_arg14)) (shapeCast S1x128 (m ((c : Thread nD τ).loc main_arg13)) shapeCasts_S128_S1x128)) (ix2 r j) := by
  refine (congrFun (B10_arr m ρ c 6) _).trans ((final4_6_apply (E9 m ρ) Payload.pay1_4 Payload.pay2_4 Payload.pay4_4 c j).trans ?_)
  show ∑ r : Fin 50000, linOf4 (B9 m ρ c (Proc.devRef .tc main_v68)) (B9 m ρ c (Proc.devRef .tc main_v56)) (B9 m ρ c (Proc.devRef .tc main_arg12)) (B9 m ρ c (Proc.devRef .tc main_arg14)) (B9 m ρ c (Proc.devRef .tc main_v69)) (ix2 r j) = _
  rw [B9_mean, B9_h, B9_Wl, B9_Wr, B9_bias]
/-- The column sums of its squares. -/
theorem B10_sq (c : Dev nD) (j : Fin 128) : (B10 m ρ c (Proc.devRef .tc main_v70_2)) (ix2 (0 : Fin 1) j) = ∑ r : Fin 50000, (linOf4 (AggK.mean (m ((c : Thread nD τ).loc main_arg1)) (B8 m ρ c (Proc.devRef .tc main_v56))) (B8 m ρ c (Proc.devRef .tc main_v56)) (m ((c : Thread nD τ).loc main_arg12)) (m ((c : Thread nD τ).loc main_arg14)) (shapeCast S1x128 (m ((c : Thread nD τ).loc main_arg13)) shapeCasts_S128_S1x128)) (ix2 r j) * (linOf4 (AggK.mean (m ((c : Thread nD τ).loc main_arg1)) (B8 m ρ c (Proc.devRef .tc main_v56))) (B8 m ρ c (Proc.devRef .tc main_v56)) (m ((c : Thread nD τ).loc main_arg12)) (m ((c : Thread nD τ).loc main_arg14)) (shapeCast S1x128 (m ((c : Thread nD τ).loc main_arg13)) shapeCasts_S128_S1x128)) (ix2 r j) := by
  refine (congrFun (B10_arr m ρ c 7) _).trans ((final4_7_apply (E9 m ρ) Payload.pay1_4 Payload.pay3_4 Payload.pay5_4 c j).trans ?_)
  show ∑ r : Fin 50000, linOf4 (B9 m ρ c (Proc.devRef .tc main_v68)) (B9 m ρ c (Proc.devRef .tc main_v56)) (B9 m ρ c (Proc.devRef .tc main_arg12)) (B9 m ρ c (Proc.devRef .tc main_arg14)) (B9 m ρ c (Proc.devRef .tc main_v69)) (ix2 r j) * linOf4 (B9 m ρ c (Proc.devRef .tc main_v68)) (B9 m ρ c (Proc.devRef .tc main_v56)) (B9 m ρ c (Proc.devRef .tc main_arg12)) (B9 m ρ c (Proc.devRef .tc main_arg14)) (B9 m ρ c (Proc.devRef .tc main_v69)) (ix2 r j) = _
  rw [B9_mean, B9_h, B9_Wl, B9_Wr, B9_bias]

theorem B11_x (c : Dev nD) : (B11 m ρ c (Proc.devRef .tc main_v70_0)) = (B10 m ρ c (Proc.devRef .tc main_v70_0)) := (StableHlo.after_of_writes_sub (r := main_v70_0) hostOps5 _ hostOps5_writes (by decide))
theorem B10_g (c : Dev nD) : (B10 m ρ c (Proc.devRef .tc main_arg15)) = (m ((c : Thread nD τ).loc main_arg15)) := Eq.trans (Eq.trans (B10_of_ne m ρ c main_arg15 (by decide)) (Eq.trans (StableHlo.after_of_writes_sub (r := main_arg15) hostOps4 _ hostOps4_writes (by decide)) (Eq.trans (B8_of_ne m ρ c main_arg15 (by decide)) (Eq.trans (StableHlo.after_of_writes_sub (r := main_arg15) hostOps3 _ hostOps3_writes (by decide)) (Eq.trans (B6_of_ne m ρ c main_arg15 (by decide)) (Eq.trans (StableHlo.after_of_writes_sub (r := main_arg15) hostOps2 _ hostOps2_writes (by decide)) (Eq.trans (B4_of_ne m ρ c main_arg15 (by decide)) (Eq.trans (StableHlo.after_of_writes_sub (r := main_arg15) hostOps1 _ hostOps1_writes (by decide)) (Eq.trans (B2_of_ne m ρ c main_arg15 (by decide)) (StableHlo.after_of_writes_sub (r := main_arg15) hostOps0 _ hostOps0_writes (by decide))))))))))) rfl
theorem B10_be (c : Dev nD) : (B10 m ρ c (Proc.devRef .tc main_arg16)) = (m ((c : Thread nD τ).loc main_arg16)) := Eq.trans (Eq.trans (B10_of_ne m ρ c main_arg16 (by decide)) (Eq.trans (StableHlo.after_of_writes_sub (r := main_arg16) hostOps4 _ hostOps4_writes (by decide)) (Eq.trans (B8_of_ne m ρ c main_arg16 (by decide)) (Eq.trans (StableHlo.after_of_writes_sub (r := main_arg16) hostOps3 _ hostOps3_writes (by decide)) (Eq.trans (B6_of_ne m ρ c main_arg16 (by decide)) (Eq.trans (StableHlo.after_of_writes_sub (r := main_arg16) hostOps2 _ hostOps2_writes (by decide)) (Eq.trans (B4_of_ne m ρ c main_arg16 (by decide)) (Eq.trans (StableHlo.after_of_writes_sub (r := main_arg16) hostOps1 _ hostOps1_writes (by decide)) (Eq.trans (B2_of_ne m ρ c main_arg16 (by decide)) (StableHlo.after_of_writes_sub (r := main_arg16) hostOps0 _ hostOps0_writes (by decide))))))))))) rfl
/-- The column means' row. -/
theorem B11_mv (c : Dev nD) : (B11 m ρ c (Proc.devRef .tc main_v72)) = Host.divf (B10 m ρ c (Proc.devRef .tc main_v70_1)) (broadcastInDim S1x128 ![] bcast_S_S1x128 (constant (F := Ideal) S_ .f32 0x47435000#32)) := by
  show StableHlo.after hostOps5 (B10 m ρ c) (Proc.devRef .tc main_v72) = _
  after_results <;> rfl
/-- The column variances' row: the mean of the squares less the square of the mean. -/
theorem B11_vr (c : Dev nD) : (B11 m ρ c (Proc.devRef .tc main_v76))
    = subf (Host.divf (B10 m ρ c (Proc.devRef .tc main_v70_2)) (broadcastInDim S1x128 ![] bcast_S_S1x128 (constant (F := Ideal) S_ .f32 0x47435000#32))) (mulf (Host.divf (B10 m ρ c (Proc.devRef .tc main_v70_1)) (broadcastInDim S1x128 ![] bcast_S_S1x128 (constant (F := Ideal) S_ .f32 0x47435000#32))) (Host.divf (B10 m ρ c (Proc.devRef .tc main_v70_1)) (broadcastInDim S1x128 ![] bcast_S_S1x128 (constant (F := Ideal) S_ .f32 0x47435000#32)))) := by
  show StableHlo.after hostOps5 (B10 m ρ c) (Proc.devRef .tc main_v76) = _
  after_results <;> rfl
theorem B11_gr (c : Dev nD) : (B11 m ρ c (Proc.devRef .tc main_v77)) = shapeCast S1x128 (m ((c : Thread nD τ).loc main_arg15)) shapeCasts_S128_S1x128 := by
  show StableHlo.after hostOps5 (B10 m ρ c) (Proc.devRef .tc main_v77) = _
  after_results
  rw [B10_g]
  rfl
theorem B11_br (c : Dev nD) : (B11 m ρ c (Proc.devRef .tc main_v78)) = shapeCast S1x128 (m ((c : Thread nD τ).loc main_arg16)) shapeCasts_S128_S1x128 := by
  show StableHlo.after hostOps5 (B10 m ρ c) (Proc.devRef .tc main_v78) = _
  after_results
  rw [B10_be]
  rfl

/-- The layer's output array after its second region. -/
theorem B12_out (c : Dev nD) : B12 m ρ c (Proc.devRef .tc main_v79)
    = normOf5 (B10 m ρ c (Proc.devRef .tc main_v70_0)) (B11 m ρ c (Proc.devRef .tc main_v72)) (B11 m ρ c (Proc.devRef .tc main_v76))
        (shapeCast S1x128 (m ((c : Thread nD τ).loc main_arg15)) shapeCasts_S128_S1x128) (shapeCast S1x128 (m ((c : Thread nD τ).loc main_arg16)) shapeCasts_S128_S1x128) := by
  refine ((B12_arr m ρ c 5).trans (final5_5 (E11 m ρ) Payload.norm_5 c)).trans ?_
  show normOf5 (B11 m ρ c (Proc.devRef .tc main_v70_0)) (B11 m ρ c (Proc.devRef .tc main_v72)) (B11 m ρ c (Proc.devRef .tc main_v76)) (B11 m ρ c (Proc.devRef .tc main_v77)) (B11 m ρ c (Proc.devRef .tc main_v78)) = _
  rw [B11_x, B11_gr, B11_br]

/-- THE LAYER: the array the layer leaves is the specification's layer of its input features. -/
theorem layer2 (c : Dev nD) : B12 m ρ c (Proc.devRef .tc main_v79)
    = Cert.Spec.layerK false (AggK.mean (m ((c : Thread nD τ).loc main_arg1))) (B8 m ρ c (Proc.devRef .tc main_v56)) (m ((c : Thread nD τ).loc main_arg12)) (m ((c : Thread nD τ).loc main_arg13)) (m ((c : Thread nD τ).loc main_arg14)) (m ((c : Thread nD τ).loc main_arg15)) (m ((c : Thread nD τ).loc main_arg16)) := by
  have hlin : (linOf4 (AggK.mean (m ((c : Thread nD τ).loc main_arg1)) (B8 m ρ c (Proc.devRef .tc main_v56))) (B8 m ρ c (Proc.devRef .tc main_v56)) (m ((c : Thread nD τ).loc main_arg12)) (m ((c : Thread nD τ).loc main_arg14)) (shapeCast S1x128 (m ((c : Thread nD τ).loc main_arg13)) shapeCasts_S128_S1x128)) = Cert.Spec.linK (AggK.mean (m ((c : Thread nD τ).loc main_arg1)) (B8 m ρ c (Proc.devRef .tc main_v56))) (B8 m ρ c (Proc.devRef .tc main_v56)) (m ((c : Thread nD τ).loc main_arg12)) (m ((c : Thread nD τ).loc main_arg14)) (m ((c : Thread nD τ).loc main_arg13)) := by
    funext i
    obtain ⟨r, j, rfl⟩ : ∃ (r : Fin 50000) (j : Fin 128), i = ix2 r j := ⟨i 0, i 1, eq_ix2 i⟩
    rw [Cert.Spec.linK_apply, linOf4_apply, shapeCast_a_1a_apply]
  rw [B12_out, Cert.Spec.layerK_false]
  funext i
  obtain ⟨r, j, rfl⟩ : ∃ (r : Fin 50000) (j : Fin 128), i = ix2 r j := ⟨i 0, i 1, eq_ix2 i⟩
  have hmv : (B11 m ρ c (Proc.devRef .tc main_v72)) (ix2 (0 : Fin 1) j) = Cert.Spec.colMean (linOf4 (AggK.mean (m ((c : Thread nD τ).loc main_arg1)) (B8 m ρ c (Proc.devRef .tc main_v56))) (B8 m ρ c (Proc.devRef .tc main_v56)) (m ((c : Thread nD τ).loc main_arg12)) (m ((c : Thread nD τ).loc main_arg14)) (shapeCast S1x128 (m ((c : Thread nD τ).loc main_arg13)) shapeCasts_S128_S1x128)) j := by
    rw [B11_mv, Cert.Spec.colMean_def, ← B10_sum]
    rfl
  have hvr : (B11 m ρ c (Proc.devRef .tc main_v76)) (ix2 (0 : Fin 1) j) = Cert.Spec.varK (linOf4 (AggK.mean (m ((c : Thread nD τ).loc main_arg1)) (B8 m ρ c (Proc.devRef .tc main_v56))) (B8 m ρ c (Proc.devRef .tc main_v56)) (m ((c : Thread nD τ).loc main_arg12)) (m ((c : Thread nD τ).loc main_arg14)) (shapeCast S1x128 (m ((c : Thread nD τ).loc main_arg13)) shapeCasts_S128_S1x128)) j := by
    rw [B11_vr, Cert.Spec.varK_def, Cert.Spec.colMean_def, ← B10_sq, ← B10_sum]
    rfl
  rw [Cert.Spec.normWith_apply, normOf5_apply, hmv, hvr, B10_lin, shapeCast_a_1a_apply, shapeCast_a_1a_apply, hlin, Cert.Spec.eps_def]

end Layer2

/-! ## The three layers composed -/

/-- The result array at the last boundary is the specification's network of the arguments. -/
theorem net_value (c : Dev nD) : B12 m ρ c (Proc.devRef .tc main_v79)
    = Cert.Spec.netK (AggK.mean (m ((c : Thread nD τ).loc main_arg1))) (m ((c : Thread nD τ).loc main_arg0))
        (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [layer2]
  unfold Cert.Spec.netK
  show Cert.Spec.layerK false _ (B8 m ρ c (Proc.devRef .tc main_v56)) _ _ _ _ _ = _
  rw [layer1]
  show Cert.Spec.layerK false _ (Cert.Spec.layerK true _ (B4 m ρ c (Proc.devRef .tc main_v33)) _ _ _ _ _) _ _ _ _ _ = _
  rw [layer0]

end Cert.KernelIdeal.Frames

end
-- ==== Proof.Agg.lean ====
/-
  The neighbourhood mean, the one step both programs share: for each edge, the feature row of its source node (a negative
  source index counted from the end) is added into the row of its destination node, and each node's row is divided by the
  number of edges that end at it, or by 1 if none does. Written with the reference program's own operations, as a
  function of the edge array and of the features.
-/
import proofs.«139727_j46445776339648_1_alg».proof.ReferenceIdeal
import proofs.«139727_j46445776339648_1_alg».proof.Proof.Gen.ReferenceIdeal
import Idealize.ShloMosaic.PureOps.Ideal

noncomputable section

namespace Cert.ReferenceIdeal.Agg

open Cert.ReferenceIdeal Cert.ReferenceIdeal.Gen Idealize.ShloMosaic

/-- The source node of each edge, as read off the edge array's first row. -/
def srcRaw (e : IVec S2x800000 32) : IVec S800000 32 :=
  shapeCast _ (extractStridedSlice S1x800000 ![0, 0] e slices_S2x800000_S1x800000_0_0) shapeCasts_S1x800000_S800000
/-- The destination node of each edge: the edge array's second row. -/
def dst (e : IVec S2x800000 32) : IVec S800000 32 :=
  shapeCast _ (extractStridedSlice S1x800000 ![1, 0] e slices_S2x800000_S1x800000_1_0) shapeCasts_S1x800000_S800000
/-- The source node of each edge, a negative index counted from the end. -/
def src (e : IVec S2x800000 32) : IVec S800000 32 :=
  select (cmpi .slt (srcRaw e) (broadcastInDim S800000 ![] bcast_S_S800000 (constantI S_ 32 0#32)))
    (addi (srcRaw e) (broadcastInDim S800000 ![] bcast_S_S800000 (constantI S_ 32 50000#32))) (srcRaw e)
/-- The number of edges ending at each node, at least 1. -/
def count (e : IVec S2x800000 32) : FVec Ideal S50000 .f32 :=
  maximumf (Host.scatterAdd scatter_S50000_S800000x1_S800000_n_0_0_1 (broadcastInDim S50000 ![] bcast_S_S50000 (constant S_ .f32 0x00000000#32))
      (broadcastInDim S800000x1 ![0] bcast_S800000_S800000x1_0 (dst e)) (broadcastInDim S800000 ![] bcast_S_S800000 (constant S_ .f32 0x3F800000#32)))
    (broadcastInDim S50000 ![] bcast_S_S50000 (constant S_ .f32 0x3F800000#32))
/-- The sum over the edges ending at each node of the source's feature row. -/
def total (e : IVec S2x800000 32) (h : FVec Ideal S50000x128 .f32) : FVec Ideal S50000x128 .f32 :=
  Host.scatterAdd scatter_S50000x128_S800000x1_S800000x128_1_0_0_1 (broadcastInDim S50000x128 ![] bcast_S_S50000x128 (constant S_ .f32 0x00000000#32))
    (broadcastInDim S800000x1 ![0] bcast_S800000_S800000x1_0 (dst e))
    (Host.gather gather_S50000x128_S800000x1_S800000x128_1_0_n_n_0_1_1128 h (broadcastInDim S800000x1 ![0] bcast_S800000_S800000x1_0 (src e)))
/-- The neighbourhood mean. -/
def mean (e : IVec S2x800000 32) (h : FVec Ideal S50000x128 .f32) : FVec Ideal S50000x128 .f32 :=
  Host.divf (total e h) (broadcastInDim S50000x128 ![0, 1] bcast_S50000x1_S50000x128_0_1 (broadcastInDim S50000x1 ![0] bcast_S50000_S50000x1_0 (count e)))

end Cert.ReferenceIdeal.Agg

end
-- ==== Proof.RefValue.lean ====
/-
  The reference program's result, read back as the mathematics it computes.
  The reference is three layers; each layer takes the neighbourhood mean of its input features, forms the linear map
  (mean·Wlᵀ + b) + h·Wrᵀ, normalises each column over its rows with the variance taken as the mean of the squared
  deviations, scales and shifts it, and (in the first two layers) clamps below at 0. Each of these steps is written
  once here over arbitrary operands with the reference's own operations and is read at an index; the reference's
  result is then the three layers composed, which is the specification's `netR` at the neighbourhood mean.
-/
import proofs.«139727_j46445776339648_1_alg».proof.Proof.Gen.ReferenceIdeal
import proofs.«139727_j46445776339648_1_alg».proof.Proof.Spec
import proofs.«139727_j46445776339648_1_alg».proof.Proof.Agg
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx

/-! ## The reference's steps over arbitrary operands -/

/-- A row of 128 column parameters repeated down the 50000 rows. -/
def rows (v : FVec Ideal S128 .f32) : FVec Ideal S50000x128 .f32 :=
  broadcastInDim S50000x128 ![0, 1] bcast_S1x128_S50000x128_0_1 (broadcastInDim S1x128 ![1] bcast_S128_S1x128_1 v)

/-- One number repeated along a row of 128 columns. -/
def fill (w : BitVec 32) : FVec Ideal S128 .f32 :=
  broadcastInDim S128 ![] bcast_S_S128 (constant S_ .f32 w)

/-- The product a·Wᵀ: entry (r, j) is the sum over k of a(r, k)·W(j, k). -/
def mulT (a : FVec Ideal S50000x128 .f32) (W : FVec Ideal S128x128 .f32) : FVec Ideal S50000x128 .f32 :=
  Host.dotGeneral dot_S50000x128_S128x128_S50000x128_1_0_0_1_n_n none a
    (transpose S128x128 [1, 0] W transposes_S128x128_S128x128_1_0)

/-- The sum of each column over its rows. -/
def colSum (y : FVec Ideal S50000x128 .f32) : FVec Ideal S128 .f32 :=
  Host.reduceAdd y (constant S_ .f32 0x00000000#32) reducesTo_S50000x128_S128_d0 h_S_

/-- The mean of each column. -/
def colMean (y : FVec Ideal S50000x128 .f32) : FVec Ideal S128 .f32 :=
  Host.divf (colSum y) (fill 0x47435000#32)

/-- Each entry less its column's mean. -/
def centred (y : FVec Ideal S50000x128 .f32) : FVec Ideal S50000x128 .f32 :=
  subf y (rows (colMean y))

/-- The variance of each column: the mean of the squared deviations. -/
def colVar (y : FVec Ideal S50000x128 .f32) : FVec Ideal S128 .f32 :=
  Host.divf (colSum (mulf (centred y) (centred y))) (fill 0x47435000#32)

/-- The linear map, in the reference's order of addition. -/
def lin (a h : FVec Ideal S50000x128 .f32) (Wl : FVec Ideal S128x128 .f32) (b : FVec Ideal S128 .f32)
    (Wr : FVec Ideal S128x128 .f32) : FVec Ideal S50000x128 .f32 :=
  addf (addf (mulT a Wl) (rows b)) (mulT h Wr)

/-- Batch normalisation with scale γ and shift β. -/
def norm (y : FVec Ideal S50000x128 .f32) (γ β : FVec Ideal S128 .f32) : FVec Ideal S50000x128 .f32 :=
  addf (mulf (mulf (centred y) (rows (Host.rsqrt (addf (colVar y) (fill 0x3727C5AC#32))))) (rows γ)) (rows β)

/-- Clamping below at 0. -/
def clamp (y : FVec Ideal S50000x128 .f32) : FVec Ideal S50000x128 .f32 :=
  maximumf y (broadcastInDim S50000x128 ![] bcast_S_S50000x128 (constant S_ .f32 0x00000000#32))

/-! ## Each step at an index -/

theorem rows_apply (v : FVec Ideal S128 .f32) (r : Fin 50000) (j : Fin 128) : rows v (ix2 r j) = v (ix1 j) := by
  unfold rows
  refine (broadcastInDim_apply _ bcast_S1x128_S50000x128_0_1 _ (ix2 r j) (ix2 (0 : Fin 1) j) (fun a => match a with
    | ⟨0, _⟩ => by show (0 : Nat) = if (1 : Nat) = 1 then 0 else r.val; rw [if_pos rfl]
    | ⟨1, _⟩ => by show j.val = if (128 : Nat) = 1 then 0 else j.val; rw [if_neg (by decide)])).trans ?_
  exact broadcastInDim_apply _ bcast_S128_S1x128_1 v (ix2 (0 : Fin 1) j) (ix1 j) (fun a => match a with
    | ⟨0, _⟩ => by show j.val = if (128 : Nat) = 1 then 0 else j.val; rw [if_neg (by decide)])

theorem fill_apply (w : BitVec 32) (j : Fin 128) : fill w (ix1 j) = Ideal.ofBits .f32 w := by
  unfold fill
  exact broadcastInDim_apply _ bcast_S_S128 (constant (F := Ideal) S_ .f32 w) (ix1 j) (fun a => a.elim0) (fun a => a.elim0)

/-- The contraction of the product: the left operand is read along its row, the right along its column. -/
theorem mulT_apply (a : FVec Ideal S50000x128 .f32) (W : FVec Ideal S128x128 .f32) (r : Fin 50000) (j : Fin 128) :
    mulT a W (ix2 r j) = ∑ k : Fin 128, a (ix2 r k) * W (ix2 j k) := by
  unfold mulT
  simp only [Host.dotGeneral]
  rw [Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  generalize (contrEquiv1 dot_S50000x128_S128x128_S50000x128_1_0_0_1_n_n 128 rfl rfl).symm k = q at hk ⊢
  have el : dot_S50000x128_S128x128_S50000x128_1_0_0_1_n_n.lhsIdx (ix2 r j) q = ix2 r k := funext fun d => Fin.ext (by
    match d with
    | ⟨0, _⟩ =>
      show (dot_S50000x128_S128x128_S50000x128_1_0_0_1_n_n.lhsIdx (ix2 r j) q 0).val = r.val
      unfold DotDims.lhsIdx
      rw [dif_neg (show ¬(0 : Fin S50000x128.rank) ∈ dot_S50000x128_S128x128_S50000x128_1_0_0_1_n_n.lhsBatch by decide),
        dif_pos (show (0 : Fin S50000x128.rank) ∈ dot_S50000x128_S128x128_S50000x128_1_0_0_1_n_n.lhsNonContracting by decide)]
      rfl
    | ⟨1, _⟩ =>
      exact (dot_S50000x128_S128x128_S50000x128_1_0_0_1_n_n.lhsIdx_val_of_single rfl (ix2 r j) q).trans hk)
  have er : dot_S50000x128_S128x128_S50000x128_1_0_0_1_n_n.rhsIdx (ix2 r j) q = ix2 k j := funext fun d => Fin.ext (by
    match d with
    | ⟨0, _⟩ =>
      exact (dot_S50000x128_S128x128_S50000x128_1_0_0_1_n_n.rhsIdx_val_of_single rfl (ix2 r j) q).trans hk
    | ⟨1, _⟩ =>
      show (dot_S50000x128_S128x128_S50000x128_1_0_0_1_n_n.rhsIdx (ix2 r j) q 1).val = j.val
      unfold DotDims.rhsIdx
      rw [dif_neg (show ¬(1 : Fin S128x128.rank) ∈ dot_S50000x128_S128x128_S50000x128_1_0_0_1_n_n.rhsBatch by decide),
        dif_pos (show (1 : Fin S128x128.rank) ∈ dot_S50000x128_S128x128_S50000x128_1_0_0_1_n_n.rhsNonContracting by decide)]
      rfl)
  rw [el, er]
  exact congrArg (a (ix2 r k) * ·) (transpose_apply [1, 0] W transposes_S128x128_S128x128_1_0 (ix2 k j) (ix2 j k)
    (fun b => match b with | ⟨0, _⟩ => rfl | ⟨1, _⟩ => rfl))

theorem colSum_apply (y : FVec Ideal S50000x128 .f32) (j : Fin 128) : colSum y (ix1 j) = ∑ r : Fin 50000, y (ix2 r j) := by
  unfold colSum
  simp only [Host.reduceAdd, Ideal.hostReduceAdd_def]
  rw [Ideal.hostReduceAdd_single reducesTo_S50000x128_S128_d0 (by decide)]
  refine (congrArg (· + _) Ideal.ofBits_zero_f32).trans ((zero_add _).trans (Finset.sum_congr rfl fun r _ => ?_))
  exact congrArg y (funext fun d => Fin.ext (by match d with | ⟨0, _⟩ => rfl | ⟨1, _⟩ => rfl))

theorem colMean_apply (y : FVec Ideal S50000x128 .f32) (j : Fin 128) : colMean y (ix1 j) = Cert.Spec.colMean y j := by
  show Ideal.div (colSum y (ix1 j)) (fill 0x47435000#32 (ix1 j)) = _
  rw [colSum_apply, fill_apply]
  rfl

theorem centred_apply (y : FVec Ideal S50000x128 .f32) (r : Fin 50000) (j : Fin 128) :
    centred y (ix2 r j) = y (ix2 r j) - Cert.Spec.colMean y j := by
  show y (ix2 r j) - rows (colMean y) (ix2 r j) = _
  rw [rows_apply, colMean_apply]

theorem colVar_apply (y : FVec Ideal S50000x128 .f32) (j : Fin 128) : colVar y (ix1 j) = Cert.Spec.varR y j := by
  show Ideal.div (colSum (mulf (centred y) (centred y)) (ix1 j)) (fill 0x47435000#32 (ix1 j)) = _
  rw [colSum_apply, fill_apply]
  have hs : ∑ r : Fin 50000, mulf (centred y) (centred y) (ix2 r j)
      = ∑ r : Fin 50000, (y (ix2 r j) - Cert.Spec.colMean y j) * (y (ix2 r j) - Cert.Spec.colMean y j) :=
    Finset.sum_congr rfl fun r _ => by
      show centred y (ix2 r j) * centred y (ix2 r j) = _
      rw [centred_apply]
  rw [hs]
  rfl

/-! ## The steps are the specification's -/

theorem lin_eq (a h : FVec Ideal S50000x128 .f32) (Wl : FVec Ideal S128x128 .f32) (b : FVec Ideal S128 .f32)
    (Wr : FVec Ideal S128x128 .f32) : lin a h Wl b Wr = Cert.Spec.linR a h Wl Wr b := by
  funext i
  obtain ⟨r, j, rfl⟩ : ∃ (r : Fin 50000) (j : Fin 128), i = ix2 r j := ⟨i 0, i 1, eq_ix2 i⟩
  show (mulT a Wl (ix2 r j) + rows b (ix2 r j)) + mulT h Wr (ix2 r j) = _
  rw [mulT_apply, mulT_apply, rows_apply]
  rfl

theorem norm_eq (y : FVec Ideal S50000x128 .f32) (γ β : FVec Ideal S128 .f32) :
    norm y γ β = Cert.Spec.normWith Cert.Spec.varR y γ β := by
  funext i
  obtain ⟨r, j, rfl⟩ : ∃ (r : Fin 50000) (j : Fin 128), i = ix2 r j := ⟨i 0, i 1, eq_ix2 i⟩
  show centred y (ix2 r j) * rows (Host.rsqrt (addf (colVar y) (fill 0x3727C5AC#32))) (ix2 r j) * rows γ (ix2 r j)
    + rows β (ix2 r j) = _
  rw [rows_apply, rows_apply, rows_apply, centred_apply]
  show (y (ix2 r j) - Cert.Spec.colMean y j) * Ideal.rsqrt (colVar y (ix1 j) + fill 0x3727C5AC#32 (ix1 j)) * γ (ix1 j)
    + β (ix1 j) = _
  rw [colVar_apply, fill_apply]
  rfl

theorem clamp_eq (y : FVec Ideal S50000x128 .f32) : clamp y = Cert.Spec.relu y := by
  funext i
  show max (y i) (broadcastInDim S50000x128 ![] bcast_S_S50000x128 (constant (F := Ideal) S_ .f32 0x00000000#32) i) = max (y i) 0
  rw [broadcastInDim_apply _ bcast_S_S50000x128 (constant (F := Ideal) S_ .f32 0x00000000#32) i (fun a => a.elim0)
    (fun a => a.elim0)]
  exact congrArg (max (y i)) Ideal.ofBits_zero_f32

/-- A clamped layer of the reference is the specification's. -/
theorem layer_clamped (e : IVec S2x800000 32) (h : FVec Ideal S50000x128 .f32) (Wl : FVec Ideal S128x128 .f32)
    (b : FVec Ideal S128 .f32) (Wr : FVec Ideal S128x128 .f32) (γ β : FVec Ideal S128 .f32) :
    clamp (norm (lin (Agg.mean e h) h Wl b Wr) γ β) = Cert.Spec.layerR true (Agg.mean e) h Wl b Wr γ β := by
  rw [clamp_eq, norm_eq, lin_eq]
  rfl

/-- The last layer of the reference, which is not clamped, is the specification's. -/
theorem layer_last (e : IVec S2x800000 32) (h : FVec Ideal S50000x128 .f32) (Wl : FVec Ideal S128x128 .f32)
    (b : FVec Ideal S128 .f32) (Wr : FVec Ideal S128x128 .f32) (γ β : FVec Ideal S128 .f32) :
    norm (lin (Agg.mean e h) h Wl b Wr) γ β = Cert.Spec.layerR false (Agg.mean e) h Wl b Wr γ β := by
  rw [norm_eq, lin_eq]
  rfl

end Cert.ReferenceIdeal.RefValue

end
-- ==== Proof.RefResult.lean ====
/-
  The reference program's result, read back as the mathematics it computes: the specification's three layers at the
  neighbourhood mean. The result is the three layers composed, each written with the reference's own operations; each
  layer is one layer of the specification (the linear map in the reference's order of addition, the normalisation with
  the variance as the mean of the squared deviations, and the clamp in the first two), applied to the layer before it.
-/
import proofs.«139727_j46445776339648_1_alg».proof.Proof.RefRun

noncomputable section

namespace Cert.ReferenceIdeal.RefValue

open Cert.ReferenceIdeal Cert.ReferenceIdeal.Gen Idealize.ShloMosaic Idealize.ShloMosaic.TcCoe Idealize.SL.Sem

/-- The reference's result is the specification's three layers at the neighbourhood mean of the edge array: each of
    its layers is one layer of the specification, applied to the layer before it. -/
theorem result_eq (m : (ℓ : Loc nD τ sig) → Buf (Elt Ideal) ℓ) (c : Dev nD) :
    Cert.ReferenceIdeal.Value.result m c
      = Cert.Spec.netR (Cert.ReferenceIdeal.Agg.mean (m ((c.tc : Thread nD τ).loc main_arg1)))
          (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12))
          (m ((c.tc : Thread nD τ).loc main_arg13)) (m ((c.tc : Thread nD τ).loc main_arg14)) (m ((c.tc : Thread nD τ).loc main_arg15))
          (m ((c.tc : Thread nD τ).loc main_arg16)) := by
  have h1 : Cert.ReferenceIdeal.Value.result.layer1 m c
      = Cert.Spec.layerR true (Cert.ReferenceIdeal.Agg.mean (m ((c.tc : Thread nD τ).loc main_arg1))) (m ((c.tc : Thread nD τ).loc main_arg0))
          (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
    layer_clamped _ _ _ _ _ _ _
  have h2 : Cert.ReferenceIdeal.Value.result.layer2 m c
      = Cert.Spec.layerR true (Cert.ReferenceIdeal.Agg.mean (m ((c.tc : Thread nD τ).loc main_arg1))) (Cert.ReferenceIdeal.Value.result.layer1 m c)
          (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
    layer_clamped _ _ _ _ _ _ _
  have h3 : Cert.ReferenceIdeal.Value.result m c
      = Cert.Spec.layerR false (Cert.ReferenceIdeal.Agg.mean (m ((c.tc : Thread nD τ).loc main_arg1))) (Cert.ReferenceIdeal.Value.result.layer2 m c)
          (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
    layer_last _ _ _ _ _ _ _
  rw [h3, h2, h1]
  rfl

end Cert.ReferenceIdeal.RefValue

end
-- ==== Proof.Algebra.lean ====
import proofs.«139727_j46445776339648_1_alg».proof.Proof.Spec

/-
  The algebra behind the comparison of the two programs of Proof/Spec.lean, over the extended reals.
  When every entry is a real number: the two orders of adding the three summands of the linear map give the same
  value (addition of extended reals is commutative and associative, so this part needs no finiteness); a column's
  mean is a real number; the two variances agree, by the identity
      (1/N)·Σ x² − ((1/N)·Σ x)²  =  (1/N)·Σ (x − (1/N)·Σ x)²        (N = 50000 rows),
  and the right side is a nonnegative real, so adding the positive offset gives a positive real, whose reciprocal
  square root is a real; hence a layer's output is again an array of real numbers, and the three layers compose.
-/

noncomputable section

open scoped BigOperators

namespace Cert.Spec

open Idealize.ShloMosaic Idealize.ShloMosaic.ValueIdx

/-! ## Coercion and the two constants -/

/-- The inclusion of the reals in the extended reals commutes with finite sums. -/
theorem coe_sum {ι : Type} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- The word 0x47435000 is (2²³ + 4411392)·2⁻⁸ = 50000. -/
theorem nRows_eq : nRows = ((50000 : ℝ) : EReal) := by
  unfold nRows
  simp [Ideal.ofBits, Ideal.ieee, -EReal.coe_mul]
  norm_num

/-- The word 0x3727C5AC is (2²³ + 2606508)·2⁻⁴⁰, a positive real. -/
theorem eps_eq_pos : ∃ e : ℝ, 0 < e ∧ eps = ((e : ℝ) : EReal) := by
  unfold eps
  simp [Ideal.ofBits, Ideal.ieee, -EReal.coe_mul]

/-- Division of a real by the number of rows. -/
theorem div_nRows (s : ℝ) : Ideal.div ((s : ℝ) : EReal) nRows = ((s / 50000 : ℝ) : EReal) := by
  rw [nRows_eq, Ideal.div_coe (by norm_num) _, ← EReal.coe_mul]
  congr 1
  ring

/-! ## The linear map -/

/-- The two orders of summation agree at every extended-real input. -/
theorem linK_eq_linR (mean h : Feat) (Wl Wr : Wt) (b : Row) : linK mean h Wl Wr b = linR mean h Wl Wr b := by
  funext i
  simp only [linK, linR]
  exact add_right_comm _ _ _

/-- The linear map of real arrays is a real array. -/
theorem linR_real (mean h : Feat) (Wl Wr : Wt) (b : Row) (hm : IsReal mean) (hh : IsReal h) (hWl : IsReal Wl)
    (hWr : IsReal Wr) (hb : IsReal b) : IsReal (linR mean h Wl Wr b) := by
  obtain ⟨m, rfl⟩ := hm
  obtain ⟨f, rfl⟩ := hh
  obtain ⟨wl, rfl⟩ := hWl
  obtain ⟨wr, rfl⟩ := hWr
  obtain ⟨bb, rfl⟩ := hb
  refine ⟨fun i => (∑ k : Fin 128, m (ix2 (i 0) k) * wl (ix2 (i 1) k) + bb (ix1 (i 1)))
    + ∑ k : Fin 128, f (ix2 (i 0) k) * wr (ix2 (i 1) k), ?_⟩
  funext i
  simp only [linR, EReal.coe_add, coe_sum, EReal.coe_mul]

/-! ## Column statistics of a real array -/

section Stats
variable (f : (⟨2, ![50000, 128]⟩ : Shape).Idx → ℝ) (j : Fin 128)

/-- The real mean of column `j`. -/
def meanR : ℝ := (∑ r : Fin 50000, f (ix2 r j)) / 50000
/-- The real variance of column `j`, as the mean of the squared deviations. -/
def varianceR : ℝ := (∑ r : Fin 50000, (f (ix2 r j) - meanR f j) * (f (ix2 r j) - meanR f j)) / 50000

theorem colSum_coe : colSum (fun i => ((f i : ℝ) : EReal)) j = ((∑ r : Fin 50000, f (ix2 r j) : ℝ) : EReal) := by
  unfold colSum
  exact (coe_sum _ _).symm

theorem colMean_coe : colMean (fun i => ((f i : ℝ) : EReal)) j = ((meanR f j : ℝ) : EReal) := by
  unfold colMean meanR
  rw [colSum_coe, div_nRows]

theorem varR_coe : varR (fun i => ((f i : ℝ) : EReal)) j = ((varianceR f j : ℝ) : EReal) := by
  unfold varR varianceR
  rw [colMean_coe]
  simp only [← EReal.coe_sub, ← EReal.coe_mul, ← coe_sum]
  rw [div_nRows]

/-- Over the reals, the mean of the squares less the square of the mean is the mean of the squared deviations. -/
theorem variance_identity (g : Fin 50000 → ℝ) (S Q m : ℝ) (hS : ∑ r : Fin 50000, g r = S)
    (hQ : ∑ r : Fin 50000, g r * g r = Q) (hm : m = S / 50000) :
    Q / 50000 - m * m = (∑ r : Fin 50000, (g r - m) * (g r - m)) / 50000 := by
  have h1 : ∑ r : Fin 50000, (g r - m) * (g r - m) = Q - 2 * m * S + 50000 * (m * m) := by
    calc ∑ r : Fin 50000, (g r - m) * (g r - m)
        = ∑ r : Fin 50000, (g r * g r - 2 * m * g r + m * m) := Finset.sum_congr rfl (fun r _ => by ring)
      _ = Q - 2 * m * S + 50000 * (m * m) := by
          rw [Finset.sum_add_distrib, Finset.sum_sub_distrib, ← Finset.mul_sum, hS, hQ, Finset.sum_const,
            Finset.card_univ, Fintype.card_fin, nsmul_eq_mul]
          norm_num
  rw [h1, hm]
  ring

theorem varK_coe : varK (fun i => ((f i : ℝ) : EReal)) j = ((varianceR f j : ℝ) : EReal) := by
  unfold varK
  rw [colMean_coe]
  simp only [← EReal.coe_mul]
  rw [colSum_coe, div_nRows, ← EReal.coe_sub]
  congr 1
  exact variance_identity (fun r => f (ix2 r j)) _ _ _ rfl rfl rfl

theorem varianceR_nonneg : 0 ≤ varianceR f j :=
  div_nonneg (Finset.sum_nonneg (fun _ _ => mul_self_nonneg _)) (by norm_num)

end Stats

/-- The two variances of a real array agree. -/
theorem varK_eq_varR (x : Feat) (hx : IsReal x) (j : Fin 128) : varK x j = varR x j := by
  obtain ⟨f, rfl⟩ := hx
  rw [varK_coe, varR_coe]

/-! ## Normalisation -/

theorem normWith_eq (x : Feat) (hx : IsReal x) (γ β : Row) : normWith varK x γ β = normWith varR x γ β := by
  funext i
  obtain ⟨r, j, rfl⟩ : ∃ (r : Fin 50000) (j : Fin 128), i = ValueIdx.ix2 r j := ⟨i 0, i 1, ValueIdx.eq_ix2 i⟩
  show (x (ix2 r j) - colMean x j) * Ideal.rsqrt (varK x j + eps) * γ (ix1 j) + β (ix1 j)
    = (x (ix2 r j) - colMean x j) * Ideal.rsqrt (varR x j + eps) * γ (ix1 j) + β (ix1 j)
  rw [varK_eq_varR x hx j]

/-- The reciprocal square root of a positive real is a real. -/
theorem rsqrt_pos (r : ℝ) (hr : 0 < r) : Ideal.rsqrt ((r : ℝ) : EReal) = (((Real.sqrt r)⁻¹ : ℝ) : EReal) := by
  rw [Ideal.rsqrt_coe, if_neg (not_lt.2 hr.le), if_neg hr.ne']

theorem normWith_real (x : Feat) (γ β : Row) (hx : IsReal x) (hγ : IsReal γ) (hβ : IsReal β) :
    IsReal (normWith varR x γ β) := by
  obtain ⟨f, rfl⟩ := hx
  obtain ⟨g, rfl⟩ := hγ
  obtain ⟨bt, rfl⟩ := hβ
  obtain ⟨e, he, hee⟩ := eps_eq_pos
  refine ⟨fun i => (f i - meanR f (i 1)) * (Real.sqrt (varianceR f (i 1) + e))⁻¹ * g (ix1 (i 1)) + bt (ix1 (i 1)), ?_⟩
  funext i
  obtain ⟨r, j, rfl⟩ : ∃ (r : Fin 50000) (j : Fin 128), i = ValueIdx.ix2 r j := ⟨i 0, i 1, ValueIdx.eq_ix2 i⟩
  show (((f (ix2 r j) : ℝ) : EReal) - colMean (fun i => ((f i : ℝ) : EReal)) j)
      * Ideal.rsqrt (varR (fun i => ((f i : ℝ) : EReal)) j + eps) * ((g (ix1 j) : ℝ) : EReal) + ((bt (ix1 j) : ℝ) : EReal)
    = (((f (ix2 r j) - meanR f j) * (Real.sqrt (varianceR f j + e))⁻¹ * g (ix1 j) + bt (ix1 j) : ℝ) : EReal)
  have hpos : 0 < varianceR f j + e := add_pos_of_nonneg_of_pos (varianceR_nonneg f j) he
  rw [colMean_coe, varR_coe, hee, ← EReal.coe_add, rsqrt_pos _ hpos, ← EReal.coe_sub, ← EReal.coe_mul, ← EReal.coe_mul,
    ← EReal.coe_add]

theorem relu_real (x : Feat) (hx : IsReal x) : IsReal (relu x) := by
  obtain ⟨f, rfl⟩ := hx
  refine ⟨fun i => max (f i) 0, ?_⟩
  funext i
  show max ((f i : ℝ) : EReal) 0 = ((max (f i) 0 : ℝ) : EReal)
  rw [EReal.coe_strictMono.monotone.map_max, EReal.coe_zero]

/-! ## A layer, and the three layers -/

theorem layer_eq (act : Bool) (a : Feat → Feat) (h : Feat) (Wl : Wt) (b : Row) (Wr : Wt) (γ β : Row)
    (hh : IsReal h) (hah : IsReal (a h)) (hWl : IsReal Wl) (hb : IsReal b) (hWr : IsReal Wr) (hγ : IsReal γ) (hβ : IsReal β) :
    layerK act a h Wl b Wr γ β = layerR act a h Wl b Wr γ β := by
  have hlin : IsReal (linR (a h) h Wl Wr b) := linR_real _ _ _ _ _ hah hh hWl hWr hb
  unfold layerK layerR
  rw [linK_eq_linR, normWith_eq _ hlin]

theorem layerR_real (act : Bool) (a : Feat → Feat) (h : Feat) (Wl : Wt) (b : Row) (Wr : Wt) (γ β : Row)
    (hh : IsReal h) (hah : IsReal (a h)) (hWl : IsReal Wl) (hb : IsReal b) (hWr : IsReal Wr) (hγ : IsReal γ) (hβ : IsReal β) :
    IsReal (layerR act a h Wl b Wr γ β) := by
  have hlin : IsReal (linR (a h) h Wl Wr b) := linR_real _ _ _ _ _ hah hh hWl hWr hb
  have hn : IsReal (normWith varR (linR (a h) h Wl Wr b) γ β) := normWith_real _ _ _ hlin hγ hβ
  unfold layerR
  cases act
  · exact hn
  · exact relu_real _ hn

theorem net_eq (a : Feat → Feat) (ha : ∀ h, IsReal h → IsReal (a h)) (x : Feat) (Wl0 : Wt) (b0 : Row) (Wr0 : Wt) (g0 be0 : Row)
    (Wl1 : Wt) (b1 : Row) (Wr1 : Wt) (g1 be1 : Row) (Wl2 : Wt) (b2 : Row) (Wr2 : Wt) (g2 be2 : Row)
    (hx : IsReal x) (hWl0 : IsReal Wl0) (hb0 : IsReal b0) (hWr0 : IsReal Wr0) (hg0 : IsReal g0) (hbe0 : IsReal be0)
    (hWl1 : IsReal Wl1) (hb1 : IsReal b1) (hWr1 : IsReal Wr1) (hg1 : IsReal g1) (hbe1 : IsReal be1)
    (hWl2 : IsReal Wl2) (hb2 : IsReal b2) (hWr2 : IsReal Wr2) (hg2 : IsReal g2) (hbe2 : IsReal be2) :
    netK a x Wl0 b0 Wr0 g0 be0 Wl1 b1 Wr1 g1 be1 Wl2 b2 Wr2 g2 be2 = netR a x Wl0 b0 Wr0 g0 be0 Wl1 b1 Wr1 g1 be1 Wl2 b2 Wr2 g2 be2 := by
  have h1 : IsReal (layerR true a x Wl0 b0 Wr0 g0 be0) :=
    layerR_real true a x Wl0 b0 Wr0 g0 be0 hx (ha x hx) hWl0 hb0 hWr0 hg0 hbe0
  have h2 : IsReal (layerR true a (layerR true a x Wl0 b0 Wr0 g0 be0) Wl1 b1 Wr1 g1 be1) :=
    layerR_real true a _ Wl1 b1 Wr1 g1 be1 h1 (ha _ h1) hWl1 hb1 hWr1 hg1 hbe1
  unfold netK netR
  rw [layer_eq true a x Wl0 b0 Wr0 g0 be0 hx (ha x hx) hWl0 hb0 hWr0 hg0 hbe0,
    layer_eq true a _ Wl1 b1 Wr1 g1 be1 h1 (ha _ h1) hWl1 hb1 hWr1 hg1 hbe1,
    layer_eq false a _ Wl2 b2 Wr2 g2 be2 h2 (ha _ h2) hWl2 hb2 hWr2 hg2 hbe2]

end Cert.Spec

end
-- ==== Proof.AggReal.lean ====
/-
  The neighbourhood mean of real features is real. Every entry of the mean is a quotient: the numerator is zero plus a
  finite sum of entries of the features (each a real number), and the denominator is the larger of 1 and zero plus a
  finite sum of ones, a real number that is at least 1 and so is not zero. A finite sum of reals is a real, and the
  quotient of a real by a nonzero real is the real quotient. Which entries are summed never matters: each one is an
  entry of a real array.
-/
import proofs.«139727_j46445776339648_1_alg».proof.Proof.Agg
import proofs.«139727_j46445776339648_1_alg».proof.Proof.Spec

namespace Cert.ReferenceIdeal.Agg

open Cert.ReferenceIdeal Cert.ReferenceIdeal.Gen Idealize.ShloMosaic

open scoped BigOperators

namespace MeanReal

/-- An entry that is a real number. -/
def RealAt (a : EReal) : Prop := ∃ r : ℝ, a = (r : EReal)

/-- An entry that is a real number other than zero. -/
def NonzeroRealAt (a : EReal) : Prop := ∃ r : ℝ, a = (r : EReal) ∧ r ≠ 0

/-- An array is real when each of its entries is. -/
theorem isReal_of_forall {α : Type} {x : α → EReal} (hx : ∀ i, RealAt (x i)) : Cert.Spec.IsReal x := by
  choose f hf using hx
  exact ⟨f, funext hf⟩

/-- Each entry of a real array is a real number. -/
theorem realAt_of_isReal {α : Type} {x : α → EReal} (hx : Cert.Spec.IsReal x) (i : α) : RealAt (x i) := by
  obtain ⟨f, rfl⟩ := hx
  exact ⟨f i, rfl⟩

/-- A finite sum of real numbers, taken in the extended reals, is the real sum. -/
theorem coe_finset_sum {ι : Type} (s : Finset ι) (f : ι → ℝ) :
    ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- A finite sum of entries that are real numbers is a real number. -/
theorem realAt_sum {ι : Type} (s : Finset ι) {u : ι → EReal} (hu : ∀ j, RealAt (u j)) : RealAt (∑ j ∈ s, u j) := by
  choose g hg using hu
  exact ⟨∑ j ∈ s, g j, by rw [← coe_finset_sum]; exact Finset.sum_congr rfl fun j _ => hg j⟩

/-- The sum of two real numbers is a real number. -/
theorem realAt_add {a b : EReal} (ha : RealAt a) (hb : RealAt b) : RealAt (a + b) := by
  obtain ⟨r, rfl⟩ := ha
  obtain ⟨t, rfl⟩ := hb
  exact ⟨r + t, (EReal.coe_add r t).symm⟩

/-- An array spread along new axes reads entries of the array it spreads: whatever holds of every entry of the one
    holds of every entry of the other. -/
theorem forall_broadcastInDim {α : Type} {s : Shape} (t : Shape) (dims : Fin s.rank → Fin t.rank)
    (hb : s.BroadcastsInDim t dims) (x : s.Idx → α) {P : α → Prop} (hx : ∀ k, P (x k)) (j : t.Idx) :
    P (broadcastInDim t dims hb x j) :=
  hx _

/-- Rows gathered from an array are entries of that array. -/
theorem forall_gather {α : Type} {s si t : Shape} {w : Nat} (d : GatherDims s si t) (x : s.Idx → α) (idx : IVec si w)
    {P : α → Prop} (hx : ∀ k, P (x k)) (j : t.Idx) : P (Host.gather d x idx j) :=
  hx _

/-- Accumulating real updates into a real array gives a real array: each entry is the old entry plus a finite sum of
    updates. -/
theorem realAt_scatterAdd {s si u : Shape} {w : Nat} (φ : FTy) (d : ScatterDims s si u) (x : FVec Ideal s φ) (idx : IVec si w)
    (upd : FVec Ideal u φ) (hx : ∀ i, RealAt (x i)) (hu : ∀ j, RealAt (upd j)) (i : s.Idx) :
    RealAt (Host.scatterAdd d x idx upd i) :=
  realAt_add (hx i) (realAt_sum _ hu)

/-- The word of `+0.0` is the real number 0. -/
theorem realAt_zeroWord : RealAt (Ideal.ofBits .f32 0x00000000#32) :=
  ⟨0, by simp [Ideal.ofBits, Ideal.ieee]⟩

/-- The word of `1.0` is the number 1. -/
theorem oneWord : Ideal.ofBits .f32 0x3F800000#32 = ((1 : ℝ) : EReal) := by
  simp [Ideal.ofBits, Ideal.ieee, -EReal.coe_mul]; norm_num

/-- The larger of a real number and 1 is a real number that is not zero. -/
theorem max_one_real {a : EReal} (ha : RealAt a) : NonzeroRealAt (max a ((1 : ℝ) : EReal)) := by
  obtain ⟨r, rfl⟩ := ha
  rcases le_total ((r : ℝ) : EReal) ((1 : ℝ) : EReal) with h | h
  · exact ⟨1, max_eq_right h, one_ne_zero⟩
  · refine ⟨r, max_eq_left h, ?_⟩
    have h1 : (1 : ℝ) ≤ r := EReal.coe_le_coe_iff.mp h
    intro h0
    rw [h0] at h1
    exact absurd h1 (by norm_num)

/-- The quotient of a real number by a nonzero real number is a real number. -/
theorem realAt_div {a b : EReal} (ha : RealAt a) (hb : NonzeroRealAt b) : RealAt (Ideal.div a b) := by
  obtain ⟨r, rfl⟩ := ha
  obtain ⟨t, rfl, ht⟩ := hb
  exact ⟨r * (1 / t), by rw [Ideal.div_coe ht, EReal.coe_mul]⟩

/-- A constant array spread to any shape reads the constant's word at every entry. -/
theorem broadcastInDim_constant {s : Shape} (t : Shape) (dims : Fin s.rank → Fin t.rank) (hb : s.BroadcastsInDim t dims)
    (b : BitVec FTy.f32.bits) (j : t.Idx) :
    broadcastInDim t dims hb (constant (F := Ideal) s .f32 b) j = Ideal.ofBits .f32 b :=
  rfl

/-- The larger, entry by entry, of a real array and of the constant 1 has entries that are nonzero real numbers. -/
theorem nonzero_maximumf_one {s : Shape} (a b : FVec Ideal s .f32) (k : s.Idx) (ha : RealAt (a k))
    (hb : b k = Ideal.ofBits .f32 0x3F800000#32) : NonzeroRealAt (maximumf a b k) := by
  have h : maximumf a b k = max (a k) (b k) := rfl
  rw [h, hb, oneWord]
  exact max_one_real ha

/-- The quotient, entry by entry, of a real entry by a nonzero real entry is a real number. -/
theorem realAt_divf {s : Shape} (a b : FVec Ideal s .f32) (i : s.Idx) (ha : RealAt (a i)) (hb : NonzeroRealAt (b i)) :
    RealAt (Host.divf a b i) :=
  realAt_div ha hb

/-- The edge count of each node, clamped below at 1, is a real number that is not zero. -/
theorem count_real (e : IVec S2x800000 32) (k : S50000.Idx) : NonzeroRealAt (count e k) := by
  unfold count
  refine nonzero_maximumf_one _ _ k ?_ (broadcastInDim_constant _ _ _ _ k)
  refine realAt_scatterAdd .f32 _ _ _ _ ?_ ?_ k
  · exact forall_broadcastInDim _ _ _ _ fun _ => realAt_zeroWord
  · exact forall_broadcastInDim _ _ _ _ fun _ => ⟨1, oneWord⟩

/-- The sum of the source rows of the edges ending at each node is real when the features are. -/
theorem total_real (e : IVec S2x800000 32) (h : FVec Ideal S50000x128 .f32) (hh : ∀ k, RealAt (h k)) (i : S50000x128.Idx) :
    RealAt (total e h i) := by
  unfold total
  refine realAt_scatterAdd .f32 _ _ _ _ ?_ ?_ i
  · exact forall_broadcastInDim _ _ _ _ fun _ => realAt_zeroWord
  · exact forall_gather _ _ _ hh

end MeanReal

open MeanReal in
/-- The neighbourhood mean of real features is real. -/
theorem mean_real (e : IVec S2x800000 32) (h : FVec Ideal S50000x128 .f32) (hh : Cert.Spec.IsReal h) :
    Cert.Spec.IsReal (mean e h) := by
  refine isReal_of_forall fun i => ?_
  unfold mean
  refine realAt_divf _ _ i (total_real e h (realAt_of_isReal hh) i) ?_
  exact forall_broadcastInDim _ _ _ _ (forall_broadcastInDim _ _ _ _ (count_real e)) i

end Cert.ReferenceIdeal.Agg
-- ==== Proof.PreReal.lean ====
/-
  From the precondition "every float input is finite" to "every float argument array is real-valued".
  The precondition is a printed program: for each of the sixteen float arguments x it computes all(|x| < +∞) — the absolute
  value entry by entry, the comparison with the f32 word of +∞ broadcast to x's shape, and the reduction of the resulting
  1-bit array by "and" over all axes from the constant 1 — and the conjunction of the sixteen results; the claim is that the
  conjunction is 1 on every device. Over the extended reals the absolute value of x is max x (-x), the word 0x7F800000 is ⊤,
  and max x (-x) < ⊤ fails at x = ⊤ (the max is ⊤) and at x = ⊥ (−⊥ = ⊤, the max is ⊤ again): what is left is a real number.
  A reduction by "and" that came out 1 met a 1 at every entry, so every entry of every float argument is a real number, and
  choosing the real at each index gives the real-valued function the array is the embedding of.
-/
import proofs.«139727_j46445776339648_1_alg».proof.Defs
import proofs.«139727_j46445776339648_1_alg».proof.Proof.Gen.Pre_finite_inputs
import proofs.«139727_j46445776339648_1_alg».proof.Proof.Gen.KernelIdeal
import proofs.«139727_j46445776339648_1_alg».proof.Proof.Spec
import Idealize.ShloMosaic.Lib.ReduceAll

namespace Cert.PreReal
open Idealize.ShloMosaic Idealize.ShloMosaic.TcCoe Idealize.SL.Sem

/-- The constant the test compares against is +∞. -/
theorem inf_eq : Ideal.ofBits .f32 0x7F800000#32 = (⊤ : EReal) := by simp [Ideal.ofBits, Ideal.ieee]

/-- An extended real whose absolute value max x (-x) lies strictly below +∞ is a real number. -/
theorem elem_real (x : EReal) (h : Ideal.cmp .olt (max x (-x)) (Ideal.ofBits .f32 0x7F800000#32) = 1#1) :
    ∃ r : ℝ, x = (r : EReal) := by
  rw [inf_eq] at h
  induction x using EReal.rec with
  | bot => simp [Ideal.cmp] at h
  | top => simp [Ideal.cmp] at h
  | coe r => exact ⟨r, rfl⟩

/-- The rank-0 shape has one index. -/
instance subsingleton_S_ : Subsingleton Cert.Pre_finite_inputs.S_.Idx := ⟨fun a b => funext fun d => d.elim0⟩

/-- An array that passes the printed test all(|x| < +∞) — the reduction by "and" of the entrywise comparisons is 1 at the one
    index of the result — is real-valued: each entry passes the element test, and the reals so obtained form the function. -/
theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf x) (broadcastInDim s ![] hb (constant (F := Ideal) Cert.Pre_finite_inputs.S_ .f32 0x7F800000#32)))
          init hr hu j = 1#1) :
    Cert.Spec.IsReal x := by
  have h : ∀ i, ∃ r : ℝ, x i = (r : EReal) := fun i =>
    elem_real (x i) (Host.reduce_andi_all _ init hr hu j e i)
  choose f hf using h
  exact ⟨f, funext hf⟩

/-- The precondition evaluates the conjunction of the sixteen tests to 1 on every device; a conjunction of 1-bit words is 1
    only when each is, so every float argument array passes its test and is real-valued. -/
theorem args_real (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
      Cert.Spec.IsReal (m ((c.tc : Thread Cert.KernelIdeal.nD Cert.KernelIdeal.τ).loc Cert.KernelIdeal.main_arg0))
      ∧ Cert.Spec.IsReal (m ((c.tc : Thread Cert.KernelIdeal.nD Cert.KernelIdeal.τ).loc Cert.KernelIdeal.main_arg2))
      ∧ Cert.Spec.IsReal (m ((c.tc : Thread Cert.KernelIdeal.nD Cert.KernelIdeal.τ).loc Cert.KernelIdeal.main_arg3))
      ∧ Cert.Spec.IsReal (m ((c.tc : Thread Cert.KernelIdeal.nD Cert.KernelIdeal.τ).loc Cert.KernelIdeal.main_arg4))
      ∧ Cert.Spec.IsReal (m ((c.tc : Thread Cert.KernelIdeal.nD Cert.KernelIdeal.τ).loc Cert.KernelIdeal.main_arg5))
      ∧ Cert.Spec.IsReal (m ((c.tc : Thread Cert.KernelIdeal.nD Cert.KernelIdeal.τ).loc Cert.KernelIdeal.main_arg6))
      ∧ Cert.Spec.IsReal (m ((c.tc : Thread Cert.KernelIdeal.nD Cert.KernelIdeal.τ).loc Cert.KernelIdeal.main_arg7))
      ∧ Cert.Spec.IsReal (m ((c.tc : Thread Cert.KernelIdeal.nD Cert.KernelIdeal.τ).loc Cert.KernelIdeal.main_arg8))
      ∧ Cert.Spec.IsReal (m ((c.tc : Thread Cert.KernelIdeal.nD Cert.KernelIdeal.τ).loc Cert.KernelIdeal.main_arg9))
      ∧ Cert.Spec.IsReal (m ((c.tc : Thread Cert.KernelIdeal.nD Cert.KernelIdeal.τ).loc Cert.KernelIdeal.main_arg10))
      ∧ Cert.Spec.IsReal (m ((c.tc : Thread Cert.KernelIdeal.nD Cert.KernelIdeal.τ).loc Cert.KernelIdeal.main_arg11))
      ∧ Cert.Spec.IsReal (m ((c.tc : Thread Cert.KernelIdeal.nD Cert.KernelIdeal.τ).loc Cert.KernelIdeal.main_arg12))
      ∧ Cert.Spec.IsReal (m ((c.tc : Thread Cert.KernelIdeal.nD Cert.KernelIdeal.τ).loc Cert.KernelIdeal.main_arg13))
      ∧ Cert.Spec.IsReal (m ((c.tc : Thread Cert.KernelIdeal.nD Cert.KernelIdeal.τ).loc Cert.KernelIdeal.main_arg14))
      ∧ Cert.Spec.IsReal (m ((c.tc : Thread Cert.KernelIdeal.nD Cert.KernelIdeal.τ).loc Cert.KernelIdeal.main_arg15))
      ∧ Cert.Spec.IsReal (m ((c.tc : Thread Cert.KernelIdeal.nD Cert.KernelIdeal.τ).loc Cert.KernelIdeal.main_arg16)) := by
  have e := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at e
  simp only [IntOp.andi_eq_one] at e
  obtain ⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩, h16⟩ := e
  exact ⟨isReal_of_all _ _ _ _ _ _ h0,
    isReal_of_all _ _ _ _ _ _ h2,
    isReal_of_all _ _ _ _ _ _ h3,
    isReal_of_all _ _ _ _ _ _ h4,
    isReal_of_all _ _ _ _ _ _ h5,
    isReal_of_all _ _ _ _ _ _ h6,
    isReal_of_all _ _ _ _ _ _ h7,
    isReal_of_all _ _ _ _ _ _ h8,
    isReal_of_all _ _ _ _ _ _ h9,
    isReal_of_all _ _ _ _ _ _ h10,
    isReal_of_all _ _ _ _ _ _ h11,
    isReal_of_all _ _ _ _ _ _ h12,
    isReal_of_all _ _ _ _ _ _ h13,
    isReal_of_all _ _ _ _ _ _ h14,
    isReal_of_all _ _ _ _ _ _ h15,
    isReal_of_all _ _ _ _ _ _ h16⟩

end Cert.PreReal
-- ==== Proof.Final.lean ====
/-
  The value claim: at the ideal instance, from memories agreeing on the arguments and with every float argument finite, the
  kernel's program and the reference end with the same result array. The kernel's program ends at the specification's
  network with the kernel's variance, the reference at the network with the reference's variance; the two are equal
  because every entry met on the way is a real number: the arguments by the precondition, the neighbourhood mean of real
  features by its definition (a sum of entries divided by a count that is at least 1), each layer's output by the
  algebra of the layer. The reference's frame is its run with the result dropped.
-/
import proofs.«139727_j46445776339648_1_alg».proof.Defs
import proofs.«139727_j46445776339648_1_alg».proof.Proof.Gen.Kernel
import proofs.«139727_j46445776339648_1_alg».proof.Proof.Gen.KernelIdeal
import proofs.«139727_j46445776339648_1_alg».proof.Proof.Gen.ReferenceIdeal
import proofs.«139727_j46445776339648_1_alg».proof.Proof.Gen.Pre_finite_inputs
import proofs.«139727_j46445776339648_1_alg».proof.Proof.KI.Chain
import proofs.«139727_j46445776339648_1_alg».proof.Proof.RefRun
import proofs.«139727_j46445776339648_1_alg».proof.Proof.RefResult
import proofs.«139727_j46445776339648_1_alg».proof.Proof.Algebra
import proofs.«139727_j46445776339648_1_alg».proof.Proof.AggReal
import proofs.«139727_j46445776339648_1_alg».proof.Proof.PreReal

set_option maxRecDepth 16384

noncomputable section

namespace Cert.Proof.Value

open Idealize.ShloMosaic Idealize.ShloMosaic.TcCoe Idealize.SL.Sem

/-- The reference runs and leaves its arguments unchanged: its run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run m ρ)

/-- The neighbourhood mean is one function: both programs spell it with the same operations at the same dimension
    numbers, each over its own copy of the shapes' names. -/
theorem mean_eq : @Cert.KernelIdeal.AggK.mean = @Cert.ReferenceIdeal.Agg.mean := rfl

/-- With every float argument real, the kernel's network is the reference's. -/
theorem net_agree (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    Cert.Spec.netK (Cert.KernelIdeal.AggK.mean (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))
      = Cert.Spec.netR (Cert.ReferenceIdeal.Agg.mean (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) := by
  obtain ⟨r0, r2, r3, r4, r5, r6, r7, r8, r9, r10, r11, r12, r13, r14, r15, r16⟩ := Cert.PreReal.args_real m hpre c
  rw [mean_eq]
  exact Cert.Spec.net_eq _ (fun h hh => Cert.ReferenceIdeal.Agg.mean_real _ h hh) _ _ _ _ _ _ _ _ _ _ _ _ _ _ _ _ r0 r2 r3 r4 r5 r6 r7 r8 r9 r10 r11 r12 r13 r14 r15 r16

/-- The reference's network of equal arguments. -/
theorem netR_congr (a0 b0 : Cert.Spec.Feat) (a1 b1 : IVec Cert.ReferenceIdeal.S2x800000 32) (a2 b2 : Cert.Spec.Wt) (a3 b3 : Cert.Spec.Row) (a4 b4 : Cert.Spec.Wt) (a5 b5 : Cert.Spec.Row) (a6 b6 : Cert.Spec.Row) (a7 b7 : Cert.Spec.Wt) (a8 b8 : Cert.Spec.Row) (a9 b9 : Cert.Spec.Wt) (a10 b10 : Cert.Spec.Row) (a11 b11 : Cert.Spec.Row) (a12 b12 : Cert.Spec.Wt) (a13 b13 : Cert.Spec.Row) (a14 b14 : Cert.Spec.Wt) (a15 b15 : Cert.Spec.Row) (a16 b16 : Cert.Spec.Row)
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) :
    Cert.Spec.netR (Cert.ReferenceIdeal.Agg.mean a1) a0 a2 a3 a4 a5 a6 a7 a8 a9 a10 a11 a12 a13 a14 a15 a16
      = Cert.Spec.netR (Cert.ReferenceIdeal.Agg.mean b1) b0 b2 b3 b4 b5 b6 b7 b8 b9 b10 b11 b12 b13 b14 b15 b16 := by
  subst h0 h1 h2 h3 h4 h5 h6 h7 h8 h9 h10 h11 h12 h13 h14 h15 h16
  rfl

set_option maxHeartbeats 1000000 in
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' hpre hagree
  refine ⟨fun c => Cert.Spec.netR (Cert.ReferenceIdeal.Agg.mean (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · refine (θ_run Cert.KernelIdeal.defs _ _).mono (fun r h c => ⟨?_, (h c _ (Cert.KernelIdeal.Frames.mem_uc Cert.KernelIdeal.main_arg0 (by decide))).trans (Cert.KernelIdeal.Frames.B12_main_arg0 m ρ c),
      (h c _ (Cert.KernelIdeal.Frames.mem_uc Cert.KernelIdeal.main_arg1 (by decide))).trans (Cert.KernelIdeal.Frames.B12_main_arg1 m ρ c),
      (h c _ (Cert.KernelIdeal.Frames.mem_uc Cert.KernelIdeal.main_arg2 (by decide))).trans (Cert.KernelIdeal.Frames.B12_main_arg2 m ρ c),
      (h c _ (Cert.KernelIdeal.Frames.mem_uc Cert.KernelIdeal.main_arg3 (by decide))).trans (Cert.KernelIdeal.Frames.B12_main_arg3 m ρ c),
      (h c _ (Cert.KernelIdeal.Frames.mem_uc Cert.KernelIdeal.main_arg4 (by decide))).trans (Cert.KernelIdeal.Frames.B12_main_arg4 m ρ c),
      (h c _ (Cert.KernelIdeal.Frames.mem_uc Cert.KernelIdeal.main_arg5 (by decide))).trans (Cert.KernelIdeal.Frames.B12_main_arg5 m ρ c),
      (h c _ (Cert.KernelIdeal.Frames.mem_uc Cert.KernelIdeal.main_arg6 (by decide))).trans (Cert.KernelIdeal.Frames.B12_main_arg6 m ρ c),
      (h c _ (Cert.KernelIdeal.Frames.mem_uc Cert.KernelIdeal.main_arg7 (by decide))).trans (Cert.KernelIdeal.Frames.B12_main_arg7 m ρ c),
      (h c _ (Cert.KernelIdeal.Frames.mem_uc Cert.KernelIdeal.main_arg8 (by decide))).trans (Cert.KernelIdeal.Frames.B12_main_arg8 m ρ c),
      (h c _ (Cert.KernelIdeal.Frames.mem_uc Cert.KernelIdeal.main_arg9 (by decide))).trans (Cert.KernelIdeal.Frames.B12_main_arg9 m ρ c),
      (h c _ (Cert.KernelIdeal.Frames.mem_uc Cert.KernelIdeal.main_arg10 (by decide))).trans (Cert.KernelIdeal.Frames.B12_main_arg10 m ρ c),
      (h c _ (Cert.KernelIdeal.Frames.mem_uc Cert.KernelIdeal.main_arg11 (by decide))).trans (Cert.KernelIdeal.Frames.B12_main_arg11 m ρ c),
      (h c _ (Cert.KernelIdeal.Frames.mem_uc Cert.KernelIdeal.main_arg12 (by decide))).trans (Cert.KernelIdeal.Frames.B12_main_arg12 m ρ c),
      (h c _ (Cert.KernelIdeal.Frames.mem_uc Cert.KernelIdeal.main_arg13 (by decide))).trans (Cert.KernelIdeal.Frames.B12_main_arg13 m ρ c),
      (h c _ (Cert.KernelIdeal.Frames.mem_uc Cert.KernelIdeal.main_arg14 (by decide))).trans (Cert.KernelIdeal.Frames.B12_main_arg14 m ρ c),
      (h c _ (Cert.KernelIdeal.Frames.mem_uc Cert.KernelIdeal.main_arg15 (by decide))).trans (Cert.KernelIdeal.Frames.B12_main_arg15 m ρ c),
      (h c _ (Cert.KernelIdeal.Frames.mem_uc Cert.KernelIdeal.main_arg16 (by decide))).trans (Cert.KernelIdeal.Frames.B12_main_arg16 m ρ c)⟩) (Cert.KernelIdeal.Frames.run_all m ρ)
    exact (h c _ (Cert.KernelIdeal.Frames.mem_uc Cert.KernelIdeal.main_v79 (by decide))).trans
      ((Cert.KernelIdeal.Frames.net_value m ρ c).trans (net_agree m hpre c))
  · refine (θ_run Cert.ReferenceIdeal.defs _ _).mono (fun r h c => ⟨(h c).1.trans ((Cert.ReferenceIdeal.RefValue.result_eq m' c).trans ?_), (h c).2⟩)
      (Cert.ReferenceIdeal.Value.run m' ρ')
    obtain ⟨e0, e1, e2, e3, e4, e5, e6, e7, e8, e9, e10, e11, e12, e13, e14, e15, e16⟩ := hagree c
    exact netR_congr _ _ _ _ _ _ _ _ _ _ _ _ _ _ _ _ _ _ _ _ _ _ _ _ _ _ _ _ _ _ _ _ _ _ e0 e1 e2 e3 e4 e5 e6 e7 e8 e9 e10 e11 e12 e13 e14 e15 e16

end Cert.Proof.Value

end
-- ==== Proof.lean ====
/-
  The certificate's claim, assembled: the two frames of the kernel's program (as printed and idealized) from the whole-run
  theorem of its six regions; the reference's frame from its run; the idealization rewrote nothing, so there is nothing to
  preserve; and the value claim — at the ideal instance the kernel's three layers (neighbourhood mean, linear map tile by
  tile with running column sums, batch normalisation with the variance as mean of squares less squared mean, clamp) and the
  reference's three layers (the same with the variance as mean squared deviation) end with the same array when every float
  argument is finite.
-/
import proofs.«139727_j46445776339648_1_alg».proof.Defs
import proofs.«139727_j46445776339648_1_alg».proof.Proof.Gen.Kernel
import proofs.«139727_j46445776339648_1_alg».proof.Proof.Gen.KernelIdeal
import proofs.«139727_j46445776339648_1_alg».proof.Proof.Gen.ReferenceIdeal
import proofs.«139727_j46445776339648_1_alg».proof.Proof.Gen.Pre_finite_inputs
import proofs.«139727_j46445776339648_1_alg».proof.Proof.Frames
import proofs.«139727_j46445776339648_1_alg».proof.Proof.Final

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Frames.frame_kernel, Cert.Proof.Frames.frame_kernelIdeal, Cert.Proof.Value.frame_reference, trivial,
    Cert.Proof.Value.algebraic⟩

end Cert.Proof

end
